-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S50000x6 : Shape := ⟨2, ![50000, 6]⟩
abbrev S2x1000000 : Shape := ⟨2, ![2, 1000000]⟩
abbrev S1000000 : Shape := ⟨1, ![1000000]⟩
abbrev S2x500000 : Shape := ⟨2, ![2, 500000]⟩
abbrev S3x5x64 : Shape := ⟨3, ![3, 5, 64]⟩
abbrev S64 : Shape := ⟨1, ![64]⟩
abbrev S4x64x64 : Shape := ⟨3, ![4, 64, 64]⟩
abbrev S64x64 : Shape := ⟨2, ![64, 64]⟩
abbrev S6x64 : Shape := ⟨2, ![6, 64]⟩
abbrev S64x8 : Shape := ⟨2, ![64, 8]⟩
abbrev S8 : Shape := ⟨1, ![8]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S50000x6 : S_.BroadcastsInDim S50000x6 (![] : Fin 0 → Fin S50000x6.rank)
  reducesTo_S50000x6_S_d0_1 : S50000x6.ReducesTo [0, 1] S_
  bcast_S_S1000000 : S_.BroadcastsInDim S1000000 (![] : Fin 0 → Fin S1000000.rank)
  reducesTo_S1000000_S_d0 : S1000000.ReducesTo [0] S_
  bcast_S_S3x5x64 : S_.BroadcastsInDim S3x5x64 (![] : Fin 0 → Fin S3x5x64.rank)
  reducesTo_S3x5x64_S_d0_1_2 : S3x5x64.ReducesTo [0, 1, 2] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S64x64 : S_.BroadcastsInDim S64x64 (![] : Fin 0 → Fin S64x64.rank)
  reducesTo_S64x64_S_d0_1 : S64x64.ReducesTo [0, 1] S_
  bcast_S_S6x64 : S_.BroadcastsInDim S6x64 (![] : Fin 0 → Fin S6x64.rank)
  reducesTo_S6x64_S_d0_1 : S6x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg18 : FVec F S8 .f32) (main_v63 : IVec S_ 1) (main_v67 : IVec S_ 1) : IVec S_ 1 :=
  let main_v68 : IVec S_ 1 := andi main_v63 main_v67
  let main_v69 : FVec F S8 .f32 := Host.absf main_arg18
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg15 : FVec F S64 .f32) (main_arg16 : FVec F S64x64 .f32) (main_arg17 : FVec F S64x8 .f32) (main_arg18 : FVec F S8 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg16
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x8 .f32 := Host.absf main_arg17
  let main_cst_24 : FVec F S_ .f32 := constant S_ .f32 0x7F800000#32
  let main_v65 : FVec F S64x8 .f32 := broadcastInDim S64x8 ![] bcast_S_S64x8 main_cst_24
  let main_v66 : IVec S64x8 1 := cmpf .olt main_v64 main_v65
  let main_c_25 : IVec S_ 1 := constantI S_ 1 1#1
  let main_v67 : IVec S_ 1 := (fun x v => Host.reduce IntOp.andi x v reducesTo_S64x8_S_d0_1 h_S_) main_v66 main_c_25
  fn_part4 (F := F) main_arg18 main_v63 main_v67

def fn_part2 {F : FTy → Type} [FloatOps F] (main_arg11 : FVec F S64x64 .f32) (main_arg12 : FVec F S64 .f32) (main_arg13 : FVec F S6x64 .f32) (main_arg14 : FVec F S64x64 .f32) (main_arg15 : FVec F S64 .f32) (main_arg16 : FVec F S64x64 .f32) (main_arg17 : FVec F S64x8 .f32) (main_arg18 : FVec F S8 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S6x64 .f32 := Host.absf main_arg13
  let main_cst_16 : FVec F S_ .f32 := constant S_ .f32 0x7F800000#32
  let main_v45 : FVec F S6x64 .f32 := broadcastInDim S6x64 ![] bcast_S_S6x64 main_cst_16
  let main_v46 : IVec S6x64 1 := cmpf .olt main_v44 main_v45
  let main_c_17 : IVec S_ 1 := constantI S_ 1 1#1
  let main_v47 : IVec S_ 1 := (fun x v => Host.reduce IntOp.andi x v reducesTo_S6x64_S_d0_1 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_v48 main_v49 main_v50

def fn_part1 {F : FTy → Type} [FloatOps F] (main_arg8 : FVec F S64 .f32) (main_arg9 : FVec F S4x64x64 .f32) (main_arg10 : FVec F S64 .f32) (main_arg11 : FVec F S64x64 .f32) (main_arg12 : FVec F S64 .f32) (main_arg13 : FVec F S6x64 .f32) (main_arg14 : FVec F S64x64 .f32) (main_arg15 : FVec F S64 .f32) (main_arg16 : FVec F S64x64 .f32) (main_arg17 : FVec F S64x8 .f32) (main_arg18 : FVec F S8 .f32) (main_v13 : IVec S_ 1) (main_v16 : IVec S3x5x64 1) : IVec S_ 1 :=
  let main_c_5 : IVec S_ 1 := constantI S_ 1 1#1
  let main_v17 : IVec S_ 1 := (fun x v => Host.reduce IntOp.andi x v reducesTo_S3x5x64_S_d0_1_2 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64x64 .f32 := Host.absf main_arg9
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S100000x5 .f32) (main_arg1 : FVec F S50000x6 .f32) (main_arg2 : IVec S2x1000000 32) (main_arg3 : IVec S2x1000000 32) (main_arg4 : FVec F S1000000 .f32) (main_arg5 : IVec S2x500000 32) (main_arg6 : IVec S2x1000000 32) (main_arg7 : FVec F S3x5x64 .f32) (main_arg8 : FVec F S64 .f32) (main_arg9 : FVec F S4x64x64 .f32) (main_arg10 : FVec F S64 .f32) (main_arg11 : FVec F S64x64 .f32) (main_arg12 : FVec F S64 .f32) (main_arg13 : FVec F S6x64 .f32) (main_arg14 : FVec F S64x64 .f32) (main_arg15 : FVec F S64 .f32) (main_arg16 : FVec F S64x64 .f32) (main_arg17 : FVec F S64x8 .f32) (main_arg18 : FVec F S8 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S50000x6 .f32 := Host.absf main_arg1
  let main_cst_0 : FVec F S_ .f32 := constant S_ .f32 0x7F800000#32
  let main_v5 : FVec F S50000x6 .f32 := broadcastInDim S50000x6 ![] bcast_S_S50000x6 main_cst_0
  let main_v6 : IVec S50000x6 1 := cmpf .olt main_v4 main_v5
  let main_c_1 : IVec S_ 1 := constantI S_ 1 1#1
  let main_v7 : IVec S_ 1 := (fun x v => Host.reduce IntOp.andi x v reducesTo_S50000x6_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S3x5x64 .f32 := Host.absf main_arg7
  let main_cst_4 : FVec F S_ .f32 := constant S_ .f32 0x7F800000#32
  let main_v15 : FVec F S3x5x64 .f32 := broadcastInDim S3x5x64 ![] bcast_S_S3x5x64 main_cst_4
  let main_v16 : IVec S3x5x64 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S100000x5 : Shape := ⟨2, ![100000, 5]⟩
abbrev S50000x6 : Shape := ⟨2, ![50000, 6]⟩
abbrev S2x1000000 : Shape := ⟨2, ![2, 1000000]⟩
abbrev S1000000 : Shape := ⟨1, ![1000000]⟩
abbrev S2x500000 : Shape := ⟨2, ![2, 500000]⟩
abbrev S3x5x64 : Shape := ⟨3, ![3, 5, 64]⟩
abbrev S64 : Shape := ⟨1, ![64]⟩
abbrev S4x64x64 : Shape := ⟨3, ![4, 64, 64]⟩
abbrev S64x64 : Shape := ⟨2, ![64, 64]⟩
abbrev S6x64 : Shape := ⟨2, ![6, 64]⟩
abbrev S64x8 : Shape := ⟨2, ![64, 8]⟩
abbrev S8 : Shape := ⟨1, ![8]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S1000000x5 : Shape := ⟨2, ![1000000, 5]⟩
abbrev S1x100000x5 : Shape := ⟨3, ![1, 100000, 5]⟩
abbrev S3x100000x5 : Shape := ⟨3, ![3, 100000, 5]⟩
abbrev S100000x64 : Shape := ⟨2, ![100000, 64]⟩
abbrev S3x1000x5 : Shape := ⟨3, ![3, 1000, 5]⟩
abbrev S1000x64 : Shape := ⟨2, ![1000, 64]⟩
abbrev S1x1000x5 : Shape := ⟨3, ![1, 1000, 5]⟩
abbrev S1000x5 : Shape := ⟨2, ![1000, 5]⟩
abbrev S1x5x64 : Shape := ⟨3, ![1, 5, 64]⟩
abbrev S5x64 : Shape := ⟨2, ![5, 64]⟩
abbrev S1x64 : Shape := ⟨2, ![1, 64]⟩
abbrev S1000000x64 : Shape := ⟨2, ![1000000, 64]⟩
abbrev S50000x64 : Shape := ⟨2, ![50000, 64]⟩
abbrev S1000x6 : Shape := ⟨2, ![1000, 6]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S50000 : Shape := ⟨1, ![50000]⟩
abbrev S50000x1 : Shape := ⟨2, ![50000, 1]⟩
abbrev S1x50000x64 : Shape := ⟨3, ![1, 50000, 64]⟩
abbrev S4x50000x64 : Shape := ⟨3, ![4, 50000, 64]⟩
abbrev S4x1000x64 : Shape := ⟨3, ![4, 1000, 64]⟩
abbrev S1x1000x64 : Shape := ⟨3, ![1, 1000, 64]⟩
abbrev S1x64x64 : Shape := ⟨3, ![1, 64, 64]⟩
abbrev S50000x8 : Shape := ⟨2, ![50000, 8]⟩
abbrev S1000x8 : Shape := ⟨2, ![1000, 8]⟩
abbrev S1x8 : Shape := ⟨2, ![1, 8]⟩

abbrev nBuf : Space → Nat
  | .hbm => 242
  | .vmem => 36
  | .smem => 0
  | _ => 0

abbrev hbmTy0_0 (i : Nat) : BufTy := match i % 128 with
  | 0 => ⟨S100000x5, .f32⟩
  | 1 => ⟨S50000x6, .f32⟩
  | 2 => ⟨S2x1000000, .i32⟩
  | 3 => ⟨S2x1000000, .i32⟩
  | 4 => ⟨S1000000, .f32⟩
  | 5 => ⟨S2x500000, .i32⟩
  | 6 => ⟨S2x1000000, .i32⟩
  | 7 => ⟨S3x5x64, .f32⟩
  | 8 => ⟨S64, .f32⟩
  | 9 => ⟨S4x64x64, .f32⟩
  | 10 => ⟨S64, .f32⟩
  | 11 => ⟨S64x64, .f32⟩
  | 12 => ⟨S64, .f32⟩
  | 13 => ⟨S6x64, .f32⟩
  | 14 => ⟨S64x64, .f32⟩
  | 15 => ⟨S64, .f32⟩
  | 16 => ⟨S64x64, .f32⟩
  | 17 => ⟨S64x8, .f32⟩
  | 18 => ⟨S8, .f32⟩
  | 19 => ⟨S1x1000000, .i32⟩
  | 20 => ⟨S1000000, .i32⟩
  | 21 => ⟨S1x1000000, .i32⟩
  | 22 => ⟨S1000000, .i32⟩
  | 23 => ⟨S_, .f32⟩
  | 24 => ⟨S1000000, .f32⟩
  | 25 => ⟨S_, .f32⟩
  | 26 => ⟨S100000, .f32⟩
  | 27 => ⟨S1000000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x5, .f32⟩
  | 68 => ⟨S1000000x1, .f32⟩
  | 69 => ⟨S1000000x5, .f32⟩
  | 70 => ⟨S1000000x5, .f32⟩
  | 71 => ⟨S_, .f32⟩
  | 72 => ⟨S100000x5, .f32⟩
  | 73 => ⟨S1000000x1, .i32⟩
  | 74 => ⟨S100000x5, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x5, .f32⟩
  | 84 => ⟨S1000000x1, .f32⟩
  | 85 => ⟨S1000000x5, .f32⟩
  | 86 => ⟨S1000000x5, .f32⟩
  | 87 => ⟨S_, .f32⟩
  | 88 => ⟨S100000x5, .f32⟩
  | 89 => ⟨S1000000x1, .i32⟩
  | 90 => ⟨S100000x5, .f32⟩
  | 91 => ⟨S1x100000x5, .f32⟩
  | 92 => ⟨S1x100000x5, .f32⟩
  | 93 => ⟨S1x100000x5, .f32⟩
  | 94 => ⟨S3x100000x5, .f32⟩
  | 95 => ⟨S100000x64, .f32⟩
  | 96 => ⟨S1x1000000, .i32⟩
  | 97 => ⟨S1000000, .i32⟩
  | 98 => ⟨S1x1000000, .i32⟩
  | 99 => ⟨S1000000, .i32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x64, .f32⟩
  | 109 => ⟨S1000000x1, .f32⟩
  | 110 => ⟨S1000000x64, .f32⟩
  | 111 => ⟨S1000000x64, .f32⟩
  | 112 => ⟨S_, .f32⟩
  | 113 => ⟨S50000x64, .f32⟩
  | 114 => ⟨S1000000x1, .i32⟩
  | 115 => ⟨S50000x64, .f32⟩
  | 116 => ⟨S50000x64, .f32⟩
  | 117 => ⟨S1x500000, .i32⟩
  | 118 => ⟨S500000, .i32⟩
  | 119 => ⟨S1x500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S100000x5, .f32⟩

abbrev hbmTy0_1 (i : Nat) : BufTy := match i % 128 with
  | 0 => ⟨S500000x1, .i32⟩
  | 1 => ⟨S500000x64, .f32⟩
  | 2 => ⟨S_, .f32⟩
  | 3 => ⟨S50000x64, .f32⟩
  | 4 => ⟨S500000x1, .i32⟩
  | 5 => ⟨S50000x64, .f32⟩
  | 6 => ⟨S_, .f32⟩
  | 7 => ⟨S500000, .f32⟩
  | 8 => ⟨S_, .f32⟩
  | 9 => ⟨S50000, .f32⟩
  | 10 => ⟨S500000x1, .i32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x64, .f32⟩
  | 17 => ⟨S50000x64, .f32⟩
  | 18 => ⟨S50000x64, .f32⟩
  | 19 => ⟨S1x1000000, .i32⟩
  | 20 => ⟨S1000000, .i32⟩
  | 21 => ⟨S1x1000000, .i32⟩
  | 22 => ⟨S1000000, .i32⟩
  | 23 => ⟨S_, .f32⟩
  | 24 => ⟨S1000000, .f32⟩
  | 25 => ⟨S_, .f32⟩
  | 26 => ⟨S50000, .f32⟩
  | 27 => ⟨S1000000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x64, .f32⟩
  | 68 => ⟨S1000000x1, .f32⟩
  | 69 => ⟨S1000000x64, .f32⟩
  | 70 => ⟨S1000000x64, .f32⟩
  | 71 => ⟨S_, .f32⟩
  | 72 => ⟨S50000x64, .f32⟩
  | 73 => ⟨S1000000x1, .i32⟩
  | 74 => ⟨S50000x64, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1000000x1, .f32⟩
  | 85 => ⟨S1000000x64, .f32⟩
  | 86 => ⟨S1000000x64, .f32⟩
  | 87 => ⟨S_, .f32⟩
  | 88 => ⟨S50000x64, .f32⟩
  | 89 => ⟨S1000000x1, .i32⟩
  | 90 => ⟨S50000x64, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S1000000x1, .f32⟩
  | 101 => ⟨S1000000x64, .f32⟩
  | 102 => ⟨S1000000x64, .f32⟩
  | 103 => ⟨S_, .f32⟩
  | 104 => ⟨S50000x64, .f32⟩
  | 105 => ⟨S1000000x1, .i32⟩
  | 106 => ⟨S50000x64, .f32⟩
  | 107 => ⟨S1x50000x64, .f32⟩
  | 108 => ⟨S1x50000x64, .f32⟩
  | 109 => ⟨S1x50000x64, .f32⟩
  | 110 => ⟨S1x50000x64, .f32⟩
  | 111 => ⟨S4x50000x64, .f32⟩
  | 112 => ⟨S50000x64, .f32⟩
  | 113 => ⟨S50000x8, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S3x1000x5, .f32⟩
  | .local _ .vmem, ⟨1, _⟩ => ⟨S3x1000x5, .f32⟩
  | .local _ .vmem, ⟨2, _⟩ => ⟨S3x5x64, .f32⟩
  | .local _ .vmem, ⟨3, _⟩ => ⟨S64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S1000x64, .f32⟩
  | .local _ .vmem, ⟨8, _⟩ => ⟨S64x64, .f32⟩
  | .local _ .vmem, ⟨9, _⟩ => ⟨S1000x6, .f32⟩
  | .local _ .vmem, ⟨10, _⟩ => ⟨S1000x6, .f32⟩
  | .local _ .vmem, ⟨11, _⟩ => ⟨S6x64, .f32⟩
  | .local _ .vmem, ⟨12, _⟩ => ⟨S64, .f32⟩
  | .local _ .vmem, ⟨13, _⟩ => ⟨S1000x64, .f32⟩
  | .local _ .vmem, ⟨14, _⟩ => ⟨S1000x64, .f32⟩
  | .local _ .vmem, ⟨15, _⟩ => ⟨S1000x64, .f32⟩
  | .local _ .vmem, ⟨16, _⟩ => ⟨S1000x64, .f32⟩
  | .local _ .vmem, ⟨17, _⟩ => ⟨S64x64, .f32⟩
  | .local _ .vmem, ⟨18, _⟩ => ⟨S1000x64, .f32⟩
  | .local _ .vmem, ⟨19, _⟩ => ⟨S1000x64, .f32⟩
  | .local _ .vmem, ⟨20, _⟩ => ⟨S64x64, .f32⟩
  | .local _ .vmem, ⟨21, _⟩ => ⟨S64, .f32⟩
  | .local _ .vmem, ⟨22, _⟩ => ⟨S1000x64, .f32⟩
  | .local _ .vmem, ⟨23, _⟩ => ⟨S1000x64, .f32⟩
  | .local _ .vmem, ⟨24, _⟩ => ⟨S4x1000x64, .f32⟩
  | .local _ .vmem, ⟨25, _⟩ => ⟨S4x1000x64, .f32⟩
  | .local _ .vmem, ⟨26, _⟩ => ⟨S4x64x64, .f32⟩
  | .local _ .vmem, ⟨27, _⟩ => ⟨S64, .f32⟩
  | .local _ .vmem, ⟨28, _⟩ => ⟨S1000x64, .f32⟩
  | .local _ .vmem, ⟨29, _⟩ => ⟨S1000x64, .f32⟩
  | .local _ .vmem, ⟨30, _⟩ => ⟨S1000x64, .f32⟩
  | .local _ .vmem, ⟨31, _⟩ => ⟨S1000x64, .f32⟩
  | .local _ .vmem, ⟨32, _⟩ => ⟨S64x8, .f32⟩
  | .local _ .vmem, ⟨33, _⟩ => ⟨S8, .f32⟩
  | .local _ .vmem, ⟨34, _⟩ => ⟨S1000x8, .f32⟩
  | .local _ .vmem, ⟨35, _⟩ => ⟨S1000x8, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_c_8 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_10 : Ref sig .tc := ⟨.hbm, 75, rfl⟩
abbrev main_v42 : Ref sig .tc := ⟨.hbm, 76, rfl⟩
abbrev main_v43 : Ref sig .tc := ⟨.hbm, 77, rfl⟩
abbrev main_c_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_15 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_16 : Ref sig .tc := ⟨.hbm, 121, rfl⟩
abbrev main_v82 : Ref sig .tc := ⟨.hbm, 122, rfl⟩
abbrev main_v83 : Ref sig .tc := ⟨.hbm, 123, rfl⟩
abbrev main_c_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_21 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩
abbrev main_cst_23 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_24 : Ref sig .tc := ⟨.hbm, 157, rfl⟩
abbrev main_v110 : Ref sig .tc := ⟨.hbm, 158, rfl⟩
abbrev main_v111 : Ref sig .tc := ⟨.hbm, 159, rfl⟩
abbrev main_cst_25 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_26 : Ref sig .tc := ⟨.hbm, 164, rfl⟩
abbrev main_call1_v0 : Ref sig .tc := ⟨.hbm, 165, rfl⟩
abbrev main_call1_v1 : Ref sig .tc := ⟨.hbm, 166, rfl⟩
abbrev main_v115 : Ref sig .tc := ⟨.hbm, 167, rfl⟩
abbrev main_c_27 : Ref sig .tc := ⟨.hbm, 168, rfl⟩
abbrev main_v116 : Ref sig .tc := ⟨.hbm, 169, rfl⟩
abbrev main_v117 : Ref sig .tc := ⟨.hbm, 170, rfl⟩
abbrev main_c_28 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_29 : Ref sig .tc := ⟨.hbm, 177, rfl⟩
abbrev main_v123 : Ref sig .tc := ⟨.hbm, 178, rfl⟩
abbrev main_v124 : Ref sig .tc := ⟨.hbm, 179, rfl⟩
abbrev main_c_30 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_c_31 : Ref sig .tc := ⟨.hbm, 187, rfl⟩
abbrev main_v131 : Ref sig .tc := ⟨.hbm, 188, rfl⟩
abbrev main_v132 : Ref sig .tc := ⟨.hbm, 189, rfl⟩
abbrev main_c_32 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_33 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_c_34 : Ref sig .tc := ⟨.hbm, 203, rfl⟩
abbrev main_v144 : Ref sig .tc := ⟨.hbm, 204, rfl⟩
abbrev main_v145 : Ref sig .tc := ⟨.hbm, 205, rfl⟩
abbrev main_c_35 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_36 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_c_37 : Ref sig .tc := ⟨.hbm, 219, rfl⟩
abbrev main_v157 : Ref sig .tc := ⟨.hbm, 220, rfl⟩
abbrev main_v158 : Ref sig .tc := ⟨.hbm, 221, rfl⟩
abbrev main_c_38 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_cst_39 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x1000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4x1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x5_0_1 : S1000000x1.BroadcastsInDim S1000000x5 (![0, 1] : Fin 2 → Fin S1000000x5.rank)
  bcast_S_S100000x5 : S_.BroadcastsInDim S100000x5 (![] : Fin 0 → Fin S100000x5.rank)
  bcast_S100000x5_S1x100000x5_1_2 : S100000x5.BroadcastsInDim S1x100000x5 (![1, 2] : Fin 2 → Fin S1x100000x5.rank)
  concatenates_S1x100000x5_S1x100000x5_S1x100000x5_S3x100000x5_d0 : Shape.Concatenates [S1x100000x5, S1x100000x5, S1x100000x5] S3x100000x5 0
  inb_S3x1000x5_S1x1000x5_0_0_0 : ∀ a, (![0, 0, 0] : Fin 3 → Nat) a + S1x1000x5.size a ≤ S3x1000x5.size a
  h_S1x1000x5 : 0 < S1x1000x5.numel
  shapeCasts_S1x1000x5_S1000x5 : S1x1000x5.ShapeCasts S1000x5
  bitsLt_bf16_f32 : FTy.bits .bf16 < FTy.bits .f32
  inb_S3x5x64_S1x5x64_0_0_0 : ∀ a, (![0, 0, 0] : Fin 3 → Nat) a + S1x5x64.size a ≤ S3x5x64.size a
  h_S1x5x64 : 0 < S1x5x64.numel
  shapeCasts_S1x5x64_S5x64 : S1x5x64.ShapeCasts S5x64
  inb_S3x1000x5_S1x1000x5_1_0_0 : ∀ a, (![1, 0, 0] : Fin 3 → Nat) a + S1x1000x5.size a ≤ S3x1000x5.size a
  inb_S3x5x64_S1x5x64_1_0_0 : ∀ a, (![1, 0, 0] : Fin 3 → Nat) a + S1x5x64.size a ≤ S3x5x64.size a
  inb_S3x1000x5_S1x1000x5_2_0_0 : ∀ a, (![2, 0, 0] : Fin 3 → Nat) a + S1x1000x5.size a ≤ S3x1000x5.size a
  inb_S3x5x64_S1x5x64_2_0_0 : ∀ a, (![2, 0, 0] : Fin 3 → Nat) a + S1x5x64.size a ≤ S3x5x64.size a
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  inb_S1000x6_S1000x6_0_0 : ∀ a, (![0, 0] : Fin 2 → Nat) a + S1000x6.size a ≤ S1000x6.size a
  h_S1000x6 : 0 < S1000x6.numel
  inb_S6x64_S6x64_0_0 : ∀ a, (![0, 0] : Fin 2 → Nat) a + S6x64.size a ≤ S6x64.size a
  h_S6x64 : 0 < S6x64.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S4x50000x64_d0 : Shape.Concatenates [S1x50000x64, S1x50000x64, S1x50000x64, S1x50000x64] S4x50000x64 0
  inb_S4x1000x64_S1x1000x64_0_0_0 : ∀ a, (![0, 0, 0] : Fin 3 → Nat) a + S1x1000x64.size a ≤ S4x1000x64.size a
  h_S1x1000x64 : 0 < S1x1000x64.numel
  shapeCasts_S1x1000x64_S1000x64 : S1x1000x64.ShapeCasts S1000x64
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x1000x64_S1x1000x64_1_0_0 : ∀ a, (![1, 0, 0] : Fin 3 → Nat) a + S1x1000x64.size a ≤ S4x1000x64.size a
  inb_S4x64x64_S1x64x64_1_0_0 : ∀ a, (![1, 0, 0] : Fin 3 → Nat) a + S1x64x64.size a ≤ S4x64x64.size a
  inb_S4x1000x64_S1x1000x64_2_0_0 : ∀ a, (![2, 0, 0] : Fin 3 → Nat) a + S1x1000x64.size a ≤ S4x1000x64.size a
  inb_S4x64x64_S1x64x64_2_0_0 : ∀ a, (![2, 0, 0] : Fin 3 → Nat) a + S1x64x64.size a ≤ S4x64x64.size a
  inb_S4x1000x64_S1x1000x64_3_0_0 : ∀ a, (![3, 0, 0] : Fin 3 → Nat) a + S1x1000x64.size a ≤ S4x1000x64.size a
  inb_S4x64x64_S1x64x64_3_0_0 : ∀ a, (![3, 0, 0] : Fin 3 → Nat) a + S1x64x64.size a ≤ S4x64x64.size a
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S1000x8 : S1x8.Broadcasts S1000x8
  inb_S1000x8_S1000x8_0_0 : ∀ a, (![0, 0] : Fin 2 → Nat) a + S1000x8.size a ≤ S1000x8.size a
  h_S1000x8 : 0 < S1000x8.numel
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x5_S1000000x1_S1000000x5_1_0_n_n_0_1_15_wf : GatherDims.WF S100000x5 S1000000x1 S1000000x5 [1] [0] [] [0] [] 1 ![1, 5]
  scatter_S100000x5_S1000000x1_S1000000x5_1_0_0_1_wf : ScatterDims.WF S100000x5 S1000000x1 S1000000x5 [1] [0] [0] 1
  dot_S1000x5_S5x64_S1000x64_1_0_0_1_n_n_wf : DotDims.WF S1000x5 S5x64 S1000x64 [1] [0] [0] [1] [] []
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S1000x64_S64x64_S1000x64_1_0_0_1_n_n_wf : DotDims.WF S1000x64 S64x64 S1000x64 [1] [0] [0] [1] [] []
  dot_S1000x6_S6x64_S1000x64_1_0_0_1_n_n_wf : DotDims.WF S1000x6 S6x64 S1000x64 [1] [0] [0] [1] [] []
  gather_S100000x64_S500000x1_S500000x64_1_0_n_n_0_1_164_wf : GatherDims.WF S100000x64 S500000x1 S500000x64 [1] [0] [] [0] [] 1 ![1, 64]
  scatter_S50000x64_S500000x1_S500000x64_1_0_0_1_wf : ScatterDims.WF S50000x64 S500000x1 S500000x64 [1] [0] [0] 1
  scatter_S50000_S500000x1_S500000_n_0_0_1_wf : ScatterDims.WF S50000 S500000x1 S500000 [] [0] [0] 1
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  gather_S50000x64_S1000000x1_S1000000x64_1_0_n_n_0_1_164_wf : GatherDims.WF S50000x64 S1000000x1 S1000000x64 [1] [0] [] [0] [] 1 ![1, 64]
  dot_S1000x64_S64x8_S1000x8_1_0_0_1_n_n_wf : DotDims.WF S1000x64 S64x8 S1000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1000x5.size a ≤ S3x100000x5.size a
  hwx0_0 : ∀ i : grid0.Coords, EltTy.bits .f32 = 32 ∨ (Rect.block (s := S3x100000x5) S3x1000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x5x64.size a ≤ S3x5x64.size a
  hwx0_1 : ∀ i : grid0.Coords, EltTy.bits .f32 = 32 ∨ (Rect.block (s := S3x5x64) S3x5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S100000x64.size a
  hwx0_3 : ∀ i : grid0.Coords, EltTy.bits .f32 = 32 ∨ (Rect.block (s := S100000x64) S1000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x6.size a ≤ S50000x6.size a
  hwx1_2 : ∀ i : grid1.Coords, EltTy.bits .f32 = 32 ∨ (Rect.block (s := S50000x6) S1000x6.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x64.size a ≤ S6x64.size a
  hwx1_3 : ∀ i : grid1.Coords, EltTy.bits .f32 = 32 ∨ (Rect.block (s := S6x64) S6x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x64.size a ≤ S50000x64.size a
  hwx1_5 : ∀ i : grid1.Coords, EltTy.bits .f32 = 32 ∨ (Rect.block (s := S50000x64) S1000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .f32 = 32 ∨ (Rect.block (s := S50000x64) S1000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S50000x64.size a
  hwx2_5 : ∀ i : grid2.Coords, EltTy.bits .f32 = 32 ∨ (Rect.block (s := S50000x64) S1000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x1000x64.size a ≤ S4x50000x64.size a
  hwx3_0 : ∀ i : grid3.Coords, EltTy.bits .f32 = 32 ∨ (Rect.block (s := S4x50000x64) S4x1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4x64x64.size a ≤ S4x64x64.size a
  hwx3_1 : ∀ i : grid3.Coords, EltTy.bits .f32 = 32 ∨ (Rect.block (s := S4x64x64) S4x64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x64.size a ≤ S50000x64.size a
  hwx3_3 : ∀ i : grid3.Coords, EltTy.bits .f32 = 32 ∨ (Rect.block (s := S50000x64) S1000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S50000x64.size a
  hwx4_0 : ∀ i : grid4.Coords, EltTy.bits .f32 = 32 ∨ (Rect.block (s := S50000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x8.size a ≤ S64x8.size a
  hwx4_1 : ∀ i : grid4.Coords, EltTy.bits .f32 = 32 ∨ (Rect.block (s := S64x8) S64x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8.size a ≤ S8.size a
  hwx4_2 : ∀ i : grid4.Coords, EltTy.bits .f32 = 32 ∨ (Rect.block (s := S8) S8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x8.size a ≤ S50000x8.size a
  hwx4_3 : ∀ i : grid4.Coords, EltTy.bits .f32 = 32 ∨ (Rect.block (s := S50000x8) S1000x8.size (cc4_transform_3 i) (hinb4_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x5_S1000000x1_S1000000x5_1_0_n_n_0_1_15 : GatherDims S100000x5 S1000000x1 S1000000x5 where
  offsetDims := [1]
  collapsedSliceDims := [0]
  operandBatchingDims := []
  startIndicesBatchingDims := []
  startIndexMap := [0]
  indexVectorDim := 1
  sliceSizes := ![1, 5]
  wf := gather_S100000x5_S1000000x1_S1000000x5_1_0_n_n_0_1_15_wf
def scatter_S100000x5_S1000000x1_S1000000x5_1_0_0_1 : ScatterDims S100000x5 S1000000x1 S1000000x5 where
  updateWindowDims := [1]
  insertedWindowDims := [0]
  scatterDimsToOperandDims := [0]
  indexVectorDim := 1
  wf := scatter_S100000x5_S1000000x1_S1000000x5_1_0_0_1_wf
def dot_S1000x5_S5x64_S1000x64_1_0_0_1_n_n : DotDims S1000x5 S5x64 S1000x64 where
  lhsContracting := [1]
  rhsContracting := [0]
  lhsNonContracting := [0]
  rhsNonContracting := [1]
  lhsBatch := []
  rhsBatch := []
  wf := dot_S1000x5_S5x64_S1000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x6_S6x64_S1000x64_1_0_0_1_n_n : DotDims S1000x6 S6x64 S1000x64 where
  lhsContracting := [1]
  rhsContracting := [0]
  lhsNonContracting := [0]
  rhsNonContracting := [1]
  lhsBatch := []
  rhsBatch := []
  wf := dot_S1000x6_S6x64_S1000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000x64_S64x8_S1000x8_1_0_0_1_n_n : DotDims S1000x64 S64x8 S1000x8 where
  lhsContracting := [1]
  rhsContracting := [0]
  lhsNonContracting := [0]
  rhsNonContracting := [1]
  lhsBatch := []
  rhsBatch := []
  wf := dot_S1000x64_S64x8_S1000x8_1_0_0_1_n_n_wf

abbrev win0_0 : Pipeline.Window sig grid0 :=
  Pipeline.Window.ofSpec (Memref.whole main_v58) S3x1000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S3x5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v76) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1000x6.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S6x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v77) S1000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v100) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v101) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v174) S4x1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S4x64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v175) S1000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v175) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S64x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v176) S1000x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x5 : Shape := ⟨2, ![100000, 5]⟩
abbrev S50000x6 : Shape := ⟨2, ![50000, 6]⟩
abbrev S2x1000000 : Shape := ⟨2, ![2, 1000000]⟩
abbrev S1000000 : Shape := ⟨1, ![1000000]⟩
abbrev S2x500000 : Shape := ⟨2, ![2, 500000]⟩
abbrev S3x5x64 : Shape := ⟨3, ![3, 5, 64]⟩
abbrev S64 : Shape := ⟨1, ![64]⟩
abbrev S4x64x64 : Shape := ⟨3, ![4, 64, 64]⟩
abbrev S64x64 : Shape := ⟨2, ![64, 64]⟩
abbrev S6x64 : Shape := ⟨2, ![6, 64]⟩
abbrev S64x8 : Shape := ⟨2, ![64, 8]⟩
abbrev S8 : Shape := ⟨1, ![8]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S1x5x64 : Shape := ⟨3, ![1, 5, 64]⟩
abbrev S5x64 : Shape := ⟨2, ![5, 64]⟩
abbrev S100000x64 : Shape := ⟨2, ![100000, 64]⟩
abbrev S1000000x5 : Shape := ⟨2, ![1000000, 5]⟩
abbrev S1x64 : Shape := ⟨2, ![1, 64]⟩
abbrev S1000000x64 : Shape := ⟨2, ![1000000, 64]⟩
abbrev S50000x64 : Shape := ⟨2, ![50000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S50000 : Shape := ⟨1, ![50000]⟩
abbrev S50000x1 : Shape := ⟨2, ![50000, 1]⟩
abbrev S1x64x64 : Shape := ⟨3, ![1, 64, 64]⟩
abbrev S50000x8 : Shape := ⟨2, ![50000, 8]⟩
abbrev S1x8 : Shape := ⟨2, ![1, 8]⟩

abbrev nBuf : Space → Nat
  | .hbm => 288
  | .vmem => 0
  | .smem => 0
  | _ => 0

abbrev hbmTy0_0 (i : Nat) : BufTy := match i % 128 with
  | 0 => ⟨S100000x5, .f32⟩
  | 1 => ⟨S50000x6, .f32⟩
  | 2 => ⟨S2x1000000, .i32⟩
  | 3 => ⟨S2x1000000, .i32⟩
  | 4 => ⟨S1000000, .f32⟩
  | 5 => ⟨S2x500000, .i32⟩
  | 6 => ⟨S2x1000000, .i32⟩
  | 7 => ⟨S3x5x64, .f32⟩
  | 8 => ⟨S64, .f32⟩
  | 9 => ⟨S4x64x64, .f32⟩
  | 10 => ⟨S64, .f32⟩
  | 11 => ⟨S64x64, .f32⟩
  | 12 => ⟨S64, .f32⟩
  | 13 => ⟨S6x64, .f32⟩
  | 14 => ⟨S64x64, .f32⟩
  | 15 => ⟨S64, .f32⟩
  | 16 => ⟨S64x64, .f32⟩
  | 17 => ⟨S64x8, .f32⟩
  | 18 => ⟨S8, .f32⟩
  | 19 => ⟨S1x1000000, .i32⟩
  | 20 => ⟨S1000000, .i32⟩
  | 21 => ⟨S1x1000000, .i32⟩
  | 22 => ⟨S1000000, .i32⟩
  | 23 => ⟨S_, .f32⟩
  | 24 => ⟨S1000000, .f32⟩
  | 25 => ⟨S_, .f32⟩
  | 26 => ⟨S100000, .f32⟩
  | 27 => ⟨S1000000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S1000000, .f32⟩
  | 59 => ⟨S1x5x64, .f32⟩
  | 60 => ⟨S5x64, .f32⟩
  | 61 => ⟨S100000x64, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x5, .f32⟩
  | 71 => ⟨S1000000x1, .f32⟩
  | 72 => ⟨S1000000x5, .f32⟩
  | 73 => ⟨S1000000x5, .f32⟩
  | 74 => ⟨S_, .f32⟩
  | 75 => ⟨S100000x5, .f32⟩
  | 76 => ⟨S1000000x1, .i32⟩
  | 77 => ⟨S100000x5, .f32⟩
  | 78 => ⟨S1x5x64, .f32⟩
  | 79 => ⟨S5x64, .f32⟩
  | 80 => ⟨S100000x64, .f32⟩
  | 81 => ⟨S100000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x5, .f32⟩
  | 91 => ⟨S1000000x1, .f32⟩
  | 92 => ⟨S1000000x5, .f32⟩
  | 93 => ⟨S1000000x5, .f32⟩
  | 94 => ⟨S_, .f32⟩
  | 95 => ⟨S100000x5, .f32⟩
  | 96 => ⟨S1000000x1, .i32⟩
  | 97 => ⟨S100000x5, .f32⟩
  | 98 => ⟨S1x5x64, .f32⟩
  | 99 => ⟨S5x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S1x1000000, .i32⟩
  | 109 => ⟨S1000000, .i32⟩
  | 110 => ⟨S1x1000000, .i32⟩
  | 111 => ⟨S1000000, .i32⟩
  | 112 => ⟨S_, .i32⟩
  | 113 => ⟨S1000000, .i32⟩
  | 114 => ⟨S1000000, .i1⟩
  | 115 => ⟨S_, .i32⟩
  | 116 => ⟨S1000000, .i32⟩
  | 117 => ⟨S1000000, .i32⟩
  | 118 => ⟨S1000000, .i32⟩
  | 119 => ⟨S1000000x1, .i32⟩
  | 120 => ⟨S1000000x64, .f32⟩
  | 121 => ⟨S1000000x1, .f32⟩
  | 122 => ⟨S1000000x64, .f32⟩
  | 123 => ⟨S1000000x64, .f32⟩
  | 124 => ⟨S_, .f32⟩
  | 125 => ⟨S50000x64, .f32⟩
  | 126 => ⟨S1000000x1, .i32⟩
  | 127 => ⟨S50000x64, .f32⟩
  | _ => ⟨S100000x5, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S1x500000, .i32⟩
  | 10 => ⟨S500000, .i32⟩
  | 11 => ⟨S1x500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x64, .f32⟩
  | 22 => ⟨S_, .f32⟩
  | 23 => ⟨S50000x64, .f32⟩
  | 24 => ⟨S500000x1, .i32⟩
  | 25 => ⟨S50000x64, .f32⟩
  | 26 => ⟨S_, .f32⟩
  | 27 => ⟨S500000, .f32⟩
  | 28 => ⟨S_, .f32⟩
  | 29 => ⟨S50000, .f32⟩
  | 30 => ⟨S500000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S1x1000000, .i32⟩
  | 48 => ⟨S1000000, .i32⟩
  | 49 => ⟨S1x1000000, .i32⟩
  | 50 => ⟨S1000000, .i32⟩
  | 51 => ⟨S_, .f32⟩
  | 52 => ⟨S1000000, .f32⟩
  | 53 => ⟨S_, .f32⟩
  | 54 => ⟨S50000, .f32⟩
  | 55 => ⟨S1000000x1, .i32⟩
  | 56 => ⟨S50000, .f32⟩
  | 57 => ⟨S_, .f32⟩
  | 58 => ⟨S50000, .f32⟩
  | 59 => ⟨S50000, .i1⟩
  | 60 => ⟨S_, .f32⟩
  | 61 => ⟨S50000, .f32⟩
  | 62 => ⟨S50000, .f32⟩
  | 63 => ⟨S50000, .f32⟩
  | 64 => ⟨S_, .f32⟩
  | 65 => ⟨S_, .f32⟩
  | 66 => ⟨S50000, .f32⟩
  | 67 => ⟨S50000, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000, .f32⟩
  | 86 => ⟨S1000000, .f32⟩
  | 87 => ⟨S1x64x64, .f32⟩
  | 88 => ⟨S64x64, .f32⟩
  | 89 => ⟨S50000x64, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x64, .f32⟩
  | 99 => ⟨S1000000x1, .f32⟩
  | 100 => ⟨S1000000x64, .f32⟩
  | 101 => ⟨S1000000x64, .f32⟩
  | 102 => ⟨S_, .f32⟩
  | 103 => ⟨S50000x64, .f32⟩
  | 104 => ⟨S1000000x1, .i32⟩
  | 105 => ⟨S50000x64, .f32⟩
  | 106 => ⟨S1x64x64, .f32⟩
  | 107 => ⟨S64x64, .f32⟩
  | 108 => ⟨S50000x64, .f32⟩
  | 109 => ⟨S50000x64, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x64, .f32⟩
  | 119 => ⟨S1000000x1, .f32⟩
  | 120 => ⟨S1000000x64, .f32⟩
  | 121 => ⟨S1000000x64, .f32⟩
  | 122 => ⟨S_, .f32⟩
  | 123 => ⟨S50000x64, .f32⟩
  | 124 => ⟨S1000000x1, .i32⟩
  | 125 => ⟨S50000x64, .f32⟩
  | 126 => ⟨S1x64x64, .f32⟩
  | 127 => ⟨S64x64, .f32⟩
  | _ => ⟨S100000x5, .f32⟩

abbrev hbmTy0_2 (i : Nat) : BufTy := match i % 128 with
  | 0 => ⟨S50000x64, .f32⟩
  | 1 => ⟨S50000x64, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x64, .f32⟩
  | 11 => ⟨S1000000x1, .f32⟩
  | 12 => ⟨S1000000x64, .f32⟩
  | 13 => ⟨S1000000x64, .f32⟩
  | 14 => ⟨S_, .f32⟩
  | 15 => ⟨S50000x64, .f32⟩
  | 16 => ⟨S1000000x1, .i32⟩
  | 17 => ⟨S50000x64, .f32⟩
  | 18 => ⟨S1x64x64, .f32⟩
  | 19 => ⟨S64x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S50000x8, .f32⟩
  | 29 => ⟨S1x8, .f32⟩
  | 30 => ⟨S50000x8, .f32⟩
  | 31 => ⟨S50000x8, .f32⟩
  | _ => ⟨S100000x5, .f32⟩

abbrev hbmTy (i : Nat) : BufTy := match i / 128 with
  | 0 => hbmTy0_0 i
  | 1 => hbmTy0_1 i
  | 2 => hbmTy0_2 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_10 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call1_cst : Ref sig .tc := ⟨.hbm, 105, rfl⟩
abbrev main_call1_v0 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_13 : Ref sig .tc := ⟨.hbm, 112, rfl⟩
abbrev main_v74 : Ref sig .tc := ⟨.hbm, 113, rfl⟩
abbrev main_v75 : Ref sig .tc := ⟨.hbm, 114, rfl⟩
abbrev main_c_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call2_cst : Ref sig .tc := ⟨.hbm, 134, rfl⟩
abbrev main_call2_v0 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_16 : Ref sig .tc := ⟨.hbm, 141, rfl⟩
abbrev main_v98 : Ref sig .tc := ⟨.hbm, 142, rfl⟩
abbrev main_v99 : Ref sig .tc := ⟨.hbm, 143, rfl⟩
abbrev main_c_17 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_18 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_19 : Ref sig .tc := ⟨.hbm, 154, rfl⟩
abbrev main_v108 : Ref sig .tc := ⟨.hbm, 155, rfl⟩
abbrev main_cst_20 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_21 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call3_cst : Ref sig .tc := ⟨.hbm, 172, rfl⟩
abbrev main_call3_v0 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_22 : Ref sig .tc := ⟨.hbm, 179, rfl⟩
abbrev main_v128 : Ref sig .tc := ⟨.hbm, 180, rfl⟩
abbrev main_cst_23 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_24 : Ref sig .tc := ⟨.hbm, 185, rfl⟩
abbrev main_v132 : Ref sig .tc := ⟨.hbm, 186, rfl⟩
abbrev main_v133 : Ref sig .tc := ⟨.hbm, 187, rfl⟩
abbrev main_cst_25 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_26 : Ref sig .tc := ⟨.hbm, 192, rfl⟩
abbrev main_call4_v0 : Ref sig .tc := ⟨.hbm, 193, rfl⟩
abbrev main_call4_v1 : Ref sig .tc := ⟨.hbm, 194, rfl⟩
abbrev main_v137 : Ref sig .tc := ⟨.hbm, 195, rfl⟩
abbrev main_c_27 : Ref sig .tc := ⟨.hbm, 196, rfl⟩
abbrev main_v138 : Ref sig .tc := ⟨.hbm, 197, rfl⟩
abbrev main_v139 : Ref sig .tc := ⟨.hbm, 198, rfl⟩
abbrev main_c_28 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_c_29 : Ref sig .tc := ⟨.hbm, 205, rfl⟩
abbrev main_v145 : Ref sig .tc := ⟨.hbm, 206, rfl⟩
abbrev main_v146 : Ref sig .tc := ⟨.hbm, 207, rfl⟩
abbrev main_c_30 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_c_31 : Ref sig .tc := ⟨.hbm, 218, rfl⟩
abbrev main_v156 : Ref sig .tc := ⟨.hbm, 219, rfl⟩
abbrev main_v157 : Ref sig .tc := ⟨.hbm, 220, rfl⟩
abbrev main_c_32 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_cst_33 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_c_34 : Ref sig .tc := ⟨.hbm, 238, rfl⟩
abbrev main_v173 : Ref sig .tc := ⟨.hbm, 239, rfl⟩
abbrev main_v174 : Ref sig .tc := ⟨.hbm, 240, rfl⟩
abbrev main_c_35 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_cst_36 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_c_37 : Ref sig .tc := ⟨.hbm, 258, rfl⟩
abbrev main_v190 : Ref sig .tc := ⟨.hbm, 259, rfl⟩
abbrev main_v191 : Ref sig .tc := ⟨.hbm, 260, rfl⟩
abbrev main_c_38 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_cst_39 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_call5_cst : Ref sig .tc := ⟨.hbm, 281, rfl⟩
abbrev main_call5_v0 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  slices_S3x5x64_S1x5x64_0_0_0 : S3x5x64.Slices ![0, 0, 0] S1x5x64
  shapeCasts_S1x5x64_S5x64 : S1x5x64.ShapeCasts S5x64
  bcast_S1000000x1_S1000000x5_0_1 : S1000000x1.BroadcastsInDim S1000000x5 (![0, 1] : Fin 2 → Fin S1000000x5.rank)
  bcast_S_S100000x5 : S_.BroadcastsInDim S100000x5 (![] : Fin 0 → Fin S100000x5.rank)
  slices_S3x5x64_S1x5x64_1_0_0 : S3x5x64.Slices ![1, 0, 0] S1x5x64
  slices_S3x5x64_S1x5x64_2_0_0 : S3x5x64.Slices ![2, 0, 0] S1x5x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S100000x5_S5x64_S100000x64_1_0_0_1_n_n_wf : DotDims.WF S100000x5 S5x64 S100000x64 [1] [0] [0] [1] [] []
  gather_S100000x5_S1000000x1_S1000000x5_1_0_n_n_0_1_15_wf : GatherDims.WF S100000x5 S1000000x1 S1000000x5 [1] [0] [] [0] [] 1 ![1, 5]
  scatter_S100000x5_S1000000x1_S1000000x5_1_0_0_1_wf : ScatterDims.WF S100000x5 S1000000x1 S1000000x5 [1] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []
  dot_S50000x6_S6x64_S50000x64_1_0_0_1_n_n_wf : DotDims.WF S50000x6 S6x64 S50000x64 [1] [0] [0] [1] [] []
  gather_S100000x64_S500000x1_S500000x64_1_0_n_n_0_1_164_wf : GatherDims.WF S100000x64 S500000x1 S500000x64 [1] [0] [] [0] [] 1 ![1, 64]
  scatter_S50000x64_S500000x1_S500000x64_1_0_0_1_wf : ScatterDims.WF S50000x64 S500000x1 S500000x64 [1] [0] [0] 1
  scatter_S50000_S500000x1_S500000_n_0_0_1_wf : ScatterDims.WF S50000 S500000x1 S500000 [] [0] [0] 1
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  gather_S50000x64_S1000000x1_S1000000x64_1_0_n_n_0_1_164_wf : GatherDims.WF S50000x64 S1000000x1 S1000000x64 [1] [0] [] [0] [] 1 ![1, 64]
  dot_S50000x64_S64x8_S50000x8_1_0_0_1_n_n_wf : DotDims.WF S50000x64 S64x8 S50000x8 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x5_S1000000x1_S1000000x5_1_0_n_n_0_1_15 : GatherDims S100000x5 S1000000x1 S1000000x5 where
  offsetDims := [1]
  collapsedSliceDims := [0]
  operandBatchingDims := []
  startIndicesBatchingDims := []
  startIndexMap := [0]
  indexVectorDim := 1
  sliceSizes := ![1, 5]
  wf := gather_S100000x5_S1000000x1_S1000000x5_1_0_n_n_0_1_15_wf
def scatter_S100000x5_S1000000x1_S1000000x5_1_0_0_1 : ScatterDims S100000x5 S1000000x1 S1000000x5 where
  updateWindowDims := [1]
  insertedWindowDims := [0]
  scatterDimsToOperandDims := [0]
  indexVectorDim := 1
  wf := scatter_S100000x5_S1000000x1_S1000000x5_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x6_S6x64_S50000x64_1_0_0_1_n_n : DotDims S50000x6 S6x64 S50000x64 where
  lhsContracting := [1]
  rhsContracting := [0]
  lhsNonContracting := [0]
  rhsNonContracting := [1]
  lhsBatch := []
  rhsBatch := []
  wf := dot_S50000x6_S6x64_S50000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf

class Facts : Prop extends Facts₀ where

variable [Facts]
-- ==== Proof.KI.R0.lean ====
/-
  Region 0 of the idealized kernel program: the first feature combine, relu (h0·W0 + h1·W1 + h2·W2 + b) on
  1000-row blocks of the stacked propagated features. What each window's staging buffer holds before and after
  the body at a grid point, the body's triple, and the pipeline's proof data at the region-entry contents V.
-/
import proofs.«106568_j42528766165971_1_alg».proof.Proof.Gen.KernelIdeal.Launch
import proofs.«106568_j42528766165971_1_alg».proof.Proof.Gen.KernelIdeal.Skeleton
import proofs.«106568_j42528766165971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rH0 : Rect S3x1000x5 := Rect.unit (s := S3x1000x5) ![0, 0, 0] S1x1000x5.size inb_S3x1000x5_S1x1000x5_0_0_0
abbrev rH1 : Rect S3x1000x5 := Rect.unit (s := S3x1000x5) ![1, 0, 0] S1x1000x5.size inb_S3x1000x5_S1x1000x5_1_0_0
abbrev rH2 : Rect S3x1000x5 := Rect.unit (s := S3x1000x5) ![2, 0, 0] S1x1000x5.size inb_S3x1000x5_S1x1000x5_2_0_0
abbrev rW0 : Rect S3x5x64 := Rect.unit (s := S3x5x64) ![0, 0, 0] S1x5x64.size inb_S3x5x64_S1x5x64_0_0_0
abbrev rW1 : Rect S3x5x64 := Rect.unit (s := S3x5x64) ![1, 0, 0] S1x5x64.size inb_S3x5x64_S1x5x64_1_0_0
abbrev rW2 : Rect S3x5x64 := Rect.unit (s := S3x5x64) ![2, 0, 0] S1x5x64.size inb_S3x5x64_S1x5x64_2_0_0
abbrev rB0 : Rect S64 := Rect.unit (s := S64) ![0] S64.size inb_S64_S64_0
abbrev rO0 : Rect S1000x64 := Rect.unit (s := S1000x64) ![0, 0] S1000x64.size inb_S1000x64_S1000x64_0_0

/-- The output window's buffer after the body, from the three input blocks: the one whole-block store. -/
def out0_3 (x0 : Vec F S3x1000x5 .f32) (x1 : Vec F S3x5x64 .f32) (x2 : Vec F S64 .f32) : Vec F S1000x64 .f32 :=
  View.canon [⟨rO0, k0_pay1 (View.ld x0 rH0) (View.ld x1 rW0) (View.ld x0 rH1) (View.ld x1 rW1) (View.ld x0 rH2) (View.ld x1 rW2) (View.ld x2 rB0)⟩]

/-- The one store covers the whole buffer. -/
theorem cover0_3 (p0 : Vec F S1000x64 .f32) (y : S1000x64.Idx) :
    ∃ pc ∈ ([⟨rO0, p0⟩] : List (View.Piece (Elt F) S1000x64 .f32)), y ∈ pc.1.set :=
  View.cover_of_tiled [⟨rO0, p0⟩] S1000x64.size (by rfl) y

/-! ## The body's triple -/

set_option maxHeartbeats 4000000 in
theorem sound_kernel0 (c : Dev nD) (E : Set ℕ) (i : grid0.Coords)
    (arg1 : Memref sig .tc .vmem S3x1000x5 .f32) (harg1 : arg1.IsWhole) (arg2 : Memref sig .tc .vmem S3x5x64 .f32) (harg2 : arg2.IsWhole)
    (arg3 : Memref sig .tc .vmem S64 .f32) (harg3 : arg3.IsWhole) (arg4 : Memref sig .tc .vmem S1000x64 .f32) (harg4 : arg4.IsWhole)
    (x0 : Vec F S3x1000x5 .f32) (x1 : Vec F S3x5x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tag_combine_kernel i arg1 harg1 arg2 harg2 arg3 harg3 arg4 harg4) K := by
  simp only [cc0__tag_combine_kernel_eq_skeleton]; unfold cc0__tag_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  Region 1 of the idealized kernel program: the first bilinear stage, relu (a·Wa + s·Ws + b) on
  1000-row blocks of the aggregated neighbour features a and the node features s.
  What each window's staging buffer holds before and after the body at a grid point, the body's triple, and the
  pipeline's proof data at the region-entry contents V.
-/
import proofs.«106568_j42528766165971_1_alg».proof.Proof.Gen.KernelIdeal.Launch
import proofs.«106568_j42528766165971_1_alg».proof.Proof.Gen.KernelIdeal.Skeleton
import proofs.«106568_j42528766165971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rA1 : Rect S1000x64 := Rect.unit (s := S1000x64) ![0, 0] S1000x64.size inb_S1000x64_S1000x64_0_0
abbrev rWa1 : Rect S64x64 := Rect.unit (s := S64x64) ![0, 0] S64x64.size inb_S64x64_S64x64_0_0
abbrev rS1 : Rect S1000x6 := Rect.unit (s := S1000x6) ![0, 0] S1000x6.size inb_S1000x6_S1000x6_0_0
abbrev rWs1 : Rect S6x64 := Rect.unit (s := S6x64) ![0, 0] S6x64.size inb_S6x64_S6x64_0_0
abbrev rB1 : Rect S64 := Rect.unit (s := S64) ![0] S64.size inb_S64_S64_0
abbrev rO1 : Rect S1000x64 := Rect.unit (s := S1000x64) ![0, 0] S1000x64.size inb_S1000x64_S1000x64_0_0

/-- The output window's buffer after the body, from the 5 input blocks: the one whole-block store. -/
def out1_5 (x0 : Vec F S1000x64 .f32) (x1 : Vec F S64x64 .f32) (x2 : Vec F S1000x6 .f32) (x3 : Vec F S6x64 .f32) (x4 : Vec F S64 .f32) : Vec F S1000x64 .f32 :=
  View.canon [⟨rO1, k1_pay1 (View.ld x0 rA1) (View.ld x1 rWa1) (View.ld x2 rS1) (View.ld x3 rWs1) (View.ld x4 rB1)⟩]

/-- The one store covers the whole buffer. -/
theorem cover1_5 (p0 : Vec F S1000x64 .f32) (y : S1000x64.Idx) :
    ∃ pc ∈ ([⟨rO1, p0⟩] : List (View.Piece (Elt F) S1000x64 .f32)), y ∈ pc.1.set :=
  View.cover_of_tiled [⟨rO1, p0⟩] S1000x64.size (by rfl) y

/-! ## The body's triple -/

set_option maxHeartbeats 4000000 in
theorem sound_kernel1 (c : Dev nD) (E : Set ℕ) (i : grid1.Coords)
    (arg1 : Memref sig .tc .vmem S1000x64 .f32) (harg1 : arg1.IsWhole) (arg2 : Memref sig .tc .vmem S64x64 .f32) (harg2 : arg2.IsWhole) (arg3 : Memref sig .tc .vmem S1000x6 .f32) (harg3 : arg3.IsWhole) (arg4 : Memref sig .tc .vmem S6x64 .f32) (harg4 : arg4.IsWhole) (arg5 : Memref sig .tc .vmem S64 .f32) (harg5 : arg5.IsWhole) (arg6 : Memref sig .tc .vmem S1000x64 .f32) (harg6 : arg6.IsWhole)
    (x0 : Vec F S1000x64 .f32) (x1 : Vec F S64x64 .f32) (x2 : Vec F S1000x6 .f32) (x3 : Vec F S6x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bilinear_kernel i arg1 harg1 arg2 harg2 arg3 harg3 arg4 harg4 arg5 harg5 arg6 harg6) K := by
  simp only [cc1__bilinear_kernel_eq_skeleton]; unfold cc1__bilinear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/-
  Region 2 of the idealized kernel program: the second bilinear stage, relu (a·Wa + s·Ws + b) on
  1000-row blocks of the aggregated neighbour features a and the previous stage's node features s.
  What each window's staging buffer holds before and after the body at a grid point, the body's triple, and the
  pipeline's proof data at the region-entry contents V.
-/
import proofs.«106568_j42528766165971_1_alg».proof.Proof.Gen.KernelIdeal.Launch
import proofs.«106568_j42528766165971_1_alg».proof.Proof.Gen.KernelIdeal.Skeleton
import proofs.«106568_j42528766165971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev rA2 : Rect S1000x64 := Rect.unit (s := S1000x64) ![0, 0] S1000x64.size inb_S1000x64_S1000x64_0_0
abbrev rWa2 : Rect S64x64 := Rect.unit (s := S64x64) ![0, 0] S64x64.size inb_S64x64_S64x64_0_0
abbrev rS2 : Rect S1000x64 := Rect.unit (s := S1000x64) ![0, 0] S1000x64.size inb_S1000x64_S1000x64_0_0
abbrev rWs2 : Rect S64x64 := Rect.unit (s := S64x64) ![0, 0] S64x64.size inb_S64x64_S64x64_0_0
abbrev rB2 : Rect S64 := Rect.unit (s := S64) ![0] S64.size inb_S64_S64_0
abbrev rO2 : Rect S1000x64 := Rect.unit (s := S1000x64) ![0, 0] S1000x64.size inb_S1000x64_S1000x64_0_0

/-- The output window's buffer after the body, from the 5 input blocks: the one whole-block store. -/
def out2_5 (x0 : Vec F S1000x64 .f32) (x1 : Vec F S64x64 .f32) (x2 : Vec F S1000x64 .f32) (x3 : Vec F S64x64 .f32) (x4 : Vec F S64 .f32) : Vec F S1000x64 .f32 :=
  View.canon [⟨rO2, k2_pay1 (View.ld x0 rA2) (View.ld x1 rWa2) (View.ld x2 rS2) (View.ld x3 rWs2) (View.ld x4 rB2)⟩]

/-- The one store covers the whole buffer. -/
theorem cover2_5 (p0 : Vec F S1000x64 .f32) (y : S1000x64.Idx) :
    ∃ pc ∈ ([⟨rO2, p0⟩] : List (View.Piece (Elt F) S1000x64 .f32)), y ∈ pc.1.set :=
  View.cover_of_tiled [⟨rO2, p0⟩] S1000x64.size (by rfl) y

/-! ## The body's triple -/

set_option maxHeartbeats 4000000 in
theorem sound_kernel2 (c : Dev nD) (E : Set ℕ) (i : grid2.Coords)
    (arg1 : Memref sig .tc .vmem S1000x64 .f32) (harg1 : arg1.IsWhole) (arg2 : Memref sig .tc .vmem S64x64 .f32) (harg2 : arg2.IsWhole) (arg3 : Memref sig .tc .vmem S1000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1000x64 .f32) (harg6 : arg6.IsWhole)
    (x0 : Vec F S1000x64 .f32) (x1 : Vec F S64x64 .f32) (x2 : Vec F S1000x64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bilinear_kernel i arg1 harg1 arg2 harg2 arg3 harg3 arg4 harg4 arg5 harg5 arg6 harg6) K := by
  simp only [cc2__bilinear_kernel_eq_skeleton]; unfold cc2__bilinear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
/-
  Region 3 of the idealized kernel program: the second feature combine, relu (h0·W0 + h1·W1 + h2·W2 + h3·W3 + b) on
  1000-row blocks of the four stacked propagated feature matrices. What each window's staging buffer holds before and
  after the body at a grid point, the body's triple, and the pipeline's proof data at the region-entry contents V.
-/
import proofs.«106568_j42528766165971_1_alg».proof.Proof.Gen.KernelIdeal.Launch
import proofs.«106568_j42528766165971_1_alg».proof.Proof.Gen.KernelIdeal.Skeleton
import proofs.«106568_j42528766165971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

abbrev r3H0 : Rect S4x1000x64 := Rect.unit (s := S4x1000x64) ![0, 0, 0] S1x1000x64.size inb_S4x1000x64_S1x1000x64_0_0_0
abbrev r3H1 : Rect S4x1000x64 := Rect.unit (s := S4x1000x64) ![1, 0, 0] S1x1000x64.size inb_S4x1000x64_S1x1000x64_1_0_0
abbrev r3H2 : Rect S4x1000x64 := Rect.unit (s := S4x1000x64) ![2, 0, 0] S1x1000x64.size inb_S4x1000x64_S1x1000x64_2_0_0
abbrev r3H3 : Rect S4x1000x64 := Rect.unit (s := S4x1000x64) ![3, 0, 0] S1x1000x64.size inb_S4x1000x64_S1x1000x64_3_0_0
abbrev r3W0 : Rect S4x64x64 := Rect.unit (s := S4x64x64) ![0, 0, 0] S1x64x64.size inb_S4x64x64_S1x64x64_0_0_0
abbrev r3W1 : Rect S4x64x64 := Rect.unit (s := S4x64x64) ![1, 0, 0] S1x64x64.size inb_S4x64x64_S1x64x64_1_0_0
abbrev r3W2 : Rect S4x64x64 := Rect.unit (s := S4x64x64) ![2, 0, 0] S1x64x64.size inb_S4x64x64_S1x64x64_2_0_0
abbrev r3W3 : Rect S4x64x64 := Rect.unit (s := S4x64x64) ![3, 0, 0] S1x64x64.size inb_S4x64x64_S1x64x64_3_0_0
abbrev r3B : Rect S64 := Rect.unit (s := S64) ![0] S64.size inb_S64_S64_0
abbrev r3O : Rect S1000x64 := Rect.unit (s := S1000x64) ![0, 0] S1000x64.size inb_S1000x64_S1000x64_0_0

/-- The output window's buffer after the body, from the three input blocks: the one whole-block store. -/
def out3_3 (x0 : Vec F S4x1000x64 .f32) (x1 : Vec F S4x64x64 .f32) (x2 : Vec F S64 .f32) : Vec F S1000x64 .f32 :=
  View.canon [⟨r3O, k3_pay1 (k3_pay2 (View.ld x0 r3H0) (View.ld x1 r3W0) (View.ld x0 r3H1) (View.ld x1 r3W1) (View.ld x0 r3H2) (View.ld x1 r3W2)) (k3_pay3 (View.ld x0 r3H3)) (k3_pay4 (View.ld x1 r3W3)) (View.ld x2 r3B)⟩]

/-- The one store covers the whole buffer. -/
theorem cover3_3 (p0 : Vec F S1000x64 .f32) (y : S1000x64.Idx) :
    ∃ pc ∈ ([⟨r3O, p0⟩] : List (View.Piece (Elt F) S1000x64 .f32)), y ∈ pc.1.set :=
  View.cover_of_tiled [⟨r3O, p0⟩] S1000x64.size (by rfl) y

/-! ## The body's triple -/

set_option maxHeartbeats 4000000 in
theorem sound_kernel3 (c : Dev nD) (E : Set ℕ) (i : grid3.Coords)
    (arg1 : Memref sig .tc .vmem S4x1000x64 .f32) (harg1 : arg1.IsWhole) (arg2 : Memref sig .tc .vmem S4x64x64 .f32) (harg2 : arg2.IsWhole)
    (arg3 : Memref sig .tc .vmem S64 .f32) (harg3 : arg3.IsWhole) (arg4 : Memref sig .tc .vmem S1000x64 .f32) (harg4 : arg4.IsWhole)
    (x0 : Vec F S4x1000x64 .f32) (x1 : Vec F S4x64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__tag_combine_kernel i arg1 harg1 arg2 harg2 arg3 harg3 arg4 harg4) K := by
  simp only [cc3__tag_combine_kernel_eq_skeleton]; unfold cc3__tag_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4.lean ====
/-
  Region 4 of the idealized kernel program: the output head, x·W + b on 1000-row blocks of the node features
  (no clamp). What each window's staging buffer holds before and after the body at a grid point, the body's
  triple, and the pipeline's proof data at the region-entry contents V.
-/
import proofs.«106568_j42528766165971_1_alg».proof.Proof.Gen.KernelIdeal.Launch
import proofs.«106568_j42528766165971_1_alg».proof.Proof.Gen.KernelIdeal.Skeleton
import proofs.«106568_j42528766165971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes -/

abbrev rX4 : Rect S1000x64 := Rect.unit (s := S1000x64) ![0, 0] S1000x64.size inb_S1000x64_S1000x64_0_0
abbrev rW4 : Rect S64x8 := Rect.unit (s := S64x8) ![0, 0] S64x8.size inb_S64x8_S64x8_0_0
abbrev rB4 : Rect S8 := Rect.unit (s := S8) ![0] S8.size inb_S8_S8_0
abbrev rO4 : Rect S1000x8 := Rect.unit (s := S1000x8) ![0, 0] S1000x8.size inb_S1000x8_S1000x8_0_0

/-- The output window's buffer after the body, from the three input blocks: the one whole-block store. -/
def out4_3 (x0 : Vec F S1000x64 .f32) (x1 : Vec F S64x8 .f32) (x2 : Vec F S8 .f32) : Vec F S1000x8 .f32 :=
  View.canon [⟨rO4, k4_pay1 (View.ld x0 rX4) (View.ld x1 rW4) (View.ld x2 rB4)⟩]

/-- The one store covers the whole buffer. -/
theorem cover4_3 (p0 : Vec F S1000x8 .f32) (y : S1000x8.Idx) :
    ∃ pc ∈ ([⟨rO4, p0⟩] : List (View.Piece (Elt F) S1000x8 .f32)), y ∈ pc.1.set :=
  View.cover_of_tiled [⟨rO4, p0⟩] S1000x8.size (by rfl) y

/-! ## The body's triple -/

set_option maxHeartbeats 4000000 in
theorem sound_kernel4 (c : Dev nD) (E : Set ℕ) (i : grid4.Coords)
    (arg1 : Memref sig .tc .vmem S1000x64 .f32) (harg1 : arg1.IsWhole) (arg2 : Memref sig .tc .vmem S64x8 .f32) (harg2 : arg2.IsWhole)
    (arg3 : Memref sig .tc .vmem S8 .f32) (harg3 : arg3.IsWhole) (arg4 : Memref sig .tc .vmem S1000x8 .f32) (harg4 : arg4.IsWhole)
    (x0 : Vec F S1000x64 .f32) (x1 : Vec F S64x8 .f32) (x2 : Vec F S8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Run.lean ====
/-
  The whole run of @main of this program: host stretches and the five blocked regions in order. Between two items
  every buffer of a core holds a known function of the launch memory: a host stretch applies its operations, a
  region replaces its output array by what its write-backs leave and keeps everything else. No item writes an
  argument array, so each argument is read back unchanged at the end; the final contents of every buffer are named,
  which is what both the frame and the value of the result are read from.
-/
import proofs.«106568_j42528766165971_1_alg».proof.Proof.KI.R0
import proofs.«106568_j42528766165971_1_alg».proof.Proof.KI.R1
import proofs.«106568_j42528766165971_1_alg».proof.Proof.KI.R2
import proofs.«106568_j42528766165971_1_alg».proof.Proof.KI.R3
import proofs.«106568_j42528766165971_1_alg».proof.Proof.KI.R4

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each host stretch writes -/

theorem hostOps0_fresh : (hostOps0 : List (HloOp τ sig (Elt F))).Forall fun op => op.fresh = ∅ := by
  simp only [List.Forall]; repeat' constructor
/-- The buffers the stretch's operations write, in order. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor
/-- The buffers the stretch's operations write, in order. -/
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_fresh : (hostOps0_2 : List (HloOp τ sig (Elt F))).Forall fun op => op.fresh = ∅ := by
  simp only [List.Forall]; repeat' constructor
/-- The buffers the stretch's operations write, in order. -/
abbrev hostOps0_2_W : List (Ref sig .tc) := [main_c, main_v14, main_v15, main_c_4, main_v16, main_v17, main_v18, main_v19, main_v20, main_c_5, main_v21, main_v22, main_c_6, main_v23, main_v24, main_v25, main_v26, main_v27, main_v28, main_c_7, main_v29, main_v30, main_c_8, main_v31, main_v32, main_v33, main_v34, main_v35, main_v36, main_v37, main_v38, main_cst_9, main_v39, main_v40, main_v41, main_c_10, main_v42, main_v43, main_c_11, main_v44, main_v45, main_v46, main_v47, main_v48, main_v49, main_v50, main_v51, main_cst_12, main_v52, main_v53, main_v54, main_v55, main_v56, main_v57, main_v58]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
/-- The buffers the stretch's operations write, in order. -/
abbrev hostOps1_W : List (Ref sig .tc) := [main_v60, main_v61, main_v62, main_v63, main_c_13, main_v64, main_v65, main_c_14, main_v66, main_v67, main_v68, main_v69, main_v70, main_v71, main_v72, main_v73, main_cst_15, main_v74, main_v75, main_v76]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
/-- The buffers the stretch's operations write, in order. -/
abbrev hostOps2_W : List (Ref sig .tc) := [main_v78, main_v79, main_v80, main_v81, main_c_16, main_v82, main_v83, main_c_17, main_v84, main_v85, main_v86, main_v87, main_v88, main_cst_18, main_v89, main_v90, main_v91, main_cst_19, main_v92, main_cst_20, main_v93, main_v94, main_v95, main_cst_21, main_v96, main_v97, main_v98, main_v99, main_v100]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
/-- The buffers the stretch's operations write, in order. -/
abbrev hostOps3_W : List (Ref sig .tc) := [main_v102, main_v103, main_v104, main_v105, main_cst_22, main_v106, main_cst_23, main_v107, main_v108, main_v109, main_cst_24, main_v110, main_v111, main_cst_25, main_v112, main_v113, main_v114, main_cst_26]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor
/-- The buffers the stretch's operations write, in order. -/
abbrev hostOps3_1_W : List (Ref sig .tc) := [main_call1_v0, main_call1_v1, main_v115]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor
/-- The buffers the stretch's operations write, in order. -/
abbrev hostOps3_2_W : List (Ref sig .tc) := [main_c_27, main_v116, main_v117, main_c_28, main_v118, main_v119, main_v120, main_v121, main_v122, main_c_29, main_v123, main_v124, main_c_30, main_v125, main_v126, main_v127, main_v128, main_v129, main_v130, main_c_31, main_v131, main_v132, main_c_32, main_v133, main_v134, main_v135, main_v136, main_v137, main_v138, main_v139, main_v140, main_cst_33, main_v141, main_v142, main_v143, main_c_34, main_v144, main_v145, main_c_35, main_v146, main_v147, main_v148, main_v149, main_v150, main_v151, main_v152, main_v153, main_cst_36, main_v154, main_v155, main_v156, main_c_37, main_v157, main_v158, main_c_38, main_v159, main_v160, main_v161, main_v162, main_v163, main_v164, main_v165, main_v166, main_cst_39, main_v167, main_v168, main_v169, main_v170, main_v171, main_v172, main_v173, main_v174]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the stretch hostOps0. -/
abbrev W1 : Dev nD → Valuation τ sig (Elt F) := fun c => StableHlo.after hostOps0 (W0 m ρ c)
theorem W1_of (c : Dev nD) (r : Ref sig .tc) (h : r ∉ (hostOps0_W : List (Ref sig .tc))) : W1 m ρ c r = W0 m ρ c r :=
  StableHlo.after_of_writes_sub hostOps0 _ hostOps0_writes h
/-- After the stretch hostOps0_1. -/
abbrev W2 : Dev nD → Valuation τ sig (Elt F) := fun c => StableHlo.after hostOps0_1 (W1 m ρ c)
theorem W2_of (c : Dev nD) (r : Ref sig .tc) (h : r ∉ (hostOps0_1_W : List (Ref sig .tc))) : W2 m ρ c r = W1 m ρ c r :=
  StableHlo.after_of_writes_sub hostOps0_1 _ hostOps0_1_writes h
/-- After the stretch hostOps0_2. -/
abbrev W3 : Dev nD → Valuation τ sig (Elt F) := fun c => StableHlo.after hostOps0_2 (W2 m ρ c)
theorem W3_of (c : Dev nD) (r : Ref sig .tc) (h : r ∉ (hostOps0_2_W : List (Ref sig .tc))) : W3 m ρ c r = W2 m ρ c r :=
  StableHlo.after_of_writes_sub hostOps0_2 _ hostOps0_2_writes h
/-- The contents region 0 is entered with, read at the core's references. -/
abbrev V3 : (c : Dev nD) → (b : Ref sig .tc) → Buf (Elt F) ((c : Thread nD τ).loc b) := fun c b => W3 m ρ c b
/-- After region 0: its arrays at what the pipeline leaves (inputs as entered, the output's write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the stretch hostOps1. -/
abbrev W5 : Dev nD → Valuation τ sig (Elt F) := fun c => StableHlo.after hostOps1 (W4 m ρ c)
theorem W5_of (c : Dev nD) (r : Ref sig .tc) (h : r ∉ (hostOps1_W : List (Ref sig .tc))) : W5 m ρ c r = W4 m ρ c r :=
  StableHlo.after_of_writes_sub hostOps1 _ hostOps1_writes h
/-- The contents region 1 is entered with, read at the core's references. -/
abbrev V5 : (c : Dev nD) → (b : Ref sig .tc) → Buf (Elt F) ((c : Thread nD τ).loc b) := fun c b => W5 m ρ c b
/-- After region 1: its arrays at what the pipeline leaves (inputs as entered, the output's write-backs folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the stretch hostOps2. -/
abbrev W7 : Dev nD → Valuation τ sig (Elt F) := fun c => StableHlo.after hostOps2 (W6 m ρ c)
theorem W7_of (c : Dev nD) (r : Ref sig .tc) (h : r ∉ (hostOps2_W : List (Ref sig .tc))) : W7 m ρ c r = W6 m ρ c r :=
  StableHlo.after_of_writes_sub hostOps2 _ hostOps2_writes h
/-- The contents region 2 is entered with, read at the core's references. -/
abbrev V7 : (c : Dev nD) → (b : Ref sig .tc) → Buf (Elt F) ((c : Thread nD τ).loc b) := fun c b => W7 m ρ c b
/-- After region 2: its arrays at what the pipeline leaves (inputs as entered, the output's write-backs folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the stretch hostOps3. -/
abbrev W9 : Dev nD → Valuation τ sig (Elt F) := fun c => StableHlo.after hostOps3 (W8 m ρ c)
theorem W9_of (c : Dev nD) (r : Ref sig .tc) (h : r ∉ (hostOps3_W : List (Ref sig .tc))) : W9 m ρ c r = W8 m ρ c r :=
  StableHlo.after_of_writes_sub hostOps3 _ hostOps3_writes h
/-- After the stretch hostOps3_1. -/
abbrev W10 : Dev nD → Valuation τ sig (Elt F) := fun c => StableHlo.after hostOps3_1 (W9 m ρ c)
theorem W10_of (c : Dev nD) (r : Ref sig .tc) (h : r ∉ (hostOps3_1_W : List (Ref sig .tc))) : W10 m ρ c r = W9 m ρ c r :=
  StableHlo.after_of_writes_sub hostOps3_1 _ hostOps3_1_writes h
/-- After the stretch hostOps3_2. -/
abbrev W11 : Dev nD → Valuation τ sig (Elt F) := fun c => StableHlo.after hostOps3_2 (W10 m ρ c)
theorem W11_of (c : Dev nD) (r : Ref sig .tc) (h : r ∉ (hostOps3_2_W : List (Ref sig .tc))) : W11 m ρ c r = W10 m ρ c r :=
  StableHlo.after_of_writes_sub hostOps3_2 _ hostOps3_2_writes h
/-- The contents region 3 is entered with, read at the core's references. -/
abbrev V11 : (c : Dev nD) → (b : Ref sig .tc) → Buf (Elt F) ((c : Thread nD τ).loc b) := fun c b => W11 m ρ c b
/-- After region 3: its arrays at what the pipeline leaves (inputs as entered, the output's write-backs folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After region 4: its arrays at what the pipeline leaves (inputs as entered, the output's write-backs folded), every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-! ## The arguments end as launched -/

/-! No item writes an argument: at every boundary each argument's buffer holds its launch contents. -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (show W1 m ρ c (Proc.devRef .tc main_arg0) = W0 m ρ c (Proc.devRef .tc main_arg0) from W1_of m ρ c main_arg0 (by decide)).trans (W0_main_arg0 m ρ c)
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from W2_of m ρ c main_arg0 (by decide)).trans (W1_main_arg0 m ρ c)
theorem W3_main_arg0 (c : Dev nD) : W3 m ρ c (Proc.devRef .tc main_arg0) = m ((c : Thread nD τ).loc main_arg0) :=
  (show W3 m ρ c (Proc.devRef .tc main_arg0) = W2 m ρ c (Proc.devRef .tc main_arg0) from W3_of m ρ c main_arg0 (by decide)).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from W4_of_ne m ρ c main_arg0 (by decide)).trans (W3_main_arg0 m ρ c)
theorem W5_main_arg0 (c : Dev nD) : W5 m ρ c (Proc.devRef .tc main_arg0) = m ((c : Thread nD τ).loc main_arg0) :=
  (show W5 m ρ c (Proc.devRef .tc main_arg0) = W4 m ρ c (Proc.devRef .tc main_arg0) from W5_of m ρ c main_arg0 (by decide)).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from W6_of_ne m ρ c main_arg0 (by decide)).trans (W5_main_arg0 m ρ c)
theorem W7_main_arg0 (c : Dev nD) : W7 m ρ c (Proc.devRef .tc main_arg0) = m ((c : Thread nD τ).loc main_arg0) :=
  (show W7 m ρ c (Proc.devRef .tc main_arg0) = W6 m ρ c (Proc.devRef .tc main_arg0) from W7_of m ρ c main_arg0 (by decide)).trans (W6_main_arg0 m ρ c)
theorem W8_main_arg0 (c : Dev nD) : W8 m ρ c (Proc.devRef .tc main_arg0) = m ((c : Thread nD τ).loc main_arg0) :=
  (show W8 m ρ c (Proc.devRef .tc main_arg0) = W7 m ρ c (Proc.devRef .tc main_arg0) from W8_of_ne m ρ c main_arg0 (by decide)).trans (W7_main_arg0 m ρ c)
theorem W9_main_arg0 (c : Dev nD) : W9 m ρ c (Proc.devRef .tc main_arg0) = m ((c : Thread nD τ).loc main_arg0) :=
  (show W9 m ρ c (Proc.devRef .tc main_arg0) = W8 m ρ c (Proc.devRef .tc main_arg0) from W9_of m ρ c main_arg0 (by decide)).trans (W8_main_arg0 m ρ c)
theorem W10_main_arg0 (c : Dev nD) : W10 m ρ c (Proc.devRef .tc main_arg0) = m ((c : Thread nD τ).loc main_arg0) :=
  (show W10 m ρ c (Proc.devRef .tc main_arg0) = W9 m ρ c (Proc.devRef .tc main_arg0) from W10_of m ρ c main_arg0 (by decide)).trans (W9_main_arg0 m ρ c)
theorem W11_main_arg0 (c : Dev nD) : W11 m ρ c (Proc.devRef .tc main_arg0) = m ((c : Thread nD τ).loc main_arg0) :=
  (show W11 m ρ c (Proc.devRef .tc main_arg0) = W10 m ρ c (Proc.devRef .tc main_arg0) from W11_of m ρ c main_arg0 (by decide)).trans (W10_main_arg0 m ρ c)
theorem W12_main_arg0 (c : Dev nD) : W12 m ρ c (Proc.devRef .tc main_arg0) = m ((c : Thread nD τ).loc main_arg0) :=
  (show W12 m ρ c (Proc.devRef .tc main_arg0) = W11 m ρ c (Proc.devRef .tc main_arg0) from W12_of_ne m ρ c main_arg0 (by decide)).trans (W11_main_arg0 m ρ c)
theorem W13_main_arg0 (c : Dev nD) : W13 m ρ c (Proc.devRef .tc main_arg0) = m ((c : Thread nD τ).loc main_arg0) :=
  (show W13 m ρ c (Proc.devRef .tc main_arg0) = W12 m ρ c (Proc.devRef .tc main_arg0) from W13_of_ne m ρ c main_arg0 (by decide)).trans (W12_main_arg0 m ρ c)
theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (show W1 m ρ c (Proc.devRef .tc main_arg1) = W0 m ρ c (Proc.devRef .tc main_arg1) from W1_of m ρ c main_arg1 (by decide)).trans (W0_main_arg1 m ρ c)
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from W2_of m ρ c main_arg1 (by decide)).trans (W1_main_arg1 m ρ c)
theorem W3_main_arg1 (c : Dev nD) : W3 m ρ c (Proc.devRef .tc main_arg1) = m ((c : Thread nD τ).loc main_arg1) :=
  (show W3 m ρ c (Proc.devRef .tc main_arg1) = W2 m ρ c (Proc.devRef .tc main_arg1) from W3_of m ρ c main_arg1 (by decide)).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from W4_of_ne m ρ c main_arg1 (by decide)).trans (W3_main_arg1 m ρ c)
theorem W5_main_arg1 (c : Dev nD) : W5 m ρ c (Proc.devRef .tc main_arg1) = m ((c : Thread nD τ).loc main_arg1) :=
  (show W5 m ρ c (Proc.devRef .tc main_arg1) = W4 m ρ c (Proc.devRef .tc main_arg1) from W5_of m ρ c main_arg1 (by decide)).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from (W6_arr m ρ c 2).trans (((dat1 (V5 m ρ) c).arrAt_in 2 rfl _).trans (A_eq1 (V5 m ρ) c 2))).trans (W5_main_arg1 m ρ c)
theorem W7_main_arg1 (c : Dev nD) : W7 m ρ c (Proc.devRef .tc main_arg1) = m ((c : Thread nD τ).loc main_arg1) :=
  (show W7 m ρ c (Proc.devRef .tc main_arg1) = W6 m ρ c (Proc.devRef .tc main_arg1) from W7_of m ρ c main_arg1 (by decide)).trans (W6_main_arg1 m ρ c)
theorem W8_main_arg1 (c : Dev nD) : W8 m ρ c (Proc.devRef .tc main_arg1) = m ((c : Thread nD τ).loc main_arg1) :=
  (show W8 m ρ c (Proc.devRef .tc main_arg1) = W7 m ρ c (Proc.devRef .tc main_arg1) from W8_of_ne m ρ c main_arg1 (by decide)).trans (W7_main_arg1 m ρ c)
theorem W9_main_arg1 (c : Dev nD) : W9 m ρ c (Proc.devRef .tc main_arg1) = m ((c : Thread nD τ).loc main_arg1) :=
  (show W9 m ρ c (Proc.devRef .tc main_arg1) = W8 m ρ c (Proc.devRef .tc main_arg1) from W9_of m ρ c main_arg1 (by decide)).trans (W8_main_arg1 m ρ c)
theorem W10_main_arg1 (c : Dev nD) : W10 m ρ c (Proc.devRef .tc main_arg1) = m ((c : Thread nD τ).loc main_arg1) :=
  (show W10 m ρ c (Proc.devRef .tc main_arg1) = W9 m ρ c (Proc.devRef .tc main_arg1) from W10_of m ρ c main_arg1 (by decide)).trans (W9_main_arg1 m ρ c)
theorem W11_main_arg1 (c : Dev nD) : W11 m ρ c (Proc.devRef .tc main_arg1) = m ((c : Thread nD τ).loc main_arg1) :=
  (show W11 m ρ c (Proc.devRef .tc main_arg1) = W10 m ρ c (Proc.devRef .tc main_arg1) from W11_of m ρ c main_arg1 (by decide)).trans (W10_main_arg1 m ρ c)
theorem W12_main_arg1 (c : Dev nD) : W12 m ρ c (Proc.devRef .tc main_arg1) = m ((c : Thread nD τ).loc main_arg1) :=
  (show W12 m ρ c (Proc.devRef .tc main_arg1) = W11 m ρ c (Proc.devRef .tc main_arg1) from W12_of_ne m ρ c main_arg1 (by decide)).trans (W11_main_arg1 m ρ c)
theorem W13_main_arg1 (c : Dev nD) : W13 m ρ c (Proc.devRef .tc main_arg1) = m ((c : Thread nD τ).loc main_arg1) :=
  (show W13 m ρ c (Proc.devRef .tc main_arg1) = W12 m ρ c (Proc.devRef .tc main_arg1) from W13_of_ne m ρ c main_arg1 (by decide)).trans (W12_main_arg1 m ρ c)
theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (show W1 m ρ c (Proc.devRef .tc main_arg2) = W0 m ρ c (Proc.devRef .tc main_arg2) from W1_of m ρ c main_arg2 (by decide)).trans (W0_main_arg2 m ρ c)
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from W2_of m ρ c main_arg2 (by decide)).trans (W1_main_arg2 m ρ c)
theorem W3_main_arg2 (c : Dev nD) : W3 m ρ c (Proc.devRef .tc main_arg2) = m ((c : Thread nD τ).loc main_arg2) :=
  (show W3 m ρ c (Proc.devRef .tc main_arg2) = W2 m ρ c (Proc.devRef .tc main_arg2) from W3_of m ρ c main_arg2 (by decide)).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (W3_main_arg2 m ρ c)
theorem W5_main_arg2 (c : Dev nD) : W5 m ρ c (Proc.devRef .tc main_arg2) = m ((c : Thread nD τ).loc main_arg2) :=
  (show W5 m ρ c (Proc.devRef .tc main_arg2) = W4 m ρ c (Proc.devRef .tc main_arg2) from W5_of m ρ c main_arg2 (by decide)).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (W5_main_arg2 m ρ c)
theorem W7_main_arg2 (c : Dev nD) : W7 m ρ c (Proc.devRef .tc main_arg2) = m ((c : Thread nD τ).loc main_arg2) :=
  (show W7 m ρ c (Proc.devRef .tc main_arg2) = W6 m ρ c (Proc.devRef .tc main_arg2) from W7_of m ρ c main_arg2 (by decide)).trans (W6_main_arg2 m ρ c)
theorem W8_main_arg2 (c : Dev nD) : W8 m ρ c (Proc.devRef .tc main_arg2) = m ((c : Thread nD τ).loc main_arg2) :=
  (show W8 m ρ c (Proc.devRef .tc main_arg2) = W7 m ρ c (Proc.devRef .tc main_arg2) from W8_of_ne m ρ c main_arg2 (by decide)).trans (W7_main_arg2 m ρ c)
theorem W9_main_arg2 (c : Dev nD) : W9 m ρ c (Proc.devRef .tc main_arg2) = m ((c : Thread nD τ).loc main_arg2) :=
  (show W9 m ρ c (Proc.devRef .tc main_arg2) = W8 m ρ c (Proc.devRef .tc main_arg2) from W9_of m ρ c main_arg2 (by decide)).trans (W8_main_arg2 m ρ c)
theorem W10_main_arg2 (c : Dev nD) : W10 m ρ c (Proc.devRef .tc main_arg2) = m ((c : Thread nD τ).loc main_arg2) :=
  (show W10 m ρ c (Proc.devRef .tc main_arg2) = W9 m ρ c (Proc.devRef .tc main_arg2) from W10_of m ρ c main_arg2 (by decide)).trans (W9_main_arg2 m ρ c)
theorem W11_main_arg2 (c : Dev nD) : W11 m ρ c (Proc.devRef .tc main_arg2) = m ((c : Thread nD τ).loc main_arg2) :=
  (show W11 m ρ c (Proc.devRef .tc main_arg2) = W10 m ρ c (Proc.devRef .tc main_arg2) from W11_of m ρ c main_arg2 (by decide)).trans (W10_main_arg2 m ρ c)
theorem W12_main_arg2 (c : Dev nD) : W12 m ρ c (Proc.devRef .tc main_arg2) = m ((c : Thread nD τ).loc main_arg2) :=
  (show W12 m ρ c (Proc.devRef .tc main_arg2) = W11 m ρ c (Proc.devRef .tc main_arg2) from W12_of_ne m ρ c main_arg2 (by decide)).trans (W11_main_arg2 m ρ c)
theorem W13_main_arg2 (c : Dev nD) : W13 m ρ c (Proc.devRef .tc main_arg2) = m ((c : Thread nD τ).loc main_arg2) :=
  (show W13 m ρ c (Proc.devRef .tc main_arg2) = W12 m ρ c (Proc.devRef .tc main_arg2) from W13_of_ne m ρ c main_arg2 (by decide)).trans (W12_main_arg2 m ρ c)
theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (show W1 m ρ c (Proc.devRef .tc main_arg3) = W0 m ρ c (Proc.devRef .tc main_arg3) from W1_of m ρ c main_arg3 (by decide)).trans (W0_main_arg3 m ρ c)
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from W2_of m ρ c main_arg3 (by decide)).trans (W1_main_arg3 m ρ c)
theorem W3_main_arg3 (c : Dev nD) : W3 m ρ c (Proc.devRef .tc main_arg3) = m ((c : Thread nD τ).loc main_arg3) :=
  (show W3 m ρ c (Proc.devRef .tc main_arg3) = W2 m ρ c (Proc.devRef .tc main_arg3) from W3_of m ρ c main_arg3 (by decide)).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from W4_of_ne m ρ c main_arg3 (by decide)).trans (W3_main_arg3 m ρ c)
theorem W5_main_arg3 (c : Dev nD) : W5 m ρ c (Proc.devRef .tc main_arg3) = m ((c : Thread nD τ).loc main_arg3) :=
  (show W5 m ρ c (Proc.devRef .tc main_arg3) = W4 m ρ c (Proc.devRef .tc main_arg3) from W5_of m ρ c main_arg3 (by decide)).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (W5_main_arg3 m ρ c)
theorem W7_main_arg3 (c : Dev nD) : W7 m ρ c (Proc.devRef .tc main_arg3) = m ((c : Thread nD τ).loc main_arg3) :=
  (show W7 m ρ c (Proc.devRef .tc main_arg3) = W6 m ρ c (Proc.devRef .tc main_arg3) from W7_of m ρ c main_arg3 (by decide)).trans (W6_main_arg3 m ρ c)
theorem W8_main_arg3 (c : Dev nD) : W8 m ρ c (Proc.devRef .tc main_arg3) = m ((c : Thread nD τ).loc main_arg3) :=
  (show W8 m ρ c (Proc.devRef .tc main_arg3) = W7 m ρ c (Proc.devRef .tc main_arg3) from W8_of_ne m ρ c main_arg3 (by decide)).trans (W7_main_arg3 m ρ c)
theorem W9_main_arg3 (c : Dev nD) : W9 m ρ c (Proc.devRef .tc main_arg3) = m ((c : Thread nD τ).loc main_arg3) :=
  (show W9 m ρ c (Proc.devRef .tc main_arg3) = W8 m ρ c (Proc.devRef .tc main_arg3) from W9_of m ρ c main_arg3 (by decide)).trans (W8_main_arg3 m ρ c)
theorem W10_main_arg3 (c : Dev nD) : W10 m ρ c (Proc.devRef .tc main_arg3) = m ((c : Thread nD τ).loc main_arg3) :=
  (show W10 m ρ c (Proc.devRef .tc main_arg3) = W9 m ρ c (Proc.devRef .tc main_arg3) from W10_of m ρ c main_arg3 (by decide)).trans (W9_main_arg3 m ρ c)
theorem W11_main_arg3 (c : Dev nD) : W11 m ρ c (Proc.devRef .tc main_arg3) = m ((c : Thread nD τ).loc main_arg3) :=
  (show W11 m ρ c (Proc.devRef .tc main_arg3) = W10 m ρ c (Proc.devRef .tc main_arg3) from W11_of m ρ c main_arg3 (by decide)).trans (W10_main_arg3 m ρ c)
theorem W12_main_arg3 (c : Dev nD) : W12 m ρ c (Proc.devRef .tc main_arg3) = m ((c : Thread nD τ).loc main_arg3) :=
  (show W12 m ρ c (Proc.devRef .tc main_arg3) = W11 m ρ c (Proc.devRef .tc main_arg3) from W12_of_ne m ρ c main_arg3 (by decide)).trans (W11_main_arg3 m ρ c)
theorem W13_main_arg3 (c : Dev nD) : W13 m ρ c (Proc.devRef .tc main_arg3) = m ((c : Thread nD τ).loc main_arg3) :=
  (show W13 m ρ c (Proc.devRef .tc main_arg3) = W12 m ρ c (Proc.devRef .tc main_arg3) from W13_of_ne m ρ c main_arg3 (by decide)).trans (W12_main_arg3 m ρ c)
theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (show W1 m ρ c (Proc.devRef .tc main_arg4) = W0 m ρ c (Proc.devRef .tc main_arg4) from W1_of m ρ c main_arg4 (by decide)).trans (W0_main_arg4 m ρ c)
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from W2_of m ρ c main_arg4 (by decide)).trans (W1_main_arg4 m ρ c)
theorem W3_main_arg4 (c : Dev nD) : W3 m ρ c (Proc.devRef .tc main_arg4) = m ((c : Thread nD τ).loc main_arg4) :=
  (show W3 m ρ c (Proc.devRef .tc main_arg4) = W2 m ρ c (Proc.devRef .tc main_arg4) from W3_of m ρ c main_arg4 (by decide)).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from W4_of_ne m ρ c main_arg4 (by decide)).trans (W3_main_arg4 m ρ c)
theorem W5_main_arg4 (c : Dev nD) : W5 m ρ c (Proc.devRef .tc main_arg4) = m ((c : Thread nD τ).loc main_arg4) :=
  (show W5 m ρ c (Proc.devRef .tc main_arg4) = W4 m ρ c (Proc.devRef .tc main_arg4) from W5_of m ρ c main_arg4 (by decide)).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_main_arg4 m ρ c)
theorem W7_main_arg4 (c : Dev nD) : W7 m ρ c (Proc.devRef .tc main_arg4) = m ((c : Thread nD τ).loc main_arg4) :=
  (show W7 m ρ c (Proc.devRef .tc main_arg4) = W6 m ρ c (Proc.devRef .tc main_arg4) from W7_of m ρ c main_arg4 (by decide)).trans (W6_main_arg4 m ρ c)
theorem W8_main_arg4 (c : Dev nD) : W8 m ρ c (Proc.devRef .tc main_arg4) = m ((c : Thread nD τ).loc main_arg4) :=
  (show W8 m ρ c (Proc.devRef .tc main_arg4) = W7 m ρ c (Proc.devRef .tc main_arg4) from W8_of_ne m ρ c main_arg4 (by decide)).trans (W7_main_arg4 m ρ c)
theorem W9_main_arg4 (c : Dev nD) : W9 m ρ c (Proc.devRef .tc main_arg4) = m ((c : Thread nD τ).loc main_arg4) :=
  (show W9 m ρ c (Proc.devRef .tc main_arg4) = W8 m ρ c (Proc.devRef .tc main_arg4) from W9_of m ρ c main_arg4 (by decide)).trans (W8_main_arg4 m ρ c)
theorem W10_main_arg4 (c : Dev nD) : W10 m ρ c (Proc.devRef .tc main_arg4) = m ((c : Thread nD τ).loc main_arg4) :=
  (show W10 m ρ c (Proc.devRef .tc main_arg4) = W9 m ρ c (Proc.devRef .tc main_arg4) from W10_of m ρ c main_arg4 (by decide)).trans (W9_main_arg4 m ρ c)
theorem W11_main_arg4 (c : Dev nD) : W11 m ρ c (Proc.devRef .tc main_arg4) = m ((c : Thread nD τ).loc main_arg4) :=
  (show W11 m ρ c (Proc.devRef .tc main_arg4) = W10 m ρ c (Proc.devRef .tc main_arg4) from W11_of m ρ c main_arg4 (by decide)).trans (W10_main_arg4 m ρ c)
theorem W12_main_arg4 (c : Dev nD) : W12 m ρ c (Proc.devRef .tc main_arg4) = m ((c : Thread nD τ).loc main_arg4) :=
  (show W12 m ρ c (Proc.devRef .tc main_arg4) = W11 m ρ c (Proc.devRef .tc main_arg4) from W12_of_ne m ρ c main_arg4 (by decide)).trans (W11_main_arg4 m ρ c)
theorem W13_main_arg4 (c : Dev nD) : W13 m ρ c (Proc.devRef .tc main_arg4) = m ((c : Thread nD τ).loc main_arg4) :=
  (show W13 m ρ c (Proc.devRef .tc main_arg4) = W12 m ρ c (Proc.devRef .tc main_arg4) from W13_of_ne m ρ c main_arg4 (by decide)).trans (W12_main_arg4 m ρ c)
theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (show W1 m ρ c (Proc.devRef .tc main_arg5) = W0 m ρ c (Proc.devRef .tc main_arg5) from W1_of m ρ c main_arg5 (by decide)).trans (W0_main_arg5 m ρ c)
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from W2_of m ρ c main_arg5 (by decide)).trans (W1_main_arg5 m ρ c)
theorem W3_main_arg5 (c : Dev nD) : W3 m ρ c (Proc.devRef .tc main_arg5) = m ((c : Thread nD τ).loc main_arg5) :=
  (show W3 m ρ c (Proc.devRef .tc main_arg5) = W2 m ρ c (Proc.devRef .tc main_arg5) from W3_of m ρ c main_arg5 (by decide)).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_main_arg5 m ρ c)
theorem W5_main_arg5 (c : Dev nD) : W5 m ρ c (Proc.devRef .tc main_arg5) = m ((c : Thread nD τ).loc main_arg5) :=
  (show W5 m ρ c (Proc.devRef .tc main_arg5) = W4 m ρ c (Proc.devRef .tc main_arg5) from W5_of m ρ c main_arg5 (by decide)).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_main_arg5 m ρ c)
theorem W7_main_arg5 (c : Dev nD) : W7 m ρ c (Proc.devRef .tc main_arg5) = m ((c : Thread nD τ).loc main_arg5) :=
  (show W7 m ρ c (Proc.devRef .tc main_arg5) = W6 m ρ c (Proc.devRef .tc main_arg5) from W7_of m ρ c main_arg5 (by decide)).trans (W6_main_arg5 m ρ c)
theorem W8_main_arg5 (c : Dev nD) : W8 m ρ c (Proc.devRef .tc main_arg5) = m ((c : Thread nD τ).loc main_arg5) :=
  (show W8 m ρ c (Proc.devRef .tc main_arg5) = W7 m ρ c (Proc.devRef .tc main_arg5) from W8_of_ne m ρ c main_arg5 (by decide)).trans (W7_main_arg5 m ρ c)
theorem W9_main_arg5 (c : Dev nD) : W9 m ρ c (Proc.devRef .tc main_arg5) = m ((c : Thread nD τ).loc main_arg5) :=
  (show W9 m ρ c (Proc.devRef .tc main_arg5) = W8 m ρ c (Proc.devRef .tc main_arg5) from W9_of m ρ c main_arg5 (by decide)).trans (W8_main_arg5 m ρ c)
theorem W10_main_arg5 (c : Dev nD) : W10 m ρ c (Proc.devRef .tc main_arg5) = m ((c : Thread nD τ).loc main_arg5) :=
  (show W10 m ρ c (Proc.devRef .tc main_arg5) = W9 m ρ c (Proc.devRef .tc main_arg5) from W10_of m ρ c main_arg5 (by decide)).trans (W9_main_arg5 m ρ c)
theorem W11_main_arg5 (c : Dev nD) : W11 m ρ c (Proc.devRef .tc main_arg5) = m ((c : Thread nD τ).loc main_arg5) :=
  (show W11 m ρ c (Proc.devRef .tc main_arg5) = W10 m ρ c (Proc.devRef .tc main_arg5) from W11_of m ρ c main_arg5 (by decide)).trans (W10_main_arg5 m ρ c)
theorem W12_main_arg5 (c : Dev nD) : W12 m ρ c (Proc.devRef .tc main_arg5) = m ((c : Thread nD τ).loc main_arg5) :=
  (show W12 m ρ c (Proc.devRef .tc main_arg5) = W11 m ρ c (Proc.devRef .tc main_arg5) from W12_of_ne m ρ c main_arg5 (by decide)).trans (W11_main_arg5 m ρ c)
theorem W13_main_arg5 (c : Dev nD) : W13 m ρ c (Proc.devRef .tc main_arg5) = m ((c : Thread nD τ).loc main_arg5) :=
  (show W13 m ρ c (Proc.devRef .tc main_arg5) = W12 m ρ c (Proc.devRef .tc main_arg5) from W13_of_ne m ρ c main_arg5 (by decide)).trans (W12_main_arg5 m ρ c)
theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (show W1 m ρ c (Proc.devRef .tc main_arg6) = W0 m ρ c (Proc.devRef .tc main_arg6) from W1_of m ρ c main_arg6 (by decide)).trans (W0_main_arg6 m ρ c)
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from W2_of m ρ c main_arg6 (by decide)).trans (W1_main_arg6 m ρ c)
theorem W3_main_arg6 (c : Dev nD) : W3 m ρ c (Proc.devRef .tc main_arg6) = m ((c : Thread nD τ).loc main_arg6) :=
  (show W3 m ρ c (Proc.devRef .tc main_arg6) = W2 m ρ c (Proc.devRef .tc main_arg6) from W3_of m ρ c main_arg6 (by decide)).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from W4_of_ne m ρ c main_arg6 (by decide)).trans (W3_main_arg6 m ρ c)
theorem W5_main_arg6 (c : Dev nD) : W5 m ρ c (Proc.devRef .tc main_arg6) = m ((c : Thread nD τ).loc main_arg6) :=
  (show W5 m ρ c (Proc.devRef .tc main_arg6) = W4 m ρ c (Proc.devRef .tc main_arg6) from W5_of m ρ c main_arg6 (by decide)).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_main_arg6 m ρ c)
theorem W7_main_arg6 (c : Dev nD) : W7 m ρ c (Proc.devRef .tc main_arg6) = m ((c : Thread nD τ).loc main_arg6) :=
  (show W7 m ρ c (Proc.devRef .tc main_arg6) = W6 m ρ c (Proc.devRef .tc main_arg6) from W7_of m ρ c main_arg6 (by decide)).trans (W6_main_arg6 m ρ c)
theorem W8_main_arg6 (c : Dev nD) : W8 m ρ c (Proc.devRef .tc main_arg6) = m ((c : Thread nD τ).loc main_arg6) :=
  (show W8 m ρ c (Proc.devRef .tc main_arg6) = W7 m ρ c (Proc.devRef .tc main_arg6) from W8_of_ne m ρ c main_arg6 (by decide)).trans (W7_main_arg6 m ρ c)
theorem W9_main_arg6 (c : Dev nD) : W9 m ρ c (Proc.devRef .tc main_arg6) = m ((c : Thread nD τ).loc main_arg6) :=
  (show W9 m ρ c (Proc.devRef .tc main_arg6) = W8 m ρ c (Proc.devRef .tc main_arg6) from W9_of m ρ c main_arg6 (by decide)).trans (W8_main_arg6 m ρ c)
theorem W10_main_arg6 (c : Dev nD) : W10 m ρ c (Proc.devRef .tc main_arg6) = m ((c : Thread nD τ).loc main_arg6) :=
  (show W10 m ρ c (Proc.devRef .tc main_arg6) = W9 m ρ c (Proc.devRef .tc main_arg6) from W10_of m ρ c main_arg6 (by decide)).trans (W9_main_arg6 m ρ c)
theorem W11_main_arg6 (c : Dev nD) : W11 m ρ c (Proc.devRef .tc main_arg6) = m ((c : Thread nD τ).loc main_arg6) :=
  (show W11 m ρ c (Proc.devRef .tc main_arg6) = W10 m ρ c (Proc.devRef .tc main_arg6) from W11_of m ρ c main_arg6 (by decide)).trans (W10_main_arg6 m ρ c)
theorem W12_main_arg6 (c : Dev nD) : W12 m ρ c (Proc.devRef .tc main_arg6) = m ((c : Thread nD τ).loc main_arg6) :=
  (show W12 m ρ c (Proc.devRef .tc main_arg6) = W11 m ρ c (Proc.devRef .tc main_arg6) from W12_of_ne m ρ c main_arg6 (by decide)).trans (W11_main_arg6 m ρ c)
theorem W13_main_arg6 (c : Dev nD) : W13 m ρ c (Proc.devRef .tc main_arg6) = m ((c : Thread nD τ).loc main_arg6) :=
  (show W13 m ρ c (Proc.devRef .tc main_arg6) = W12 m ρ c (Proc.devRef .tc main_arg6) from W13_of_ne m ρ c main_arg6 (by decide)).trans (W12_main_arg6 m ρ c)
theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (show W1 m ρ c (Proc.devRef .tc main_arg7) = W0 m ρ c (Proc.devRef .tc main_arg7) from W1_of m ρ c main_arg7 (by decide)).trans (W0_main_arg7 m ρ c)
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from W2_of m ρ c main_arg7 (by decide)).trans (W1_main_arg7 m ρ c)
theorem W3_main_arg7 (c : Dev nD) : W3 m ρ c (Proc.devRef .tc main_arg7) = m ((c : Thread nD τ).loc main_arg7) :=
  (show W3 m ρ c (Proc.devRef .tc main_arg7) = W2 m ρ c (Proc.devRef .tc main_arg7) from W3_of m ρ c main_arg7 (by decide)).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from (W4_arr m ρ c 1).trans (((dat0 (V3 m ρ) c).arrAt_in 1 rfl _).trans (A_eq0 (V3 m ρ) c 1))).trans (W3_main_arg7 m ρ c)
theorem W5_main_arg7 (c : Dev nD) : W5 m ρ c (Proc.devRef .tc main_arg7) = m ((c : Thread nD τ).loc main_arg7) :=
  (show W5 m ρ c (Proc.devRef .tc main_arg7) = W4 m ρ c (Proc.devRef .tc main_arg7) from W5_of m ρ c main_arg7 (by decide)).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from W6_of_ne m ρ c main_arg7 (by decide)).trans (W5_main_arg7 m ρ c)
theorem W7_main_arg7 (c : Dev nD) : W7 m ρ c (Proc.devRef .tc main_arg7) = m ((c : Thread nD τ).loc main_arg7) :=
  (show W7 m ρ c (Proc.devRef .tc main_arg7) = W6 m ρ c (Proc.devRef .tc main_arg7) from W7_of m ρ c main_arg7 (by decide)).trans (W6_main_arg7 m ρ c)
theorem W8_main_arg7 (c : Dev nD) : W8 m ρ c (Proc.devRef .tc main_arg7) = m ((c : Thread nD τ).loc main_arg7) :=
  (show W8 m ρ c (Proc.devRef .tc main_arg7) = W7 m ρ c (Proc.devRef .tc main_arg7) from W8_of_ne m ρ c main_arg7 (by decide)).trans (W7_main_arg7 m ρ c)
theorem W9_main_arg7 (c : Dev nD) : W9 m ρ c (Proc.devRef .tc main_arg7) = m ((c : Thread nD τ).loc main_arg7) :=
  (show W9 m ρ c (Proc.devRef .tc main_arg7) = W8 m ρ c (Proc.devRef .tc main_arg7) from W9_of m ρ c main_arg7 (by decide)).trans (W8_main_arg7 m ρ c)
theorem W10_main_arg7 (c : Dev nD) : W10 m ρ c (Proc.devRef .tc main_arg7) = m ((c : Thread nD τ).loc main_arg7) :=
  (show W10 m ρ c (Proc.devRef .tc main_arg7) = W9 m ρ c (Proc.devRef .tc main_arg7) from W10_of m ρ c main_arg7 (by decide)).trans (W9_main_arg7 m ρ c)
theorem W11_main_arg7 (c : Dev nD) : W11 m ρ c (Proc.devRef .tc main_arg7) = m ((c : Thread nD τ).loc main_arg7) :=
  (show W11 m ρ c (Proc.devRef .tc main_arg7) = W10 m ρ c (Proc.devRef .tc main_arg7) from W11_of m ρ c main_arg7 (by decide)).trans (W10_main_arg7 m ρ c)
theorem W12_main_arg7 (c : Dev nD) : W12 m ρ c (Proc.devRef .tc main_arg7) = m ((c : Thread nD τ).loc main_arg7) :=
  (show W12 m ρ c (Proc.devRef .tc main_arg7) = W11 m ρ c (Proc.devRef .tc main_arg7) from W12_of_ne m ρ c main_arg7 (by decide)).trans (W11_main_arg7 m ρ c)
theorem W13_main_arg7 (c : Dev nD) : W13 m ρ c (Proc.devRef .tc main_arg7) = m ((c : Thread nD τ).loc main_arg7) :=
  (show W13 m ρ c (Proc.devRef .tc main_arg7) = W12 m ρ c (Proc.devRef .tc main_arg7) from W13_of_ne m ρ c main_arg7 (by decide)).trans (W12_main_arg7 m ρ c)
theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (show W1 m ρ c (Proc.devRef .tc main_arg8) = W0 m ρ c (Proc.devRef .tc main_arg8) from W1_of m ρ c main_arg8 (by decide)).trans (W0_main_arg8 m ρ c)
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from W2_of m ρ c main_arg8 (by decide)).trans (W1_main_arg8 m ρ c)
theorem W3_main_arg8 (c : Dev nD) : W3 m ρ c (Proc.devRef .tc main_arg8) = m ((c : Thread nD τ).loc main_arg8) :=
  (show W3 m ρ c (Proc.devRef .tc main_arg8) = W2 m ρ c (Proc.devRef .tc main_arg8) from W3_of m ρ c main_arg8 (by decide)).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from (W4_arr m ρ c 2).trans (((dat0 (V3 m ρ) c).arrAt_in 2 rfl _).trans (A_eq0 (V3 m ρ) c 2))).trans (W3_main_arg8 m ρ c)
theorem W5_main_arg8 (c : Dev nD) : W5 m ρ c (Proc.devRef .tc main_arg8) = m ((c : Thread nD τ).loc main_arg8) :=
  (show W5 m ρ c (Proc.devRef .tc main_arg8) = W4 m ρ c (Proc.devRef .tc main_arg8) from W5_of m ρ c main_arg8 (by decide)).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from W6_of_ne m ρ c main_arg8 (by decide)).trans (W5_main_arg8 m ρ c)
theorem W7_main_arg8 (c : Dev nD) : W7 m ρ c (Proc.devRef .tc main_arg8) = m ((c : Thread nD τ).loc main_arg8) :=
  (show W7 m ρ c (Proc.devRef .tc main_arg8) = W6 m ρ c (Proc.devRef .tc main_arg8) from W7_of m ρ c main_arg8 (by decide)).trans (W6_main_arg8 m ρ c)
theorem W8_main_arg8 (c : Dev nD) : W8 m ρ c (Proc.devRef .tc main_arg8) = m ((c : Thread nD τ).loc main_arg8) :=
  (show W8 m ρ c (Proc.devRef .tc main_arg8) = W7 m ρ c (Proc.devRef .tc main_arg8) from W8_of_ne m ρ c main_arg8 (by decide)).trans (W7_main_arg8 m ρ c)
theorem W9_main_arg8 (c : Dev nD) : W9 m ρ c (Proc.devRef .tc main_arg8) = m ((c : Thread nD τ).loc main_arg8) :=
  (show W9 m ρ c (Proc.devRef .tc main_arg8) = W8 m ρ c (Proc.devRef .tc main_arg8) from W9_of m ρ c main_arg8 (by decide)).trans (W8_main_arg8 m ρ c)
theorem W10_main_arg8 (c : Dev nD) : W10 m ρ c (Proc.devRef .tc main_arg8) = m ((c : Thread nD τ).loc main_arg8) :=
  (show W10 m ρ c (Proc.devRef .tc main_arg8) = W9 m ρ c (Proc.devRef .tc main_arg8) from W10_of m ρ c main_arg8 (by decide)).trans (W9_main_arg8 m ρ c)
theorem W11_main_arg8 (c : Dev nD) : W11 m ρ c (Proc.devRef .tc main_arg8) = m ((c : Thread nD τ).loc main_arg8) :=
  (show W11 m ρ c (Proc.devRef .tc main_arg8) = W10 m ρ c (Proc.devRef .tc main_arg8) from W11_of m ρ c main_arg8 (by decide)).trans (W10_main_arg8 m ρ c)
theorem W12_main_arg8 (c : Dev nD) : W12 m ρ c (Proc.devRef .tc main_arg8) = m ((c : Thread nD τ).loc main_arg8) :=
  (show W12 m ρ c (Proc.devRef .tc main_arg8) = W11 m ρ c (Proc.devRef .tc main_arg8) from W12_of_ne m ρ c main_arg8 (by decide)).trans (W11_main_arg8 m ρ c)
theorem W13_main_arg8 (c : Dev nD) : W13 m ρ c (Proc.devRef .tc main_arg8) = m ((c : Thread nD τ).loc main_arg8) :=
  (show W13 m ρ c (Proc.devRef .tc main_arg8) = W12 m ρ c (Proc.devRef .tc main_arg8) from W13_of_ne m ρ c main_arg8 (by decide)).trans (W12_main_arg8 m ρ c)
theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (show W1 m ρ c (Proc.devRef .tc main_arg9) = W0 m ρ c (Proc.devRef .tc main_arg9) from W1_of m ρ c main_arg9 (by decide)).trans (W0_main_arg9 m ρ c)
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from W2_of m ρ c main_arg9 (by decide)).trans (W1_main_arg9 m ρ c)
theorem W3_main_arg9 (c : Dev nD) : W3 m ρ c (Proc.devRef .tc main_arg9) = m ((c : Thread nD τ).loc main_arg9) :=
  (show W3 m ρ c (Proc.devRef .tc main_arg9) = W2 m ρ c (Proc.devRef .tc main_arg9) from W3_of m ρ c main_arg9 (by decide)).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (W3_main_arg9 m ρ c)
theorem W5_main_arg9 (c : Dev nD) : W5 m ρ c (Proc.devRef .tc main_arg9) = m ((c : Thread nD τ).loc main_arg9) :=
  (show W5 m ρ c (Proc.devRef .tc main_arg9) = W4 m ρ c (Proc.devRef .tc main_arg9) from W5_of m ρ c main_arg9 (by decide)).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from W6_of_ne m ρ c main_arg9 (by decide)).trans (W5_main_arg9 m ρ c)
theorem W7_main_arg9 (c : Dev nD) : W7 m ρ c (Proc.devRef .tc main_arg9) = m ((c : Thread nD τ).loc main_arg9) :=
  (show W7 m ρ c (Proc.devRef .tc main_arg9) = W6 m ρ c (Proc.devRef .tc main_arg9) from W7_of m ρ c main_arg9 (by decide)).trans (W6_main_arg9 m ρ c)
theorem W8_main_arg9 (c : Dev nD) : W8 m ρ c (Proc.devRef .tc main_arg9) = m ((c : Thread nD τ).loc main_arg9) :=
  (show W8 m ρ c (Proc.devRef .tc main_arg9) = W7 m ρ c (Proc.devRef .tc main_arg9) from W8_of_ne m ρ c main_arg9 (by decide)).trans (W7_main_arg9 m ρ c)
theorem W9_main_arg9 (c : Dev nD) : W9 m ρ c (Proc.devRef .tc main_arg9) = m ((c : Thread nD τ).loc main_arg9) :=
  (show W9 m ρ c (Proc.devRef .tc main_arg9) = W8 m ρ c (Proc.devRef .tc main_arg9) from W9_of m ρ c main_arg9 (by decide)).trans (W8_main_arg9 m ρ c)
theorem W10_main_arg9 (c : Dev nD) : W10 m ρ c (Proc.devRef .tc main_arg9) = m ((c : Thread nD τ).loc main_arg9) :=
  (show W10 m ρ c (Proc.devRef .tc main_arg9) = W9 m ρ c (Proc.devRef .tc main_arg9) from W10_of m ρ c main_arg9 (by decide)).trans (W9_main_arg9 m ρ c)
theorem W11_main_arg9 (c : Dev nD) : W11 m ρ c (Proc.devRef .tc main_arg9) = m ((c : Thread nD τ).loc main_arg9) :=
  (show W11 m ρ c (Proc.devRef .tc main_arg9) = W10 m ρ c (Proc.devRef .tc main_arg9) from W11_of m ρ c main_arg9 (by decide)).trans (W10_main_arg9 m ρ c)
theorem W12_main_arg9 (c : Dev nD) : W12 m ρ c (Proc.devRef .tc main_arg9) = m ((c : Thread nD τ).loc main_arg9) :=
  (show W12 m ρ c (Proc.devRef .tc main_arg9) = W11 m ρ c (Proc.devRef .tc main_arg9) from (W12_arr m ρ c 1).trans (((dat3 (V11 m ρ) c).arrAt_in 1 rfl _).trans (A_eq3 (V11 m ρ) c 1))).trans (W11_main_arg9 m ρ c)
theorem W13_main_arg9 (c : Dev nD) : W13 m ρ c (Proc.devRef .tc main_arg9) = m ((c : Thread nD τ).loc main_arg9) :=
  (show W13 m ρ c (Proc.devRef .tc main_arg9) = W12 m ρ c (Proc.devRef .tc main_arg9) from W13_of_ne m ρ c main_arg9 (by decide)).trans (W12_main_arg9 m ρ c)
theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (show W1 m ρ c (Proc.devRef .tc main_arg10) = W0 m ρ c (Proc.devRef .tc main_arg10) from W1_of m ρ c main_arg10 (by decide)).trans (W0_main_arg10 m ρ c)
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from W2_of m ρ c main_arg10 (by decide)).trans (W1_main_arg10 m ρ c)
theorem W3_main_arg10 (c : Dev nD) : W3 m ρ c (Proc.devRef .tc main_arg10) = m ((c : Thread nD τ).loc main_arg10) :=
  (show W3 m ρ c (Proc.devRef .tc main_arg10) = W2 m ρ c (Proc.devRef .tc main_arg10) from W3_of m ρ c main_arg10 (by decide)).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (W3_main_arg10 m ρ c)
theorem W5_main_arg10 (c : Dev nD) : W5 m ρ c (Proc.devRef .tc main_arg10) = m ((c : Thread nD τ).loc main_arg10) :=
  (show W5 m ρ c (Proc.devRef .tc main_arg10) = W4 m ρ c (Proc.devRef .tc main_arg10) from W5_of m ρ c main_arg10 (by decide)).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from W6_of_ne m ρ c main_arg10 (by decide)).trans (W5_main_arg10 m ρ c)
theorem W7_main_arg10 (c : Dev nD) : W7 m ρ c (Proc.devRef .tc main_arg10) = m ((c : Thread nD τ).loc main_arg10) :=
  (show W7 m ρ c (Proc.devRef .tc main_arg10) = W6 m ρ c (Proc.devRef .tc main_arg10) from W7_of m ρ c main_arg10 (by decide)).trans (W6_main_arg10 m ρ c)
theorem W8_main_arg10 (c : Dev nD) : W8 m ρ c (Proc.devRef .tc main_arg10) = m ((c : Thread nD τ).loc main_arg10) :=
  (show W8 m ρ c (Proc.devRef .tc main_arg10) = W7 m ρ c (Proc.devRef .tc main_arg10) from W8_of_ne m ρ c main_arg10 (by decide)).trans (W7_main_arg10 m ρ c)
theorem W9_main_arg10 (c : Dev nD) : W9 m ρ c (Proc.devRef .tc main_arg10) = m ((c : Thread nD τ).loc main_arg10) :=
  (show W9 m ρ c (Proc.devRef .tc main_arg10) = W8 m ρ c (Proc.devRef .tc main_arg10) from W9_of m ρ c main_arg10 (by decide)).trans (W8_main_arg10 m ρ c)
theorem W10_main_arg10 (c : Dev nD) : W10 m ρ c (Proc.devRef .tc main_arg10) = m ((c : Thread nD τ).loc main_arg10) :=
  (show W10 m ρ c (Proc.devRef .tc main_arg10) = W9 m ρ c (Proc.devRef .tc main_arg10) from W10_of m ρ c main_arg10 (by decide)).trans (W9_main_arg10 m ρ c)
theorem W11_main_arg10 (c : Dev nD) : W11 m ρ c (Proc.devRef .tc main_arg10) = m ((c : Thread nD τ).loc main_arg10) :=
  (show W11 m ρ c (Proc.devRef .tc main_arg10) = W10 m ρ c (Proc.devRef .tc main_arg10) from W11_of m ρ c main_arg10 (by decide)).trans (W10_main_arg10 m ρ c)
theorem W12_main_arg10 (c : Dev nD) : W12 m ρ c (Proc.devRef .tc main_arg10) = m ((c : Thread nD τ).loc main_arg10) :=
  (show W12 m ρ c (Proc.devRef .tc main_arg10) = W11 m ρ c (Proc.devRef .tc main_arg10) from (W12_arr m ρ c 2).trans (((dat3 (V11 m ρ) c).arrAt_in 2 rfl _).trans (A_eq3 (V11 m ρ) c 2))).trans (W11_main_arg10 m ρ c)
theorem W13_main_arg10 (c : Dev nD) : W13 m ρ c (Proc.devRef .tc main_arg10) = m ((c : Thread nD τ).loc main_arg10) :=
  (show W13 m ρ c (Proc.devRef .tc main_arg10) = W12 m ρ c (Proc.devRef .tc main_arg10) from W13_of_ne m ρ c main_arg10 (by decide)).trans (W12_main_arg10 m ρ c)
theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (show W1 m ρ c (Proc.devRef .tc main_arg11) = W0 m ρ c (Proc.devRef .tc main_arg11) from W1_of m ρ c main_arg11 (by decide)).trans (W0_main_arg11 m ρ c)
theorem W2_main_arg11 (c : Dev nD) : W2 m ρ c (Proc.devRef .tc main_arg11) = m ((c : Thread nD τ).loc main_arg11) :=
  (show W2 m ρ c (Proc.devRef .tc main_arg11) = W1 m ρ c (Proc.devRef .tc main_arg11) from W2_of m ρ c main_arg11 (by decide)).trans (W1_main_arg11 m ρ c)
theorem W3_main_arg11 (c : Dev nD) : W3 m ρ c (Proc.devRef .tc main_arg11) = m ((c : Thread nD τ).loc main_arg11) :=
  (show W3 m ρ c (Proc.devRef .tc main_arg11) = W2 m ρ c (Proc.devRef .tc main_arg11) from W3_of m ρ c main_arg11 (by decide)).trans (W2_main_arg11 m ρ c)
theorem W4_main_arg11 (c : Dev nD) : W4 m ρ c (Proc.devRef .tc main_arg11) = m ((c : Thread nD τ).loc main_arg11) :=
  (show W4 m ρ c (Proc.devRef .tc main_arg11) = W3 m ρ c (Proc.devRef .tc main_arg11) from W4_of_ne m ρ c main_arg11 (by decide)).trans (W3_main_arg11 m ρ c)
theorem W5_main_arg11 (c : Dev nD) : W5 m ρ c (Proc.devRef .tc main_arg11) = m ((c : Thread nD τ).loc main_arg11) :=
  (show W5 m ρ c (Proc.devRef .tc main_arg11) = W4 m ρ c (Proc.devRef .tc main_arg11) from W5_of m ρ c main_arg11 (by decide)).trans (W4_main_arg11 m ρ c)
theorem W6_main_arg11 (c : Dev nD) : W6 m ρ c (Proc.devRef .tc main_arg11) = m ((c : Thread nD τ).loc main_arg11) :=
  (show W6 m ρ c (Proc.devRef .tc main_arg11) = W5 m ρ c (Proc.devRef .tc main_arg11) from (W6_arr m ρ c 1).trans (((dat1 (V5 m ρ) c).arrAt_in 1 rfl _).trans (A_eq1 (V5 m ρ) c 1))).trans (W5_main_arg11 m ρ c)
theorem W7_main_arg11 (c : Dev nD) : W7 m ρ c (Proc.devRef .tc main_arg11) = m ((c : Thread nD τ).loc main_arg11) :=
  (show W7 m ρ c (Proc.devRef .tc main_arg11) = W6 m ρ c (Proc.devRef .tc main_arg11) from W7_of m ρ c main_arg11 (by decide)).trans (W6_main_arg11 m ρ c)
theorem W8_main_arg11 (c : Dev nD) : W8 m ρ c (Proc.devRef .tc main_arg11) = m ((c : Thread nD τ).loc main_arg11) :=
  (show W8 m ρ c (Proc.devRef .tc main_arg11) = W7 m ρ c (Proc.devRef .tc main_arg11) from W8_of_ne m ρ c main_arg11 (by decide)).trans (W7_main_arg11 m ρ c)
theorem W9_main_arg11 (c : Dev nD) : W9 m ρ c (Proc.devRef .tc main_arg11) = m ((c : Thread nD τ).loc main_arg11) :=
  (show W9 m ρ c (Proc.devRef .tc main_arg11) = W8 m ρ c (Proc.devRef .tc main_arg11) from W9_of m ρ c main_arg11 (by decide)).trans (W8_main_arg11 m ρ c)
theorem W10_main_arg11 (c : Dev nD) : W10 m ρ c (Proc.devRef .tc main_arg11) = m ((c : Thread nD τ).loc main_arg11) :=
  (show W10 m ρ c (Proc.devRef .tc main_arg11) = W9 m ρ c (Proc.devRef .tc main_arg11) from W10_of m ρ c main_arg11 (by decide)).trans (W9_main_arg11 m ρ c)
theorem W11_main_arg11 (c : Dev nD) : W11 m ρ c (Proc.devRef .tc main_arg11) = m ((c : Thread nD τ).loc main_arg11) :=
  (show W11 m ρ c (Proc.devRef .tc main_arg11) = W10 m ρ c (Proc.devRef .tc main_arg11) from W11_of m ρ c main_arg11 (by decide)).trans (W10_main_arg11 m ρ c)
theorem W12_main_arg11 (c : Dev nD) : W12 m ρ c (Proc.devRef .tc main_arg11) = m ((c : Thread nD τ).loc main_arg11) :=
  (show W12 m ρ c (Proc.devRef .tc main_arg11) = W11 m ρ c (Proc.devRef .tc main_arg11) from W12_of_ne m ρ c main_arg11 (by decide)).trans (W11_main_arg11 m ρ c)
theorem W13_main_arg11 (c : Dev nD) : W13 m ρ c (Proc.devRef .tc main_arg11) = m ((c : Thread nD τ).loc main_arg11) :=
  (show W13 m ρ c (Proc.devRef .tc main_arg11) = W12 m ρ c (Proc.devRef .tc main_arg11) from W13_of_ne m ρ c main_arg11 (by decide)).trans (W12_main_arg11 m ρ c)
theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  (show W1 m ρ c (Proc.devRef .tc main_arg12) = W0 m ρ c (Proc.devRef .tc main_arg12) from W1_of m ρ c main_arg12 (by decide)).trans (W0_main_arg12 m ρ c)
theorem W2_main_arg12 (c : Dev nD) : W2 m ρ c (Proc.devRef .tc main_arg12) = m ((c : Thread nD τ).loc main_arg12) :=
  (show W2 m ρ c (Proc.devRef .tc main_arg12) = W1 m ρ c (Proc.devRef .tc main_arg12) from W2_of m ρ c main_arg12 (by decide)).trans (W1_main_arg12 m ρ c)
theorem W3_main_arg12 (c : Dev nD) : W3 m ρ c (Proc.devRef .tc main_arg12) = m ((c : Thread nD τ).loc main_arg12) :=
  (show W3 m ρ c (Proc.devRef .tc main_arg12) = W2 m ρ c (Proc.devRef .tc main_arg12) from W3_of m ρ c main_arg12 (by decide)).trans (W2_main_arg12 m ρ c)
theorem W4_main_arg12 (c : Dev nD) : W4 m ρ c (Proc.devRef .tc main_arg12) = m ((c : Thread nD τ).loc main_arg12) :=
  (show W4 m ρ c (Proc.devRef .tc main_arg12) = W3 m ρ c (Proc.devRef .tc main_arg12) from W4_of_ne m ρ c main_arg12 (by decide)).trans (W3_main_arg12 m ρ c)
theorem W5_main_arg12 (c : Dev nD) : W5 m ρ c (Proc.devRef .tc main_arg12) = m ((c : Thread nD τ).loc main_arg12) :=
  (show W5 m ρ c (Proc.devRef .tc main_arg12) = W4 m ρ c (Proc.devRef .tc main_arg12) from W5_of m ρ c main_arg12 (by decide)).trans (W4_main_arg12 m ρ c)
theorem W6_main_arg12 (c : Dev nD) : W6 m ρ c (Proc.devRef .tc main_arg12) = m ((c : Thread nD τ).loc main_arg12) :=
  (show W6 m ρ c (Proc.devRef .tc main_arg12) = W5 m ρ c (Proc.devRef .tc main_arg12) from (W6_arr m ρ c 4).trans (((dat1 (V5 m ρ) c).arrAt_in 4 rfl _).trans (A_eq1 (V5 m ρ) c 4))).trans (W5_main_arg12 m ρ c)
theorem W7_main_arg12 (c : Dev nD) : W7 m ρ c (Proc.devRef .tc main_arg12) = m ((c : Thread nD τ).loc main_arg12) :=
  (show W7 m ρ c (Proc.devRef .tc main_arg12) = W6 m ρ c (Proc.devRef .tc main_arg12) from W7_of m ρ c main_arg12 (by decide)).trans (W6_main_arg12 m ρ c)
theorem W8_main_arg12 (c : Dev nD) : W8 m ρ c (Proc.devRef .tc main_arg12) = m ((c : Thread nD τ).loc main_arg12) :=
  (show W8 m ρ c (Proc.devRef .tc main_arg12) = W7 m ρ c (Proc.devRef .tc main_arg12) from W8_of_ne m ρ c main_arg12 (by decide)).trans (W7_main_arg12 m ρ c)
theorem W9_main_arg12 (c : Dev nD) : W9 m ρ c (Proc.devRef .tc main_arg12) = m ((c : Thread nD τ).loc main_arg12) :=
  (show W9 m ρ c (Proc.devRef .tc main_arg12) = W8 m ρ c (Proc.devRef .tc main_arg12) from W9_of m ρ c main_arg12 (by decide)).trans (W8_main_arg12 m ρ c)
theorem W10_main_arg12 (c : Dev nD) : W10 m ρ c (Proc.devRef .tc main_arg12) = m ((c : Thread nD τ).loc main_arg12) :=
  (show W10 m ρ c (Proc.devRef .tc main_arg12) = W9 m ρ c (Proc.devRef .tc main_arg12) from W10_of m ρ c main_arg12 (by decide)).trans (W9_main_arg12 m ρ c)
theorem W11_main_arg12 (c : Dev nD) : W11 m ρ c (Proc.devRef .tc main_arg12) = m ((c : Thread nD τ).loc main_arg12) :=
  (show W11 m ρ c (Proc.devRef .tc main_arg12) = W10 m ρ c (Proc.devRef .tc main_arg12) from W11_of m ρ c main_arg12 (by decide)).trans (W10_main_arg12 m ρ c)
theorem W12_main_arg12 (c : Dev nD) : W12 m ρ c (Proc.devRef .tc main_arg12) = m ((c : Thread nD τ).loc main_arg12) :=
  (show W12 m ρ c (Proc.devRef .tc main_arg12) = W11 m ρ c (Proc.devRef .tc main_arg12) from W12_of_ne m ρ c main_arg12 (by decide)).trans (W11_main_arg12 m ρ c)
theorem W13_main_arg12 (c : Dev nD) : W13 m ρ c (Proc.devRef .tc main_arg12) = m ((c : Thread nD τ).loc main_arg12) :=
  (show W13 m ρ c (Proc.devRef .tc main_arg12) = W12 m ρ c (Proc.devRef .tc main_arg12) from W13_of_ne m ρ c main_arg12 (by decide)).trans (W12_main_arg12 m ρ c)
theorem W0_main_arg13 (c : Dev nD) : W0 m ρ c (Proc.devRef .tc main_arg13) = m ((c : Thread nD τ).loc main_arg13) := rfl
theorem W1_main_arg13 (c : Dev nD) : W1 m ρ c (Proc.devRef .tc main_arg13) = m ((c : Thread nD τ).loc main_arg13) :=
  (show W1 m ρ c (Proc.devRef .tc main_arg13) = W0 m ρ c (Proc.devRef .tc main_arg13) from W1_of m ρ c main_arg13 (by decide)).trans (W0_main_arg13 m ρ c)
theorem W2_main_arg13 (c : Dev nD) : W2 m ρ c (Proc.devRef .tc main_arg13) = m ((c : Thread nD τ).loc main_arg13) :=
  (show W2 m ρ c (Proc.devRef .tc main_arg13) = W1 m ρ c (Proc.devRef .tc main_arg13) from W2_of m ρ c main_arg13 (by decide)).trans (W1_main_arg13 m ρ c)
theorem W3_main_arg13 (c : Dev nD) : W3 m ρ c (Proc.devRef .tc main_arg13) = m ((c : Thread nD τ).loc main_arg13) :=
  (show W3 m ρ c (Proc.devRef .tc main_arg13) = W2 m ρ c (Proc.devRef .tc main_arg13) from W3_of m ρ c main_arg13 (by decide)).trans (W2_main_arg13 m ρ c)
theorem W4_main_arg13 (c : Dev nD) : W4 m ρ c (Proc.devRef .tc main_arg13) = m ((c : Thread nD τ).loc main_arg13) :=
  (show W4 m ρ c (Proc.devRef .tc main_arg13) = W3 m ρ c (Proc.devRef .tc main_arg13) from W4_of_ne m ρ c main_arg13 (by decide)).trans (W3_main_arg13 m ρ c)
theorem W5_main_arg13 (c : Dev nD) : W5 m ρ c (Proc.devRef .tc main_arg13) = m ((c : Thread nD τ).loc main_arg13) :=
  (show W5 m ρ c (Proc.devRef .tc main_arg13) = W4 m ρ c (Proc.devRef .tc main_arg13) from W5_of m ρ c main_arg13 (by decide)).trans (W4_main_arg13 m ρ c)
theorem W6_main_arg13 (c : Dev nD) : W6 m ρ c (Proc.devRef .tc main_arg13) = m ((c : Thread nD τ).loc main_arg13) :=
  (show W6 m ρ c (Proc.devRef .tc main_arg13) = W5 m ρ c (Proc.devRef .tc main_arg13) from (W6_arr m ρ c 3).trans (((dat1 (V5 m ρ) c).arrAt_in 3 rfl _).trans (A_eq1 (V5 m ρ) c 3))).trans (W5_main_arg13 m ρ c)
theorem W7_main_arg13 (c : Dev nD) : W7 m ρ c (Proc.devRef .tc main_arg13) = m ((c : Thread nD τ).loc main_arg13) :=
  (show W7 m ρ c (Proc.devRef .tc main_arg13) = W6 m ρ c (Proc.devRef .tc main_arg13) from W7_of m ρ c main_arg13 (by decide)).trans (W6_main_arg13 m ρ c)
theorem W8_main_arg13 (c : Dev nD) : W8 m ρ c (Proc.devRef .tc main_arg13) = m ((c : Thread nD τ).loc main_arg13) :=
  (show W8 m ρ c (Proc.devRef .tc main_arg13) = W7 m ρ c (Proc.devRef .tc main_arg13) from W8_of_ne m ρ c main_arg13 (by decide)).trans (W7_main_arg13 m ρ c)
theorem W9_main_arg13 (c : Dev nD) : W9 m ρ c (Proc.devRef .tc main_arg13) = m ((c : Thread nD τ).loc main_arg13) :=
  (show W9 m ρ c (Proc.devRef .tc main_arg13) = W8 m ρ c (Proc.devRef .tc main_arg13) from W9_of m ρ c main_arg13 (by decide)).trans (W8_main_arg13 m ρ c)
theorem W10_main_arg13 (c : Dev nD) : W10 m ρ c (Proc.devRef .tc main_arg13) = m ((c : Thread nD τ).loc main_arg13) :=
  (show W10 m ρ c (Proc.devRef .tc main_arg13) = W9 m ρ c (Proc.devRef .tc main_arg13) from W10_of m ρ c main_arg13 (by decide)).trans (W9_main_arg13 m ρ c)
theorem W11_main_arg13 (c : Dev nD) : W11 m ρ c (Proc.devRef .tc main_arg13) = m ((c : Thread nD τ).loc main_arg13) :=
  (show W11 m ρ c (Proc.devRef .tc main_arg13) = W10 m ρ c (Proc.devRef .tc main_arg13) from W11_of m ρ c main_arg13 (by decide)).trans (W10_main_arg13 m ρ c)
theorem W12_main_arg13 (c : Dev nD) : W12 m ρ c (Proc.devRef .tc main_arg13) = m ((c : Thread nD τ).loc main_arg13) :=
  (show W12 m ρ c (Proc.devRef .tc main_arg13) = W11 m ρ c (Proc.devRef .tc main_arg13) from W12_of_ne m ρ c main_arg13 (by decide)).trans (W11_main_arg13 m ρ c)
theorem W13_main_arg13 (c : Dev nD) : W13 m ρ c (Proc.devRef .tc main_arg13) = m ((c : Thread nD τ).loc main_arg13) :=
  (show W13 m ρ c (Proc.devRef .tc main_arg13) = W12 m ρ c (Proc.devRef .tc main_arg13) from W13_of_ne m ρ c main_arg13 (by decide)).trans (W12_main_arg13 m ρ c)
theorem W0_main_arg14 (c : Dev nD) : W0 m ρ c (Proc.devRef .tc main_arg14) = m ((c : Thread nD τ).loc main_arg14) := rfl
theorem W1_main_arg14 (c : Dev nD) : W1 m ρ c (Proc.devRef .tc main_arg14) = m ((c : Thread nD τ).loc main_arg14) :=
  (show W1 m ρ c (Proc.devRef .tc main_arg14) = W0 m ρ c (Proc.devRef .tc main_arg14) from W1_of m ρ c main_arg14 (by decide)).trans (W0_main_arg14 m ρ c)
theorem W2_main_arg14 (c : Dev nD) : W2 m ρ c (Proc.devRef .tc main_arg14) = m ((c : Thread nD τ).loc main_arg14) :=
  (show W2 m ρ c (Proc.devRef .tc main_arg14) = W1 m ρ c (Proc.devRef .tc main_arg14) from W2_of m ρ c main_arg14 (by decide)).trans (W1_main_arg14 m ρ c)
theorem W3_main_arg14 (c : Dev nD) : W3 m ρ c (Proc.devRef .tc main_arg14) = m ((c : Thread nD τ).loc main_arg14) :=
  (show W3 m ρ c (Proc.devRef .tc main_arg14) = W2 m ρ c (Proc.devRef .tc main_arg14) from W3_of m ρ c main_arg14 (by decide)).trans (W2_main_arg14 m ρ c)
theorem W4_main_arg14 (c : Dev nD) : W4 m ρ c (Proc.devRef .tc main_arg14) = m ((c : Thread nD τ).loc main_arg14) :=
  (show W4 m ρ c (Proc.devRef .tc main_arg14) = W3 m ρ c (Proc.devRef .tc main_arg14) from W4_of_ne m ρ c main_arg14 (by decide)).trans (W3_main_arg14 m ρ c)
theorem W5_main_arg14 (c : Dev nD) : W5 m ρ c (Proc.devRef .tc main_arg14) = m ((c : Thread nD τ).loc main_arg14) :=
  (show W5 m ρ c (Proc.devRef .tc main_arg14) = W4 m ρ c (Proc.devRef .tc main_arg14) from W5_of m ρ c main_arg14 (by decide)).trans (W4_main_arg14 m ρ c)
theorem W6_main_arg14 (c : Dev nD) : W6 m ρ c (Proc.devRef .tc main_arg14) = m ((c : Thread nD τ).loc main_arg14) :=
  (show W6 m ρ c (Proc.devRef .tc main_arg14) = W5 m ρ c (Proc.devRef .tc main_arg14) from W6_of_ne m ρ c main_arg14 (by decide)).trans (W5_main_arg14 m ρ c)
theorem W7_main_arg14 (c : Dev nD) : W7 m ρ c (Proc.devRef .tc main_arg14) = m ((c : Thread nD τ).loc main_arg14) :=
  (show W7 m ρ c (Proc.devRef .tc main_arg14) = W6 m ρ c (Proc.devRef .tc main_arg14) from W7_of m ρ c main_arg14 (by decide)).trans (W6_main_arg14 m ρ c)
theorem W8_main_arg14 (c : Dev nD) : W8 m ρ c (Proc.devRef .tc main_arg14) = m ((c : Thread nD τ).loc main_arg14) :=
  (show W8 m ρ c (Proc.devRef .tc main_arg14) = W7 m ρ c (Proc.devRef .tc main_arg14) from (W8_arr m ρ c 1).trans (((dat2 (V7 m ρ) c).arrAt_in 1 rfl _).trans (A_eq2 (V7 m ρ) c 1))).trans (W7_main_arg14 m ρ c)
theorem W9_main_arg14 (c : Dev nD) : W9 m ρ c (Proc.devRef .tc main_arg14) = m ((c : Thread nD τ).loc main_arg14) :=
  (show W9 m ρ c (Proc.devRef .tc main_arg14) = W8 m ρ c (Proc.devRef .tc main_arg14) from W9_of m ρ c main_arg14 (by decide)).trans (W8_main_arg14 m ρ c)
theorem W10_main_arg14 (c : Dev nD) : W10 m ρ c (Proc.devRef .tc main_arg14) = m ((c : Thread nD τ).loc main_arg14) :=
  (show W10 m ρ c (Proc.devRef .tc main_arg14) = W9 m ρ c (Proc.devRef .tc main_arg14) from W10_of m ρ c main_arg14 (by decide)).trans (W9_main_arg14 m ρ c)
theorem W11_main_arg14 (c : Dev nD) : W11 m ρ c (Proc.devRef .tc main_arg14) = m ((c : Thread nD τ).loc main_arg14) :=
  (show W11 m ρ c (Proc.devRef .tc main_arg14) = W10 m ρ c (Proc.devRef .tc main_arg14) from W11_of m ρ c main_arg14 (by decide)).trans (W10_main_arg14 m ρ c)
theorem W12_main_arg14 (c : Dev nD) : W12 m ρ c (Proc.devRef .tc main_arg14) = m ((c : Thread nD τ).loc main_arg14) :=
  (show W12 m ρ c (Proc.devRef .tc main_arg14) = W11 m ρ c (Proc.devRef .tc main_arg14) from W12_of_ne m ρ c main_arg14 (by decide)).trans (W11_main_arg14 m ρ c)
theorem W13_main_arg14 (c : Dev nD) : W13 m ρ c (Proc.devRef .tc main_arg14) = m ((c : Thread nD τ).loc main_arg14) :=
  (show W13 m ρ c (Proc.devRef .tc main_arg14) = W12 m ρ c (Proc.devRef .tc main_arg14) from W13_of_ne m ρ c main_arg14 (by decide)).trans (W12_main_arg14 m ρ c)
theorem W0_main_arg15 (c : Dev nD) : W0 m ρ c (Proc.devRef .tc main_arg15) = m ((c : Thread nD τ).loc main_arg15) := rfl
theorem W1_main_arg15 (c : Dev nD) : W1 m ρ c (Proc.devRef .tc main_arg15) = m ((c : Thread nD τ).loc main_arg15) :=
  (show W1 m ρ c (Proc.devRef .tc main_arg15) = W0 m ρ c (Proc.devRef .tc main_arg15) from W1_of m ρ c main_arg15 (by decide)).trans (W0_main_arg15 m ρ c)
theorem W2_main_arg15 (c : Dev nD) : W2 m ρ c (Proc.devRef .tc main_arg15) = m ((c : Thread nD τ).loc main_arg15) :=
  (show W2 m ρ c (Proc.devRef .tc main_arg15) = W1 m ρ c (Proc.devRef .tc main_arg15) from W2_of m ρ c main_arg15 (by decide)).trans (W1_main_arg15 m ρ c)
theorem W3_main_arg15 (c : Dev nD) : W3 m ρ c (Proc.devRef .tc main_arg15) = m ((c : Thread nD τ).loc main_arg15) :=
  (show W3 m ρ c (Proc.devRef .tc main_arg15) = W2 m ρ c (Proc.devRef .tc main_arg15) from W3_of m ρ c main_arg15 (by decide)).trans (W2_main_arg15 m ρ c)
theorem W4_main_arg15 (c : Dev nD) : W4 m ρ c (Proc.devRef .tc main_arg15) = m ((c : Thread nD τ).loc main_arg15) :=
  (show W4 m ρ c (Proc.devRef .tc main_arg15) = W3 m ρ c (Proc.devRef .tc main_arg15) from W4_of_ne m ρ c main_arg15 (by decide)).trans (W3_main_arg15 m ρ c)
theorem W5_main_arg15 (c : Dev nD) : W5 m ρ c (Proc.devRef .tc main_arg15) = m ((c : Thread nD τ).loc main_arg15) :=
  (show W5 m ρ c (Proc.devRef .tc main_arg15) = W4 m ρ c (Proc.devRef .tc main_arg15) from W5_of m ρ c main_arg15 (by decide)).trans (W4_main_arg15 m ρ c)
theorem W6_main_arg15 (c : Dev nD) : W6 m ρ c (Proc.devRef .tc main_arg15) = m ((c : Thread nD τ).loc main_arg15) :=
  (show W6 m ρ c (Proc.devRef .tc main_arg15) = W5 m ρ c (Proc.devRef .tc main_arg15) from W6_of_ne m ρ c main_arg15 (by decide)).trans (W5_main_arg15 m ρ c)
theorem W7_main_arg15 (c : Dev nD) : W7 m ρ c (Proc.devRef .tc main_arg15) = m ((c : Thread nD τ).loc main_arg15) :=
  (show W7 m ρ c (Proc.devRef .tc main_arg15) = W6 m ρ c (Proc.devRef .tc main_arg15) from W7_of m ρ c main_arg15 (by decide)).trans (W6_main_arg15 m ρ c)
theorem W8_main_arg15 (c : Dev nD) : W8 m ρ c (Proc.devRef .tc main_arg15) = m ((c : Thread nD τ).loc main_arg15) :=
  (show W8 m ρ c (Proc.devRef .tc main_arg15) = W7 m ρ c (Proc.devRef .tc main_arg15) from (W8_arr m ρ c 4).trans (((dat2 (V7 m ρ) c).arrAt_in 4 rfl _).trans (A_eq2 (V7 m ρ) c 4))).trans (W7_main_arg15 m ρ c)
theorem W9_main_arg15 (c : Dev nD) : W9 m ρ c (Proc.devRef .tc main_arg15) = m ((c : Thread nD τ).loc main_arg15) :=
  (show W9 m ρ c (Proc.devRef .tc main_arg15) = W8 m ρ c (Proc.devRef .tc main_arg15) from W9_of m ρ c main_arg15 (by decide)).trans (W8_main_arg15 m ρ c)
theorem W10_main_arg15 (c : Dev nD) : W10 m ρ c (Proc.devRef .tc main_arg15) = m ((c : Thread nD τ).loc main_arg15) :=
  (show W10 m ρ c (Proc.devRef .tc main_arg15) = W9 m ρ c (Proc.devRef .tc main_arg15) from W10_of m ρ c main_arg15 (by decide)).trans (W9_main_arg15 m ρ c)
theorem W11_main_arg15 (c : Dev nD) : W11 m ρ c (Proc.devRef .tc main_arg15) = m ((c : Thread nD τ).loc main_arg15) :=
  (show W11 m ρ c (Proc.devRef .tc main_arg15) = W10 m ρ c (Proc.devRef .tc main_arg15) from W11_of m ρ c main_arg15 (by decide)).trans (W10_main_arg15 m ρ c)
theorem W12_main_arg15 (c : Dev nD) : W12 m ρ c (Proc.devRef .tc main_arg15) = m ((c : Thread nD τ).loc main_arg15) :=
  (show W12 m ρ c (Proc.devRef .tc main_arg15) = W11 m ρ c (Proc.devRef .tc main_arg15) from W12_of_ne m ρ c main_arg15 (by decide)).trans (W11_main_arg15 m ρ c)
theorem W13_main_arg15 (c : Dev nD) : W13 m ρ c (Proc.devRef .tc main_arg15) = m ((c : Thread nD τ).loc main_arg15) :=
  (show W13 m ρ c (Proc.devRef .tc main_arg15) = W12 m ρ c (Proc.devRef .tc main_arg15) from W13_of_ne m ρ c main_arg15 (by decide)).trans (W12_main_arg15 m ρ c)
theorem W0_main_arg16 (c : Dev nD) : W0 m ρ c (Proc.devRef .tc main_arg16) = m ((c : Thread nD τ).loc main_arg16) := rfl
theorem W1_main_arg16 (c : Dev nD) : W1 m ρ c (Proc.devRef .tc main_arg16) = m ((c : Thread nD τ).loc main_arg16) :=
  (show W1 m ρ c (Proc.devRef .tc main_arg16) = W0 m ρ c (Proc.devRef .tc main_arg16) from W1_of m ρ c main_arg16 (by decide)).trans (W0_main_arg16 m ρ c)
theorem W2_main_arg16 (c : Dev nD) : W2 m ρ c (Proc.devRef .tc main_arg16) = m ((c : Thread nD τ).loc main_arg16) :=
  (show W2 m ρ c (Proc.devRef .tc main_arg16) = W1 m ρ c (Proc.devRef .tc main_arg16) from W2_of m ρ c main_arg16 (by decide)).trans (W1_main_arg16 m ρ c)
theorem W3_main_arg16 (c : Dev nD) : W3 m ρ c (Proc.devRef .tc main_arg16) = m ((c : Thread nD τ).loc main_arg16) :=
  (show W3 m ρ c (Proc.devRef .tc main_arg16) = W2 m ρ c (Proc.devRef .tc main_arg16) from W3_of m ρ c main_arg16 (by decide)).trans (W2_main_arg16 m ρ c)
theorem W4_main_arg16 (c : Dev nD) : W4 m ρ c (Proc.devRef .tc main_arg16) = m ((c : Thread nD τ).loc main_arg16) :=
  (show W4 m ρ c (Proc.devRef .tc main_arg16) = W3 m ρ c (Proc.devRef .tc main_arg16) from W4_of_ne m ρ c main_arg16 (by decide)).trans (W3_main_arg16 m ρ c)
theorem W5_main_arg16 (c : Dev nD) : W5 m ρ c (Proc.devRef .tc main_arg16) = m ((c : Thread nD τ).loc main_arg16) :=
  (show W5 m ρ c (Proc.devRef .tc main_arg16) = W4 m ρ c (Proc.devRef .tc main_arg16) from W5_of m ρ c main_arg16 (by decide)).trans (W4_main_arg16 m ρ c)
theorem W6_main_arg16 (c : Dev nD) : W6 m ρ c (Proc.devRef .tc main_arg16) = m ((c : Thread nD τ).loc main_arg16) :=
  (show W6 m ρ c (Proc.devRef .tc main_arg16) = W5 m ρ c (Proc.devRef .tc main_arg16) from W6_of_ne m ρ c main_arg16 (by decide)).trans (W5_main_arg16 m ρ c)
theorem W7_main_arg16 (c : Dev nD) : W7 m ρ c (Proc.devRef .tc main_arg16) = m ((c : Thread nD τ).loc main_arg16) :=
  (show W7 m ρ c (Proc.devRef .tc main_arg16) = W6 m ρ c (Proc.devRef .tc main_arg16) from W7_of m ρ c main_arg16 (by decide)).trans (W6_main_arg16 m ρ c)
theorem W8_main_arg16 (c : Dev nD) : W8 m ρ c (Proc.devRef .tc main_arg16) = m ((c : Thread nD τ).loc main_arg16) :=
  (show W8 m ρ c (Proc.devRef .tc main_arg16) = W7 m ρ c (Proc.devRef .tc main_arg16) from (W8_arr m ρ c 3).trans (((dat2 (V7 m ρ) c).arrAt_in 3 rfl _).trans (A_eq2 (V7 m ρ) c 3))).trans (W7_main_arg16 m ρ c)
theorem W9_main_arg16 (c : Dev nD) : W9 m ρ c (Proc.devRef .tc main_arg16) = m ((c : Thread nD τ).loc main_arg16) :=
  (show W9 m ρ c (Proc.devRef .tc main_arg16) = W8 m ρ c (Proc.devRef .tc main_arg16) from W9_of m ρ c main_arg16 (by decide)).trans (W8_main_arg16 m ρ c)
theorem W10_main_arg16 (c : Dev nD) : W10 m ρ c (Proc.devRef .tc main_arg16) = m ((c : Thread nD τ).loc main_arg16) :=
  (show W10 m ρ c (Proc.devRef .tc main_arg16) = W9 m ρ c (Proc.devRef .tc main_arg16) from W10_of m ρ c main_arg16 (by decide)).trans (W9_main_arg16 m ρ c)
theorem W11_main_arg16 (c : Dev nD) : W11 m ρ c (Proc.devRef .tc main_arg16) = m ((c : Thread nD τ).loc main_arg16) :=
  (show W11 m ρ c (Proc.devRef .tc main_arg16) = W10 m ρ c (Proc.devRef .tc main_arg16) from W11_of m ρ c main_arg16 (by decide)).trans (W10_main_arg16 m ρ c)
theorem W12_main_arg16 (c : Dev nD) : W12 m ρ c (Proc.devRef .tc main_arg16) = m ((c : Thread nD τ).loc main_arg16) :=
  (show W12 m ρ c (Proc.devRef .tc main_arg16) = W11 m ρ c (Proc.devRef .tc main_arg16) from W12_of_ne m ρ c main_arg16 (by decide)).trans (W11_main_arg16 m ρ c)
theorem W13_main_arg16 (c : Dev nD) : W13 m ρ c (Proc.devRef .tc main_arg16) = m ((c : Thread nD τ).loc main_arg16) :=
  (show W13 m ρ c (Proc.devRef .tc main_arg16) = W12 m ρ c (Proc.devRef .tc main_arg16) from W13_of_ne m ρ c main_arg16 (by decide)).trans (W12_main_arg16 m ρ c)
theorem W0_main_arg17 (c : Dev nD) : W0 m ρ c (Proc.devRef .tc main_arg17) = m ((c : Thread nD τ).loc main_arg17) := rfl
theorem W1_main_arg17 (c : Dev nD) : W1 m ρ c (Proc.devRef .tc main_arg17) = m ((c : Thread nD τ).loc main_arg17) :=
  (show W1 m ρ c (Proc.devRef .tc main_arg17) = W0 m ρ c (Proc.devRef .tc main_arg17) from W1_of m ρ c main_arg17 (by decide)).trans (W0_main_arg17 m ρ c)
theorem W2_main_arg17 (c : Dev nD) : W2 m ρ c (Proc.devRef .tc main_arg17) = m ((c : Thread nD τ).loc main_arg17) :=
  (show W2 m ρ c (Proc.devRef .tc main_arg17) = W1 m ρ c (Proc.devRef .tc main_arg17) from W2_of m ρ c main_arg17 (by decide)).trans (W1_main_arg17 m ρ c)
theorem W3_main_arg17 (c : Dev nD) : W3 m ρ c (Proc.devRef .tc main_arg17) = m ((c : Thread nD τ).loc main_arg17) :=
  (show W3 m ρ c (Proc.devRef .tc main_arg17) = W2 m ρ c (Proc.devRef .tc main_arg17) from W3_of m ρ c main_arg17 (by decide)).trans (W2_main_arg17 m ρ c)
theorem W4_main_arg17 (c : Dev nD) : W4 m ρ c (Proc.devRef .tc main_arg17) = m ((c : Thread nD τ).loc main_arg17) :=
  (show W4 m ρ c (Proc.devRef .tc main_arg17) = W3 m ρ c (Proc.devRef .tc main_arg17) from W4_of_ne m ρ c main_arg17 (by decide)).trans (W3_main_arg17 m ρ c)
theorem W5_main_arg17 (c : Dev nD) : W5 m ρ c (Proc.devRef .tc main_arg17) = m ((c : Thread nD τ).loc main_arg17) :=
  (show W5 m ρ c (Proc.devRef .tc main_arg17) = W4 m ρ c (Proc.devRef .tc main_arg17) from W5_of m ρ c main_arg17 (by decide)).trans (W4_main_arg17 m ρ c)
theorem W6_main_arg17 (c : Dev nD) : W6 m ρ c (Proc.devRef .tc main_arg17) = m ((c : Thread nD τ).loc main_arg17) :=
  (show W6 m ρ c (Proc.devRef .tc main_arg17) = W5 m ρ c (Proc.devRef .tc main_arg17) from W6_of_ne m ρ c main_arg17 (by decide)).trans (W5_main_arg17 m ρ c)
theorem W7_main_arg17 (c : Dev nD) : W7 m ρ c (Proc.devRef .tc main_arg17) = m ((c : Thread nD τ).loc main_arg17) :=
  (show W7 m ρ c (Proc.devRef .tc main_arg17) = W6 m ρ c (Proc.devRef .tc main_arg17) from W7_of m ρ c main_arg17 (by decide)).trans (W6_main_arg17 m ρ c)
theorem W8_main_arg17 (c : Dev nD) : W8 m ρ c (Proc.devRef .tc main_arg17) = m ((c : Thread nD τ).loc main_arg17) :=
  (show W8 m ρ c (Proc.devRef .tc main_arg17) = W7 m ρ c (Proc.devRef .tc main_arg17) from W8_of_ne m ρ c main_arg17 (by decide)).trans (W7_main_arg17 m ρ c)
theorem W9_main_arg17 (c : Dev nD) : W9 m ρ c (Proc.devRef .tc main_arg17) = m ((c : Thread nD τ).loc main_arg17) :=
  (show W9 m ρ c (Proc.devRef .tc main_arg17) = W8 m ρ c (Proc.devRef .tc main_arg17) from W9_of m ρ c main_arg17 (by decide)).trans (W8_main_arg17 m ρ c)
theorem W10_main_arg17 (c : Dev nD) : W10 m ρ c (Proc.devRef .tc main_arg17) = m ((c : Thread nD τ).loc main_arg17) :=
  (show W10 m ρ c (Proc.devRef .tc main_arg17) = W9 m ρ c (Proc.devRef .tc main_arg17) from W10_of m ρ c main_arg17 (by decide)).trans (W9_main_arg17 m ρ c)
theorem W11_main_arg17 (c : Dev nD) : W11 m ρ c (Proc.devRef .tc main_arg17) = m ((c : Thread nD τ).loc main_arg17) :=
  (show W11 m ρ c (Proc.devRef .tc main_arg17) = W10 m ρ c (Proc.devRef .tc main_arg17) from W11_of m ρ c main_arg17 (by decide)).trans (W10_main_arg17 m ρ c)
theorem W12_main_arg17 (c : Dev nD) : W12 m ρ c (Proc.devRef .tc main_arg17) = m ((c : Thread nD τ).loc main_arg17) :=
  (show W12 m ρ c (Proc.devRef .tc main_arg17) = W11 m ρ c (Proc.devRef .tc main_arg17) from W12_of_ne m ρ c main_arg17 (by decide)).trans (W11_main_arg17 m ρ c)
theorem W13_main_arg17 (c : Dev nD) : W13 m ρ c (Proc.devRef .tc main_arg17) = m ((c : Thread nD τ).loc main_arg17) :=
  (show W13 m ρ c (Proc.devRef .tc main_arg17) = W12 m ρ c (Proc.devRef .tc main_arg17) from (W13_arr m ρ c 1).trans (((dat4 (V12 m ρ) c).arrAt_in 1 rfl _).trans (A_eq4 (V12 m ρ) c 1))).trans (W12_main_arg17 m ρ c)
theorem W0_main_arg18 (c : Dev nD) : W0 m ρ c (Proc.devRef .tc main_arg18) = m ((c : Thread nD τ).loc main_arg18) := rfl
theorem W1_main_arg18 (c : Dev nD) : W1 m ρ c (Proc.devRef .tc main_arg18) = m ((c : Thread nD τ).loc main_arg18) :=
  (show W1 m ρ c (Proc.devRef .tc main_arg18) = W0 m ρ c (Proc.devRef .tc main_arg18) from W1_of m ρ c main_arg18 (by decide)).trans (W0_main_arg18 m ρ c)
theorem W2_main_arg18 (c : Dev nD) : W2 m ρ c (Proc.devRef .tc main_arg18) = m ((c : Thread nD τ).loc main_arg18) :=
  (show W2 m ρ c (Proc.devRef .tc main_arg18) = W1 m ρ c (Proc.devRef .tc main_arg18) from W2_of m ρ c main_arg18 (by decide)).trans (W1_main_arg18 m ρ c)
theorem W3_main_arg18 (c : Dev nD) : W3 m ρ c (Proc.devRef .tc main_arg18) = m ((c : Thread nD τ).loc main_arg18) :=
  (show W3 m ρ c (Proc.devRef .tc main_arg18) = W2 m ρ c (Proc.devRef .tc main_arg18) from W3_of m ρ c main_arg18 (by decide)).trans (W2_main_arg18 m ρ c)
theorem W4_main_arg18 (c : Dev nD) : W4 m ρ c (Proc.devRef .tc main_arg18) = m ((c : Thread nD τ).loc main_arg18) :=
  (show W4 m ρ c (Proc.devRef .tc main_arg18) = W3 m ρ c (Proc.devRef .tc main_arg18) from W4_of_ne m ρ c main_arg18 (by decide)).trans (W3_main_arg18 m ρ c)
theorem W5_main_arg18 (c : Dev nD) : W5 m ρ c (Proc.devRef .tc main_arg18) = m ((c : Thread nD τ).loc main_arg18) :=
  (show W5 m ρ c (Proc.devRef .tc main_arg18) = W4 m ρ c (Proc.devRef .tc main_arg18) from W5_of m ρ c main_arg18 (by decide)).trans (W4_main_arg18 m ρ c)
theorem W6_main_arg18 (c : Dev nD) : W6 m ρ c (Proc.devRef .tc main_arg18) = m ((c : Thread nD τ).loc main_arg18) :=
  (show W6 m ρ c (Proc.devRef .tc main_arg18) = W5 m ρ c (Proc.devRef .tc main_arg18) from W6_of_ne m ρ c main_arg18 (by decide)).trans (W5_main_arg18 m ρ c)
theorem W7_main_arg18 (c : Dev nD) : W7 m ρ c (Proc.devRef .tc main_arg18) = m ((c : Thread nD τ).loc main_arg18) :=
  (show W7 m ρ c (Proc.devRef .tc main_arg18) = W6 m ρ c (Proc.devRef .tc main_arg18) from W7_of m ρ c main_arg18 (by decide)).trans (W6_main_arg18 m ρ c)
theorem W8_main_arg18 (c : Dev nD) : W8 m ρ c (Proc.devRef .tc main_arg18) = m ((c : Thread nD τ).loc main_arg18) :=
  (show W8 m ρ c (Proc.devRef .tc main_arg18) = W7 m ρ c (Proc.devRef .tc main_arg18) from W8_of_ne m ρ c main_arg18 (by decide)).trans (W7_main_arg18 m ρ c)
theorem W9_main_arg18 (c : Dev nD) : W9 m ρ c (Proc.devRef .tc main_arg18) = m ((c : Thread nD τ).loc main_arg18) :=
  (show W9 m ρ c (Proc.devRef .tc main_arg18) = W8 m ρ c (Proc.devRef .tc main_arg18) from W9_of m ρ c main_arg18 (by decide)).trans (W8_main_arg18 m ρ c)
theorem W10_main_arg18 (c : Dev nD) : W10 m ρ c (Proc.devRef .tc main_arg18) = m ((c : Thread nD τ).loc main_arg18) :=
  (show W10 m ρ c (Proc.devRef .tc main_arg18) = W9 m ρ c (Proc.devRef .tc main_arg18) from W10_of m ρ c main_arg18 (by decide)).trans (W9_main_arg18 m ρ c)
theorem W11_main_arg18 (c : Dev nD) : W11 m ρ c (Proc.devRef .tc main_arg18) = m ((c : Thread nD τ).loc main_arg18) :=
  (show W11 m ρ c (Proc.devRef .tc main_arg18) = W10 m ρ c (Proc.devRef .tc main_arg18) from W11_of m ρ c main_arg18 (by decide)).trans (W10_main_arg18 m ρ c)
theorem W12_main_arg18 (c : Dev nD) : W12 m ρ c (Proc.devRef .tc main_arg18) = m ((c : Thread nD τ).loc main_arg18) :=
  (show W12 m ρ c (Proc.devRef .tc main_arg18) = W11 m ρ c (Proc.devRef .tc main_arg18) from W12_of_ne m ρ c main_arg18 (by decide)).trans (W11_main_arg18 m ρ c)
theorem W13_main_arg18 (c : Dev nD) : W13 m ρ c (Proc.devRef .tc main_arg18) = m ((c : Thread nD τ).loc main_arg18) :=
  (show W13 m ρ c (Proc.devRef .tc main_arg18) = W12 m ρ c (Proc.devRef .tc main_arg18) from (W13_arr m ρ c 2).trans (((dat4 (V12 m ρ) c).arrAt_in 2 rfl _).trans (A_eq4 (V12 m ρ) c 2))).trans (W12_main_arg18 m ρ c)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V12 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every buffer at the last boundary's contents, the generator register at some state. -/
abbrev Tₙ (c : Dev nD) : sProp 𝕄 := iprop(StableHlo.held (c : Thread nD τ) (Pipeline.ucRefs τ sig) (W13 m ρ c) ∗ ∃ r, prngReg c r)

/-! ## The regions as items of the run -/

set_option backward.isDefEq.respectTransparency.types false in
/-- Region 0: entered from every buffer at the boundary before it, left at the boundary after it; its arrays are split out of
    the buffers and put back at the exit contents, the generator register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at the boundary before it, left at the boundary after it; its arrays are split out of
    the buffers and put back at the exit contents, the generator register goes into the region's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every buffer at the boundary before it, left at the boundary after it; its arrays are split out of
    the buffers and put back at the exit contents, the generator register goes into the region's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every buffer at the boundary before it, left at the boundary after it; its arrays are split out of
    the buffers and put back at the exit contents, the generator register goes into the region's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every buffer at the boundary before it, left at the boundary after it; its arrays are split out of
    the buffers and put back at the exit contents, the generator register goes into the region's invariant and comes back. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the items' run, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .region (reg4 m ρ) ]

theorem main_run (c : Dev nD) : main (F := F) c = Pipeline.Seg.run (segs m ρ) := (main_chain c).trans (by chain_rfl)

set_option backward.isDefEq.respectTransparency.types false in
/-- Every weakly fair execution of @main from memory m with zero counters terminates, nothing faulting, and in the final
    state every buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Fr

end
-- ==== Proof.K.R0.lean ====
/-
  Region 0 of the word-level kernel program: the first feature combine, relu (h0·W0 + h1·W1 + h2·W2 + b) on
  1000-row blocks of the stacked propagated features. What each window's staging buffer holds before and after
  the body at a grid point, the body's triple, and the pipeline's proof data at the region-entry contents V.
-/
import proofs.«106568_j42528766165971_1_alg».proof.Proof.Gen.Kernel.Launch
import proofs.«106568_j42528766165971_1_alg».proof.Proof.Gen.Kernel.Skeleton
import proofs.«106568_j42528766165971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rH0 : Rect S3x1000x5 := Rect.unit (s := S3x1000x5) ![0, 0, 0] S1x1000x5.size inb_S3x1000x5_S1x1000x5_0_0_0
abbrev rH1 : Rect S3x1000x5 := Rect.unit (s := S3x1000x5) ![1, 0, 0] S1x1000x5.size inb_S3x1000x5_S1x1000x5_1_0_0
abbrev rH2 : Rect S3x1000x5 := Rect.unit (s := S3x1000x5) ![2, 0, 0] S1x1000x5.size inb_S3x1000x5_S1x1000x5_2_0_0
abbrev rW0 : Rect S3x5x64 := Rect.unit (s := S3x5x64) ![0, 0, 0] S1x5x64.size inb_S3x5x64_S1x5x64_0_0_0
abbrev rW1 : Rect S3x5x64 := Rect.unit (s := S3x5x64) ![1, 0, 0] S1x5x64.size inb_S3x5x64_S1x5x64_1_0_0
abbrev rW2 : Rect S3x5x64 := Rect.unit (s := S3x5x64) ![2, 0, 0] S1x5x64.size inb_S3x5x64_S1x5x64_2_0_0
abbrev rB0 : Rect S64 := Rect.unit (s := S64) ![0] S64.size inb_S64_S64_0
abbrev rO0 : Rect S1000x64 := Rect.unit (s := S1000x64) ![0, 0] S1000x64.size inb_S1000x64_S1000x64_0_0

/-- The output window's buffer after the body, from the three input blocks: the one whole-block store. -/
def out0_3 (x0 : Vec F S3x1000x5 .f32) (x1 : Vec F S3x5x64 .f32) (x2 : Vec F S64 .f32) : Vec F S1000x64 .f32 :=
  View.canon [⟨rO0, k0_pay1 (View.ld x0 rH0) (View.ld x1 rW0) (View.ld x0 rH1) (View.ld x1 rW1) (View.ld x0 rH2) (View.ld x1 rW2) (View.ld x2 rB0)⟩]

/-- The one store covers the whole buffer. -/
theorem cover0_3 (p0 : Vec F S1000x64 .f32) (y : S1000x64.Idx) :
    ∃ pc ∈ ([⟨rO0, p0⟩] : List (View.Piece (Elt F) S1000x64 .f32)), y ∈ pc.1.set :=
  View.cover_of_tiled [⟨rO0, p0⟩] S1000x64.size (by rfl) y

/-! ## The body's triple -/

set_option maxHeartbeats 4000000 in
theorem sound_kernel0 (c : Dev nD) (E : Set ℕ) (i : grid0.Coords)
    (arg1 : Memref sig .tc .vmem S3x1000x5 .f32) (harg1 : arg1.IsWhole) (arg2 : Memref sig .tc .vmem S3x5x64 .f32) (harg2 : arg2.IsWhole)
    (arg3 : Memref sig .tc .vmem S64 .f32) (harg3 : arg3.IsWhole) (arg4 : Memref sig .tc .vmem S1000x64 .f32) (harg4 : arg4.IsWhole)
    (x0 : Vec F S3x1000x5 .f32) (x1 : Vec F S3x5x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tag_combine_kernel i arg1 harg1 arg2 harg2 arg3 harg3 arg4 harg4) K := by
  simp only [cc0__tag_combine_kernel_eq_skeleton]; unfold cc0__tag_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1.lean ====
/-
  Region 1 of the word-level kernel program: the first bilinear stage, relu (a·Wa + s·Ws + b) on
  1000-row blocks of the aggregated neighbour features a and the node features s.
  What each window's staging buffer holds before and after the body at a grid point, the body's triple, and the
  pipeline's proof data at the region-entry contents V.
-/
import proofs.«106568_j42528766165971_1_alg».proof.Proof.Gen.Kernel.Launch
import proofs.«106568_j42528766165971_1_alg».proof.Proof.Gen.Kernel.Skeleton
import proofs.«106568_j42528766165971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rA1 : Rect S1000x64 := Rect.unit (s := S1000x64) ![0, 0] S1000x64.size inb_S1000x64_S1000x64_0_0
abbrev rWa1 : Rect S64x64 := Rect.unit (s := S64x64) ![0, 0] S64x64.size inb_S64x64_S64x64_0_0
abbrev rS1 : Rect S1000x6 := Rect.unit (s := S1000x6) ![0, 0] S1000x6.size inb_S1000x6_S1000x6_0_0
abbrev rWs1 : Rect S6x64 := Rect.unit (s := S6x64) ![0, 0] S6x64.size inb_S6x64_S6x64_0_0
abbrev rB1 : Rect S64 := Rect.unit (s := S64) ![0] S64.size inb_S64_S64_0
abbrev rO1 : Rect S1000x64 := Rect.unit (s := S1000x64) ![0, 0] S1000x64.size inb_S1000x64_S1000x64_0_0

/-- The output window's buffer after the body, from the 5 input blocks: the one whole-block store. -/
def out1_5 (x0 : Vec F S1000x64 .f32) (x1 : Vec F S64x64 .f32) (x2 : Vec F S1000x6 .f32) (x3 : Vec F S6x64 .f32) (x4 : Vec F S64 .f32) : Vec F S1000x64 .f32 :=
  View.canon [⟨rO1, k1_pay1 (View.ld x0 rA1) (View.ld x1 rWa1) (View.ld x2 rS1) (View.ld x3 rWs1) (View.ld x4 rB1)⟩]

/-- The one store covers the whole buffer. -/
theorem cover1_5 (p0 : Vec F S1000x64 .f32) (y : S1000x64.Idx) :
    ∃ pc ∈ ([⟨rO1, p0⟩] : List (View.Piece (Elt F) S1000x64 .f32)), y ∈ pc.1.set :=
  View.cover_of_tiled [⟨rO1, p0⟩] S1000x64.size (by rfl) y

/-! ## The body's triple -/

set_option maxHeartbeats 4000000 in
theorem sound_kernel1 (c : Dev nD) (E : Set ℕ) (i : grid1.Coords)
    (arg1 : Memref sig .tc .vmem S1000x64 .f32) (harg1 : arg1.IsWhole) (arg2 : Memref sig .tc .vmem S64x64 .f32) (harg2 : arg2.IsWhole) (arg3 : Memref sig .tc .vmem S1000x6 .f32) (harg3 : arg3.IsWhole) (arg4 : Memref sig .tc .vmem S6x64 .f32) (harg4 : arg4.IsWhole) (arg5 : Memref sig .tc .vmem S64 .f32) (harg5 : arg5.IsWhole) (arg6 : Memref sig .tc .vmem S1000x64 .f32) (harg6 : arg6.IsWhole)
    (x0 : Vec F S1000x64 .f32) (x1 : Vec F S64x64 .f32) (x2 : Vec F S1000x6 .f32) (x3 : Vec F S6x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bilinear_kernel i arg1 harg1 arg2 harg2 arg3 harg3 arg4 harg4 arg5 harg5 arg6 harg6) K := by
  simp only [cc1__bilinear_kernel_eq_skeleton]; unfold cc1__bilinear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.R2.lean ====
/-
  Region 2 of the word-level kernel program: the second bilinear stage, relu (a·Wa + s·Ws + b) on
  1000-row blocks of the aggregated neighbour features a and the previous stage's node features s.
  What each window's staging buffer holds before and after the body at a grid point, the body's triple, and the
  pipeline's proof data at the region-entry contents V.
-/
import proofs.«106568_j42528766165971_1_alg».proof.Proof.Gen.Kernel.Launch
import proofs.«106568_j42528766165971_1_alg».proof.Proof.Gen.Kernel.Skeleton
import proofs.«106568_j42528766165971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev rA2 : Rect S1000x64 := Rect.unit (s := S1000x64) ![0, 0] S1000x64.size inb_S1000x64_S1000x64_0_0
abbrev rWa2 : Rect S64x64 := Rect.unit (s := S64x64) ![0, 0] S64x64.size inb_S64x64_S64x64_0_0
abbrev rS2 : Rect S1000x64 := Rect.unit (s := S1000x64) ![0, 0] S1000x64.size inb_S1000x64_S1000x64_0_0
abbrev rWs2 : Rect S64x64 := Rect.unit (s := S64x64) ![0, 0] S64x64.size inb_S64x64_S64x64_0_0
abbrev rB2 : Rect S64 := Rect.unit (s := S64) ![0] S64.size inb_S64_S64_0
abbrev rO2 : Rect S1000x64 := Rect.unit (s := S1000x64) ![0, 0] S1000x64.size inb_S1000x64_S1000x64_0_0

/-- The output window's buffer after the body, from the 5 input blocks: the one whole-block store. -/
def out2_5 (x0 : Vec F S1000x64 .f32) (x1 : Vec F S64x64 .f32) (x2 : Vec F S1000x64 .f32) (x3 : Vec F S64x64 .f32) (x4 : Vec F S64 .f32) : Vec F S1000x64 .f32 :=
  View.canon [⟨rO2, k2_pay1 (View.ld x0 rA2) (View.ld x1 rWa2) (View.ld x2 rS2) (View.ld x3 rWs2) (View.ld x4 rB2)⟩]

/-- The one store covers the whole buffer. -/
theorem cover2_5 (p0 : Vec F S1000x64 .f32) (y : S1000x64.Idx) :
    ∃ pc ∈ ([⟨rO2, p0⟩] : List (View.Piece (Elt F) S1000x64 .f32)), y ∈ pc.1.set :=
  View.cover_of_tiled [⟨rO2, p0⟩] S1000x64.size (by rfl) y

/-! ## The body's triple -/

set_option maxHeartbeats 4000000 in
theorem sound_kernel2 (c : Dev nD) (E : Set ℕ) (i : grid2.Coords)
    (arg1 : Memref sig .tc .vmem S1000x64 .f32) (harg1 : arg1.IsWhole) (arg2 : Memref sig .tc .vmem S64x64 .f32) (harg2 : arg2.IsWhole) (arg3 : Memref sig .tc .vmem S1000x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S1000x64 .f32) (harg6 : arg6.IsWhole)
    (x0 : Vec F S1000x64 .f32) (x1 : Vec F S64x64 .f32) (x2 : Vec F S1000x64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bilinear_kernel i arg1 harg1 arg2 harg2 arg3 harg3 arg4 harg4 arg5 harg5 arg6 harg6) K := by
  simp only [cc2__bilinear_kernel_eq_skeleton]; unfold cc2__bilinear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.R3.lean ====
/-
  Region 3 of the word-level kernel program: the second feature combine, relu (h0·W0 + h1·W1 + h2·W2 + h3·W3 + b) on
  1000-row blocks of the four stacked propagated feature matrices. What each window's staging buffer holds before and
  after the body at a grid point, the body's triple, and the pipeline's proof data at the region-entry contents V.
-/
import proofs.«106568_j42528766165971_1_alg».proof.Proof.Gen.Kernel.Launch
import proofs.«106568_j42528766165971_1_alg».proof.Proof.Gen.Kernel.Skeleton
import proofs.«106568_j42528766165971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes -/

abbrev r3H0 : Rect S4x1000x64 := Rect.unit (s := S4x1000x64) ![0, 0, 0] S1x1000x64.size inb_S4x1000x64_S1x1000x64_0_0_0
abbrev r3H1 : Rect S4x1000x64 := Rect.unit (s := S4x1000x64) ![1, 0, 0] S1x1000x64.size inb_S4x1000x64_S1x1000x64_1_0_0
abbrev r3H2 : Rect S4x1000x64 := Rect.unit (s := S4x1000x64) ![2, 0, 0] S1x1000x64.size inb_S4x1000x64_S1x1000x64_2_0_0
abbrev r3H3 : Rect S4x1000x64 := Rect.unit (s := S4x1000x64) ![3, 0, 0] S1x1000x64.size inb_S4x1000x64_S1x1000x64_3_0_0
abbrev r3W0 : Rect S4x64x64 := Rect.unit (s := S4x64x64) ![0, 0, 0] S1x64x64.size inb_S4x64x64_S1x64x64_0_0_0
abbrev r3W1 : Rect S4x64x64 := Rect.unit (s := S4x64x64) ![1, 0, 0] S1x64x64.size inb_S4x64x64_S1x64x64_1_0_0
abbrev r3W2 : Rect S4x64x64 := Rect.unit (s := S4x64x64) ![2, 0, 0] S1x64x64.size inb_S4x64x64_S1x64x64_2_0_0
abbrev r3W3 : Rect S4x64x64 := Rect.unit (s := S4x64x64) ![3, 0, 0] S1x64x64.size inb_S4x64x64_S1x64x64_3_0_0
abbrev r3B : Rect S64 := Rect.unit (s := S64) ![0] S64.size inb_S64_S64_0
abbrev r3O : Rect S1000x64 := Rect.unit (s := S1000x64) ![0, 0] S1000x64.size inb_S1000x64_S1000x64_0_0

/-- The output window's buffer after the body, from the three input blocks: the one whole-block store. -/
def out3_3 (x0 : Vec F S4x1000x64 .f32) (x1 : Vec F S4x64x64 .f32) (x2 : Vec F S64 .f32) : Vec F S1000x64 .f32 :=
  View.canon [⟨r3O, k3_pay1 (k3_pay2 (View.ld x0 r3H0) (View.ld x1 r3W0) (View.ld x0 r3H1) (View.ld x1 r3W1) (View.ld x0 r3H2) (View.ld x1 r3W2)) (k3_pay3 (View.ld x0 r3H3)) (k3_pay4 (View.ld x1 r3W3)) (View.ld x2 r3B)⟩]

/-- The one store covers the whole buffer. -/
theorem cover3_3 (p0 : Vec F S1000x64 .f32) (y : S1000x64.Idx) :
    ∃ pc ∈ ([⟨r3O, p0⟩] : List (View.Piece (Elt F) S1000x64 .f32)), y ∈ pc.1.set :=
  View.cover_of_tiled [⟨r3O, p0⟩] S1000x64.size (by rfl) y

/-! ## The body's triple -/

set_option maxHeartbeats 4000000 in
theorem sound_kernel3 (c : Dev nD) (E : Set ℕ) (i : grid3.Coords)
    (arg1 : Memref sig .tc .vmem S4x1000x64 .f32) (harg1 : arg1.IsWhole) (arg2 : Memref sig .tc .vmem S4x64x64 .f32) (harg2 : arg2.IsWhole)
    (arg3 : Memref sig .tc .vmem S64 .f32) (harg3 : arg3.IsWhole) (arg4 : Memref sig .tc .vmem S1000x64 .f32) (harg4 : arg4.IsWhole)
    (x0 : Vec F S4x1000x64 .f32) (x1 : Vec F S4x64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__tag_combine_kernel i arg1 harg1 arg2 harg2 arg3 harg3 arg4 harg4) K := by
  simp only [cc3__tag_combine_kernel_eq_skeleton]; unfold cc3__tag_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.R4.lean ====
/-
  Region 4 of the word-level kernel program: the output head, x·W + b on 1000-row blocks of the node features
  (no clamp). What each window's staging buffer holds before and after the body at a grid point, the body's
  triple, and the pipeline's proof data at the region-entry contents V.
-/
import proofs.«106568_j42528766165971_1_alg».proof.Proof.Gen.Kernel.Launch
import proofs.«106568_j42528766165971_1_alg».proof.Proof.Gen.Kernel.Skeleton
import proofs.«106568_j42528766165971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a grid point -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes -/

abbrev rX4 : Rect S1000x64 := Rect.unit (s := S1000x64) ![0, 0] S1000x64.size inb_S1000x64_S1000x64_0_0
abbrev rW4 : Rect S64x8 := Rect.unit (s := S64x8) ![0, 0] S64x8.size inb_S64x8_S64x8_0_0
abbrev rB4 : Rect S8 := Rect.unit (s := S8) ![0] S8.size inb_S8_S8_0
abbrev rO4 : Rect S1000x8 := Rect.unit (s := S1000x8) ![0, 0] S1000x8.size inb_S1000x8_S1000x8_0_0

/-- The output window's buffer after the body, from the three input blocks: the one whole-block store. -/
def out4_3 (x0 : Vec F S1000x64 .f32) (x1 : Vec F S64x8 .f32) (x2 : Vec F S8 .f32) : Vec F S1000x8 .f32 :=
  View.canon [⟨rO4, k4_pay1 (View.ld x0 rX4) (View.ld x1 rW4) (View.ld x2 rB4)⟩]

/-- The one store covers the whole buffer. -/
theorem cover4_3 (p0 : Vec F S1000x8 .f32) (y : S1000x8.Idx) :
    ∃ pc ∈ ([⟨rO4, p0⟩] : List (View.Piece (Elt F) S1000x8 .f32)), y ∈ pc.1.set :=
  View.cover_of_tiled [⟨rO4, p0⟩] S1000x8.size (by rfl) y

/-! ## The body's triple -/

set_option maxHeartbeats 4000000 in
theorem sound_kernel4 (c : Dev nD) (E : Set ℕ) (i : grid4.Coords)
    (arg1 : Memref sig .tc .vmem S1000x64 .f32) (harg1 : arg1.IsWhole) (arg2 : Memref sig .tc .vmem S64x8 .f32) (harg2 : arg2.IsWhole)
    (arg3 : Memref sig .tc .vmem S8 .f32) (harg3 : arg3.IsWhole) (arg4 : Memref sig .tc .vmem S1000x8 .f32) (harg4 : arg4.IsWhole)
    (x0 : Vec F S1000x64 .f32) (x1 : Vec F S64x8 .f32) (x2 : Vec F S8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Run.lean ====
/-
  The whole run of @main of this program: host stretches and the five blocked regions in order. Between two items
  every buffer of a core holds a known function of the launch memory: a host stretch applies its operations, a
  region replaces its output array by what its write-backs leave and keeps everything else. No item writes an
  argument array, so each argument is read back unchanged at the end; the final contents of every buffer are named,
  which is what both the frame and the value of the result are read from.
-/
import proofs.«106568_j42528766165971_1_alg».proof.Proof.K.R0
import proofs.«106568_j42528766165971_1_alg».proof.Proof.K.R1
import proofs.«106568_j42528766165971_1_alg».proof.Proof.K.R2
import proofs.«106568_j42528766165971_1_alg».proof.Proof.K.R3
import proofs.«106568_j42528766165971_1_alg».proof.Proof.K.R4

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each host stretch writes -/

theorem hostOps0_fresh : (hostOps0 : List (HloOp τ sig (Elt F))).Forall fun op => op.fresh = ∅ := by
  simp only [List.Forall]; repeat' constructor
/-- The buffers the stretch's operations write, in order. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor
/-- The buffers the stretch's operations write, in order. -/
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_fresh : (hostOps0_2 : List (HloOp τ sig (Elt F))).Forall fun op => op.fresh = ∅ := by
  simp only [List.Forall]; repeat' constructor
/-- The buffers the stretch's operations write, in order. -/
abbrev hostOps0_2_W : List (Ref sig .tc) := [main_c, main_v14, main_v15, main_c_4, main_v16, main_v17, main_v18, main_v19, main_v20, main_c_5, main_v21, main_v22, main_c_6, main_v23, main_v24, main_v25, main_v26, main_v27, main_v28, main_c_7, main_v29, main_v30, main_c_8, main_v31, main_v32, main_v33, main_v34, main_v35, main_v36, main_v37, main_v38, main_cst_9, main_v39, main_v40, main_v41, main_c_10, main_v42, main_v43, main_c_11, main_v44, main_v45, main_v46, main_v47, main_v48, main_v49, main_v50, main_v51, main_cst_12, main_v52, main_v53, main_v54, main_v55, main_v56, main_v57, main_v58]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
/-- The buffers the stretch's operations write, in order. -/
abbrev hostOps1_W : List (Ref sig .tc) := [main_v60, main_v61, main_v62, main_v63, main_c_13, main_v64, main_v65, main_c_14, main_v66, main_v67, main_v68, main_v69, main_v70, main_v71, main_v72, main_v73, main_cst_15, main_v74, main_v75, main_v76]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
/-- The buffers the stretch's operations write, in order. -/
abbrev hostOps2_W : List (Ref sig .tc) := [main_v78, main_v79, main_v80, main_v81, main_c_16, main_v82, main_v83, main_c_17, main_v84, main_v85, main_v86, main_v87, main_v88, main_cst_18, main_v89, main_v90, main_v91, main_cst_19, main_v92, main_cst_20, main_v93, main_v94, main_v95, main_cst_21, main_v96, main_v97, main_v98, main_v99, main_v100]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
/-- The buffers the stretch's operations write, in order. -/
abbrev hostOps3_W : List (Ref sig .tc) := [main_v102, main_v103, main_v104, main_v105, main_cst_22, main_v106, main_cst_23, main_v107, main_v108, main_v109, main_cst_24, main_v110, main_v111, main_cst_25, main_v112, main_v113, main_v114, main_cst_26]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor
/-- The buffers the stretch's operations write, in order. -/
abbrev hostOps3_1_W : List (Ref sig .tc) := [main_call1_v0, main_call1_v1, main_v115]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor
/-- The buffers the stretch's operations write, in order. -/
abbrev hostOps3_2_W : List (Ref sig .tc) := [main_c_27, main_v116, main_v117, main_c_28, main_v118, main_v119, main_v120, main_v121, main_v122, main_c_29, main_v123, main_v124, main_c_30, main_v125, main_v126, main_v127, main_v128, main_v129, main_v130, main_c_31, main_v131, main_v132, main_c_32, main_v133, main_v134, main_v135, main_v136, main_v137, main_v138, main_v139, main_v140, main_cst_33, main_v141, main_v142, main_v143, main_c_34, main_v144, main_v145, main_c_35, main_v146, main_v147, main_v148, main_v149, main_v150, main_v151, main_v152, main_v153, main_cst_36, main_v154, main_v155, main_v156, main_c_37, main_v157, main_v158, main_c_38, main_v159, main_v160, main_v161, main_v162, main_v163, main_v164, main_v165, main_v166, main_cst_39, main_v167, main_v168, main_v169, main_v170, main_v171, main_v172, main_v173, main_v174]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the stretch hostOps0. -/
abbrev W1 : Dev nD → Valuation τ sig (Elt F) := fun c => StableHlo.after hostOps0 (W0 m ρ c)
theorem W1_of (c : Dev nD) (r : Ref sig .tc) (h : r ∉ (hostOps0_W : List (Ref sig .tc))) : W1 m ρ c r = W0 m ρ c r :=
  StableHlo.after_of_writes_sub hostOps0 _ hostOps0_writes h
/-- After the stretch hostOps0_1. -/
abbrev W2 : Dev nD → Valuation τ sig (Elt F) := fun c => StableHlo.after hostOps0_1 (W1 m ρ c)
theorem W2_of (c : Dev nD) (r : Ref sig .tc) (h : r ∉ (hostOps0_1_W : List (Ref sig .tc))) : W2 m ρ c r = W1 m ρ c r :=
  StableHlo.after_of_writes_sub hostOps0_1 _ hostOps0_1_writes h
/-- After the stretch hostOps0_2. -/
abbrev W3 : Dev nD → Valuation τ sig (Elt F) := fun c => StableHlo.after hostOps0_2 (W2 m ρ c)
theorem W3_of (c : Dev nD) (r : Ref sig .tc) (h : r ∉ (hostOps0_2_W : List (Ref sig .tc))) : W3 m ρ c r = W2 m ρ c r :=
  StableHlo.after_of_writes_sub hostOps0_2 _ hostOps0_2_writes h
/-- The contents region 0 is entered with, read at the core's references. -/
abbrev V3 : (c : Dev nD) → (b : Ref sig .tc) → Buf (Elt F) ((c : Thread nD τ).loc b) := fun c b => W3 m ρ c b
/-- After region 0: its arrays at what the pipeline leaves (inputs as entered, the output's write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the stretch hostOps1. -/
abbrev W5 : Dev nD → Valuation τ sig (Elt F) := fun c => StableHlo.after hostOps1 (W4 m ρ c)
theorem W5_of (c : Dev nD) (r : Ref sig .tc) (h : r ∉ (hostOps1_W : List (Ref sig .tc))) : W5 m ρ c r = W4 m ρ c r :=
  StableHlo.after_of_writes_sub hostOps1 _ hostOps1_writes h
/-- The contents region 1 is entered with, read at the core's references. -/
abbrev V5 : (c : Dev nD) → (b : Ref sig .tc) → Buf (Elt F) ((c : Thread nD τ).loc b) := fun c b => W5 m ρ c b
/-- After region 1: its arrays at what the pipeline leaves (inputs as entered, the output's write-backs folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the stretch hostOps2. -/
abbrev W7 : Dev nD → Valuation τ sig (Elt F) := fun c => StableHlo.after hostOps2 (W6 m ρ c)
theorem W7_of (c : Dev nD) (r : Ref sig .tc) (h : r ∉ (hostOps2_W : List (Ref sig .tc))) : W7 m ρ c r = W6 m ρ c r :=
  StableHlo.after_of_writes_sub hostOps2 _ hostOps2_writes h
/-- The contents region 2 is entered with, read at the core's references. -/
abbrev V7 : (c : Dev nD) → (b : Ref sig .tc) → Buf (Elt F) ((c : Thread nD τ).loc b) := fun c b => W7 m ρ c b
/-- After region 2: its arrays at what the pipeline leaves (inputs as entered, the output's write-backs folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the stretch hostOps3. -/
abbrev W9 : Dev nD → Valuation τ sig (Elt F) := fun c => StableHlo.after hostOps3 (W8 m ρ c)
theorem W9_of (c : Dev nD) (r : Ref sig .tc) (h : r ∉ (hostOps3_W : List (Ref sig .tc))) : W9 m ρ c r = W8 m ρ c r :=
  StableHlo.after_of_writes_sub hostOps3 _ hostOps3_writes h
/-- After the stretch hostOps3_1. -/
abbrev W10 : Dev nD → Valuation τ sig (Elt F) := fun c => StableHlo.after hostOps3_1 (W9 m ρ c)
theorem W10_of (c : Dev nD) (r : Ref sig .tc) (h : r ∉ (hostOps3_1_W : List (Ref sig .tc))) : W10 m ρ c r = W9 m ρ c r :=
  StableHlo.after_of_writes_sub hostOps3_1 _ hostOps3_1_writes h
/-- After the stretch hostOps3_2. -/
abbrev W11 : Dev nD → Valuation τ sig (Elt F) := fun c => StableHlo.after hostOps3_2 (W10 m ρ c)
theorem W11_of (c : Dev nD) (r : Ref sig .tc) (h : r ∉ (hostOps3_2_W : List (Ref sig .tc))) : W11 m ρ c r = W10 m ρ c r :=
  StableHlo.after_of_writes_sub hostOps3_2 _ hostOps3_2_writes h
/-- The contents region 3 is entered with, read at the core's references. -/
abbrev V11 : (c : Dev nD) → (b : Ref sig .tc) → Buf (Elt F) ((c : Thread nD τ).loc b) := fun c b => W11 m ρ c b
/-- After region 3: its arrays at what the pipeline leaves (inputs as entered, the output's write-backs folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After region 4: its arrays at what the pipeline leaves (inputs as entered, the output's write-backs folded), every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-! ## The arguments end as launched -/

/-! No item writes an argument: at every boundary each argument's buffer holds its launch contents. -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (show W1 m ρ c (Proc.devRef .tc main_arg0) = W0 m ρ c (Proc.devRef .tc main_arg0) from W1_of m ρ c main_arg0 (by decide)).trans (W0_main_arg0 m ρ c)
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from W2_of m ρ c main_arg0 (by decide)).trans (W1_main_arg0 m ρ c)
theorem W3_main_arg0 (c : Dev nD) : W3 m ρ c (Proc.devRef .tc main_arg0) = m ((c : Thread nD τ).loc main_arg0) :=
  (show W3 m ρ c (Proc.devRef .tc main_arg0) = W2 m ρ c (Proc.devRef .tc main_arg0) from W3_of m ρ c main_arg0 (by decide)).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from W4_of_ne m ρ c main_arg0 (by decide)).trans (W3_main_arg0 m ρ c)
theorem W5_main_arg0 (c : Dev nD) : W5 m ρ c (Proc.devRef .tc main_arg0) = m ((c : Thread nD τ).loc main_arg0) :=
  (show W5 m ρ c (Proc.devRef .tc main_arg0) = W4 m ρ c (Proc.devRef .tc main_arg0) from W5_of m ρ c main_arg0 (by decide)).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from W6_of_ne m ρ c main_arg0 (by decide)).trans (W5_main_arg0 m ρ c)
theorem W7_main_arg0 (c : Dev nD) : W7 m ρ c (Proc.devRef .tc main_arg0) = m ((c : Thread nD τ).loc main_arg0) :=
  (show W7 m ρ c (Proc.devRef .tc main_arg0) = W6 m ρ c (Proc.devRef .tc main_arg0) from W7_of m ρ c main_arg0 (by decide)).trans (W6_main_arg0 m ρ c)
theorem W8_main_arg0 (c : Dev nD) : W8 m ρ c (Proc.devRef .tc main_arg0) = m ((c : Thread nD τ).loc main_arg0) :=
  (show W8 m ρ c (Proc.devRef .tc main_arg0) = W7 m ρ c (Proc.devRef .tc main_arg0) from W8_of_ne m ρ c main_arg0 (by decide)).trans (W7_main_arg0 m ρ c)
theorem W9_main_arg0 (c : Dev nD) : W9 m ρ c (Proc.devRef .tc main_arg0) = m ((c : Thread nD τ).loc main_arg0) :=
  (show W9 m ρ c (Proc.devRef .tc main_arg0) = W8 m ρ c (Proc.devRef .tc main_arg0) from W9_of m ρ c main_arg0 (by decide)).trans (W8_main_arg0 m ρ c)
theorem W10_main_arg0 (c : Dev nD) : W10 m ρ c (Proc.devRef .tc main_arg0) = m ((c : Thread nD τ).loc main_arg0) :=
  (show W10 m ρ c (Proc.devRef .tc main_arg0) = W9 m ρ c (Proc.devRef .tc main_arg0) from W10_of m ρ c main_arg0 (by decide)).trans (W9_main_arg0 m ρ c)
theorem W11_main_arg0 (c : Dev nD) : W11 m ρ c (Proc.devRef .tc main_arg0) = m ((c : Thread nD τ).loc main_arg0) :=
  (show W11 m ρ c (Proc.devRef .tc main_arg0) = W10 m ρ c (Proc.devRef .tc main_arg0) from W11_of m ρ c main_arg0 (by decide)).trans (W10_main_arg0 m ρ c)
theorem W12_main_arg0 (c : Dev nD) : W12 m ρ c (Proc.devRef .tc main_arg0) = m ((c : Thread nD τ).loc main_arg0) :=
  (show W12 m ρ c (Proc.devRef .tc main_arg0) = W11 m ρ c (Proc.devRef .tc main_arg0) from W12_of_ne m ρ c main_arg0 (by decide)).trans (W11_main_arg0 m ρ c)
theorem W13_main_arg0 (c : Dev nD) : W13 m ρ c (Proc.devRef .tc main_arg0) = m ((c : Thread nD τ).loc main_arg0) :=
  (show W13 m ρ c (Proc.devRef .tc main_arg0) = W12 m ρ c (Proc.devRef .tc main_arg0) from W13_of_ne m ρ c main_arg0 (by decide)).trans (W12_main_arg0 m ρ c)
theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (show W1 m ρ c (Proc.devRef .tc main_arg1) = W0 m ρ c (Proc.devRef .tc main_arg1) from W1_of m ρ c main_arg1 (by decide)).trans (W0_main_arg1 m ρ c)
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from W2_of m ρ c main_arg1 (by decide)).trans (W1_main_arg1 m ρ c)
theorem W3_main_arg1 (c : Dev nD) : W3 m ρ c (Proc.devRef .tc main_arg1) = m ((c : Thread nD τ).loc main_arg1) :=
  (show W3 m ρ c (Proc.devRef .tc main_arg1) = W2 m ρ c (Proc.devRef .tc main_arg1) from W3_of m ρ c main_arg1 (by decide)).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from W4_of_ne m ρ c main_arg1 (by decide)).trans (W3_main_arg1 m ρ c)
theorem W5_main_arg1 (c : Dev nD) : W5 m ρ c (Proc.devRef .tc main_arg1) = m ((c : Thread nD τ).loc main_arg1) :=
  (show W5 m ρ c (Proc.devRef .tc main_arg1) = W4 m ρ c (Proc.devRef .tc main_arg1) from W5_of m ρ c main_arg1 (by decide)).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from (W6_arr m ρ c 2).trans (((dat1 (V5 m ρ) c).arrAt_in 2 rfl _).trans (A_eq1 (V5 m ρ) c 2))).trans (W5_main_arg1 m ρ c)
theorem W7_main_arg1 (c : Dev nD) : W7 m ρ c (Proc.devRef .tc main_arg1) = m ((c : Thread nD τ).loc main_arg1) :=
  (show W7 m ρ c (Proc.devRef .tc main_arg1) = W6 m ρ c (Proc.devRef .tc main_arg1) from W7_of m ρ c main_arg1 (by decide)).trans (W6_main_arg1 m ρ c)
theorem W8_main_arg1 (c : Dev nD) : W8 m ρ c (Proc.devRef .tc main_arg1) = m ((c : Thread nD τ).loc main_arg1) :=
  (show W8 m ρ c (Proc.devRef .tc main_arg1) = W7 m ρ c (Proc.devRef .tc main_arg1) from W8_of_ne m ρ c main_arg1 (by decide)).trans (W7_main_arg1 m ρ c)
theorem W9_main_arg1 (c : Dev nD) : W9 m ρ c (Proc.devRef .tc main_arg1) = m ((c : Thread nD τ).loc main_arg1) :=
  (show W9 m ρ c (Proc.devRef .tc main_arg1) = W8 m ρ c (Proc.devRef .tc main_arg1) from W9_of m ρ c main_arg1 (by decide)).trans (W8_main_arg1 m ρ c)
theorem W10_main_arg1 (c : Dev nD) : W10 m ρ c (Proc.devRef .tc main_arg1) = m ((c : Thread nD τ).loc main_arg1) :=
  (show W10 m ρ c (Proc.devRef .tc main_arg1) = W9 m ρ c (Proc.devRef .tc main_arg1) from W10_of m ρ c main_arg1 (by decide)).trans (W9_main_arg1 m ρ c)
theorem W11_main_arg1 (c : Dev nD) : W11 m ρ c (Proc.devRef .tc main_arg1) = m ((c : Thread nD τ).loc main_arg1) :=
  (show W11 m ρ c (Proc.devRef .tc main_arg1) = W10 m ρ c (Proc.devRef .tc main_arg1) from W11_of m ρ c main_arg1 (by decide)).trans (W10_main_arg1 m ρ c)
theorem W12_main_arg1 (c : Dev nD) : W12 m ρ c (Proc.devRef .tc main_arg1) = m ((c : Thread nD τ).loc main_arg1) :=
  (show W12 m ρ c (Proc.devRef .tc main_arg1) = W11 m ρ c (Proc.devRef .tc main_arg1) from W12_of_ne m ρ c main_arg1 (by decide)).trans (W11_main_arg1 m ρ c)
theorem W13_main_arg1 (c : Dev nD) : W13 m ρ c (Proc.devRef .tc main_arg1) = m ((c : Thread nD τ).loc main_arg1) :=
  (show W13 m ρ c (Proc.devRef .tc main_arg1) = W12 m ρ c (Proc.devRef .tc main_arg1) from W13_of_ne m ρ c main_arg1 (by decide)).trans (W12_main_arg1 m ρ c)
theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (show W1 m ρ c (Proc.devRef .tc main_arg2) = W0 m ρ c (Proc.devRef .tc main_arg2) from W1_of m ρ c main_arg2 (by decide)).trans (W0_main_arg2 m ρ c)
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from W2_of m ρ c main_arg2 (by decide)).trans (W1_main_arg2 m ρ c)
theorem W3_main_arg2 (c : Dev nD) : W3 m ρ c (Proc.devRef .tc main_arg2) = m ((c : Thread nD τ).loc main_arg2) :=
  (show W3 m ρ c (Proc.devRef .tc main_arg2) = W2 m ρ c (Proc.devRef .tc main_arg2) from W3_of m ρ c main_arg2 (by decide)).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (W3_main_arg2 m ρ c)
theorem W5_main_arg2 (c : Dev nD) : W5 m ρ c (Proc.devRef .tc main_arg2) = m ((c : Thread nD τ).loc main_arg2) :=
  (show W5 m ρ c (Proc.devRef .tc main_arg2) = W4 m ρ c (Proc.devRef .tc main_arg2) from W5_of m ρ c main_arg2 (by decide)).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (W5_main_arg2 m ρ c)
theorem W7_main_arg2 (c : Dev nD) : W7 m ρ c (Proc.devRef .tc main_arg2) = m ((c : Thread nD τ).loc main_arg2) :=
  (show W7 m ρ c (Proc.devRef .tc main_arg2) = W6 m ρ c (Proc.devRef .tc main_arg2) from W7_of m ρ c main_arg2 (by decide)).trans (W6_main_arg2 m ρ c)
theorem W8_main_arg2 (c : Dev nD) : W8 m ρ c (Proc.devRef .tc main_arg2) = m ((c : Thread nD τ).loc main_arg2) :=
  (show W8 m ρ c (Proc.devRef .tc main_arg2) = W7 m ρ c (Proc.devRef .tc main_arg2) from W8_of_ne m ρ c main_arg2 (by decide)).trans (W7_main_arg2 m ρ c)
theorem W9_main_arg2 (c : Dev nD) : W9 m ρ c (Proc.devRef .tc main_arg2) = m ((c : Thread nD τ).loc main_arg2) :=
  (show W9 m ρ c (Proc.devRef .tc main_arg2) = W8 m ρ c (Proc.devRef .tc main_arg2) from W9_of m ρ c main_arg2 (by decide)).trans (W8_main_arg2 m ρ c)
theorem W10_main_arg2 (c : Dev nD) : W10 m ρ c (Proc.devRef .tc main_arg2) = m ((c : Thread nD τ).loc main_arg2) :=
  (show W10 m ρ c (Proc.devRef .tc main_arg2) = W9 m ρ c (Proc.devRef .tc main_arg2) from W10_of m ρ c main_arg2 (by decide)).trans (W9_main_arg2 m ρ c)
theorem W11_main_arg2 (c : Dev nD) : W11 m ρ c (Proc.devRef .tc main_arg2) = m ((c : Thread nD τ).loc main_arg2) :=
  (show W11 m ρ c (Proc.devRef .tc main_arg2) = W10 m ρ c (Proc.devRef .tc main_arg2) from W11_of m ρ c main_arg2 (by decide)).trans (W10_main_arg2 m ρ c)
theorem W12_main_arg2 (c : Dev nD) : W12 m ρ c (Proc.devRef .tc main_arg2) = m ((c : Thread nD τ).loc main_arg2) :=
  (show W12 m ρ c (Proc.devRef .tc main_arg2) = W11 m ρ c (Proc.devRef .tc main_arg2) from W12_of_ne m ρ c main_arg2 (by decide)).trans (W11_main_arg2 m ρ c)
theorem W13_main_arg2 (c : Dev nD) : W13 m ρ c (Proc.devRef .tc main_arg2) = m ((c : Thread nD τ).loc main_arg2) :=
  (show W13 m ρ c (Proc.devRef .tc main_arg2) = W12 m ρ c (Proc.devRef .tc main_arg2) from W13_of_ne m ρ c main_arg2 (by decide)).trans (W12_main_arg2 m ρ c)
theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (show W1 m ρ c (Proc.devRef .tc main_arg3) = W0 m ρ c (Proc.devRef .tc main_arg3) from W1_of m ρ c main_arg3 (by decide)).trans (W0_main_arg3 m ρ c)
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from W2_of m ρ c main_arg3 (by decide)).trans (W1_main_arg3 m ρ c)
theorem W3_main_arg3 (c : Dev nD) : W3 m ρ c (Proc.devRef .tc main_arg3) = m ((c : Thread nD τ).loc main_arg3) :=
  (show W3 m ρ c (Proc.devRef .tc main_arg3) = W2 m ρ c (Proc.devRef .tc main_arg3) from W3_of m ρ c main_arg3 (by decide)).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from W4_of_ne m ρ c main_arg3 (by decide)).trans (W3_main_arg3 m ρ c)
theorem W5_main_arg3 (c : Dev nD) : W5 m ρ c (Proc.devRef .tc main_arg3) = m ((c : Thread nD τ).loc main_arg3) :=
  (show W5 m ρ c (Proc.devRef .tc main_arg3) = W4 m ρ c (Proc.devRef .tc main_arg3) from W5_of m ρ c main_arg3 (by decide)).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (W5_main_arg3 m ρ c)
theorem W7_main_arg3 (c : Dev nD) : W7 m ρ c (Proc.devRef .tc main_arg3) = m ((c : Thread nD τ).loc main_arg3) :=
  (show W7 m ρ c (Proc.devRef .tc main_arg3) = W6 m ρ c (Proc.devRef .tc main_arg3) from W7_of m ρ c main_arg3 (by decide)).trans (W6_main_arg3 m ρ c)
theorem W8_main_arg3 (c : Dev nD) : W8 m ρ c (Proc.devRef .tc main_arg3) = m ((c : Thread nD τ).loc main_arg3) :=
  (show W8 m ρ c (Proc.devRef .tc main_arg3) = W7 m ρ c (Proc.devRef .tc main_arg3) from W8_of_ne m ρ c main_arg3 (by decide)).trans (W7_main_arg3 m ρ c)
theorem W9_main_arg3 (c : Dev nD) : W9 m ρ c (Proc.devRef .tc main_arg3) = m ((c : Thread nD τ).loc main_arg3) :=
  (show W9 m ρ c (Proc.devRef .tc main_arg3) = W8 m ρ c (Proc.devRef .tc main_arg3) from W9_of m ρ c main_arg3 (by decide)).trans (W8_main_arg3 m ρ c)
theorem W10_main_arg3 (c : Dev nD) : W10 m ρ c (Proc.devRef .tc main_arg3) = m ((c : Thread nD τ).loc main_arg3) :=
  (show W10 m ρ c (Proc.devRef .tc main_arg3) = W9 m ρ c (Proc.devRef .tc main_arg3) from W10_of m ρ c main_arg3 (by decide)).trans (W9_main_arg3 m ρ c)
theorem W11_main_arg3 (c : Dev nD) : W11 m ρ c (Proc.devRef .tc main_arg3) = m ((c : Thread nD τ).loc main_arg3) :=
  (show W11 m ρ c (Proc.devRef .tc main_arg3) = W10 m ρ c (Proc.devRef .tc main_arg3) from W11_of m ρ c main_arg3 (by decide)).trans (W10_main_arg3 m ρ c)
theorem W12_main_arg3 (c : Dev nD) : W12 m ρ c (Proc.devRef .tc main_arg3) = m ((c : Thread nD τ).loc main_arg3) :=
  (show W12 m ρ c (Proc.devRef .tc main_arg3) = W11 m ρ c (Proc.devRef .tc main_arg3) from W12_of_ne m ρ c main_arg3 (by decide)).trans (W11_main_arg3 m ρ c)
theorem W13_main_arg3 (c : Dev nD) : W13 m ρ c (Proc.devRef .tc main_arg3) = m ((c : Thread nD τ).loc main_arg3) :=
  (show W13 m ρ c (Proc.devRef .tc main_arg3) = W12 m ρ c (Proc.devRef .tc main_arg3) from W13_of_ne m ρ c main_arg3 (by decide)).trans (W12_main_arg3 m ρ c)
theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (show W1 m ρ c (Proc.devRef .tc main_arg4) = W0 m ρ c (Proc.devRef .tc main_arg4) from W1_of m ρ c main_arg4 (by decide)).trans (W0_main_arg4 m ρ c)
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from W2_of m ρ c main_arg4 (by decide)).trans (W1_main_arg4 m ρ c)
theorem W3_main_arg4 (c : Dev nD) : W3 m ρ c (Proc.devRef .tc main_arg4) = m ((c : Thread nD τ).loc main_arg4) :=
  (show W3 m ρ c (Proc.devRef .tc main_arg4) = W2 m ρ c (Proc.devRef .tc main_arg4) from W3_of m ρ c main_arg4 (by decide)).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from W4_of_ne m ρ c main_arg4 (by decide)).trans (W3_main_arg4 m ρ c)
theorem W5_main_arg4 (c : Dev nD) : W5 m ρ c (Proc.devRef .tc main_arg4) = m ((c : Thread nD τ).loc main_arg4) :=
  (show W5 m ρ c (Proc.devRef .tc main_arg4) = W4 m ρ c (Proc.devRef .tc main_arg4) from W5_of m ρ c main_arg4 (by decide)).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_main_arg4 m ρ c)
theorem W7_main_arg4 (c : Dev nD) : W7 m ρ c (Proc.devRef .tc main_arg4) = m ((c : Thread nD τ).loc main_arg4) :=
  (show W7 m ρ c (Proc.devRef .tc main_arg4) = W6 m ρ c (Proc.devRef .tc main_arg4) from W7_of m ρ c main_arg4 (by decide)).trans (W6_main_arg4 m ρ c)
theorem W8_main_arg4 (c : Dev nD) : W8 m ρ c (Proc.devRef .tc main_arg4) = m ((c : Thread nD τ).loc main_arg4) :=
  (show W8 m ρ c (Proc.devRef .tc main_arg4) = W7 m ρ c (Proc.devRef .tc main_arg4) from W8_of_ne m ρ c main_arg4 (by decide)).trans (W7_main_arg4 m ρ c)
theorem W9_main_arg4 (c : Dev nD) : W9 m ρ c (Proc.devRef .tc main_arg4) = m ((c : Thread nD τ).loc main_arg4) :=
  (show W9 m ρ c (Proc.devRef .tc main_arg4) = W8 m ρ c (Proc.devRef .tc main_arg4) from W9_of m ρ c main_arg4 (by decide)).trans (W8_main_arg4 m ρ c)
theorem W10_main_arg4 (c : Dev nD) : W10 m ρ c (Proc.devRef .tc main_arg4) = m ((c : Thread nD τ).loc main_arg4) :=
  (show W10 m ρ c (Proc.devRef .tc main_arg4) = W9 m ρ c (Proc.devRef .tc main_arg4) from W10_of m ρ c main_arg4 (by decide)).trans (W9_main_arg4 m ρ c)
theorem W11_main_arg4 (c : Dev nD) : W11 m ρ c (Proc.devRef .tc main_arg4) = m ((c : Thread nD τ).loc main_arg4) :=
  (show W11 m ρ c (Proc.devRef .tc main_arg4) = W10 m ρ c (Proc.devRef .tc main_arg4) from W11_of m ρ c main_arg4 (by decide)).trans (W10_main_arg4 m ρ c)
theorem W12_main_arg4 (c : Dev nD) : W12 m ρ c (Proc.devRef .tc main_arg4) = m ((c : Thread nD τ).loc main_arg4) :=
  (show W12 m ρ c (Proc.devRef .tc main_arg4) = W11 m ρ c (Proc.devRef .tc main_arg4) from W12_of_ne m ρ c main_arg4 (by decide)).trans (W11_main_arg4 m ρ c)
theorem W13_main_arg4 (c : Dev nD) : W13 m ρ c (Proc.devRef .tc main_arg4) = m ((c : Thread nD τ).loc main_arg4) :=
  (show W13 m ρ c (Proc.devRef .tc main_arg4) = W12 m ρ c (Proc.devRef .tc main_arg4) from W13_of_ne m ρ c main_arg4 (by decide)).trans (W12_main_arg4 m ρ c)
theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (show W1 m ρ c (Proc.devRef .tc main_arg5) = W0 m ρ c (Proc.devRef .tc main_arg5) from W1_of m ρ c main_arg5 (by decide)).trans (W0_main_arg5 m ρ c)
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from W2_of m ρ c main_arg5 (by decide)).trans (W1_main_arg5 m ρ c)
theorem W3_main_arg5 (c : Dev nD) : W3 m ρ c (Proc.devRef .tc main_arg5) = m ((c : Thread nD τ).loc main_arg5) :=
  (show W3 m ρ c (Proc.devRef .tc main_arg5) = W2 m ρ c (Proc.devRef .tc main_arg5) from W3_of m ρ c main_arg5 (by decide)).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_main_arg5 m ρ c)
theorem W5_main_arg5 (c : Dev nD) : W5 m ρ c (Proc.devRef .tc main_arg5) = m ((c : Thread nD τ).loc main_arg5) :=
  (show W5 m ρ c (Proc.devRef .tc main_arg5) = W4 m ρ c (Proc.devRef .tc main_arg5) from W5_of m ρ c main_arg5 (by decide)).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_main_arg5 m ρ c)
theorem W7_main_arg5 (c : Dev nD) : W7 m ρ c (Proc.devRef .tc main_arg5) = m ((c : Thread nD τ).loc main_arg5) :=
  (show W7 m ρ c (Proc.devRef .tc main_arg5) = W6 m ρ c (Proc.devRef .tc main_arg5) from W7_of m ρ c main_arg5 (by decide)).trans (W6_main_arg5 m ρ c)
theorem W8_main_arg5 (c : Dev nD) : W8 m ρ c (Proc.devRef .tc main_arg5) = m ((c : Thread nD τ).loc main_arg5) :=
  (show W8 m ρ c (Proc.devRef .tc main_arg5) = W7 m ρ c (Proc.devRef .tc main_arg5) from W8_of_ne m ρ c main_arg5 (by decide)).trans (W7_main_arg5 m ρ c)
theorem W9_main_arg5 (c : Dev nD) : W9 m ρ c (Proc.devRef .tc main_arg5) = m ((c : Thread nD τ).loc main_arg5) :=
  (show W9 m ρ c (Proc.devRef .tc main_arg5) = W8 m ρ c (Proc.devRef .tc main_arg5) from W9_of m ρ c main_arg5 (by decide)).trans (W8_main_arg5 m ρ c)
theorem W10_main_arg5 (c : Dev nD) : W10 m ρ c (Proc.devRef .tc main_arg5) = m ((c : Thread nD τ).loc main_arg5) :=
  (show W10 m ρ c (Proc.devRef .tc main_arg5) = W9 m ρ c (Proc.devRef .tc main_arg5) from W10_of m ρ c main_arg5 (by decide)).trans (W9_main_arg5 m ρ c)
theorem W11_main_arg5 (c : Dev nD) : W11 m ρ c (Proc.devRef .tc main_arg5) = m ((c : Thread nD τ).loc main_arg5) :=
  (show W11 m ρ c (Proc.devRef .tc main_arg5) = W10 m ρ c (Proc.devRef .tc main_arg5) from W11_of m ρ c main_arg5 (by decide)).trans (W10_main_arg5 m ρ c)
theorem W12_main_arg5 (c : Dev nD) : W12 m ρ c (Proc.devRef .tc main_arg5) = m ((c : Thread nD τ).loc main_arg5) :=
  (show W12 m ρ c (Proc.devRef .tc main_arg5) = W11 m ρ c (Proc.devRef .tc main_arg5) from W12_of_ne m ρ c main_arg5 (by decide)).trans (W11_main_arg5 m ρ c)
theorem W13_main_arg5 (c : Dev nD) : W13 m ρ c (Proc.devRef .tc main_arg5) = m ((c : Thread nD τ).loc main_arg5) :=
  (show W13 m ρ c (Proc.devRef .tc main_arg5) = W12 m ρ c (Proc.devRef .tc main_arg5) from W13_of_ne m ρ c main_arg5 (by decide)).trans (W12_main_arg5 m ρ c)
theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (show W1 m ρ c (Proc.devRef .tc main_arg6) = W0 m ρ c (Proc.devRef .tc main_arg6) from W1_of m ρ c main_arg6 (by decide)).trans (W0_main_arg6 m ρ c)
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from W2_of m ρ c main_arg6 (by decide)).trans (W1_main_arg6 m ρ c)
theorem W3_main_arg6 (c : Dev nD) : W3 m ρ c (Proc.devRef .tc main_arg6) = m ((c : Thread nD τ).loc main_arg6) :=
  (show W3 m ρ c (Proc.devRef .tc main_arg6) = W2 m ρ c (Proc.devRef .tc main_arg6) from W3_of m ρ c main_arg6 (by decide)).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from W4_of_ne m ρ c main_arg6 (by decide)).trans (W3_main_arg6 m ρ c)
theorem W5_main_arg6 (c : Dev nD) : W5 m ρ c (Proc.devRef .tc main_arg6) = m ((c : Thread nD τ).loc main_arg6) :=
  (show W5 m ρ c (Proc.devRef .tc main_arg6) = W4 m ρ c (Proc.devRef .tc main_arg6) from W5_of m ρ c main_arg6 (by decide)).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_main_arg6 m ρ c)
theorem W7_main_arg6 (c : Dev nD) : W7 m ρ c (Proc.devRef .tc main_arg6) = m ((c : Thread nD τ).loc main_arg6) :=
  (show W7 m ρ c (Proc.devRef .tc main_arg6) = W6 m ρ c (Proc.devRef .tc main_arg6) from W7_of m ρ c main_arg6 (by decide)).trans (W6_main_arg6 m ρ c)
theorem W8_main_arg6 (c : Dev nD) : W8 m ρ c (Proc.devRef .tc main_arg6) = m ((c : Thread nD τ).loc main_arg6) :=
  (show W8 m ρ c (Proc.devRef .tc main_arg6) = W7 m ρ c (Proc.devRef .tc main_arg6) from W8_of_ne m ρ c main_arg6 (by decide)).trans (W7_main_arg6 m ρ c)
theorem W9_main_arg6 (c : Dev nD) : W9 m ρ c (Proc.devRef .tc main_arg6) = m ((c : Thread nD τ).loc main_arg6) :=
  (show W9 m ρ c (Proc.devRef .tc main_arg6) = W8 m ρ c (Proc.devRef .tc main_arg6) from W9_of m ρ c main_arg6 (by decide)).trans (W8_main_arg6 m ρ c)
theorem W10_main_arg6 (c : Dev nD) : W10 m ρ c (Proc.devRef .tc main_arg6) = m ((c : Thread nD τ).loc main_arg6) :=
  (show W10 m ρ c (Proc.devRef .tc main_arg6) = W9 m ρ c (Proc.devRef .tc main_arg6) from W10_of m ρ c main_arg6 (by decide)).trans (W9_main_arg6 m ρ c)
theorem W11_main_arg6 (c : Dev nD) : W11 m ρ c (Proc.devRef .tc main_arg6) = m ((c : Thread nD τ).loc main_arg6) :=
  (show W11 m ρ c (Proc.devRef .tc main_arg6) = W10 m ρ c (Proc.devRef .tc main_arg6) from W11_of m ρ c main_arg6 (by decide)).trans (W10_main_arg6 m ρ c)
theorem W12_main_arg6 (c : Dev nD) : W12 m ρ c (Proc.devRef .tc main_arg6) = m ((c : Thread nD τ).loc main_arg6) :=
  (show W12 m ρ c (Proc.devRef .tc main_arg6) = W11 m ρ c (Proc.devRef .tc main_arg6) from W12_of_ne m ρ c main_arg6 (by decide)).trans (W11_main_arg6 m ρ c)
theorem W13_main_arg6 (c : Dev nD) : W13 m ρ c (Proc.devRef .tc main_arg6) = m ((c : Thread nD τ).loc main_arg6) :=
  (show W13 m ρ c (Proc.devRef .tc main_arg6) = W12 m ρ c (Proc.devRef .tc main_arg6) from W13_of_ne m ρ c main_arg6 (by decide)).trans (W12_main_arg6 m ρ c)
theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (show W1 m ρ c (Proc.devRef .tc main_arg7) = W0 m ρ c (Proc.devRef .tc main_arg7) from W1_of m ρ c main_arg7 (by decide)).trans (W0_main_arg7 m ρ c)
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from W2_of m ρ c main_arg7 (by decide)).trans (W1_main_arg7 m ρ c)
theorem W3_main_arg7 (c : Dev nD) : W3 m ρ c (Proc.devRef .tc main_arg7) = m ((c : Thread nD τ).loc main_arg7) :=
  (show W3 m ρ c (Proc.devRef .tc main_arg7) = W2 m ρ c (Proc.devRef .tc main_arg7) from W3_of m ρ c main_arg7 (by decide)).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from (W4_arr m ρ c 1).trans (((dat0 (V3 m ρ) c).arrAt_in 1 rfl _).trans (A_eq0 (V3 m ρ) c 1))).trans (W3_main_arg7 m ρ c)
theorem W5_main_arg7 (c : Dev nD) : W5 m ρ c (Proc.devRef .tc main_arg7) = m ((c : Thread nD τ).loc main_arg7) :=
  (show W5 m ρ c (Proc.devRef .tc main_arg7) = W4 m ρ c (Proc.devRef .tc main_arg7) from W5_of m ρ c main_arg7 (by decide)).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from W6_of_ne m ρ c main_arg7 (by decide)).trans (W5_main_arg7 m ρ c)
theorem W7_main_arg7 (c : Dev nD) : W7 m ρ c (Proc.devRef .tc main_arg7) = m ((c : Thread nD τ).loc main_arg7) :=
  (show W7 m ρ c (Proc.devRef .tc main_arg7) = W6 m ρ c (Proc.devRef .tc main_arg7) from W7_of m ρ c main_arg7 (by decide)).trans (W6_main_arg7 m ρ c)
theorem W8_main_arg7 (c : Dev nD) : W8 m ρ c (Proc.devRef .tc main_arg7) = m ((c : Thread nD τ).loc main_arg7) :=
  (show W8 m ρ c (Proc.devRef .tc main_arg7) = W7 m ρ c (Proc.devRef .tc main_arg7) from W8_of_ne m ρ c main_arg7 (by decide)).trans (W7_main_arg7 m ρ c)
theorem W9_main_arg7 (c : Dev nD) : W9 m ρ c (Proc.devRef .tc main_arg7) = m ((c : Thread nD τ).loc main_arg7) :=
  (show W9 m ρ c (Proc.devRef .tc main_arg7) = W8 m ρ c (Proc.devRef .tc main_arg7) from W9_of m ρ c main_arg7 (by decide)).trans (W8_main_arg7 m ρ c)
theorem W10_main_arg7 (c : Dev nD) : W10 m ρ c (Proc.devRef .tc main_arg7) = m ((c : Thread nD τ).loc main_arg7) :=
  (show W10 m ρ c (Proc.devRef .tc main_arg7) = W9 m ρ c (Proc.devRef .tc main_arg7) from W10_of m ρ c main_arg7 (by decide)).trans (W9_main_arg7 m ρ c)
theorem W11_main_arg7 (c : Dev nD) : W11 m ρ c (Proc.devRef .tc main_arg7) = m ((c : Thread nD τ).loc main_arg7) :=
  (show W11 m ρ c (Proc.devRef .tc main_arg7) = W10 m ρ c (Proc.devRef .tc main_arg7) from W11_of m ρ c main_arg7 (by decide)).trans (W10_main_arg7 m ρ c)
theorem W12_main_arg7 (c : Dev nD) : W12 m ρ c (Proc.devRef .tc main_arg7) = m ((c : Thread nD τ).loc main_arg7) :=
  (show W12 m ρ c (Proc.devRef .tc main_arg7) = W11 m ρ c (Proc.devRef .tc main_arg7) from W12_of_ne m ρ c main_arg7 (by decide)).trans (W11_main_arg7 m ρ c)
theorem W13_main_arg7 (c : Dev nD) : W13 m ρ c (Proc.devRef .tc main_arg7) = m ((c : Thread nD τ).loc main_arg7) :=
  (show W13 m ρ c (Proc.devRef .tc main_arg7) = W12 m ρ c (Proc.devRef .tc main_arg7) from W13_of_ne m ρ c main_arg7 (by decide)).trans (W12_main_arg7 m ρ c)
theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (show W1 m ρ c (Proc.devRef .tc main_arg8) = W0 m ρ c (Proc.devRef .tc main_arg8) from W1_of m ρ c main_arg8 (by decide)).trans (W0_main_arg8 m ρ c)
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from W2_of m ρ c main_arg8 (by decide)).trans (W1_main_arg8 m ρ c)
theorem W3_main_arg8 (c : Dev nD) : W3 m ρ c (Proc.devRef .tc main_arg8) = m ((c : Thread nD τ).loc main_arg8) :=
  (show W3 m ρ c (Proc.devRef .tc main_arg8) = W2 m ρ c (Proc.devRef .tc main_arg8) from W3_of m ρ c main_arg8 (by decide)).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from (W4_arr m ρ c 2).trans (((dat0 (V3 m ρ) c).arrAt_in 2 rfl _).trans (A_eq0 (V3 m ρ) c 2))).trans (W3_main_arg8 m ρ c)
theorem W5_main_arg8 (c : Dev nD) : W5 m ρ c (Proc.devRef .tc main_arg8) = m ((c : Thread nD τ).loc main_arg8) :=
  (show W5 m ρ c (Proc.devRef .tc main_arg8) = W4 m ρ c (Proc.devRef .tc main_arg8) from W5_of m ρ c main_arg8 (by decide)).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from W6_of_ne m ρ c main_arg8 (by decide)).trans (W5_main_arg8 m ρ c)
theorem W7_main_arg8 (c : Dev nD) : W7 m ρ c (Proc.devRef .tc main_arg8) = m ((c : Thread nD τ).loc main_arg8) :=
  (show W7 m ρ c (Proc.devRef .tc main_arg8) = W6 m ρ c (Proc.devRef .tc main_arg8) from W7_of m ρ c main_arg8 (by decide)).trans (W6_main_arg8 m ρ c)
theorem W8_main_arg8 (c : Dev nD) : W8 m ρ c (Proc.devRef .tc main_arg8) = m ((c : Thread nD τ).loc main_arg8) :=
  (show W8 m ρ c (Proc.devRef .tc main_arg8) = W7 m ρ c (Proc.devRef .tc main_arg8) from W8_of_ne m ρ c main_arg8 (by decide)).trans (W7_main_arg8 m ρ c)
theorem W9_main_arg8 (c : Dev nD) : W9 m ρ c (Proc.devRef .tc main_arg8) = m ((c : Thread nD τ).loc main_arg8) :=
  (show W9 m ρ c (Proc.devRef .tc main_arg8) = W8 m ρ c (Proc.devRef .tc main_arg8) from W9_of m ρ c main_arg8 (by decide)).trans (W8_main_arg8 m ρ c)
theorem W10_main_arg8 (c : Dev nD) : W10 m ρ c (Proc.devRef .tc main_arg8) = m ((c : Thread nD τ).loc main_arg8) :=
  (show W10 m ρ c (Proc.devRef .tc main_arg8) = W9 m ρ c (Proc.devRef .tc main_arg8) from W10_of m ρ c main_arg8 (by decide)).trans (W9_main_arg8 m ρ c)
theorem W11_main_arg8 (c : Dev nD) : W11 m ρ c (Proc.devRef .tc main_arg8) = m ((c : Thread nD τ).loc main_arg8) :=
  (show W11 m ρ c (Proc.devRef .tc main_arg8) = W10 m ρ c (Proc.devRef .tc main_arg8) from W11_of m ρ c main_arg8 (by decide)).trans (W10_main_arg8 m ρ c)
theorem W12_main_arg8 (c : Dev nD) : W12 m ρ c (Proc.devRef .tc main_arg8) = m ((c : Thread nD τ).loc main_arg8) :=
  (show W12 m ρ c (Proc.devRef .tc main_arg8) = W11 m ρ c (Proc.devRef .tc main_arg8) from W12_of_ne m ρ c main_arg8 (by decide)).trans (W11_main_arg8 m ρ c)
theorem W13_main_arg8 (c : Dev nD) : W13 m ρ c (Proc.devRef .tc main_arg8) = m ((c : Thread nD τ).loc main_arg8) :=
  (show W13 m ρ c (Proc.devRef .tc main_arg8) = W12 m ρ c (Proc.devRef .tc main_arg8) from W13_of_ne m ρ c main_arg8 (by decide)).trans (W12_main_arg8 m ρ c)
theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (show W1 m ρ c (Proc.devRef .tc main_arg9) = W0 m ρ c (Proc.devRef .tc main_arg9) from W1_of m ρ c main_arg9 (by decide)).trans (W0_main_arg9 m ρ c)
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from W2_of m ρ c main_arg9 (by decide)).trans (W1_main_arg9 m ρ c)
theorem W3_main_arg9 (c : Dev nD) : W3 m ρ c (Proc.devRef .tc main_arg9) = m ((c : Thread nD τ).loc main_arg9) :=
  (show W3 m ρ c (Proc.devRef .tc main_arg9) = W2 m ρ c (Proc.devRef .tc main_arg9) from W3_of m ρ c main_arg9 (by decide)).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (W3_main_arg9 m ρ c)
theorem W5_main_arg9 (c : Dev nD) : W5 m ρ c (Proc.devRef .tc main_arg9) = m ((c : Thread nD τ).loc main_arg9) :=
  (show W5 m ρ c (Proc.devRef .tc main_arg9) = W4 m ρ c (Proc.devRef .tc main_arg9) from W5_of m ρ c main_arg9 (by decide)).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from W6_of_ne m ρ c main_arg9 (by decide)).trans (W5_main_arg9 m ρ c)
theorem W7_main_arg9 (c : Dev nD) : W7 m ρ c (Proc.devRef .tc main_arg9) = m ((c : Thread nD τ).loc main_arg9) :=
  (show W7 m ρ c (Proc.devRef .tc main_arg9) = W6 m ρ c (Proc.devRef .tc main_arg9) from W7_of m ρ c main_arg9 (by decide)).trans (W6_main_arg9 m ρ c)
theorem W8_main_arg9 (c : Dev nD) : W8 m ρ c (Proc.devRef .tc main_arg9) = m ((c : Thread nD τ).loc main_arg9) :=
  (show W8 m ρ c (Proc.devRef .tc main_arg9) = W7 m ρ c (Proc.devRef .tc main_arg9) from W8_of_ne m ρ c main_arg9 (by decide)).trans (W7_main_arg9 m ρ c)
theorem W9_main_arg9 (c : Dev nD) : W9 m ρ c (Proc.devRef .tc main_arg9) = m ((c : Thread nD τ).loc main_arg9) :=
  (show W9 m ρ c (Proc.devRef .tc main_arg9) = W8 m ρ c (Proc.devRef .tc main_arg9) from W9_of m ρ c main_arg9 (by decide)).trans (W8_main_arg9 m ρ c)
theorem W10_main_arg9 (c : Dev nD) : W10 m ρ c (Proc.devRef .tc main_arg9) = m ((c : Thread nD τ).loc main_arg9) :=
  (show W10 m ρ c (Proc.devRef .tc main_arg9) = W9 m ρ c (Proc.devRef .tc main_arg9) from W10_of m ρ c main_arg9 (by decide)).trans (W9_main_arg9 m ρ c)
theorem W11_main_arg9 (c : Dev nD) : W11 m ρ c (Proc.devRef .tc main_arg9) = m ((c : Thread nD τ).loc main_arg9) :=
  (show W11 m ρ c (Proc.devRef .tc main_arg9) = W10 m ρ c (Proc.devRef .tc main_arg9) from W11_of m ρ c main_arg9 (by decide)).trans (W10_main_arg9 m ρ c)
theorem W12_main_arg9 (c : Dev nD) : W12 m ρ c (Proc.devRef .tc main_arg9) = m ((c : Thread nD τ).loc main_arg9) :=
  (show W12 m ρ c (Proc.devRef .tc main_arg9) = W11 m ρ c (Proc.devRef .tc main_arg9) from (W12_arr m ρ c 1).trans (((dat3 (V11 m ρ) c).arrAt_in 1 rfl _).trans (A_eq3 (V11 m ρ) c 1))).trans (W11_main_arg9 m ρ c)
theorem W13_main_arg9 (c : Dev nD) : W13 m ρ c (Proc.devRef .tc main_arg9) = m ((c : Thread nD τ).loc main_arg9) :=
  (show W13 m ρ c (Proc.devRef .tc main_arg9) = W12 m ρ c (Proc.devRef .tc main_arg9) from W13_of_ne m ρ c main_arg9 (by decide)).trans (W12_main_arg9 m ρ c)
theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (show W1 m ρ c (Proc.devRef .tc main_arg10) = W0 m ρ c (Proc.devRef .tc main_arg10) from W1_of m ρ c main_arg10 (by decide)).trans (W0_main_arg10 m ρ c)
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from W2_of m ρ c main_arg10 (by decide)).trans (W1_main_arg10 m ρ c)
theorem W3_main_arg10 (c : Dev nD) : W3 m ρ c (Proc.devRef .tc main_arg10) = m ((c : Thread nD τ).loc main_arg10) :=
  (show W3 m ρ c (Proc.devRef .tc main_arg10) = W2 m ρ c (Proc.devRef .tc main_arg10) from W3_of m ρ c main_arg10 (by decide)).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (W3_main_arg10 m ρ c)
theorem W5_main_arg10 (c : Dev nD) : W5 m ρ c (Proc.devRef .tc main_arg10) = m ((c : Thread nD τ).loc main_arg10) :=
  (show W5 m ρ c (Proc.devRef .tc main_arg10) = W4 m ρ c (Proc.devRef .tc main_arg10) from W5_of m ρ c main_arg10 (by decide)).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from W6_of_ne m ρ c main_arg10 (by decide)).trans (W5_main_arg10 m ρ c)
theorem W7_main_arg10 (c : Dev nD) : W7 m ρ c (Proc.devRef .tc main_arg10) = m ((c : Thread nD τ).loc main_arg10) :=
  (show W7 m ρ c (Proc.devRef .tc main_arg10) = W6 m ρ c (Proc.devRef .tc main_arg10) from W7_of m ρ c main_arg10 (by decide)).trans (W6_main_arg10 m ρ c)
theorem W8_main_arg10 (c : Dev nD) : W8 m ρ c (Proc.devRef .tc main_arg10) = m ((c : Thread nD τ).loc main_arg10) :=
  (show W8 m ρ c (Proc.devRef .tc main_arg10) = W7 m ρ c (Proc.devRef .tc main_arg10) from W8_of_ne m ρ c main_arg10 (by decide)).trans (W7_main_arg10 m ρ c)
theorem W9_main_arg10 (c : Dev nD) : W9 m ρ c (Proc.devRef .tc main_arg10) = m ((c : Thread nD τ).loc main_arg10) :=
  (show W9 m ρ c (Proc.devRef .tc main_arg10) = W8 m ρ c (Proc.devRef .tc main_arg10) from W9_of m ρ c main_arg10 (by decide)).trans (W8_main_arg10 m ρ c)
theorem W10_main_arg10 (c : Dev nD) : W10 m ρ c (Proc.devRef .tc main_arg10) = m ((c : Thread nD τ).loc main_arg10) :=
  (show W10 m ρ c (Proc.devRef .tc main_arg10) = W9 m ρ c (Proc.devRef .tc main_arg10) from W10_of m ρ c main_arg10 (by decide)).trans (W9_main_arg10 m ρ c)
theorem W11_main_arg10 (c : Dev nD) : W11 m ρ c (Proc.devRef .tc main_arg10) = m ((c : Thread nD τ).loc main_arg10) :=
  (show W11 m ρ c (Proc.devRef .tc main_arg10) = W10 m ρ c (Proc.devRef .tc main_arg10) from W11_of m ρ c main_arg10 (by decide)).trans (W10_main_arg10 m ρ c)
theorem W12_main_arg10 (c : Dev nD) : W12 m ρ c (Proc.devRef .tc main_arg10) = m ((c : Thread nD τ).loc main_arg10) :=
  (show W12 m ρ c (Proc.devRef .tc main_arg10) = W11 m ρ c (Proc.devRef .tc main_arg10) from (W12_arr m ρ c 2).trans (((dat3 (V11 m ρ) c).arrAt_in 2 rfl _).trans (A_eq3 (V11 m ρ) c 2))).trans (W11_main_arg10 m ρ c)
theorem W13_main_arg10 (c : Dev nD) : W13 m ρ c (Proc.devRef .tc main_arg10) = m ((c : Thread nD τ).loc main_arg10) :=
  (show W13 m ρ c (Proc.devRef .tc main_arg10) = W12 m ρ c (Proc.devRef .tc main_arg10) from W13_of_ne m ρ c main_arg10 (by decide)).trans (W12_main_arg10 m ρ c)
theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (show W1 m ρ c (Proc.devRef .tc main_arg11) = W0 m ρ c (Proc.devRef .tc main_arg11) from W1_of m ρ c main_arg11 (by decide)).trans (W0_main_arg11 m ρ c)
theorem W2_main_arg11 (c : Dev nD) : W2 m ρ c (Proc.devRef .tc main_arg11) = m ((c : Thread nD τ).loc main_arg11) :=
  (show W2 m ρ c (Proc.devRef .tc main_arg11) = W1 m ρ c (Proc.devRef .tc main_arg11) from W2_of m ρ c main_arg11 (by decide)).trans (W1_main_arg11 m ρ c)
theorem W3_main_arg11 (c : Dev nD) : W3 m ρ c (Proc.devRef .tc main_arg11) = m ((c : Thread nD τ).loc main_arg11) :=
  (show W3 m ρ c (Proc.devRef .tc main_arg11) = W2 m ρ c (Proc.devRef .tc main_arg11) from W3_of m ρ c main_arg11 (by decide)).trans (W2_main_arg11 m ρ c)
theorem W4_main_arg11 (c : Dev nD) : W4 m ρ c (Proc.devRef .tc main_arg11) = m ((c : Thread nD τ).loc main_arg11) :=
  (show W4 m ρ c (Proc.devRef .tc main_arg11) = W3 m ρ c (Proc.devRef .tc main_arg11) from W4_of_ne m ρ c main_arg11 (by decide)).trans (W3_main_arg11 m ρ c)
theorem W5_main_arg11 (c : Dev nD) : W5 m ρ c (Proc.devRef .tc main_arg11) = m ((c : Thread nD τ).loc main_arg11) :=
  (show W5 m ρ c (Proc.devRef .tc main_arg11) = W4 m ρ c (Proc.devRef .tc main_arg11) from W5_of m ρ c main_arg11 (by decide)).trans (W4_main_arg11 m ρ c)
theorem W6_main_arg11 (c : Dev nD) : W6 m ρ c (Proc.devRef .tc main_arg11) = m ((c : Thread nD τ).loc main_arg11) :=
  (show W6 m ρ c (Proc.devRef .tc main_arg11) = W5 m ρ c (Proc.devRef .tc main_arg11) from (W6_arr m ρ c 1).trans (((dat1 (V5 m ρ) c).arrAt_in 1 rfl _).trans (A_eq1 (V5 m ρ) c 1))).trans (W5_main_arg11 m ρ c)
theorem W7_main_arg11 (c : Dev nD) : W7 m ρ c (Proc.devRef .tc main_arg11) = m ((c : Thread nD τ).loc main_arg11) :=
  (show W7 m ρ c (Proc.devRef .tc main_arg11) = W6 m ρ c (Proc.devRef .tc main_arg11) from W7_of m ρ c main_arg11 (by decide)).trans (W6_main_arg11 m ρ c)
theorem W8_main_arg11 (c : Dev nD) : W8 m ρ c (Proc.devRef .tc main_arg11) = m ((c : Thread nD τ).loc main_arg11) :=
  (show W8 m ρ c (Proc.devRef .tc main_arg11) = W7 m ρ c (Proc.devRef .tc main_arg11) from W8_of_ne m ρ c main_arg11 (by decide)).trans (W7_main_arg11 m ρ c)
theorem W9_main_arg11 (c : Dev nD) : W9 m ρ c (Proc.devRef .tc main_arg11) = m ((c : Thread nD τ).loc main_arg11) :=
  (show W9 m ρ c (Proc.devRef .tc main_arg11) = W8 m ρ c (Proc.devRef .tc main_arg11) from W9_of m ρ c main_arg11 (by decide)).trans (W8_main_arg11 m ρ c)
theorem W10_main_arg11 (c : Dev nD) : W10 m ρ c (Proc.devRef .tc main_arg11) = m ((c : Thread nD τ).loc main_arg11) :=
  (show W10 m ρ c (Proc.devRef .tc main_arg11) = W9 m ρ c (Proc.devRef .tc main_arg11) from W10_of m ρ c main_arg11 (by decide)).trans (W9_main_arg11 m ρ c)
theorem W11_main_arg11 (c : Dev nD) : W11 m ρ c (Proc.devRef .tc main_arg11) = m ((c : Thread nD τ).loc main_arg11) :=
  (show W11 m ρ c (Proc.devRef .tc main_arg11) = W10 m ρ c (Proc.devRef .tc main_arg11) from W11_of m ρ c main_arg11 (by decide)).trans (W10_main_arg11 m ρ c)
theorem W12_main_arg11 (c : Dev nD) : W12 m ρ c (Proc.devRef .tc main_arg11) = m ((c : Thread nD τ).loc main_arg11) :=
  (show W12 m ρ c (Proc.devRef .tc main_arg11) = W11 m ρ c (Proc.devRef .tc main_arg11) from W12_of_ne m ρ c main_arg11 (by decide)).trans (W11_main_arg11 m ρ c)
theorem W13_main_arg11 (c : Dev nD) : W13 m ρ c (Proc.devRef .tc main_arg11) = m ((c : Thread nD τ).loc main_arg11) :=
  (show W13 m ρ c (Proc.devRef .tc main_arg11) = W12 m ρ c (Proc.devRef .tc main_arg11) from W13_of_ne m ρ c main_arg11 (by decide)).trans (W12_main_arg11 m ρ c)
theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  (show W1 m ρ c (Proc.devRef .tc main_arg12) = W0 m ρ c (Proc.devRef .tc main_arg12) from W1_of m ρ c main_arg12 (by decide)).trans (W0_main_arg12 m ρ c)
theorem W2_main_arg12 (c : Dev nD) : W2 m ρ c (Proc.devRef .tc main_arg12) = m ((c : Thread nD τ).loc main_arg12) :=
  (show W2 m ρ c (Proc.devRef .tc main_arg12) = W1 m ρ c (Proc.devRef .tc main_arg12) from W2_of m ρ c main_arg12 (by decide)).trans (W1_main_arg12 m ρ c)
theorem W3_main_arg12 (c : Dev nD) : W3 m ρ c (Proc.devRef .tc main_arg12) = m ((c : Thread nD τ).loc main_arg12) :=
  (show W3 m ρ c (Proc.devRef .tc main_arg12) = W2 m ρ c (Proc.devRef .tc main_arg12) from W3_of m ρ c main_arg12 (by decide)).trans (W2_main_arg12 m ρ c)
theorem W4_main_arg12 (c : Dev nD) : W4 m ρ c (Proc.devRef .tc main_arg12) = m ((c : Thread nD τ).loc main_arg12) :=
  (show W4 m ρ c (Proc.devRef .tc main_arg12) = W3 m ρ c (Proc.devRef .tc main_arg12) from W4_of_ne m ρ c main_arg12 (by decide)).trans (W3_main_arg12 m ρ c)
theorem W5_main_arg12 (c : Dev nD) : W5 m ρ c (Proc.devRef .tc main_arg12) = m ((c : Thread nD τ).loc main_arg12) :=
  (show W5 m ρ c (Proc.devRef .tc main_arg12) = W4 m ρ c (Proc.devRef .tc main_arg12) from W5_of m ρ c main_arg12 (by decide)).trans (W4_main_arg12 m ρ c)
theorem W6_main_arg12 (c : Dev nD) : W6 m ρ c (Proc.devRef .tc main_arg12) = m ((c : Thread nD τ).loc main_arg12) :=
  (show W6 m ρ c (Proc.devRef .tc main_arg12) = W5 m ρ c (Proc.devRef .tc main_arg12) from (W6_arr m ρ c 4).trans (((dat1 (V5 m ρ) c).arrAt_in 4 rfl _).trans (A_eq1 (V5 m ρ) c 4))).trans (W5_main_arg12 m ρ c)
theorem W7_main_arg12 (c : Dev nD) : W7 m ρ c (Proc.devRef .tc main_arg12) = m ((c : Thread nD τ).loc main_arg12) :=
  (show W7 m ρ c (Proc.devRef .tc main_arg12) = W6 m ρ c (Proc.devRef .tc main_arg12) from W7_of m ρ c main_arg12 (by decide)).trans (W6_main_arg12 m ρ c)
theorem W8_main_arg12 (c : Dev nD) : W8 m ρ c (Proc.devRef .tc main_arg12) = m ((c : Thread nD τ).loc main_arg12) :=
  (show W8 m ρ c (Proc.devRef .tc main_arg12) = W7 m ρ c (Proc.devRef .tc main_arg12) from W8_of_ne m ρ c main_arg12 (by decide)).trans (W7_main_arg12 m ρ c)
theorem W9_main_arg12 (c : Dev nD) : W9 m ρ c (Proc.devRef .tc main_arg12) = m ((c : Thread nD τ).loc main_arg12) :=
  (show W9 m ρ c (Proc.devRef .tc main_arg12) = W8 m ρ c (Proc.devRef .tc main_arg12) from W9_of m ρ c main_arg12 (by decide)).trans (W8_main_arg12 m ρ c)
theorem W10_main_arg12 (c : Dev nD) : W10 m ρ c (Proc.devRef .tc main_arg12) = m ((c : Thread nD τ).loc main_arg12) :=
  (show W10 m ρ c (Proc.devRef .tc main_arg12) = W9 m ρ c (Proc.devRef .tc main_arg12) from W10_of m ρ c main_arg12 (by decide)).trans (W9_main_arg12 m ρ c)
theorem W11_main_arg12 (c : Dev nD) : W11 m ρ c (Proc.devRef .tc main_arg12) = m ((c : Thread nD τ).loc main_arg12) :=
  (show W11 m ρ c (Proc.devRef .tc main_arg12) = W10 m ρ c (Proc.devRef .tc main_arg12) from W11_of m ρ c main_arg12 (by decide)).trans (W10_main_arg12 m ρ c)
theorem W12_main_arg12 (c : Dev nD) : W12 m ρ c (Proc.devRef .tc main_arg12) = m ((c : Thread nD τ).loc main_arg12) :=
  (show W12 m ρ c (Proc.devRef .tc main_arg12) = W11 m ρ c (Proc.devRef .tc main_arg12) from W12_of_ne m ρ c main_arg12 (by decide)).trans (W11_main_arg12 m ρ c)
theorem W13_main_arg12 (c : Dev nD) : W13 m ρ c (Proc.devRef .tc main_arg12) = m ((c : Thread nD τ).loc main_arg12) :=
  (show W13 m ρ c (Proc.devRef .tc main_arg12) = W12 m ρ c (Proc.devRef .tc main_arg12) from W13_of_ne m ρ c main_arg12 (by decide)).trans (W12_main_arg12 m ρ c)
theorem W0_main_arg13 (c : Dev nD) : W0 m ρ c (Proc.devRef .tc main_arg13) = m ((c : Thread nD τ).loc main_arg13) := rfl
theorem W1_main_arg13 (c : Dev nD) : W1 m ρ c (Proc.devRef .tc main_arg13) = m ((c : Thread nD τ).loc main_arg13) :=
  (show W1 m ρ c (Proc.devRef .tc main_arg13) = W0 m ρ c (Proc.devRef .tc main_arg13) from W1_of m ρ c main_arg13 (by decide)).trans (W0_main_arg13 m ρ c)
theorem W2_main_arg13 (c : Dev nD) : W2 m ρ c (Proc.devRef .tc main_arg13) = m ((c : Thread nD τ).loc main_arg13) :=
  (show W2 m ρ c (Proc.devRef .tc main_arg13) = W1 m ρ c (Proc.devRef .tc main_arg13) from W2_of m ρ c main_arg13 (by decide)).trans (W1_main_arg13 m ρ c)
theorem W3_main_arg13 (c : Dev nD) : W3 m ρ c (Proc.devRef .tc main_arg13) = m ((c : Thread nD τ).loc main_arg13) :=
  (show W3 m ρ c (Proc.devRef .tc main_arg13) = W2 m ρ c (Proc.devRef .tc main_arg13) from W3_of m ρ c main_arg13 (by decide)).trans (W2_main_arg13 m ρ c)
theorem W4_main_arg13 (c : Dev nD) : W4 m ρ c (Proc.devRef .tc main_arg13) = m ((c : Thread nD τ).loc main_arg13) :=
  (show W4 m ρ c (Proc.devRef .tc main_arg13) = W3 m ρ c (Proc.devRef .tc main_arg13) from W4_of_ne m ρ c main_arg13 (by decide)).trans (W3_main_arg13 m ρ c)
theorem W5_main_arg13 (c : Dev nD) : W5 m ρ c (Proc.devRef .tc main_arg13) = m ((c : Thread nD τ).loc main_arg13) :=
  (show W5 m ρ c (Proc.devRef .tc main_arg13) = W4 m ρ c (Proc.devRef .tc main_arg13) from W5_of m ρ c main_arg13 (by decide)).trans (W4_main_arg13 m ρ c)
theorem W6_main_arg13 (c : Dev nD) : W6 m ρ c (Proc.devRef .tc main_arg13) = m ((c : Thread nD τ).loc main_arg13) :=
  (show W6 m ρ c (Proc.devRef .tc main_arg13) = W5 m ρ c (Proc.devRef .tc main_arg13) from (W6_arr m ρ c 3).trans (((dat1 (V5 m ρ) c).arrAt_in 3 rfl _).trans (A_eq1 (V5 m ρ) c 3))).trans (W5_main_arg13 m ρ c)
theorem W7_main_arg13 (c : Dev nD) : W7 m ρ c (Proc.devRef .tc main_arg13) = m ((c : Thread nD τ).loc main_arg13) :=
  (show W7 m ρ c (Proc.devRef .tc main_arg13) = W6 m ρ c (Proc.devRef .tc main_arg13) from W7_of m ρ c main_arg13 (by decide)).trans (W6_main_arg13 m ρ c)
theorem W8_main_arg13 (c : Dev nD) : W8 m ρ c (Proc.devRef .tc main_arg13) = m ((c : Thread nD τ).loc main_arg13) :=
  (show W8 m ρ c (Proc.devRef .tc main_arg13) = W7 m ρ c (Proc.devRef .tc main_arg13) from W8_of_ne m ρ c main_arg13 (by decide)).trans (W7_main_arg13 m ρ c)
theorem W9_main_arg13 (c : Dev nD) : W9 m ρ c (Proc.devRef .tc main_arg13) = m ((c : Thread nD τ).loc main_arg13) :=
  (show W9 m ρ c (Proc.devRef .tc main_arg13) = W8 m ρ c (Proc.devRef .tc main_arg13) from W9_of m ρ c main_arg13 (by decide)).trans (W8_main_arg13 m ρ c)
theorem W10_main_arg13 (c : Dev nD) : W10 m ρ c (Proc.devRef .tc main_arg13) = m ((c : Thread nD τ).loc main_arg13) :=
  (show W10 m ρ c (Proc.devRef .tc main_arg13) = W9 m ρ c (Proc.devRef .tc main_arg13) from W10_of m ρ c main_arg13 (by decide)).trans (W9_main_arg13 m ρ c)
theorem W11_main_arg13 (c : Dev nD) : W11 m ρ c (Proc.devRef .tc main_arg13) = m ((c : Thread nD τ).loc main_arg13) :=
  (show W11 m ρ c (Proc.devRef .tc main_arg13) = W10 m ρ c (Proc.devRef .tc main_arg13) from W11_of m ρ c main_arg13 (by decide)).trans (W10_main_arg13 m ρ c)
theorem W12_main_arg13 (c : Dev nD) : W12 m ρ c (Proc.devRef .tc main_arg13) = m ((c : Thread nD τ).loc main_arg13) :=
  (show W12 m ρ c (Proc.devRef .tc main_arg13) = W11 m ρ c (Proc.devRef .tc main_arg13) from W12_of_ne m ρ c main_arg13 (by decide)).trans (W11_main_arg13 m ρ c)
theorem W13_main_arg13 (c : Dev nD) : W13 m ρ c (Proc.devRef .tc main_arg13) = m ((c : Thread nD τ).loc main_arg13) :=
  (show W13 m ρ c (Proc.devRef .tc main_arg13) = W12 m ρ c (Proc.devRef .tc main_arg13) from W13_of_ne m ρ c main_arg13 (by decide)).trans (W12_main_arg13 m ρ c)
theorem W0_main_arg14 (c : Dev nD) : W0 m ρ c (Proc.devRef .tc main_arg14) = m ((c : Thread nD τ).loc main_arg14) := rfl
theorem W1_main_arg14 (c : Dev nD) : W1 m ρ c (Proc.devRef .tc main_arg14) = m ((c : Thread nD τ).loc main_arg14) :=
  (show W1 m ρ c (Proc.devRef .tc main_arg14) = W0 m ρ c (Proc.devRef .tc main_arg14) from W1_of m ρ c main_arg14 (by decide)).trans (W0_main_arg14 m ρ c)
theorem W2_main_arg14 (c : Dev nD) : W2 m ρ c (Proc.devRef .tc main_arg14) = m ((c : Thread nD τ).loc main_arg14) :=
  (show W2 m ρ c (Proc.devRef .tc main_arg14) = W1 m ρ c (Proc.devRef .tc main_arg14) from W2_of m ρ c main_arg14 (by decide)).trans (W1_main_arg14 m ρ c)
theorem W3_main_arg14 (c : Dev nD) : W3 m ρ c (Proc.devRef .tc main_arg14) = m ((c : Thread nD τ).loc main_arg14) :=
  (show W3 m ρ c (Proc.devRef .tc main_arg14) = W2 m ρ c (Proc.devRef .tc main_arg14) from W3_of m ρ c main_arg14 (by decide)).trans (W2_main_arg14 m ρ c)
theorem W4_main_arg14 (c : Dev nD) : W4 m ρ c (Proc.devRef .tc main_arg14) = m ((c : Thread nD τ).loc main_arg14) :=
  (show W4 m ρ c (Proc.devRef .tc main_arg14) = W3 m ρ c (Proc.devRef .tc main_arg14) from W4_of_ne m ρ c main_arg14 (by decide)).trans (W3_main_arg14 m ρ c)
theorem W5_main_arg14 (c : Dev nD) : W5 m ρ c (Proc.devRef .tc main_arg14) = m ((c : Thread nD τ).loc main_arg14) :=
  (show W5 m ρ c (Proc.devRef .tc main_arg14) = W4 m ρ c (Proc.devRef .tc main_arg14) from W5_of m ρ c main_arg14 (by decide)).trans (W4_main_arg14 m ρ c)
theorem W6_main_arg14 (c : Dev nD) : W6 m ρ c (Proc.devRef .tc main_arg14) = m ((c : Thread nD τ).loc main_arg14) :=
  (show W6 m ρ c (Proc.devRef .tc main_arg14) = W5 m ρ c (Proc.devRef .tc main_arg14) from W6_of_ne m ρ c main_arg14 (by decide)).trans (W5_main_arg14 m ρ c)
theorem W7_main_arg14 (c : Dev nD) : W7 m ρ c (Proc.devRef .tc main_arg14) = m ((c : Thread nD τ).loc main_arg14) :=
  (show W7 m ρ c (Proc.devRef .tc main_arg14) = W6 m ρ c (Proc.devRef .tc main_arg14) from W7_of m ρ c main_arg14 (by decide)).trans (W6_main_arg14 m ρ c)
theorem W8_main_arg14 (c : Dev nD) : W8 m ρ c (Proc.devRef .tc main_arg14) = m ((c : Thread nD τ).loc main_arg14) :=
  (show W8 m ρ c (Proc.devRef .tc main_arg14) = W7 m ρ c (Proc.devRef .tc main_arg14) from (W8_arr m ρ c 1).trans (((dat2 (V7 m ρ) c).arrAt_in 1 rfl _).trans (A_eq2 (V7 m ρ) c 1))).trans (W7_main_arg14 m ρ c)
theorem W9_main_arg14 (c : Dev nD) : W9 m ρ c (Proc.devRef .tc main_arg14) = m ((c : Thread nD τ).loc main_arg14) :=
  (show W9 m ρ c (Proc.devRef .tc main_arg14) = W8 m ρ c (Proc.devRef .tc main_arg14) from W9_of m ρ c main_arg14 (by decide)).trans (W8_main_arg14 m ρ c)
theorem W10_main_arg14 (c : Dev nD) : W10 m ρ c (Proc.devRef .tc main_arg14) = m ((c : Thread nD τ).loc main_arg14) :=
  (show W10 m ρ c (Proc.devRef .tc main_arg14) = W9 m ρ c (Proc.devRef .tc main_arg14) from W10_of m ρ c main_arg14 (by decide)).trans (W9_main_arg14 m ρ c)
theorem W11_main_arg14 (c : Dev nD) : W11 m ρ c (Proc.devRef .tc main_arg14) = m ((c : Thread nD τ).loc main_arg14) :=
  (show W11 m ρ c (Proc.devRef .tc main_arg14) = W10 m ρ c (Proc.devRef .tc main_arg14) from W11_of m ρ c main_arg14 (by decide)).trans (W10_main_arg14 m ρ c)
theorem W12_main_arg14 (c : Dev nD) : W12 m ρ c (Proc.devRef .tc main_arg14) = m ((c : Thread nD τ).loc main_arg14) :=
  (show W12 m ρ c (Proc.devRef .tc main_arg14) = W11 m ρ c (Proc.devRef .tc main_arg14) from W12_of_ne m ρ c main_arg14 (by decide)).trans (W11_main_arg14 m ρ c)
theorem W13_main_arg14 (c : Dev nD) : W13 m ρ c (Proc.devRef .tc main_arg14) = m ((c : Thread nD τ).loc main_arg14) :=
  (show W13 m ρ c (Proc.devRef .tc main_arg14) = W12 m ρ c (Proc.devRef .tc main_arg14) from W13_of_ne m ρ c main_arg14 (by decide)).trans (W12_main_arg14 m ρ c)
theorem W0_main_arg15 (c : Dev nD) : W0 m ρ c (Proc.devRef .tc main_arg15) = m ((c : Thread nD τ).loc main_arg15) := rfl
theorem W1_main_arg15 (c : Dev nD) : W1 m ρ c (Proc.devRef .tc main_arg15) = m ((c : Thread nD τ).loc main_arg15) :=
  (show W1 m ρ c (Proc.devRef .tc main_arg15) = W0 m ρ c (Proc.devRef .tc main_arg15) from W1_of m ρ c main_arg15 (by decide)).trans (W0_main_arg15 m ρ c)
theorem W2_main_arg15 (c : Dev nD) : W2 m ρ c (Proc.devRef .tc main_arg15) = m ((c : Thread nD τ).loc main_arg15) :=
  (show W2 m ρ c (Proc.devRef .tc main_arg15) = W1 m ρ c (Proc.devRef .tc main_arg15) from W2_of m ρ c main_arg15 (by decide)).trans (W1_main_arg15 m ρ c)
theorem W3_main_arg15 (c : Dev nD) : W3 m ρ c (Proc.devRef .tc main_arg15) = m ((c : Thread nD τ).loc main_arg15) :=
  (show W3 m ρ c (Proc.devRef .tc main_arg15) = W2 m ρ c (Proc.devRef .tc main_arg15) from W3_of m ρ c main_arg15 (by decide)).trans (W2_main_arg15 m ρ c)
theorem W4_main_arg15 (c : Dev nD) : W4 m ρ c (Proc.devRef .tc main_arg15) = m ((c : Thread nD τ).loc main_arg15) :=
  (show W4 m ρ c (Proc.devRef .tc main_arg15) = W3 m ρ c (Proc.devRef .tc main_arg15) from W4_of_ne m ρ c main_arg15 (by decide)).trans (W3_main_arg15 m ρ c)
theorem W5_main_arg15 (c : Dev nD) : W5 m ρ c (Proc.devRef .tc main_arg15) = m ((c : Thread nD τ).loc main_arg15) :=
  (show W5 m ρ c (Proc.devRef .tc main_arg15) = W4 m ρ c (Proc.devRef .tc main_arg15) from W5_of m ρ c main_arg15 (by decide)).trans (W4_main_arg15 m ρ c)
theorem W6_main_arg15 (c : Dev nD) : W6 m ρ c (Proc.devRef .tc main_arg15) = m ((c : Thread nD τ).loc main_arg15) :=
  (show W6 m ρ c (Proc.devRef .tc main_arg15) = W5 m ρ c (Proc.devRef .tc main_arg15) from W6_of_ne m ρ c main_arg15 (by decide)).trans (W5_main_arg15 m ρ c)
theorem W7_main_arg15 (c : Dev nD) : W7 m ρ c (Proc.devRef .tc main_arg15) = m ((c : Thread nD τ).loc main_arg15) :=
  (show W7 m ρ c (Proc.devRef .tc main_arg15) = W6 m ρ c (Proc.devRef .tc main_arg15) from W7_of m ρ c main_arg15 (by decide)).trans (W6_main_arg15 m ρ c)
theorem W8_main_arg15 (c : Dev nD) : W8 m ρ c (Proc.devRef .tc main_arg15) = m ((c : Thread nD τ).loc main_arg15) :=
  (show W8 m ρ c (Proc.devRef .tc main_arg15) = W7 m ρ c (Proc.devRef .tc main_arg15) from (W8_arr m ρ c 4).trans (((dat2 (V7 m ρ) c).arrAt_in 4 rfl _).trans (A_eq2 (V7 m ρ) c 4))).trans (W7_main_arg15 m ρ c)
theorem W9_main_arg15 (c : Dev nD) : W9 m ρ c (Proc.devRef .tc main_arg15) = m ((c : Thread nD τ).loc main_arg15) :=
  (show W9 m ρ c (Proc.devRef .tc main_arg15) = W8 m ρ c (Proc.devRef .tc main_arg15) from W9_of m ρ c main_arg15 (by decide)).trans (W8_main_arg15 m ρ c)
theorem W10_main_arg15 (c : Dev nD) : W10 m ρ c (Proc.devRef .tc main_arg15) = m ((c : Thread nD τ).loc main_arg15) :=
  (show W10 m ρ c (Proc.devRef .tc main_arg15) = W9 m ρ c (Proc.devRef .tc main_arg15) from W10_of m ρ c main_arg15 (by decide)).trans (W9_main_arg15 m ρ c)
theorem W11_main_arg15 (c : Dev nD) : W11 m ρ c (Proc.devRef .tc main_arg15) = m ((c : Thread nD τ).loc main_arg15) :=
  (show W11 m ρ c (Proc.devRef .tc main_arg15) = W10 m ρ c (Proc.devRef .tc main_arg15) from W11_of m ρ c main_arg15 (by decide)).trans (W10_main_arg15 m ρ c)
theorem W12_main_arg15 (c : Dev nD) : W12 m ρ c (Proc.devRef .tc main_arg15) = m ((c : Thread nD τ).loc main_arg15) :=
  (show W12 m ρ c (Proc.devRef .tc main_arg15) = W11 m ρ c (Proc.devRef .tc main_arg15) from W12_of_ne m ρ c main_arg15 (by decide)).trans (W11_main_arg15 m ρ c)
theorem W13_main_arg15 (c : Dev nD) : W13 m ρ c (Proc.devRef .tc main_arg15) = m ((c : Thread nD τ).loc main_arg15) :=
  (show W13 m ρ c (Proc.devRef .tc main_arg15) = W12 m ρ c (Proc.devRef .tc main_arg15) from W13_of_ne m ρ c main_arg15 (by decide)).trans (W12_main_arg15 m ρ c)
theorem W0_main_arg16 (c : Dev nD) : W0 m ρ c (Proc.devRef .tc main_arg16) = m ((c : Thread nD τ).loc main_arg16) := rfl
theorem W1_main_arg16 (c : Dev nD) : W1 m ρ c (Proc.devRef .tc main_arg16) = m ((c : Thread nD τ).loc main_arg16) :=
  (show W1 m ρ c (Proc.devRef .tc main_arg16) = W0 m ρ c (Proc.devRef .tc main_arg16) from W1_of m ρ c main_arg16 (by decide)).trans (W0_main_arg16 m ρ c)
theorem W2_main_arg16 (c : Dev nD) : W2 m ρ c (Proc.devRef .tc main_arg16) = m ((c : Thread nD τ).loc main_arg16) :=
  (show W2 m ρ c (Proc.devRef .tc main_arg16) = W1 m ρ c (Proc.devRef .tc main_arg16) from W2_of m ρ c main_arg16 (by decide)).trans (W1_main_arg16 m ρ c)
theorem W3_main_arg16 (c : Dev nD) : W3 m ρ c (Proc.devRef .tc main_arg16) = m ((c : Thread nD τ).loc main_arg16) :=
  (show W3 m ρ c (Proc.devRef .tc main_arg16) = W2 m ρ c (Proc.devRef .tc main_arg16) from W3_of m ρ c main_arg16 (by decide)).trans (W2_main_arg16 m ρ c)
theorem W4_main_arg16 (c : Dev nD) : W4 m ρ c (Proc.devRef .tc main_arg16) = m ((c : Thread nD τ).loc main_arg16) :=
  (show W4 m ρ c (Proc.devRef .tc main_arg16) = W3 m ρ c (Proc.devRef .tc main_arg16) from W4_of_ne m ρ c main_arg16 (by decide)).trans (W3_main_arg16 m ρ c)
theorem W5_main_arg16 (c : Dev nD) : W5 m ρ c (Proc.devRef .tc main_arg16) = m ((c : Thread nD τ).loc main_arg16) :=
  (show W5 m ρ c (Proc.devRef .tc main_arg16) = W4 m ρ c (Proc.devRef .tc main_arg16) from W5_of m ρ c main_arg16 (by decide)).trans (W4_main_arg16 m ρ c)
theorem W6_main_arg16 (c : Dev nD) : W6 m ρ c (Proc.devRef .tc main_arg16) = m ((c : Thread nD τ).loc main_arg16) :=
  (show W6 m ρ c (Proc.devRef .tc main_arg16) = W5 m ρ c (Proc.devRef .tc main_arg16) from W6_of_ne m ρ c main_arg16 (by decide)).trans (W5_main_arg16 m ρ c)
theorem W7_main_arg16 (c : Dev nD) : W7 m ρ c (Proc.devRef .tc main_arg16) = m ((c : Thread nD τ).loc main_arg16) :=
  (show W7 m ρ c (Proc.devRef .tc main_arg16) = W6 m ρ c (Proc.devRef .tc main_arg16) from W7_of m ρ c main_arg16 (by decide)).trans (W6_main_arg16 m ρ c)
theorem W8_main_arg16 (c : Dev nD) : W8 m ρ c (Proc.devRef .tc main_arg16) = m ((c : Thread nD τ).loc main_arg16) :=
  (show W8 m ρ c (Proc.devRef .tc main_arg16) = W7 m ρ c (Proc.devRef .tc main_arg16) from (W8_arr m ρ c 3).trans (((dat2 (V7 m ρ) c).arrAt_in 3 rfl _).trans (A_eq2 (V7 m ρ) c 3))).trans (W7_main_arg16 m ρ c)
theorem W9_main_arg16 (c : Dev nD) : W9 m ρ c (Proc.devRef .tc main_arg16) = m ((c : Thread nD τ).loc main_arg16) :=
  (show W9 m ρ c (Proc.devRef .tc main_arg16) = W8 m ρ c (Proc.devRef .tc main_arg16) from W9_of m ρ c main_arg16 (by decide)).trans (W8_main_arg16 m ρ c)
theorem W10_main_arg16 (c : Dev nD) : W10 m ρ c (Proc.devRef .tc main_arg16) = m ((c : Thread nD τ).loc main_arg16) :=
  (show W10 m ρ c (Proc.devRef .tc main_arg16) = W9 m ρ c (Proc.devRef .tc main_arg16) from W10_of m ρ c main_arg16 (by decide)).trans (W9_main_arg16 m ρ c)
theorem W11_main_arg16 (c : Dev nD) : W11 m ρ c (Proc.devRef .tc main_arg16) = m ((c : Thread nD τ).loc main_arg16) :=
  (show W11 m ρ c (Proc.devRef .tc main_arg16) = W10 m ρ c (Proc.devRef .tc main_arg16) from W11_of m ρ c main_arg16 (by decide)).trans (W10_main_arg16 m ρ c)
theorem W12_main_arg16 (c : Dev nD) : W12 m ρ c (Proc.devRef .tc main_arg16) = m ((c : Thread nD τ).loc main_arg16) :=
  (show W12 m ρ c (Proc.devRef .tc main_arg16) = W11 m ρ c (Proc.devRef .tc main_arg16) from W12_of_ne m ρ c main_arg16 (by decide)).trans (W11_main_arg16 m ρ c)
theorem W13_main_arg16 (c : Dev nD) : W13 m ρ c (Proc.devRef .tc main_arg16) = m ((c : Thread nD τ).loc main_arg16) :=
  (show W13 m ρ c (Proc.devRef .tc main_arg16) = W12 m ρ c (Proc.devRef .tc main_arg16) from W13_of_ne m ρ c main_arg16 (by decide)).trans (W12_main_arg16 m ρ c)
theorem W0_main_arg17 (c : Dev nD) : W0 m ρ c (Proc.devRef .tc main_arg17) = m ((c : Thread nD τ).loc main_arg17) := rfl
theorem W1_main_arg17 (c : Dev nD) : W1 m ρ c (Proc.devRef .tc main_arg17) = m ((c : Thread nD τ).loc main_arg17) :=
  (show W1 m ρ c (Proc.devRef .tc main_arg17) = W0 m ρ c (Proc.devRef .tc main_arg17) from W1_of m ρ c main_arg17 (by decide)).trans (W0_main_arg17 m ρ c)
theorem W2_main_arg17 (c : Dev nD) : W2 m ρ c (Proc.devRef .tc main_arg17) = m ((c : Thread nD τ).loc main_arg17) :=
  (show W2 m ρ c (Proc.devRef .tc main_arg17) = W1 m ρ c (Proc.devRef .tc main_arg17) from W2_of m ρ c main_arg17 (by decide)).trans (W1_main_arg17 m ρ c)
theorem W3_main_arg17 (c : Dev nD) : W3 m ρ c (Proc.devRef .tc main_arg17) = m ((c : Thread nD τ).loc main_arg17) :=
  (show W3 m ρ c (Proc.devRef .tc main_arg17) = W2 m ρ c (Proc.devRef .tc main_arg17) from W3_of m ρ c main_arg17 (by decide)).trans (W2_main_arg17 m ρ c)
theorem W4_main_arg17 (c : Dev nD) : W4 m ρ c (Proc.devRef .tc main_arg17) = m ((c : Thread nD τ).loc main_arg17) :=
  (show W4 m ρ c (Proc.devRef .tc main_arg17) = W3 m ρ c (Proc.devRef .tc main_arg17) from W4_of_ne m ρ c main_arg17 (by decide)).trans (W3_main_arg17 m ρ c)
theorem W5_main_arg17 (c : Dev nD) : W5 m ρ c (Proc.devRef .tc main_arg17) = m ((c : Thread nD τ).loc main_arg17) :=
  (show W5 m ρ c (Proc.devRef .tc main_arg17) = W4 m ρ c (Proc.devRef .tc main_arg17) from W5_of m ρ c main_arg17 (by decide)).trans (W4_main_arg17 m ρ c)
theorem W6_main_arg17 (c : Dev nD) : W6 m ρ c (Proc.devRef .tc main_arg17) = m ((c : Thread nD τ).loc main_arg17) :=
  (show W6 m ρ c (Proc.devRef .tc main_arg17) = W5 m ρ c (Proc.devRef .tc main_arg17) from W6_of_ne m ρ c main_arg17 (by decide)).trans (W5_main_arg17 m ρ c)
theorem W7_main_arg17 (c : Dev nD) : W7 m ρ c (Proc.devRef .tc main_arg17) = m ((c : Thread nD τ).loc main_arg17) :=
  (show W7 m ρ c (Proc.devRef .tc main_arg17) = W6 m ρ c (Proc.devRef .tc main_arg17) from W7_of m ρ c main_arg17 (by decide)).trans (W6_main_arg17 m ρ c)
theorem W8_main_arg17 (c : Dev nD) : W8 m ρ c (Proc.devRef .tc main_arg17) = m ((c : Thread nD τ).loc main_arg17) :=
  (show W8 m ρ c (Proc.devRef .tc main_arg17) = W7 m ρ c (Proc.devRef .tc main_arg17) from W8_of_ne m ρ c main_arg17 (by decide)).trans (W7_main_arg17 m ρ c)
theorem W9_main_arg17 (c : Dev nD) : W9 m ρ c (Proc.devRef .tc main_arg17) = m ((c : Thread nD τ).loc main_arg17) :=
  (show W9 m ρ c (Proc.devRef .tc main_arg17) = W8 m ρ c (Proc.devRef .tc main_arg17) from W9_of m ρ c main_arg17 (by decide)).trans (W8_main_arg17 m ρ c)
theorem W10_main_arg17 (c : Dev nD) : W10 m ρ c (Proc.devRef .tc main_arg17) = m ((c : Thread nD τ).loc main_arg17) :=
  (show W10 m ρ c (Proc.devRef .tc main_arg17) = W9 m ρ c (Proc.devRef .tc main_arg17) from W10_of m ρ c main_arg17 (by decide)).trans (W9_main_arg17 m ρ c)
theorem W11_main_arg17 (c : Dev nD) : W11 m ρ c (Proc.devRef .tc main_arg17) = m ((c : Thread nD τ).loc main_arg17) :=
  (show W11 m ρ c (Proc.devRef .tc main_arg17) = W10 m ρ c (Proc.devRef .tc main_arg17) from W11_of m ρ c main_arg17 (by decide)).trans (W10_main_arg17 m ρ c)
theorem W12_main_arg17 (c : Dev nD) : W12 m ρ c (Proc.devRef .tc main_arg17) = m ((c : Thread nD τ).loc main_arg17) :=
  (show W12 m ρ c (Proc.devRef .tc main_arg17) = W11 m ρ c (Proc.devRef .tc main_arg17) from W12_of_ne m ρ c main_arg17 (by decide)).trans (W11_main_arg17 m ρ c)
theorem W13_main_arg17 (c : Dev nD) : W13 m ρ c (Proc.devRef .tc main_arg17) = m ((c : Thread nD τ).loc main_arg17) :=
  (show W13 m ρ c (Proc.devRef .tc main_arg17) = W12 m ρ c (Proc.devRef .tc main_arg17) from (W13_arr m ρ c 1).trans (((dat4 (V12 m ρ) c).arrAt_in 1 rfl _).trans (A_eq4 (V12 m ρ) c 1))).trans (W12_main_arg17 m ρ c)
theorem W0_main_arg18 (c : Dev nD) : W0 m ρ c (Proc.devRef .tc main_arg18) = m ((c : Thread nD τ).loc main_arg18) := rfl
theorem W1_main_arg18 (c : Dev nD) : W1 m ρ c (Proc.devRef .tc main_arg18) = m ((c : Thread nD τ).loc main_arg18) :=
  (show W1 m ρ c (Proc.devRef .tc main_arg18) = W0 m ρ c (Proc.devRef .tc main_arg18) from W1_of m ρ c main_arg18 (by decide)).trans (W0_main_arg18 m ρ c)
theorem W2_main_arg18 (c : Dev nD) : W2 m ρ c (Proc.devRef .tc main_arg18) = m ((c : Thread nD τ).loc main_arg18) :=
  (show W2 m ρ c (Proc.devRef .tc main_arg18) = W1 m ρ c (Proc.devRef .tc main_arg18) from W2_of m ρ c main_arg18 (by decide)).trans (W1_main_arg18 m ρ c)
theorem W3_main_arg18 (c : Dev nD) : W3 m ρ c (Proc.devRef .tc main_arg18) = m ((c : Thread nD τ).loc main_arg18) :=
  (show W3 m ρ c (Proc.devRef .tc main_arg18) = W2 m ρ c (Proc.devRef .tc main_arg18) from W3_of m ρ c main_arg18 (by decide)).trans (W2_main_arg18 m ρ c)
theorem W4_main_arg18 (c : Dev nD) : W4 m ρ c (Proc.devRef .tc main_arg18) = m ((c : Thread nD τ).loc main_arg18) :=
  (show W4 m ρ c (Proc.devRef .tc main_arg18) = W3 m ρ c (Proc.devRef .tc main_arg18) from W4_of_ne m ρ c main_arg18 (by decide)).trans (W3_main_arg18 m ρ c)
theorem W5_main_arg18 (c : Dev nD) : W5 m ρ c (Proc.devRef .tc main_arg18) = m ((c : Thread nD τ).loc main_arg18) :=
  (show W5 m ρ c (Proc.devRef .tc main_arg18) = W4 m ρ c (Proc.devRef .tc main_arg18) from W5_of m ρ c main_arg18 (by decide)).trans (W4_main_arg18 m ρ c)
theorem W6_main_arg18 (c : Dev nD) : W6 m ρ c (Proc.devRef .tc main_arg18) = m ((c : Thread nD τ).loc main_arg18) :=
  (show W6 m ρ c (Proc.devRef .tc main_arg18) = W5 m ρ c (Proc.devRef .tc main_arg18) from W6_of_ne m ρ c main_arg18 (by decide)).trans (W5_main_arg18 m ρ c)
theorem W7_main_arg18 (c : Dev nD) : W7 m ρ c (Proc.devRef .tc main_arg18) = m ((c : Thread nD τ).loc main_arg18) :=
  (show W7 m ρ c (Proc.devRef .tc main_arg18) = W6 m ρ c (Proc.devRef .tc main_arg18) from W7_of m ρ c main_arg18 (by decide)).trans (W6_main_arg18 m ρ c)
theorem W8_main_arg18 (c : Dev nD) : W8 m ρ c (Proc.devRef .tc main_arg18) = m ((c : Thread nD τ).loc main_arg18) :=
  (show W8 m ρ c (Proc.devRef .tc main_arg18) = W7 m ρ c (Proc.devRef .tc main_arg18) from W8_of_ne m ρ c main_arg18 (by decide)).trans (W7_main_arg18 m ρ c)
theorem W9_main_arg18 (c : Dev nD) : W9 m ρ c (Proc.devRef .tc main_arg18) = m ((c : Thread nD τ).loc main_arg18) :=
  (show W9 m ρ c (Proc.devRef .tc main_arg18) = W8 m ρ c (Proc.devRef .tc main_arg18) from W9_of m ρ c main_arg18 (by decide)).trans (W8_main_arg18 m ρ c)
theorem W10_main_arg18 (c : Dev nD) : W10 m ρ c (Proc.devRef .tc main_arg18) = m ((c : Thread nD τ).loc main_arg18) :=
  (show W10 m ρ c (Proc.devRef .tc main_arg18) = W9 m ρ c (Proc.devRef .tc main_arg18) from W10_of m ρ c main_arg18 (by decide)).trans (W9_main_arg18 m ρ c)
theorem W11_main_arg18 (c : Dev nD) : W11 m ρ c (Proc.devRef .tc main_arg18) = m ((c : Thread nD τ).loc main_arg18) :=
  (show W11 m ρ c (Proc.devRef .tc main_arg18) = W10 m ρ c (Proc.devRef .tc main_arg18) from W11_of m ρ c main_arg18 (by decide)).trans (W10_main_arg18 m ρ c)
theorem W12_main_arg18 (c : Dev nD) : W12 m ρ c (Proc.devRef .tc main_arg18) = m ((c : Thread nD τ).loc main_arg18) :=
  (show W12 m ρ c (Proc.devRef .tc main_arg18) = W11 m ρ c (Proc.devRef .tc main_arg18) from W12_of_ne m ρ c main_arg18 (by decide)).trans (W11_main_arg18 m ρ c)
theorem W13_main_arg18 (c : Dev nD) : W13 m ρ c (Proc.devRef .tc main_arg18) = m ((c : Thread nD τ).loc main_arg18) :=
  (show W13 m ρ c (Proc.devRef .tc main_arg18) = W12 m ρ c (Proc.devRef .tc main_arg18) from (W13_arr m ρ c 2).trans (((dat4 (V12 m ρ) c).arrAt_in 2 rfl _).trans (A_eq4 (V12 m ρ) c 2))).trans (W12_main_arg18 m ρ c)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V12 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every buffer at the last boundary's contents, the generator register at some state. -/
abbrev Tₙ (c : Dev nD) : sProp 𝕄 := iprop(StableHlo.held (c : Thread nD τ) (Pipeline.ucRefs τ sig) (W13 m ρ c) ∗ ∃ r, prngReg c r)

/-! ## The regions as items of the run -/

set_option backward.isDefEq.respectTransparency.types false in
/-- Region 0: entered from every buffer at the boundary before it, left at the boundary after it; its arrays are split out of
    the buffers and put back at the exit contents, the generator register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at the boundary before it, left at the boundary after it; its arrays are split out of
    the buffers and put back at the exit contents, the generator register goes into the region's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every buffer at the boundary before it, left at the boundary after it; its arrays are split out of
    the buffers and put back at the exit contents, the generator register goes into the region's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every buffer at the boundary before it, left at the boundary after it; its arrays are split out of
    the buffers and put back at the exit contents, the generator register goes into the region's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every buffer at the boundary before it, left at the boundary after it; its arrays are split out of
    the buffers and put back at the exit contents, the generator register goes into the region's invariant and comes back. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the items' run, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .region (reg4 m ρ) ]

theorem main_run (c : Dev nD) : main (F := F) c = Pipeline.Seg.run (segs m ρ) := (main_chain c).trans (by chain_rfl)

set_option backward.isDefEq.respectTransparency.types false in
/-- Every weakly fair execution of @main from memory m with zero counters terminates, nothing faulting, and in the final
    state every buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.Kernel.Fr

end
-- ==== Proof.Frames.lean ====
/-
  The run-and-frame statements of the three programmes, and the idealized kernel's run with its result named.
  Each kernel statement is read off the whole-run theorem, whose final state gives every unscoped buffer of every
  core the contents at the last boundary; an argument array is never written, so there it still holds the launch
  memory. The reference's statement is the second half of its run's postcondition.
-/
import proofs.«106568_j42528766165971_1_alg».proof.Defs
import proofs.«106568_j42528766165971_1_alg».proof.Proof.Gen.Kernel
import proofs.«106568_j42528766165971_1_alg».proof.Proof.Gen.KernelIdeal
import proofs.«106568_j42528766165971_1_alg».proof.Proof.Gen.ReferenceIdeal
import proofs.«106568_j42528766165971_1_alg».proof.Proof.Gen.Pre_finite_inputs
import proofs.«106568_j42528766165971_1_alg».proof.Proof.KI.Run
import proofs.«106568_j42528766165971_1_alg».proof.Proof.K.Run
import proofs.«106568_j42528766165971_1_alg».proof.Proof.RefRun

noncomputable section

namespace Cert.Proof.Frames

open Idealize.ShloMosaic Idealize.ShloMosaic.TcCoe Idealize.SL.Sem

/-- The word-level kernel runs and leaves its nineteen argument arrays as they were. -/
theorem frame_Kernel : Cert.frame_Kernel := fun m ρ _ =>
  (θ_run (Cert.Kernel.defs (F := Bits)) _ _).mono (fun r h c =>
    ⟨(h c _ (Cert.Kernel.Fr.mem_uc Cert.Kernel.main_arg0 (by decide))).trans (Cert.Kernel.Fr.W13_main_arg0 m ρ c),
      (h c _ (Cert.Kernel.Fr.mem_uc Cert.Kernel.main_arg1 (by decide))).trans (Cert.Kernel.Fr.W13_main_arg1 m ρ c),
      (h c _ (Cert.Kernel.Fr.mem_uc Cert.Kernel.main_arg2 (by decide))).trans (Cert.Kernel.Fr.W13_main_arg2 m ρ c),
      (h c _ (Cert.Kernel.Fr.mem_uc Cert.Kernel.main_arg3 (by decide))).trans (Cert.Kernel.Fr.W13_main_arg3 m ρ c),
      (h c _ (Cert.Kernel.Fr.mem_uc Cert.Kernel.main_arg4 (by decide))).trans (Cert.Kernel.Fr.W13_main_arg4 m ρ c),
      (h c _ (Cert.Kernel.Fr.mem_uc Cert.Kernel.main_arg5 (by decide))).trans (Cert.Kernel.Fr.W13_main_arg5 m ρ c),
      (h c _ (Cert.Kernel.Fr.mem_uc Cert.Kernel.main_arg6 (by decide))).trans (Cert.Kernel.Fr.W13_main_arg6 m ρ c),
      (h c _ (Cert.Kernel.Fr.mem_uc Cert.Kernel.main_arg7 (by decide))).trans (Cert.Kernel.Fr.W13_main_arg7 m ρ c),
      (h c _ (Cert.Kernel.Fr.mem_uc Cert.Kernel.main_arg8 (by decide))).trans (Cert.Kernel.Fr.W13_main_arg8 m ρ c),
      (h c _ (Cert.Kernel.Fr.mem_uc Cert.Kernel.main_arg9 (by decide))).trans (Cert.Kernel.Fr.W13_main_arg9 m ρ c),
      (h c _ (Cert.Kernel.Fr.mem_uc Cert.Kernel.main_arg10 (by decide))).trans (Cert.Kernel.Fr.W13_main_arg10 m ρ c),
      (h c _ (Cert.Kernel.Fr.mem_uc Cert.Kernel.main_arg11 (by decide))).trans (Cert.Kernel.Fr.W13_main_arg11 m ρ c),
      (h c _ (Cert.Kernel.Fr.mem_uc Cert.Kernel.main_arg12 (by decide))).trans (Cert.Kernel.Fr.W13_main_arg12 m ρ c),
      (h c _ (Cert.Kernel.Fr.mem_uc Cert.Kernel.main_arg13 (by decide))).trans (Cert.Kernel.Fr.W13_main_arg13 m ρ c),
      (h c _ (Cert.Kernel.Fr.mem_uc Cert.Kernel.main_arg14 (by decide))).trans (Cert.Kernel.Fr.W13_main_arg14 m ρ c),
      (h c _ (Cert.Kernel.Fr.mem_uc Cert.Kernel.main_arg15 (by decide))).trans (Cert.Kernel.Fr.W13_main_arg15 m ρ c),
      (h c _ (Cert.Kernel.Fr.mem_uc Cert.Kernel.main_arg16 (by decide))).trans (Cert.Kernel.Fr.W13_main_arg16 m ρ c),
      (h c _ (Cert.Kernel.Fr.mem_uc Cert.Kernel.main_arg17 (by decide))).trans (Cert.Kernel.Fr.W13_main_arg17 m ρ c),
      (h c _ (Cert.Kernel.Fr.mem_uc Cert.Kernel.main_arg18 (by decide))).trans (Cert.Kernel.Fr.W13_main_arg18 m ρ c)⟩)
    (Cert.Kernel.Fr.run_all (F := Bits) m ρ)

/-- The idealized kernel runs and leaves its nineteen argument arrays as they were. -/
theorem frame_KernelIdeal : Cert.frame_KernelIdeal := fun m ρ _ =>
  (θ_run (Cert.KernelIdeal.defs (F := Ideal)) _ _).mono (fun r h c =>
    ⟨(h c _ (Cert.KernelIdeal.Fr.mem_uc Cert.KernelIdeal.main_arg0 (by decide))).trans (Cert.KernelIdeal.Fr.W13_main_arg0 m ρ c),
      (h c _ (Cert.KernelIdeal.Fr.mem_uc Cert.KernelIdeal.main_arg1 (by decide))).trans (Cert.KernelIdeal.Fr.W13_main_arg1 m ρ c),
      (h c _ (Cert.KernelIdeal.Fr.mem_uc Cert.KernelIdeal.main_arg2 (by decide))).trans (Cert.KernelIdeal.Fr.W13_main_arg2 m ρ c),
      (h c _ (Cert.KernelIdeal.Fr.mem_uc Cert.KernelIdeal.main_arg3 (by decide))).trans (Cert.KernelIdeal.Fr.W13_main_arg3 m ρ c),
      (h c _ (Cert.KernelIdeal.Fr.mem_uc Cert.KernelIdeal.main_arg4 (by decide))).trans (Cert.KernelIdeal.Fr.W13_main_arg4 m ρ c),
      (h c _ (Cert.KernelIdeal.Fr.mem_uc Cert.KernelIdeal.main_arg5 (by decide))).trans (Cert.KernelIdeal.Fr.W13_main_arg5 m ρ c),
      (h c _ (Cert.KernelIdeal.Fr.mem_uc Cert.KernelIdeal.main_arg6 (by decide))).trans (Cert.KernelIdeal.Fr.W13_main_arg6 m ρ c),
      (h c _ (Cert.KernelIdeal.Fr.mem_uc Cert.KernelIdeal.main_arg7 (by decide))).trans (Cert.KernelIdeal.Fr.W13_main_arg7 m ρ c),
      (h c _ (Cert.KernelIdeal.Fr.mem_uc Cert.KernelIdeal.main_arg8 (by decide))).trans (Cert.KernelIdeal.Fr.W13_main_arg8 m ρ c),
      (h c _ (Cert.KernelIdeal.Fr.mem_uc Cert.KernelIdeal.main_arg9 (by decide))).trans (Cert.KernelIdeal.Fr.W13_main_arg9 m ρ c),
      (h c _ (Cert.KernelIdeal.Fr.mem_uc Cert.KernelIdeal.main_arg10 (by decide))).trans (Cert.KernelIdeal.Fr.W13_main_arg10 m ρ c),
      (h c _ (Cert.KernelIdeal.Fr.mem_uc Cert.KernelIdeal.main_arg11 (by decide))).trans (Cert.KernelIdeal.Fr.W13_main_arg11 m ρ c),
      (h c _ (Cert.KernelIdeal.Fr.mem_uc Cert.KernelIdeal.main_arg12 (by decide))).trans (Cert.KernelIdeal.Fr.W13_main_arg12 m ρ c),
      (h c _ (Cert.KernelIdeal.Fr.mem_uc Cert.KernelIdeal.main_arg13 (by decide))).trans (Cert.KernelIdeal.Fr.W13_main_arg13 m ρ c),
      (h c _ (Cert.KernelIdeal.Fr.mem_uc Cert.KernelIdeal.main_arg14 (by decide))).trans (Cert.KernelIdeal.Fr.W13_main_arg14 m ρ c),
      (h c _ (Cert.KernelIdeal.Fr.mem_uc Cert.KernelIdeal.main_arg15 (by decide))).trans (Cert.KernelIdeal.Fr.W13_main_arg15 m ρ c),
      (h c _ (Cert.KernelIdeal.Fr.mem_uc Cert.KernelIdeal.main_arg16 (by decide))).trans (Cert.KernelIdeal.Fr.W13_main_arg16 m ρ c),
      (h c _ (Cert.KernelIdeal.Fr.mem_uc Cert.KernelIdeal.main_arg17 (by decide))).trans (Cert.KernelIdeal.Fr.W13_main_arg17 m ρ c),
      (h c _ (Cert.KernelIdeal.Fr.mem_uc Cert.KernelIdeal.main_arg18 (by decide))).trans (Cert.KernelIdeal.Fr.W13_main_arg18 m ρ c)⟩)
    (Cert.KernelIdeal.Fr.run_all (F := Ideal) m ρ)

/-- The reference runs and leaves its nineteen argument arrays as they were. -/
theorem frame_ReferenceIdeal : Cert.frame_ReferenceIdeal := fun m ρ _ =>
  (θ_run (Cert.ReferenceIdeal.defs (F := Ideal)) _ _).mono (fun _ h c => (h c).2)
    (Cert.ReferenceIdeal.Value.run (F := Ideal) m ρ)

/-- The idealized kernel's run with its result named: the result array ends with the contents the last boundary gives
    it, and the argument arrays are unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v176) = Cert.KernelIdeal.Fr.W13 (F := Ideal) m ρ c (Proc.devRef .tc Cert.KernelIdeal.main_v176)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run (Cert.KernelIdeal.defs (F := Ideal)) _ _).mono (fun r h c =>
    ⟨h c _ (Cert.KernelIdeal.Fr.mem_uc Cert.KernelIdeal.main_v176 (by decide)),
      (h c _ (Cert.KernelIdeal.Fr.mem_uc Cert.KernelIdeal.main_arg0 (by decide))).trans (Cert.KernelIdeal.Fr.W13_main_arg0 m ρ c),
      (h c _ (Cert.KernelIdeal.Fr.mem_uc Cert.KernelIdeal.main_arg1 (by decide))).trans (Cert.KernelIdeal.Fr.W13_main_arg1 m ρ c),
      (h c _ (Cert.KernelIdeal.Fr.mem_uc Cert.KernelIdeal.main_arg2 (by decide))).trans (Cert.KernelIdeal.Fr.W13_main_arg2 m ρ c),
      (h c _ (Cert.KernelIdeal.Fr.mem_uc Cert.KernelIdeal.main_arg3 (by decide))).trans (Cert.KernelIdeal.Fr.W13_main_arg3 m ρ c),
      (h c _ (Cert.KernelIdeal.Fr.mem_uc Cert.KernelIdeal.main_arg4 (by decide))).trans (Cert.KernelIdeal.Fr.W13_main_arg4 m ρ c),
      (h c _ (Cert.KernelIdeal.Fr.mem_uc Cert.KernelIdeal.main_arg5 (by decide))).trans (Cert.KernelIdeal.Fr.W13_main_arg5 m ρ c),
      (h c _ (Cert.KernelIdeal.Fr.mem_uc Cert.KernelIdeal.main_arg6 (by decide))).trans (Cert.KernelIdeal.Fr.W13_main_arg6 m ρ c),
      (h c _ (Cert.KernelIdeal.Fr.mem_uc Cert.KernelIdeal.main_arg7 (by decide))).trans (Cert.KernelIdeal.Fr.W13_main_arg7 m ρ c),
      (h c _ (Cert.KernelIdeal.Fr.mem_uc Cert.KernelIdeal.main_arg8 (by decide))).trans (Cert.KernelIdeal.Fr.W13_main_arg8 m ρ c),
      (h c _ (Cert.KernelIdeal.Fr.mem_uc Cert.KernelIdeal.main_arg9 (by decide))).trans (Cert.KernelIdeal.Fr.W13_main_arg9 m ρ c),
      (h c _ (Cert.KernelIdeal.Fr.mem_uc Cert.KernelIdeal.main_arg10 (by decide))).trans (Cert.KernelIdeal.Fr.W13_main_arg10 m ρ c),
      (h c _ (Cert.KernelIdeal.Fr.mem_uc Cert.KernelIdeal.main_arg11 (by decide))).trans (Cert.KernelIdeal.Fr.W13_main_arg11 m ρ c),
      (h c _ (Cert.KernelIdeal.Fr.mem_uc Cert.KernelIdeal.main_arg12 (by decide))).trans (Cert.KernelIdeal.Fr.W13_main_arg12 m ρ c),
      (h c _ (Cert.KernelIdeal.Fr.mem_uc Cert.KernelIdeal.main_arg13 (by decide))).trans (Cert.KernelIdeal.Fr.W13_main_arg13 m ρ c),
      (h c _ (Cert.KernelIdeal.Fr.mem_uc Cert.KernelIdeal.main_arg14 (by decide))).trans (Cert.KernelIdeal.Fr.W13_main_arg14 m ρ c),
      (h c _ (Cert.KernelIdeal.Fr.mem_uc Cert.KernelIdeal.main_arg15 (by decide))).trans (Cert.KernelIdeal.Fr.W13_main_arg15 m ρ c),
      (h c _ (Cert.KernelIdeal.Fr.mem_uc Cert.KernelIdeal.main_arg16 (by decide))).trans (Cert.KernelIdeal.Fr.W13_main_arg16 m ρ c),
      (h c _ (Cert.KernelIdeal.Fr.mem_uc Cert.KernelIdeal.main_arg17 (by decide))).trans (Cert.KernelIdeal.Fr.W13_main_arg17 m ρ c),
      (h c _ (Cert.KernelIdeal.Fr.mem_uc Cert.KernelIdeal.main_arg18 (by decide))).trans (Cert.KernelIdeal.Fr.W13_main_arg18 m ρ c)⟩)
    (Cert.KernelIdeal.Fr.run_all (F := Ideal) m ρ)

end Cert.Proof.Frames

end
-- ==== Proof.Spec.lean ====
/-
  The five dense node transforms of the network, each as one function of whole arrays, entry by entry, on the
  extended reals. Rows are nodes, columns are features. A "combine" sums, over the hop index k, the product of the
  k-th propagated feature matrix with the k-th weight matrix, adds the bias and clamps at zero; a "bilinear" stage
  adds two such products (aggregated neighbours and the node's own features) and the bias, clamped at zero; the head
  is one product plus a bias. The sums are written in the order the blocked programme accumulates them; addition
  on the extended reals is commutative and associative, so any other grouping of the same terms is the same value.
-/
import Idealize.ShloMosaic.PureOps.Ideal

noncomputable section

namespace Cert.Spec

open scoped BigOperators

/-- relu (h0·W0 + h1·W1 + h2·W2 + b) at row n, column j. -/
def comb3 {N D H : ℕ} (h0 h1 h2 : Fin N → Fin D → EReal) (W : Fin 3 → Fin D → Fin H → EReal) (b : Fin H → EReal)
    (n : Fin N) (j : Fin H) : EReal :=
  max ((((∑ d, h0 n d * W 0 d j) + ∑ d, h1 n d * W 1 d j) + ∑ d, h2 n d * W 2 d j) + b j) 0

/-- relu (h0·W0 + h1·W1 + h2·W2 + h3·W3 + b) at row n, column j. -/
def comb4 {N D H : ℕ} (h0 h1 h2 h3 : Fin N → Fin D → EReal) (W : Fin 4 → Fin D → Fin H → EReal) (b : Fin H → EReal)
    (n : Fin N) (j : Fin H) : EReal :=
  max (((((∑ d, h0 n d * W 0 d j) + ∑ d, h1 n d * W 1 d j) + ∑ d, h2 n d * W 2 d j) + ∑ d, h3 n d * W 3 d j) + b j) 0

/-- relu (a·Wa + s·Ws + b) at row n, column j. -/
def bilin {N A B H : ℕ} (a : Fin N → Fin A → EReal) (Wa : Fin A → Fin H → EReal) (s : Fin N → Fin B → EReal)
    (Ws : Fin B → Fin H → EReal) (b : Fin H → EReal) (n : Fin N) (j : Fin H) : EReal :=
  max (((∑ d, a n d * Wa d j) + ∑ d, s n d * Ws d j) + b j) 0

/-- x·W + b at row n, column j. -/
def lin {N A H : ℕ} (x : Fin N → Fin A → EReal) (W : Fin A → Fin H → EReal) (b : Fin H → EReal)
    (n : Fin N) (j : Fin H) : EReal :=
  (∑ d, x n d * W d j) + b j

end Cert.Spec

end
-- ==== Proof.KI.V0.lean ====
/-
  Region 0 of the idealized kernel program, read as a value on the extended reals: the first feature combine,
  relu (h0·W0 + h1·W1 + h2·W2 + b), the three propagated feature matrices being the three slabs of one stacked
  [3, 100000, 5] array and the three weight matrices the slabs of one [3, 5, 64] array.
  First the stored block entry by entry (each block product into a zero accumulator is the plain sum over the five
  contracted positions, the first is added onto a zero splat, the bias row is read at the column, rounding to the narrower
  float is the identity, the clamp is a maximum with zero); then the slabs the body loads, as entries of its blocks; then
  what a grid point writes back is rows 1000·t … 1000·t + 999 of ONE function of the whole arrays; the hundred row
  blocks cover the array, so the array ends holding that function.
-/
import proofs.«106568_j42528766165971_1_alg».proof.Proof.KI.R0
import proofs.«106568_j42528766165971_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored block, entry by entry -/

theorem mm0_lhs0 (i : S1000x64.Idx) (q : dot_S1000x5_S5x64_S1000x64_1_0_0_1_n_n.contr.Idx) :
    (dot_S1000x5_S5x64_S1000x64_1_0_0_1_n_n.lhsIdx i q 0).val = (i 0).val := by
  unfold DotDims.lhsIdx
  rw [dif_neg (show ¬(0 : Fin S1000x5.rank) ∈ dot_S1000x5_S5x64_S1000x64_1_0_0_1_n_n.lhsBatch by decide), dif_pos (show (0 : Fin S1000x5.rank) ∈ dot_S1000x5_S5x64_S1000x64_1_0_0_1_n_n.lhsNonContracting by decide)]
  rfl
theorem mm0_lhs1 (i : S1000x64.Idx) (q : dot_S1000x5_S5x64_S1000x64_1_0_0_1_n_n.contr.Idx) :
    (dot_S1000x5_S5x64_S1000x64_1_0_0_1_n_n.lhsIdx i q 1).val = (q ⟨0, by decide⟩).val :=
  dot_S1000x5_S5x64_S1000x64_1_0_0_1_n_n.lhsIdx_val_of_single rfl i q
theorem mm0_rhs0 (i : S1000x64.Idx) (q : dot_S1000x5_S5x64_S1000x64_1_0_0_1_n_n.contr.Idx) :
    (dot_S1000x5_S5x64_S1000x64_1_0_0_1_n_n.rhsIdx i q 0).val = (q ⟨0, by decide⟩).val :=
  dot_S1000x5_S5x64_S1000x64_1_0_0_1_n_n.rhsIdx_val_of_single rfl i q
theorem mm0_rhs1 (i : S1000x64.Idx) (q : dot_S1000x5_S5x64_S1000x64_1_0_0_1_n_n.contr.Idx) :
    (dot_S1000x5_S5x64_S1000x64_1_0_0_1_n_n.rhsIdx i q 1).val = (i 1).val := by
  unfold DotDims.rhsIdx
  rw [dif_neg (show ¬(1 : Fin S5x64.rank) ∈ dot_S1000x5_S5x64_S1000x64_1_0_0_1_n_n.rhsBatch by decide), dif_pos (show (1 : Fin S5x64.rank) ∈ dot_S1000x5_S5x64_S1000x64_1_0_0_1_n_n.rhsNonContracting by decide)]
  rfl

/-- The block product into a zero accumulator, entry (r, j): the sum over the 5 contracted positions. -/
theorem mm0_apply (a : FVec Ideal S1000x5 .bf16) (w : FVec Ideal S5x64 .bf16) (r : Fin 1000) (j : Fin 64) :
    matmul dot_S1000x5_S5x64_S1000x64_1_0_0_1_n_n none a w (constant (F := Ideal) S1000x64 .f32 0x00000000#32) (ix2 r j)
      = ∑ d : Fin 5, a (ix2 r d) * w (ix2 d j) := by
  refine (Ideal.matmul_constant_zero_apply dot_S1000x5_S5x64_S1000x64_1_0_0_1_n_n none a w (ix2 r j)).trans ?_
  rw [← Equiv.sum_comp (contrEquiv1 dot_S1000x5_S5x64_S1000x64_1_0_0_1_n_n 5 rfl rfl).symm]
  refine Finset.sum_congr rfl fun k _ => ?_
  have hk := contrEquiv1_symm_val dot_S1000x5_S5x64_S1000x64_1_0_0_1_n_n 5 rfl rfl k
  have el : dot_S1000x5_S5x64_S1000x64_1_0_0_1_n_n.lhsIdx (ix2 r j) ((contrEquiv1 dot_S1000x5_S5x64_S1000x64_1_0_0_1_n_n 5 rfl rfl).symm k) = ix2 r k := funext fun a => Fin.ext (by
    match a with
    | ⟨0, _⟩ => exact mm0_lhs0 _ _
    | ⟨1, _⟩ => exact (mm0_lhs1 _ _).trans hk)
  have er : dot_S1000x5_S5x64_S1000x64_1_0_0_1_n_n.rhsIdx (ix2 r j) ((contrEquiv1 dot_S1000x5_S5x64_S1000x64_1_0_0_1_n_n 5 rfl rfl).symm k) = ix2 k j := funext fun a => Fin.ext (by
    match a with
    | ⟨0, _⟩ => exact (mm0_rhs0 _ _).trans hk
    | ⟨1, _⟩ => exact mm0_rhs1 _ _)
  rw [el, er]

/-- The same product of a [1, 1000, 5] slab and a [1, 5, 64] slab, each flattened and rounded on the way in. -/
theorem mm0_slab_apply (x : Vec Ideal S1x1000x5 .f32) (w : Vec Ideal S1x5x64 .f32) (r : Fin 1000) (j : Fin 64) :
    matmul dot_S1000x5_S5x64_S1000x64_1_0_0_1_n_n none (truncf .bf16 (shapeCast S1000x5 x shapeCasts_S1x1000x5_S1000x5) bitsLt_bf16_f32)
        (truncf .bf16 (shapeCast S5x64 w shapeCasts_S1x5x64_S5x64) bitsLt_bf16_f32) (constant (F := Ideal) S1000x64 .f32 0x00000000#32) (ix2 r j)
      = ∑ d : Fin 5, x (ix3 (0 : Fin 1) r d) * w (ix3 (0 : Fin 1) d j) := by
  refine (mm0_apply _ _ r j).trans (Finset.sum_congr rfl fun d _ => ?_)
  exact congrArg₂ (· * ·) (shapeCast_1ab_ab_apply x shapeCasts_S1x1000x5_S1000x5 r d) (shapeCast_1ab_ab_apply w shapeCasts_S1x5x64_S5x64 d j)

/-- The bias row broadcast over the block's rows reads the bias at the column. -/
theorem bias0_apply (b : Vec Ideal S64 .f32) (r : Fin 1000) (j : Fin 64) :
    broadcastTo S1000x64 (shapeCast S1x64 b shapeCasts_S64_S1x64) broadcasts_S1x64_S1000x64 (ix2 r j) = b (ix1 j) :=
  (broadcastTo_1b_ab_apply _ broadcasts_S1x64_S1000x64 r j).trans (shapeCast_a_1a_apply b shapeCasts_S64_S1x64 0 j)

/-- The block the body stores, entry (r, j): the three products' sum plus the bias, clamped at zero. -/
theorem pay0_apply (v1 : Vec Ideal S1x1000x5 .f32) (v4 : Vec Ideal S1x5x64 .f32) (v9 : Vec Ideal S1x1000x5 .f32) (v12 : Vec Ideal S1x5x64 .f32)
    (v17 : Vec Ideal S1x1000x5 .f32) (v20 : Vec Ideal S1x5x64 .f32) (v25 : Vec Ideal S64 .f32) (r : Fin 1000) (j : Fin 64) :
    k0_pay1 v1 v4 v9 v12 v17 v20 v25 (ix2 r j)
      = max ((((∑ d : Fin 5, v1 (ix3 (0 : Fin 1) r d) * v4 (ix3 (0 : Fin 1) d j)) + ∑ d : Fin 5, v9 (ix3 (0 : Fin 1) r d) * v12 (ix3 (0 : Fin 1) d j))
          + ∑ d : Fin 5, v17 (ix3 (0 : Fin 1) r d) * v20 (ix3 (0 : Fin 1) d j)) + v25 (ix1 j)) 0 := by
  unfold k0_pay1
  exact congrArg₂ max (congrArg₂ (· + ·) (congrArg₂ (· + ·) (congrArg₂ (· + ·)
      ((congrArg₂ (· + ·) Ideal.ofBits_zero_f32 (mm0_slab_apply v1 v4 r j)).trans (zero_add _))
      (mm0_slab_apply v9 v12 r j)) (mm0_slab_apply v17 v20 r j)) (bias0_apply v25 r j)) Ideal.ofBits_zero_f32

/-! ## The slabs the body loads, as entries of its two stacked blocks -/

theorem ldH0_apply (X : Vec Ideal S3x1000x5 .f32) (u : Fin 1) (r : Fin 1000) (d : Fin 5) :
    View.ld X rH0 (ix3 u r d) = X (ix3 (0 : Fin 3) r d) := by
  have hu : u.val = 0 := by omega
  show X (rH0.emb (ix3 u r d)) = _
  refine congrArg X (funext fun a => Fin.ext ?_)
  match a with
  | ⟨0, _⟩ => show 0 + 1 * u.val = 0; omega
  | ⟨1, _⟩ => show 0 + 1 * r.val = r.val; omega
  | ⟨2, _⟩ => show 0 + 1 * d.val = d.val; omega
theorem ldH1_apply (X : Vec Ideal S3x1000x5 .f32) (u : Fin 1) (r : Fin 1000) (d : Fin 5) :
    View.ld X rH1 (ix3 u r d) = X (ix3 (1 : Fin 3) r d) := by
  have hu : u.val = 0 := by omega
  show X (rH1.emb (ix3 u r d)) = _
  refine congrArg X (funext fun a => Fin.ext ?_)
  match a with
  | ⟨0, _⟩ => show 1 + 1 * u.val = 1; omega
  | ⟨1, _⟩ => show 0 + 1 * r.val = r.val; omega
  | ⟨2, _⟩ => show 0 + 1 * d.val = d.val; omega
theorem ldH2_apply (X : Vec Ideal S3x1000x5 .f32) (u : Fin 1) (r : Fin 1000) (d : Fin 5) :
    View.ld X rH2 (ix3 u r d) = X (ix3 (2 : Fin 3) r d) := by
  have hu : u.val = 0 := by omega
  show X (rH2.emb (ix3 u r d)) = _
  refine congrArg X (funext fun a => Fin.ext ?_)
  match a with
  | ⟨0, _⟩ => show 2 + 1 * u.val = 2; omega
  | ⟨1, _⟩ => show 0 + 1 * r.val = r.val; omega
  | ⟨2, _⟩ => show 0 + 1 * d.val = d.val; omega
theorem ldW0_apply (X : Vec Ideal S3x5x64 .f32) (u : Fin 1) (d : Fin 5) (j : Fin 64) :
    View.ld X rW0 (ix3 u d j) = X (ix3 (0 : Fin 3) d j) := by
  have hu : u.val = 0 := by omega
  show X (rW0.emb (ix3 u d j)) = _
  refine congrArg X (funext fun a => Fin.ext ?_)
  match a with
  | ⟨0, _⟩ => show 0 + 1 * u.val = 0; omega
  | ⟨1, _⟩ => show 0 + 1 * d.val = d.val; omega
  | ⟨2, _⟩ => show 0 + 1 * j.val = j.val; omega
theorem ldW1_apply (X : Vec Ideal S3x5x64 .f32) (u : Fin 1) (d : Fin 5) (j : Fin 64) :
    View.ld X rW1 (ix3 u d j) = X (ix3 (1 : Fin 3) d j) := by
  have hu : u.val = 0 := by omega
  show X (rW1.emb (ix3 u d j)) = _
  refine congrArg X (funext fun a => Fin.ext ?_)
  match a with
  | ⟨0, _⟩ => show 1 + 1 * u.val = 1; omega
  | ⟨1, _⟩ => show 0 + 1 * d.val = d.val; omega
  | ⟨2, _⟩ => show 0 + 1 * j.val = j.val; omega
theorem ldW2_apply (X : Vec Ideal S3x5x64 .f32) (u : Fin 1) (d : Fin 5) (j : Fin 64) :
    View.ld X rW2 (ix3 u d j) = X (ix3 (2 : Fin 3) d j) := by
  have hu : u.val = 0 := by omega
  show X (rW2.emb (ix3 u d j)) = _
  refine congrArg X (funext fun a => Fin.ext ?_)
  match a with
  | ⟨0, _⟩ => show 2 + 1 * u.val = 2; omega
  | ⟨1, _⟩ => show 0 + 1 * d.val = d.val; omega
  | ⟨2, _⟩ => show 0 + 1 * j.val = j.val; omega

/-! ## The stage as one function of the whole arrays -/

/-- relu (h0·W0 + h1·W1 + h2·W2 + b) of the stacked features, the stacked weights and the bias, at an index of the
    [100000, 64] result. -/
def G0 (H : S3x100000x5.Idx → EReal) (W : S3x5x64.Idx → EReal) (b : S64.Idx → EReal) : S100000x64.Idx → EReal := fun i =>
  Cert.Spec.comb3 (N := 100000) (D := 5) (H := 64) (fun n d => H (ix3 (0 : Fin 3) n d)) (fun n d => H (ix3 (1 : Fin 3) n d))
    (fun n d => H (ix3 (2 : Fin 3) n d)) (fun k d j => W (ix3 k d j)) (fun j => b (ix1 j)) (i 0) (i 1)

theorem hz1_0 : (![0] : Fin 1 → Nat) = fun _ => 0 := funext fun a => by fin_cases a <;> rfl
theorem hz2_0 : (![0, 0] : Fin 2 → Nat) = fun _ => 0 := funext fun a => by fin_cases a <;> rfl

/-- A stored block whose stacked feature block is rows n of the three slabs of the stacked array, and whose weight and
    bias blocks are the whole arrays, is, at (r, j), the stage's value at (n, j). -/
theorem point0 (x0 : Vec Ideal S3x1000x5 .f32) (x1 : Vec Ideal S3x5x64 .f32) (x2 : Vec Ideal S64 .f32)
    (H : S3x100000x5.Idx → EReal) (W : S3x5x64.Idx → EReal) (b : S64.Idx → EReal) (r : Fin 1000) (j : Fin 64) (n : Fin 100000)
    (h0 : ∀ (k : Fin 3) (d : Fin 5), x0 (ix3 k r d) = H (ix3 k n d)) (h1 : ∀ (k : Fin 3) (d : Fin 5), x1 (ix3 k d j) = W (ix3 k d j))
    (h2 : x2 (ix1 j) = b (ix1 j)) :
    k0_pay1 (View.ld x0 rH0) (View.ld x1 rW0) (View.ld x0 rH1) (View.ld x1 rW1) (View.ld x0 rH2) (View.ld x1 rW2) (View.ld x2 rB0) (ix2 r j)
      = G0 H W b (ix2 n j) := by
  refine (pay0_apply _ _ _ _ _ _ _ r j).trans ?_
  show _ = max ((((∑ d : Fin 5, H (ix3 (0 : Fin 3) n d) * W (ix3 (0 : Fin 3) d j)) + ∑ d : Fin 5, H (ix3 (1 : Fin 3) n d) * W (ix3 (1 : Fin 3) d j))
      + ∑ d : Fin 5, H (ix3 (2 : Fin 3) n d) * W (ix3 (2 : Fin 3) d j)) + b (ix1 j)) 0
  refine congrArg₂ max (congrArg₂ (· + ·) (congrArg₂ (· + ·) (congrArg₂ (· + ·) (Finset.sum_congr rfl fun d _ => ?_)
    (Finset.sum_congr rfl fun d _ => ?_)) (Finset.sum_congr rfl fun d _ => ?_)) ?_) rfl
  · exact congrArg₂ (· * ·) ((ldH0_apply x0 0 r d).trans (h0 0 d)) ((ldW0_apply x1 0 d j).trans (h1 0 d))
  · exact congrArg₂ (· * ·) ((ldH1_apply x0 0 r d).trans (h0 1 d)) ((ldW1_apply x1 0 d j).trans (h1 1 d))
  · exact congrArg₂ (· * ·) ((ldH2_apply x0 0 r d).trans (h0 2 d)) ((ldW2_apply x1 0 d j).trans (h1 2 d))
  · exact (congrFun (View.ld_unit_zero (S := S64) hz1_0 inb_S64_S64_0 x2) (ix1 j)).trans h2

/-! ## The blocks the body reads, as entries of the arrays -/

variable (V : (c : Dev nD) → (b : Ref sig .tc) → Buf (Elt Ideal) ((c : Thread nD τ).loc b))

/-- The block indices over the grid: the stacked feature window sits at block (0, t, 0), the output at block (t, 0), the
    whole-array windows at block 0. -/
theorem idx_facts0 : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

/-- Window 0's block at point t is rows 1000·t … of each slab of the stacked feature array. -/
theorem iblk0_0_apply (c : Dev nD) (t : Fin cfg0.N) (k : Fin 3) (r : Fin 1000) (d : Fin 5) (n : Fin 100000) (hn : n.val = 1000 * t.val + r.val) :
    (iblk0 V c 0 t : Vec Ideal S3x1000x5 .f32) (ix3 k r d) = (V c main_v58 : S3x100000x5.Idx → EReal) (ix3 k n d) := by
  obtain ⟨e0, e1, e2, -⟩ := idx_facts0 t
  unfold iblk0
  rw [View.read_apply]
  show (V c main_v58 : S3x100000x5.Idx → EReal) _ = _
  refine congrArg (V c main_v58 : S3x100000x5.Idx → EReal) (funext fun a => Fin.ext ?_)
  match a with
  | ⟨0, _⟩ => show win0_0.index t (0 : Fin 3) * 3 + 1 * k.val = k.val; rw [e0]; omega
  | ⟨1, _⟩ => show win0_0.index t (1 : Fin 3) * 1000 + 1 * r.val = n.val; rw [e1, hn]; omega
  | ⟨2, _⟩ => show win0_0.index t (2 : Fin 3) * 5 + 1 * d.val = d.val; rw [e2]; omega

/-- Window 1's block is the whole stacked weight array. -/
theorem iblk0_1_apply (c : Dev nD) (t : Fin cfg0.N) (k : Fin 3) (d : Fin 5) (j : Fin 64) :
    (iblk0 V c 1 t : Vec Ideal S3x5x64 .f32) (ix3 k d j) = (V c main_arg7 : S3x5x64.Idx → EReal) (ix3 k d j) := by
  obtain ⟨-, -, -, e0, e1, e2, -⟩ := idx_facts0 t
  unfold iblk0
  rw [View.read_apply]
  show (V c main_arg7 : S3x5x64.Idx → EReal) _ = _
  refine congrArg (V c main_arg7 : S3x5x64.Idx → EReal) (funext fun a => Fin.ext ?_)
  match a with
  | ⟨0, _⟩ => show win0_1.index t (0 : Fin 3) * 3 + 1 * k.val = k.val; rw [e0]; omega
  | ⟨1, _⟩ => show win0_1.index t (1 : Fin 3) * 5 + 1 * d.val = d.val; rw [e1]; omega
  | ⟨2, _⟩ => show win0_1.index t (2 : Fin 3) * 64 + 1 * j.val = j.val; rw [e2]; omega

/-- Window 2's block is the whole bias. -/
theorem iblk0_2_apply (c : Dev nD) (t : Fin cfg0.N) (j : Fin 64) :
    (iblk0 V c 2 t : Vec Ideal S64 .f32) (ix1 j) = (V c main_arg8 : S64.Idx → EReal) (ix1 j) := by
  obtain ⟨-, -, -, -, -, -, e0, -⟩ := idx_facts0 t
  unfold iblk0
  rw [View.read_apply]
  show (V c main_arg8 : S64.Idx → EReal) _ = _
  refine congrArg (V c main_arg8 : S64.Idx → EReal) (funext fun a => Fin.ext ?_)
  match a with
  | ⟨0, _⟩ => show win0_2.index t (0 : Fin 1) * 64 + 1 * j.val = j.val; rw [e0]; omega

/-! ## What a point writes back, the cover, the array -/

/-- Point t writes back rows 1000·t … 1000·t + 999 of the stage's function of the arrays as the region finds them. -/
theorem flushed0_eq (c : Dev nD) (t : Fin cfg0.N) :
    (dat0 (F := Ideal) V c).flushed 3 t
      = ((cfg0.win 3).blk t).view.read (Elt Ideal) (G0 (V c main_v58) (V c main_arg7) (V c main_arg8)) := by
  show (cfg0.win 3).cut (grid0.coords t) ((dat0 (F := Ideal) V c).after 3 t) = _
  rw [after0_3]
  unfold out0_3
  rw [View.canon_unit_zero hz2_0]
  funext y
  obtain ⟨r, j, rfl⟩ : ∃ (r : Fin 1000) (j : Fin 64), y = ix2 r j := ⟨y 0, y 1, eq_ix2 y⟩
  obtain ⟨-, -, -, -, -, -, -, e0, e1⟩ := idx_facts0 t
  have hN : cfg0.N = 100 := N_0
  have ht : t.val < 100 := by have := t.isLt; omega
  refine (point0 (iblk0 V c 0 t) (iblk0 V c 1 t) (iblk0 V c 2 t) (V c main_v58) (V c main_arg7) (V c main_arg8) r j
    ⟨1000 * t.val + r.val, by omega⟩ (fun k d => iblk0_0_apply V c t k r d _ rfl) (fun k d => iblk0_1_apply V c t k d j)
    (iblk0_2_apply V c t j)).trans ?_
  rw [View.read_apply]
  refine congrArg (G0 (V c main_v58) (V c main_arg7) (V c main_arg8)) (funext fun a => Fin.ext ?_)
  match a with
  | ⟨0, _⟩ => show 1000 * t.val + r.val = win0_3.index t (0 : Fin 2) * 1000 + 1 * r.val; rw [e0]; omega
  | ⟨1, _⟩ => show j.val = win0_3.index t (1 : Fin 2) * 64 + 1 * j.val; rw [e1]; omega

/-- An index of the array is in point t's block iff each coordinate is in the block's range on its axis. -/
theorem mem_blk0 (t : Fin cfg0.N) (i : S100000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v59).slice (win0_3.rect t)).set ↔ _
  rw [View.set_slice_whole, Rect.mem_set_unit]
  exact Iff.rfl

/-- Row n lies in the block of point n / 1000. -/
theorem cover0 (i : S100000x64.Idx) : ∃ t : Fin cfg0.N, (cfg0.win 3).flush t = true ∧ i ∈ ((cfg0.win 3).blk t).view.set := by
  have hN : cfg0.N = 100 := N_0
  have hi0 : (i 0).val < 100000 := (i 0).isLt
  have hi1 : (i 1).val < 64 := (i 1).isLt
  refine ⟨⟨(i 0).val / 1000, by omega⟩, flush0_3 _, ?_⟩
  rw [mem_blk0]
  obtain ⟨-, -, -, -, -, -, -, e0, e1⟩ := idx_facts0 ⟨(i 0).val / 1000, by omega⟩
  intro a
  match a with
  | ⟨0, _⟩ =>
    show win0_3.index ⟨(i 0).val / 1000, _⟩ (0 : Fin 2) * 1000 ≤ (i 0).val ∧ (i 0).val < win0_3.index ⟨(i 0).val / 1000, _⟩ (0 : Fin 2) * 1000 + 1000
    rw [e0]; show (i 0).val / 1000 * 1000 ≤ (i 0).val ∧ (i 0).val < (i 0).val / 1000 * 1000 + 1000; omega
  | ⟨1, _⟩ =>
    show win0_3.index ⟨(i 0).val / 1000, _⟩ (1 : Fin 2) * 64 ≤ (i 1).val ∧ (i 1).val < win0_3.index ⟨(i 0).val / 1000, _⟩ (1 : Fin 2) * 64 + 64
    rw [e1]; omega

/-- The output array after the pipeline is the stage's function of the input arrays as the region finds them. -/
theorem arr0_eq (c : Dev nD) :
    (dat0 (F := Ideal) V c).arrAt 3 cfg0.N = G0 (V c main_v58) (V c main_arg7) (V c main_arg8) :=
  (dat0 (F := Ideal) V c).arrAt_eq_of_cover 3 (G0 (V c main_v58) (V c main_arg7) (V c main_arg8)) (fun t _ => flushed0_eq V c t) cover0

/-- Entry (n, j) of the output array after the pipeline: relu (h0·W0 + h1·W1 + h2·W2 + b) at row n, column j. -/
theorem final0 (c : Dev nD) (n : Fin 100000) (j : Fin 64) :
    (dat0 (F := Ideal) V c).arrAt 3 cfg0.N (ValueIdx.ix2 n j)
      = Cert.Spec.comb3 (fun n d => (V c main_v58 : S3x100000x5.Idx → EReal) (ValueIdx.ix3 0 n d))
          (fun n d => (V c main_v58 : S3x100000x5.Idx → EReal) (ValueIdx.ix3 1 n d))
          (fun n d => (V c main_v58 : S3x100000x5.Idx → EReal) (ValueIdx.ix3 2 n d))
          (fun k d j => (V c main_arg7 : S3x5x64.Idx → EReal) (ValueIdx.ix3 k d j))
          (fun j => (V c main_arg8 : S64.Idx → EReal) (ValueIdx.ix1 j)) n j := by
  rw [arr0_eq]
  rfl

end Cert.KernelIdeal.Fr

end
-- ==== Proof.KI.V1.lean ====
/-
  Region 1 of the idealized kernel program, read as a value on the extended reals: the first bilinear stage,
  relu (a·Wa + s·Ws + b), with a the aggregated neighbour features [50000, 64] and s the node features [50000, 6].
  First the stored block entry by entry (each block product into a zero accumulator is the plain sum over the contracted
  positions, the bias row is read at the column, rounding to the narrower float is the identity, the clamp is a maximum
  with zero); then what a grid point writes back is rows 1000·t … 1000·t + 999 of ONE function of the whole arrays; the
  fifty row blocks cover the array, so the array ends holding that function.
-/
import proofs.«106568_j42528766165971_1_alg».proof.Proof.KI.R1
import proofs.«106568_j42528766165971_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored block, entry by entry -/

theorem mmA1_lhs0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem mmA1_lhs1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem mmA1_rhs0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem mmA1_rhs1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The block product into a zero accumulator, entry (r, j): the sum over the 64 contracted positions. -/
theorem mmA1_apply (a : FVec Ideal S1000x64 .bf16) (w : FVec Ideal S64x64 .bf16) (r : Fin 1000) (j : Fin 64) :
    matmul dot_S1000x64_S64x64_S1000x64_1_0_0_1_n_n none a w (constant (F := Ideal) S1000x64 .f32 0x00000000#32) (ix2 r j)
      = ∑ d : Fin 64, a (ix2 r d) * w (ix2 d j) := by
  refine (Ideal.matmul_constant_zero_apply dot_S1000x64_S64x64_S1000x64_1_0_0_1_n_n none a w (ix2 r j)).trans ?_
  rw [← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 r j) ((contrEquiv1 dot_S1000x64_S64x64_S1000x64_1_0_0_1_n_n 64 rfl rfl).symm k) = ix2 r k := funext fun a => Fin.ext (by
    match a with
    | ⟨0, _⟩ => exact mmA1_lhs0 _ _
    | ⟨1, _⟩ => exact (mmA1_lhs1 _ _).trans hk)
  have er : dot_S1000x64_S64x64_S1000x64_1_0_0_1_n_n.rhsIdx (ix2 r j) ((contrEquiv1 dot_S1000x64_S64x64_S1000x64_1_0_0_1_n_n 64 rfl rfl).symm k) = ix2 k j := funext fun a => Fin.ext (by
    match a with
    | ⟨0, _⟩ => exact (mmA1_rhs0 _ _).trans hk
    | ⟨1, _⟩ => exact mmA1_rhs1 _ _)
  rw [el, er]

theorem mmS1_lhs0 (i : S1000x64.Idx) (q : dot_S1000x6_S6x64_S1000x64_1_0_0_1_n_n.contr.Idx) :
    (dot_S1000x6_S6x64_S1000x64_1_0_0_1_n_n.lhsIdx i q 0).val = (i 0).val := by
  unfold DotDims.lhsIdx
  rw [dif_neg (show ¬(0 : Fin S1000x6.rank) ∈ dot_S1000x6_S6x64_S1000x64_1_0_0_1_n_n.lhsBatch by decide), dif_pos (show (0 : Fin S1000x6.rank) ∈ dot_S1000x6_S6x64_S1000x64_1_0_0_1_n_n.lhsNonContracting by decide)]
  rfl
theorem mmS1_lhs1 (i : S1000x64.Idx) (q : dot_S1000x6_S6x64_S1000x64_1_0_0_1_n_n.contr.Idx) :
    (dot_S1000x6_S6x64_S1000x64_1_0_0_1_n_n.lhsIdx i q 1).val = (q ⟨0, by decide⟩).val :=
  dot_S1000x6_S6x64_S1000x64_1_0_0_1_n_n.lhsIdx_val_of_single rfl i q
theorem mmS1_rhs0 (i : S1000x64.Idx) (q : dot_S1000x6_S6x64_S1000x64_1_0_0_1_n_n.contr.Idx) :
    (dot_S1000x6_S6x64_S1000x64_1_0_0_1_n_n.rhsIdx i q 0).val = (q ⟨0, by decide⟩).val :=
  dot_S1000x6_S6x64_S1000x64_1_0_0_1_n_n.rhsIdx_val_of_single rfl i q
theorem mmS1_rhs1 (i : S1000x64.Idx) (q : dot_S1000x6_S6x64_S1000x64_1_0_0_1_n_n.contr.Idx) :
    (dot_S1000x6_S6x64_S1000x64_1_0_0_1_n_n.rhsIdx i q 1).val = (i 1).val := by
  unfold DotDims.rhsIdx
  rw [dif_neg (show ¬(1 : Fin S6x64.rank) ∈ dot_S1000x6_S6x64_S1000x64_1_0_0_1_n_n.rhsBatch by decide), dif_pos (show (1 : Fin S6x64.rank) ∈ dot_S1000x6_S6x64_S1000x64_1_0_0_1_n_n.rhsNonContracting by decide)]
  rfl

/-- The block product into a zero accumulator, entry (r, j): the sum over the 6 contracted positions. -/
theorem mmS1_apply (a : FVec Ideal S1000x6 .bf16) (w : FVec Ideal S6x64 .bf16) (r : Fin 1000) (j : Fin 64) :
    matmul dot_S1000x6_S6x64_S1000x64_1_0_0_1_n_n none a w (constant (F := Ideal) S1000x64 .f32 0x00000000#32) (ix2 r j)
      = ∑ d : Fin 6, a (ix2 r d) * w (ix2 d j) := by
  refine (Ideal.matmul_constant_zero_apply dot_S1000x6_S6x64_S1000x64_1_0_0_1_n_n none a w (ix2 r j)).trans ?_
  rw [← Equiv.sum_comp (contrEquiv1 dot_S1000x6_S6x64_S1000x64_1_0_0_1_n_n 6 rfl rfl).symm]
  refine Finset.sum_congr rfl fun k _ => ?_
  have hk := contrEquiv1_symm_val dot_S1000x6_S6x64_S1000x64_1_0_0_1_n_n 6 rfl rfl k
  have el : dot_S1000x6_S6x64_S1000x64_1_0_0_1_n_n.lhsIdx (ix2 r j) ((contrEquiv1 dot_S1000x6_S6x64_S1000x64_1_0_0_1_n_n 6 rfl rfl).symm k) = ix2 r k := funext fun a => Fin.ext (by
    match a with
    | ⟨0, _⟩ => exact mmS1_lhs0 _ _
    | ⟨1, _⟩ => exact (mmS1_lhs1 _ _).trans hk)
  have er : dot_S1000x6_S6x64_S1000x64_1_0_0_1_n_n.rhsIdx (ix2 r j) ((contrEquiv1 dot_S1000x6_S6x64_S1000x64_1_0_0_1_n_n 6 rfl rfl).symm k) = ix2 k j := funext fun a => Fin.ext (by
    match a with
    | ⟨0, _⟩ => exact (mmS1_rhs0 _ _).trans hk
    | ⟨1, _⟩ => exact mmS1_rhs1 _ _)
  rw [el, er]

/-- The bias row broadcast over the block's rows reads the bias at the column. -/
theorem bias1_apply (b : Vec Ideal S64 .f32) (r : Fin 1000) (j : Fin 64) :
    broadcastTo S1000x64 (shapeCast S1x64 b shapeCasts_S64_S1x64) broadcasts_S1x64_S1000x64 (ix2 r j) = b (ix1 j) :=
  (broadcastTo_1b_ab_apply _ broadcasts_S1x64_S1000x64 r j).trans (shapeCast_a_1a_apply b shapeCasts_S64_S1x64 0 j)

/-- The block the body stores, entry (r, j): the two products' sum plus the bias, clamped at zero. -/
theorem pay1_apply (x0 : Vec Ideal S1000x64 .f32) (x1 : Vec Ideal S64x64 .f32) (x2 : Vec Ideal S1000x6 .f32) (x3 : Vec Ideal S6x64 .f32)
    (x4 : Vec Ideal S64 .f32) (r : Fin 1000) (j : Fin 64) :
    k1_pay1 x0 x1 x2 x3 x4 (ix2 r j)
      = max (((∑ d : Fin 64, x0 (ix2 r d) * x1 (ix2 d j)) + ∑ d : Fin 6, x2 (ix2 r d) * x3 (ix2 d j)) + x4 (ix1 j)) 0 := by
  unfold k1_pay1
  simp only [maximumf_apply, addf_apply, broadcast_apply, mmA1_apply, mmS1_apply, truncf_apply, shapeCast_self]
  exact congrArg₂ max (congrArg₂ (· + ·) rfl (bias1_apply x4 r j)) Ideal.ofBits_zero_f32

/-! ## The stage as one function of the whole arrays -/

/-- relu (a·Wa + s·Ws + b) of the five arrays, at an index of the [50000, 64] result. -/
def G1 (a : S50000x64.Idx → EReal) (Wa : S64x64.Idx → EReal) (s : S50000x6.Idx → EReal) (Ws : S6x64.Idx → EReal)
    (b : S64.Idx → EReal) : S50000x64.Idx → EReal := fun i =>
  Cert.Spec.bilin (N := 50000) (A := 64) (B := 6) (H := 64) (fun n d => a (ix2 n d)) (fun d j => Wa (ix2 d j))
    (fun n d => s (ix2 n d)) (fun d j => Ws (ix2 d j)) (fun j => b (ix1 j)) (i 0) (i 1)

/-- A stored block whose inputs are row n of the two row-blocked arrays and the whole weight and bias arrays is, at
    (r, j), the stage's value at (n, j). -/
theorem point1 (x0 : Vec Ideal S1000x64 .f32) (x1 : Vec Ideal S64x64 .f32) (x2 : Vec Ideal S1000x6 .f32) (x3 : Vec Ideal S6x64 .f32)
    (x4 : Vec Ideal S64 .f32) (a : S50000x64.Idx → EReal) (Wa : S64x64.Idx → EReal) (s : S50000x6.Idx → EReal)
    (Ws : S6x64.Idx → EReal) (b : S64.Idx → EReal) (r : Fin 1000) (j : Fin 64) (n : Fin 50000)
    (h0 : ∀ d : Fin 64, x0 (ix2 r d) = a (ix2 n d)) (h1 : ∀ d : Fin 64, x1 (ix2 d j) = Wa (ix2 d j))
    (h2 : ∀ d : Fin 6, x2 (ix2 r d) = s (ix2 n d)) (h3 : ∀ d : Fin 6, x3 (ix2 d j) = Ws (ix2 d j))
    (h4 : x4 (ix1 j) = b (ix1 j)) :
    k1_pay1 x0 x1 x2 x3 x4 (ix2 r j) = G1 a Wa s Ws b (ix2 n j) := by
  rw [pay1_apply]
  simp only [h0, h1, h2, h3, h4]
  rfl

/-! ## The blocks the body reads, as entries of the arrays -/

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The block indices over the grid: the row-blocked windows sit at block (t, 0), the whole-array windows at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Window 0's block at point t is rows 1000·t … of the first row-blocked array. -/
theorem iblk1_0_apply (c : Dev nD) (t : Fin cfg1.N) (r : Fin 1000) (d : Fin 64) (n : Fin 50000) (hn : n.val = 1000 * t.val + r.val) :
    (iblk1 V c 0 t : Vec Ideal S1000x64 .f32) (ix2 r d) = (V c main_v76 : S50000x64.Idx → EReal) (ix2 n d) := by
  obtain ⟨e0, e1, -⟩ := idx_facts1 t
  unfold iblk1
  rw [View.read_apply]
  show (V c main_v76 : S50000x64.Idx → EReal) _ = _
  refine congrArg (V c main_v76 : S50000x64.Idx → EReal) (funext fun a => Fin.ext ?_)
  match a with
  | ⟨0, _⟩ => show win1_0.index t (0 : Fin 2) * 1000 + 1 * r.val = n.val; rw [e0, hn]; omega
  | ⟨1, _⟩ => show win1_0.index t (1 : Fin 2) * 64 + 1 * d.val = d.val; rw [e1]; omega

/-- Window 1's block is the whole first weight array. -/
theorem iblk1_1_apply (c : Dev nD) (t : Fin cfg1.N) (d : Fin 64) (j : Fin 64) :
    (iblk1 V c 1 t : Vec Ideal S64x64 .f32) (ix2 d j) = (V c main_arg11 : S64x64.Idx → EReal) (ix2 d j) := by
  obtain ⟨-, -, e0, e1, -⟩ := idx_facts1 t
  unfold iblk1
  rw [View.read_apply]
  show (V c main_arg11 : S64x64.Idx → EReal) _ = _
  refine congrArg (V c main_arg11 : S64x64.Idx → EReal) (funext fun a => Fin.ext ?_)
  match a with
  | ⟨0, _⟩ => show win1_1.index t (0 : Fin 2) * 64 + 1 * d.val = d.val; rw [e0]; omega
  | ⟨1, _⟩ => show win1_1.index t (1 : Fin 2) * 64 + 1 * j.val = j.val; rw [e1]; omega

/-- Window 2's block at point t is rows 1000·t … of the second row-blocked array. -/
theorem iblk1_2_apply (c : Dev nD) (t : Fin cfg1.N) (r : Fin 1000) (d : Fin 6) (n : Fin 50000) (hn : n.val = 1000 * t.val + r.val) :
    (iblk1 V c 2 t : Vec Ideal S1000x6 .f32) (ix2 r d) = (V c main_arg1 : S50000x6.Idx → EReal) (ix2 n d) := by
  obtain ⟨-, -, -, -, e0, e1, -⟩ := idx_facts1 t
  unfold iblk1
  rw [View.read_apply]
  show (V c main_arg1 : S50000x6.Idx → EReal) _ = _
  refine congrArg (V c main_arg1 : S50000x6.Idx → EReal) (funext fun a => Fin.ext ?_)
  match a with
  | ⟨0, _⟩ => show win1_2.index t (0 : Fin 2) * 1000 + 1 * r.val = n.val; rw [e0, hn]; omega
  | ⟨1, _⟩ => show win1_2.index t (1 : Fin 2) * 6 + 1 * d.val = d.val; rw [e1]; omega

/-- Window 3's block is the whole second weight array. -/
theorem iblk1_3_apply (c : Dev nD) (t : Fin cfg1.N) (d : Fin 6) (j : Fin 64) :
    (iblk1 V c 3 t : Vec Ideal S6x64 .f32) (ix2 d j) = (V c main_arg13 : S6x64.Idx → EReal) (ix2 d j) := by
  obtain ⟨-, -, -, -, -, -, e0, e1, -⟩ := idx_facts1 t
  unfold iblk1
  rw [View.read_apply]
  show (V c main_arg13 : S6x64.Idx → EReal) _ = _
  refine congrArg (V c main_arg13 : S6x64.Idx → EReal) (funext fun a => Fin.ext ?_)
  match a with
  | ⟨0, _⟩ => show win1_3.index t (0 : Fin 2) * 6 + 1 * d.val = d.val; rw [e0]; omega
  | ⟨1, _⟩ => show win1_3.index t (1 : Fin 2) * 64 + 1 * j.val = j.val; rw [e1]; omega

/-- Window 4's block is the whole bias. -/
theorem iblk1_4_apply (c : Dev nD) (t : Fin cfg1.N) (j : Fin 64) :
    (iblk1 V c 4 t : Vec Ideal S64 .f32) (ix1 j) = (V c main_arg12 : S64.Idx → EReal) (ix1 j) := by
  obtain ⟨-, -, -, -, -, -, -, -, e0, -⟩ := idx_facts1 t
  unfold iblk1
  rw [View.read_apply]
  show (V c main_arg12 : S64.Idx → EReal) _ = _
  refine congrArg (V c main_arg12 : S64.Idx → EReal) (funext fun a => Fin.ext ?_)
  match a with
  | ⟨0, _⟩ => show win1_4.index t (0 : Fin 1) * 64 + 1 * j.val = j.val; rw [e0]; omega

/-! ## What a point writes back, the cover, the array -/

/-- Point t writes back rows 1000·t … 1000·t + 999 of the stage's function of the arrays as the region finds them. -/
theorem flushed1_eq (c : Dev nD) (t : Fin cfg1.N) :
    (dat1 (F := Ideal) V c).flushed 5 t
      = ((cfg1.win 5).blk t).view.read (Elt Ideal) (G1 (V c main_v76) (V c main_arg11) (V c main_arg1) (V c main_arg13) (V c main_arg12)) := by
  show (cfg1.win 5).cut (grid1.coords t) ((dat1 (F := Ideal) V c).after 5 t) = _
  rw [after1_5]
  unfold out1_5
  rw [View.canon_unit_zero hz2_1]
  simp only [View.ld_unit_zero (S := S1000x64) hz2_1, View.ld_unit_zero (S := S64x64) hz2_1, View.ld_unit_zero (S := S1000x6) hz2_1,
    View.ld_unit_zero (S := S6x64) hz2_1, View.ld_unit_zero (S := S64) hz1_1]
  funext y
  obtain ⟨r, j, rfl⟩ : ∃ (r : Fin 1000) (j : Fin 64), y = ix2 r j := ⟨y 0, y 1, eq_ix2 y⟩
  obtain ⟨-, -, -, -, -, -, -, -, -, e0, e1⟩ := idx_facts1 t
  have hN : cfg1.N = 50 := N_1
  have ht : t.val < 50 := by have := t.isLt; omega
  refine (point1 (iblk1 V c 0 t) (iblk1 V c 1 t) (iblk1 V c 2 t) (iblk1 V c 3 t) (iblk1 V c 4 t)
    (V c main_v76) (V c main_arg11) (V c main_arg1) (V c main_arg13) (V c main_arg12) r j ⟨1000 * t.val + r.val, by omega⟩
    (fun d => iblk1_0_apply V c t r d _ rfl) (fun d => iblk1_1_apply V c t d j)
    (fun d => iblk1_2_apply V c t r d _ rfl) (fun d => iblk1_3_apply V c t d j) (iblk1_4_apply V c t j)).trans ?_
  rw [View.read_apply]
  refine congrArg (G1 (V c main_v76) (V c main_arg11) (V c main_arg1) (V c main_arg13) (V c main_arg12)) (funext fun a => Fin.ext ?_)
  match a with
  | ⟨0, _⟩ => show 1000 * t.val + r.val = win1_5.index t (0 : Fin 2) * 1000 + 1 * r.val; rw [e0]; omega
  | ⟨1, _⟩ => show j.val = win1_5.index t (1 : Fin 2) * 64 + 1 * j.val; rw [e1]; omega

/-- An index of the array is in point t's block iff each coordinate is in the block's range on its axis. -/
theorem mem_blk1 (t : Fin cfg1.N) (i : S50000x64.Idx) :
    i ∈ ((cfg1.win 5).blk t).view.set ↔ ∀ a : Fin 2, win1_5.index t a * S1000x64.size a ≤ (i a).val ∧ (i a).val < win1_5.index t a * S1000x64.size a + S1000x64.size a := by
  show i ∈ ((View.whole main_v77).slice (win1_5.rect t)).set ↔ _
  rw [View.set_slice_whole, Rect.mem_set_unit]
  exact Iff.rfl

/-- Row n lies in the block of point n / 1000. -/
theorem cover1 (i : S50000x64.Idx) : ∃ t : Fin cfg1.N, (cfg1.win 5).flush t = true ∧ i ∈ ((cfg1.win 5).blk t).view.set := by
  have hN : cfg1.N = 50 := N_1
  have hi0 : (i 0).val < 50000 := (i 0).isLt
  have hi1 : (i 1).val < 64 := (i 1).isLt
  refine ⟨⟨(i 0).val / 1000, by omega⟩, flush1_5 _, ?_⟩
  rw [mem_blk1]
  obtain ⟨-, -, -, -, -, -, -, -, -, e0, e1⟩ := idx_facts1 ⟨(i 0).val / 1000, by omega⟩
  intro a
  match a with
  | ⟨0, _⟩ =>
    show win1_5.index ⟨(i 0).val / 1000, _⟩ (0 : Fin 2) * 1000 ≤ (i 0).val ∧ (i 0).val < win1_5.index ⟨(i 0).val / 1000, _⟩ (0 : Fin 2) * 1000 + 1000
    rw [e0]; show (i 0).val / 1000 * 1000 ≤ (i 0).val ∧ (i 0).val < (i 0).val / 1000 * 1000 + 1000; omega
  | ⟨1, _⟩ =>
    show win1_5.index ⟨(i 0).val / 1000, _⟩ (1 : Fin 2) * 64 ≤ (i 1).val ∧ (i 1).val < win1_5.index ⟨(i 0).val / 1000, _⟩ (1 : Fin 2) * 64 + 64
    rw [e1]; omega

/-- The output array after the pipeline is the stage's function of the input arrays as the region finds them. -/
theorem arr1_eq (c : Dev nD) :
    (dat1 (F := Ideal) V c).arrAt 5 cfg1.N = G1 (V c main_v76) (V c main_arg11) (V c main_arg1) (V c main_arg13) (V c main_arg12) :=
  (dat1 (F := Ideal) V c).arrAt_eq_of_cover 5 (G1 (V c main_v76) (V c main_arg11) (V c main_arg1) (V c main_arg13) (V c main_arg12)) (fun t _ => flushed1_eq V c t) cover1

/-- Entry (n, j) of the output array after the pipeline: relu (a·Wa + s·Ws + b) at row n, column j. -/
theorem final1 (c : Dev nD) (n : Fin 50000) (j : Fin 64) :
    (dat1 (F := Ideal) V c).arrAt 5 cfg1.N (ValueIdx.ix2 n j)
      = Cert.Spec.bilin (fun n d => (V c main_v76 : S50000x64.Idx → EReal) (ValueIdx.ix2 n d)) (fun d j => (V c main_arg11 : S64x64.Idx → EReal) (ValueIdx.ix2 d j))
          (fun n d => (V c main_arg1 : S50000x6.Idx → EReal) (ValueIdx.ix2 n d)) (fun d j => (V c main_arg13 : S6x64.Idx → EReal) (ValueIdx.ix2 d j))
          (fun j => (V c main_arg12 : S64.Idx → EReal) (ValueIdx.ix1 j)) n j := by
  rw [arr1_eq]
  rfl

end Cert.KernelIdeal.Fr

end
-- ==== Proof.KI.V2.lean ====
/-
  Region 2 of the idealized kernel program, read as a value on the extended reals: the second bilinear stage,
  relu (a·Wa + s·Ws + b), with a the aggregated neighbour features [50000, 64] and s the first stage's output [50000, 64].
  First the stored block entry by entry (each block product into a zero accumulator is the plain sum over the contracted
  positions, the bias row is read at the column, rounding to the narrower float is the identity, the clamp is a maximum
  with zero); then what a grid point writes back is rows 1000·t … 1000·t + 999 of ONE function of the whole arrays; the
  fifty row blocks cover the array, so the array ends holding that function.
-/
import proofs.«106568_j42528766165971_1_alg».proof.Proof.KI.R2
import proofs.«106568_j42528766165971_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored block, entry by entry -/

theorem mmA2_lhs0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem mmA2_lhs1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem mmA2_rhs0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem mmA2_rhs1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The block product into a zero accumulator, entry (r, j): the sum over the 64 contracted positions. -/
theorem mmA2_apply (a : FVec Ideal S1000x64 .bf16) (w : FVec Ideal S64x64 .bf16) (r : Fin 1000) (j : Fin 64) :
    matmul dot_S1000x64_S64x64_S1000x64_1_0_0_1_n_n none a w (constant (F := Ideal) S1000x64 .f32 0x00000000#32) (ix2 r j)
      = ∑ d : Fin 64, a (ix2 r d) * w (ix2 d j) := by
  refine (Ideal.matmul_constant_zero_apply dot_S1000x64_S64x64_S1000x64_1_0_0_1_n_n none a w (ix2 r j)).trans ?_
  rw [← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 r j) ((contrEquiv1 dot_S1000x64_S64x64_S1000x64_1_0_0_1_n_n 64 rfl rfl).symm k) = ix2 r k := funext fun a => Fin.ext (by
    match a with
    | ⟨0, _⟩ => exact mmA2_lhs0 _ _
    | ⟨1, _⟩ => exact (mmA2_lhs1 _ _).trans hk)
  have er : dot_S1000x64_S64x64_S1000x64_1_0_0_1_n_n.rhsIdx (ix2 r j) ((contrEquiv1 dot_S1000x64_S64x64_S1000x64_1_0_0_1_n_n 64 rfl rfl).symm k) = ix2 k j := funext fun a => Fin.ext (by
    match a with
    | ⟨0, _⟩ => exact (mmA2_rhs0 _ _).trans hk
    | ⟨1, _⟩ => exact mmA2_rhs1 _ _)
  rw [el, er]

/-- The bias row broadcast over the block's rows reads the bias at the column. -/
theorem bias2_apply (b : Vec Ideal S64 .f32) (r : Fin 1000) (j : Fin 64) :
    broadcastTo S1000x64 (shapeCast S1x64 b shapeCasts_S64_S1x64) broadcasts_S1x64_S1000x64 (ix2 r j) = b (ix1 j) :=
  (broadcastTo_1b_ab_apply _ broadcasts_S1x64_S1000x64 r j).trans (shapeCast_a_1a_apply b shapeCasts_S64_S1x64 0 j)

/-- The block the body stores, entry (r, j): the two products' sum plus the bias, clamped at zero. -/
theorem pay2_apply (x0 : Vec Ideal S1000x64 .f32) (x1 : Vec Ideal S64x64 .f32) (x2 : Vec Ideal S1000x64 .f32) (x3 : Vec Ideal S64x64 .f32)
    (x4 : Vec Ideal S64 .f32) (r : Fin 1000) (j : Fin 64) :
    k2_pay1 x0 x1 x2 x3 x4 (ix2 r j)
      = max (((∑ d : Fin 64, x0 (ix2 r d) * x1 (ix2 d j)) + ∑ d : Fin 64, x2 (ix2 r d) * x3 (ix2 d j)) + x4 (ix1 j)) 0 := by
  unfold k2_pay1
  simp only [maximumf_apply, addf_apply, broadcast_apply, mmA2_apply, truncf_apply, shapeCast_self]
  exact congrArg₂ max (congrArg₂ (· + ·) rfl (bias2_apply x4 r j)) Ideal.ofBits_zero_f32

/-! ## The stage as one function of the whole arrays -/

/-- relu (a·Wa + s·Ws + b) of the five arrays, at an index of the [50000, 64] result. -/
def G2 (a : S50000x64.Idx → EReal) (Wa : S64x64.Idx → EReal) (s : S50000x64.Idx → EReal) (Ws : S64x64.Idx → EReal)
    (b : S64.Idx → EReal) : S50000x64.Idx → EReal := fun i =>
  Cert.Spec.bilin (N := 50000) (A := 64) (B := 64) (H := 64) (fun n d => a (ix2 n d)) (fun d j => Wa (ix2 d j))
    (fun n d => s (ix2 n d)) (fun d j => Ws (ix2 d j)) (fun j => b (ix1 j)) (i 0) (i 1)

/-- A stored block whose inputs are row n of the two row-blocked arrays and the whole weight and bias arrays is, at
    (r, j), the stage's value at (n, j). -/
theorem point2 (x0 : Vec Ideal S1000x64 .f32) (x1 : Vec Ideal S64x64 .f32) (x2 : Vec Ideal S1000x64 .f32) (x3 : Vec Ideal S64x64 .f32)
    (x4 : Vec Ideal S64 .f32) (a : S50000x64.Idx → EReal) (Wa : S64x64.Idx → EReal) (s : S50000x64.Idx → EReal)
    (Ws : S64x64.Idx → EReal) (b : S64.Idx → EReal) (r : Fin 1000) (j : Fin 64) (n : Fin 50000)
    (h0 : ∀ d : Fin 64, x0 (ix2 r d) = a (ix2 n d)) (h1 : ∀ d : Fin 64, x1 (ix2 d j) = Wa (ix2 d j))
    (h2 : ∀ d : Fin 64, x2 (ix2 r d) = s (ix2 n d)) (h3 : ∀ d : Fin 64, x3 (ix2 d j) = Ws (ix2 d j))
    (h4 : x4 (ix1 j) = b (ix1 j)) :
    k2_pay1 x0 x1 x2 x3 x4 (ix2 r j) = G2 a Wa s Ws b (ix2 n j) := by
  rw [pay2_apply]
  simp only [h0, h1, h2, h3, h4]
  rfl

/-! ## The blocks the body reads, as entries of the arrays -/

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a <;> rfl

/-- The block indices over the grid: the row-blocked windows sit at block (t, 0), the whole-array windows at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Window 0's block at point t is rows 1000·t … of the first row-blocked array. -/
theorem iblk2_0_apply (c : Dev nD) (t : Fin cfg2.N) (r : Fin 1000) (d : Fin 64) (n : Fin 50000) (hn : n.val = 1000 * t.val + r.val) :
    (iblk2 V c 0 t : Vec Ideal S1000x64 .f32) (ix2 r d) = (V c main_v100 : S50000x64.Idx → EReal) (ix2 n d) := by
  obtain ⟨e0, e1, -⟩ := idx_facts2 t
  unfold iblk2
  rw [View.read_apply]
  show (V c main_v100 : S50000x64.Idx → EReal) _ = _
  refine congrArg (V c main_v100 : S50000x64.Idx → EReal) (funext fun a => Fin.ext ?_)
  match a with
  | ⟨0, _⟩ => show win2_0.index t (0 : Fin 2) * 1000 + 1 * r.val = n.val; rw [e0, hn]; omega
  | ⟨1, _⟩ => show win2_0.index t (1 : Fin 2) * 64 + 1 * d.val = d.val; rw [e1]; omega

/-- Window 1's block is the whole first weight array. -/
theorem iblk2_1_apply (c : Dev nD) (t : Fin cfg2.N) (d : Fin 64) (j : Fin 64) :
    (iblk2 V c 1 t : Vec Ideal S64x64 .f32) (ix2 d j) = (V c main_arg14 : S64x64.Idx → EReal) (ix2 d j) := by
  obtain ⟨-, -, e0, e1, -⟩ := idx_facts2 t
  unfold iblk2
  rw [View.read_apply]
  show (V c main_arg14 : S64x64.Idx → EReal) _ = _
  refine congrArg (V c main_arg14 : S64x64.Idx → EReal) (funext fun a => Fin.ext ?_)
  match a with
  | ⟨0, _⟩ => show win2_1.index t (0 : Fin 2) * 64 + 1 * d.val = d.val; rw [e0]; omega
  | ⟨1, _⟩ => show win2_1.index t (1 : Fin 2) * 64 + 1 * j.val = j.val; rw [e1]; omega

/-- Window 2's block at point t is rows 1000·t … of the second row-blocked array. -/
theorem iblk2_2_apply (c : Dev nD) (t : Fin cfg2.N) (r : Fin 1000) (d : Fin 64) (n : Fin 50000) (hn : n.val = 1000 * t.val + r.val) :
    (iblk2 V c 2 t : Vec Ideal S1000x64 .f32) (ix2 r d) = (V c main_v77 : S50000x64.Idx → EReal) (ix2 n d) := by
  obtain ⟨-, -, -, -, e0, e1, -⟩ := idx_facts2 t
  unfold iblk2
  rw [View.read_apply]
  show (V c main_v77 : S50000x64.Idx → EReal) _ = _
  refine congrArg (V c main_v77 : S50000x64.Idx → EReal) (funext fun a => Fin.ext ?_)
  match a with
  | ⟨0, _⟩ => show win2_2.index t (0 : Fin 2) * 1000 + 1 * r.val = n.val; rw [e0, hn]; omega
  | ⟨1, _⟩ => show win2_2.index t (1 : Fin 2) * 64 + 1 * d.val = d.val; rw [e1]; omega

/-- Window 3's block is the whole second weight array. -/
theorem iblk2_3_apply (c : Dev nD) (t : Fin cfg2.N) (d : Fin 64) (j : Fin 64) :
    (iblk2 V c 3 t : Vec Ideal S64x64 .f32) (ix2 d j) = (V c main_arg16 : S64x64.Idx → EReal) (ix2 d j) := by
  obtain ⟨-, -, -, -, -, -, e0, e1, -⟩ := idx_facts2 t
  unfold iblk2
  rw [View.read_apply]
  show (V c main_arg16 : S64x64.Idx → EReal) _ = _
  refine congrArg (V c main_arg16 : S64x64.Idx → EReal) (funext fun a => Fin.ext ?_)
  match a with
  | ⟨0, _⟩ => show win2_3.index t (0 : Fin 2) * 64 + 1 * d.val = d.val; rw [e0]; omega
  | ⟨1, _⟩ => show win2_3.index t (1 : Fin 2) * 64 + 1 * j.val = j.val; rw [e1]; omega

/-- Window 4's block is the whole bias. -/
theorem iblk2_4_apply (c : Dev nD) (t : Fin cfg2.N) (j : Fin 64) :
    (iblk2 V c 4 t : Vec Ideal S64 .f32) (ix1 j) = (V c main_arg15 : S64.Idx → EReal) (ix1 j) := by
  obtain ⟨-, -, -, -, -, -, -, -, e0, -⟩ := idx_facts2 t
  unfold iblk2
  rw [View.read_apply]
  show (V c main_arg15 : S64.Idx → EReal) _ = _
  refine congrArg (V c main_arg15 : S64.Idx → EReal) (funext fun a => Fin.ext ?_)
  match a with
  | ⟨0, _⟩ => show win2_4.index t (0 : Fin 1) * 64 + 1 * j.val = j.val; rw [e0]; omega

/-! ## What a point writes back, the cover, the array -/

/-- Point t writes back rows 1000·t … 1000·t + 999 of the stage's function of the arrays as the region finds them. -/
theorem flushed2_eq (c : Dev nD) (t : Fin cfg2.N) :
    (dat2 (F := Ideal) V c).flushed 5 t
      = ((cfg2.win 5).blk t).view.read (Elt Ideal) (G2 (V c main_v100) (V c main_arg14) (V c main_v77) (V c main_arg16) (V c main_arg15)) := by
  show (cfg2.win 5).cut (grid2.coords t) ((dat2 (F := Ideal) V c).after 5 t) = _
  rw [after2_5]
  unfold out2_5
  rw [View.canon_unit_zero hz2_2]
  simp only [View.ld_unit_zero (S := S1000x64) hz2_2, View.ld_unit_zero (S := S64x64) hz2_2, View.ld_unit_zero (S := S1000x64) hz2_2,
    View.ld_unit_zero (S := S64x64) hz2_2, View.ld_unit_zero (S := S64) hz1_2]
  funext y
  obtain ⟨r, j, rfl⟩ : ∃ (r : Fin 1000) (j : Fin 64), y = ix2 r j := ⟨y 0, y 1, eq_ix2 y⟩
  obtain ⟨-, -, -, -, -, -, -, -, -, e0, e1⟩ := idx_facts2 t
  have hN : cfg2.N = 50 := N_2
  have ht : t.val < 50 := by have := t.isLt; omega
  refine (point2 (iblk2 V c 0 t) (iblk2 V c 1 t) (iblk2 V c 2 t) (iblk2 V c 3 t) (iblk2 V c 4 t)
    (V c main_v100) (V c main_arg14) (V c main_v77) (V c main_arg16) (V c main_arg15) r j ⟨1000 * t.val + r.val, by omega⟩
    (fun d => iblk2_0_apply V c t r d _ rfl) (fun d => iblk2_1_apply V c t d j)
    (fun d => iblk2_2_apply V c t r d _ rfl) (fun d => iblk2_3_apply V c t d j) (iblk2_4_apply V c t j)).trans ?_
  rw [View.read_apply]
  refine congrArg (G2 (V c main_v100) (V c main_arg14) (V c main_v77) (V c main_arg16) (V c main_arg15)) (funext fun a => Fin.ext ?_)
  match a with
  | ⟨0, _⟩ => show 1000 * t.val + r.val = win2_5.index t (0 : Fin 2) * 1000 + 1 * r.val; rw [e0]; omega
  | ⟨1, _⟩ => show j.val = win2_5.index t (1 : Fin 2) * 64 + 1 * j.val; rw [e1]; omega

/-- An index of the array is in point t's block iff each coordinate is in the block's range on its axis. -/
theorem mem_blk2 (t : Fin cfg2.N) (i : S50000x64.Idx) :
    i ∈ ((cfg2.win 5).blk t).view.set ↔ ∀ a : Fin 2, win2_5.index t a * S1000x64.size a ≤ (i a).val ∧ (i a).val < win2_5.index t a * S1000x64.size a + S1000x64.size a := by
  show i ∈ ((View.whole main_v101).slice (win2_5.rect t)).set ↔ _
  rw [View.set_slice_whole, Rect.mem_set_unit]
  exact Iff.rfl

/-- Row n lies in the block of point n / 1000. -/
theorem cover2 (i : S50000x64.Idx) : ∃ t : Fin cfg2.N, (cfg2.win 5).flush t = true ∧ i ∈ ((cfg2.win 5).blk t).view.set := by
  have hN : cfg2.N = 50 := N_2
  have hi0 : (i 0).val < 50000 := (i 0).isLt
  have hi1 : (i 1).val < 64 := (i 1).isLt
  refine ⟨⟨(i 0).val / 1000, by omega⟩, flush2_5 _, ?_⟩
  rw [mem_blk2]
  obtain ⟨-, -, -, -, -, -, -, -, -, e0, e1⟩ := idx_facts2 ⟨(i 0).val / 1000, by omega⟩
  intro a
  match a with
  | ⟨0, _⟩ =>
    show win2_5.index ⟨(i 0).val / 1000, _⟩ (0 : Fin 2) * 1000 ≤ (i 0).val ∧ (i 0).val < win2_5.index ⟨(i 0).val / 1000, _⟩ (0 : Fin 2) * 1000 + 1000
    rw [e0]; show (i 0).val / 1000 * 1000 ≤ (i 0).val ∧ (i 0).val < (i 0).val / 1000 * 1000 + 1000; omega
  | ⟨1, _⟩ =>
    show win2_5.index ⟨(i 0).val / 1000, _⟩ (1 : Fin 2) * 64 ≤ (i 1).val ∧ (i 1).val < win2_5.index ⟨(i 0).val / 1000, _⟩ (1 : Fin 2) * 64 + 64
    rw [e1]; omega

/-- The output array after the pipeline is the stage's function of the input arrays as the region finds them. -/
theorem arr2_eq (c : Dev nD) :
    (dat2 (F := Ideal) V c).arrAt 5 cfg2.N = G2 (V c main_v100) (V c main_arg14) (V c main_v77) (V c main_arg16) (V c main_arg15) :=
  (dat2 (F := Ideal) V c).arrAt_eq_of_cover 5 (G2 (V c main_v100) (V c main_arg14) (V c main_v77) (V c main_arg16) (V c main_arg15)) (fun t _ => flushed2_eq V c t) cover2

/-- Entry (n, j) of the output array after the pipeline: relu (a·Wa + s·Ws + b) at row n, column j. -/
theorem final2 (c : Dev nD) (n : Fin 50000) (j : Fin 64) :
    (dat2 (F := Ideal) V c).arrAt 5 cfg2.N (ValueIdx.ix2 n j)
      = Cert.Spec.bilin (fun n d => (V c main_v100 : S50000x64.Idx → EReal) (ValueIdx.ix2 n d)) (fun d j => (V c main_arg14 : S64x64.Idx → EReal) (ValueIdx.ix2 d j))
          (fun n d => (V c main_v77 : S50000x64.Idx → EReal) (ValueIdx.ix2 n d)) (fun d j => (V c main_arg16 : S64x64.Idx → EReal) (ValueIdx.ix2 d j))
          (fun j => (V c main_arg15 : S64.Idx → EReal) (ValueIdx.ix1 j)) n j := by
  rw [arr2_eq]
  rfl

end Cert.KernelIdeal.Fr

end
-- ==== Proof.KI.V3.lean ====
/-
  Region 3 at the ideal values: after the whole pipeline the output array holds, at row n and column j, the
  four-hop combine relu (h0·W0 + h1·W1 + h2·W2 + h3·W3 + b) of the arrays the region finds — hop k of the stacked
  features against hop k of the stacked weights, summed over the 64 inner positions, the four sums added in hop
  order from zero, then the bias, then the clamp. First the body's arithmetic at one entry of a block, then each
  block as rows of its array, then the write-backs of the fifty grid points, which tile the rows.
-/
import proofs.«106568_j42528766165971_1_alg».proof.Proof.KI.R3
import proofs.«106568_j42528766165971_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## The body's arithmetic at an entry -/

theorem dot3_lhs0 (i : S1000x64.Idx) (k : dot_S1000x64_S64x64_S1000x64_1_0_0_1_n_n.contr.Idx) :
    (dot_S1000x64_S64x64_S1000x64_1_0_0_1_n_n.lhsIdx i k 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem dot3_lhs1 (i : S1000x64.Idx) (k : dot_S1000x64_S64x64_S1000x64_1_0_0_1_n_n.contr.Idx) :
    (dot_S1000x64_S64x64_S1000x64_1_0_0_1_n_n.lhsIdx i k 1).val = (k ⟨0, by decide⟩).val :=
  dot_S1000x64_S64x64_S1000x64_1_0_0_1_n_n.lhsIdx_val_of_single rfl i k
theorem dot3_rhs0 (i : S1000x64.Idx) (k : dot_S1000x64_S64x64_S1000x64_1_0_0_1_n_n.contr.Idx) :
    (dot_S1000x64_S64x64_S1000x64_1_0_0_1_n_n.rhsIdx i k 0).val = (k ⟨0, by decide⟩).val :=
  dot_S1000x64_S64x64_S1000x64_1_0_0_1_n_n.rhsIdx_val_of_single rfl i k
theorem dot3_rhs1 (i : S1000x64.Idx) (k : dot_S1000x64_S64x64_S1000x64_1_0_0_1_n_n.contr.Idx) :
    (dot_S1000x64_S64x64_S1000x64_1_0_0_1_n_n.rhsIdx i k 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- A product into a zero accumulator, at row p and column q: the sum over the 64 inner positions. -/
theorem mm3_apply (a : FVec Ideal S1000x64 .bf16) (w : FVec Ideal S64x64 .bf16) (p : Fin 1000) (q : Fin 64) :
    matmul dot_S1000x64_S64x64_S1000x64_1_0_0_1_n_n none a w (constant S1000x64 .f32 0x00000000#32) (ix2 p q)
      = ∑ d : Fin 64, a (ix2 p d) * w (ix2 d q) := by
  simp only [matmul]
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 p q) ((ValueIdx.contrEquiv1 dot_S1000x64_S64x64_S1000x64_1_0_0_1_n_n 64 rfl rfl).symm k) = ix2 p k := funext fun a => Fin.ext (by
    match a with
    | ⟨0, _⟩ => exact dot3_lhs0 _ _
    | ⟨1, _⟩ => exact (dot3_lhs1 _ _).trans hk)
  have er : dot_S1000x64_S64x64_S1000x64_1_0_0_1_n_n.rhsIdx (ix2 p q) ((ValueIdx.contrEquiv1 dot_S1000x64_S64x64_S1000x64_1_0_0_1_n_n 64 rfl rfl).symm k) = ix2 k q := funext fun a => Fin.ext (by
    match a with
    | ⟨0, _⟩ => exact (dot3_rhs0 _ _).trans hk
    | ⟨1, _⟩ => exact dot3_rhs1 _ _)
  rw [el, er]

/-- The first three hops, accumulated from zero. -/
theorem pay3_2_apply (v1 : Vec Ideal S1x1000x64 .f32) (v4 : Vec Ideal S1x64x64 .f32) (v9 : Vec Ideal S1x1000x64 .f32) (v12 : Vec Ideal S1x64x64 .f32)
    (v17 : Vec Ideal S1x1000x64 .f32) (v20 : Vec Ideal S1x64x64 .f32) (p : Fin 1000) (q : Fin 64) :
    k3_pay2 v1 v4 v9 v12 v17 v20 (ix2 p q)
      = ((∑ d : Fin 64, (v1 (ix3 (0 : Fin 1) p d) : EReal) * (v4 (ix3 (0 : Fin 1) d q) : EReal))
          + ∑ d : Fin 64, (v9 (ix3 (0 : Fin 1) p d) : EReal) * (v12 (ix3 (0 : Fin 1) d q) : EReal))
          + ∑ d : Fin 64, (v17 (ix3 (0 : Fin 1) p d) : EReal) * (v20 (ix3 (0 : Fin 1) d q) : EReal) := by
  unfold k3_pay2
  simp only [addf_apply, mm3_apply, broadcast_apply, truncf_apply, shapeCast_1ab_ab_apply]
  rw [show (FloatOps.ofBits (F := Ideal) FTy.f32 0x00000000#32) = (0 : EReal) from Ideal.ofBits_zero_f32, zero_add]

theorem pay3_3_apply (v25 : Vec Ideal S1x1000x64 .f32) (p : Fin 1000) (d : Fin 64) :
    k3_pay3 v25 (ix2 p d) = (v25 (ix3 (0 : Fin 1) p d) : EReal) := by
  unfold k3_pay3
  rw [truncf_apply, shapeCast_1ab_ab_apply]

theorem pay3_4_apply (v28 : Vec Ideal S1x64x64 .f32) (d : Fin 64) (q : Fin 64) :
    k3_pay4 v28 (ix2 d q) = (v28 (ix3 (0 : Fin 1) d q) : EReal) := by
  unfold k3_pay4
  rw [truncf_apply, shapeCast_1ab_ab_apply]

/-- The last hop added, then the bias, then the clamp at zero. -/
theorem pay3_1_apply (v24 : FVec Ideal S1000x64 .f32) (v27 : FVec Ideal S1000x64 .bf16) (v30 : FVec Ideal S64x64 .bf16) (v33 : Vec Ideal S64 .f32)
    (p : Fin 1000) (q : Fin 64) :
    k3_pay1 v24 v27 v30 v33 (ix2 p q)
      = max (((v24 (ix2 p q) : EReal) + ∑ d : Fin 64, (v27 (ix2 p d) : EReal) * (v30 (ix2 d q) : EReal)) + (v33 (ix1 q) : EReal)) 0 := by
  unfold k3_pay1
  simp only [maximumf_apply, addf_apply, mm3_apply, broadcast_apply, broadcastTo_1b_ab_apply, shapeCast_a_1a_apply]
  rw [show (FloatOps.ofBits (F := Ideal) FTy.f32 0x00000000#32) = (0 : EReal) from Ideal.ofBits_zero_f32]

/-! ## The hops' rectangles: hop k of a block is the block at first coordinate k -/

theorem ld3H0_apply {α : Type} (X : S4x1000x64.Idx → α) (p : Fin 1000) (d : Fin 64) :
    X (r3H0.idx (ix3 (0 : Fin 1) p d)) = X (ix3 (0 : Fin 4) p d) := by
  refine congrArg X (funext fun a => Fin.ext ?_)
  match a with
  | ⟨0, _⟩ => rfl
  | ⟨1, _⟩ => show 0 + 1 * p.val = p.val; omega
  | ⟨2, _⟩ => show 0 + 1 * d.val = d.val; omega
theorem ld3H1_apply {α : Type} (X : S4x1000x64.Idx → α) (p : Fin 1000) (d : Fin 64) :
    X (r3H1.idx (ix3 (0 : Fin 1) p d)) = X (ix3 (1 : Fin 4) p d) := by
  refine congrArg X (funext fun a => Fin.ext ?_)
  match a with
  | ⟨0, _⟩ => rfl
  | ⟨1, _⟩ => show 0 + 1 * p.val = p.val; omega
  | ⟨2, _⟩ => show 0 + 1 * d.val = d.val; omega
theorem ld3H2_apply {α : Type} (X : S4x1000x64.Idx → α) (p : Fin 1000) (d : Fin 64) :
    X (r3H2.idx (ix3 (0 : Fin 1) p d)) = X (ix3 (2 : Fin 4) p d) := by
  refine congrArg X (funext fun a => Fin.ext ?_)
  match a with
  | ⟨0, _⟩ => rfl
  | ⟨1, _⟩ => show 0 + 1 * p.val = p.val; omega
  | ⟨2, _⟩ => show 0 + 1 * d.val = d.val; omega
theorem ld3H3_apply {α : Type} (X : S4x1000x64.Idx → α) (p : Fin 1000) (d : Fin 64) :
    X (r3H3.idx (ix3 (0 : Fin 1) p d)) = X (ix3 (3 : Fin 4) p d) := by
  refine congrArg X (funext fun a => Fin.ext ?_)
  match a with
  | ⟨0, _⟩ => rfl
  | ⟨1, _⟩ => show 0 + 1 * p.val = p.val; omega
  | ⟨2, _⟩ => show 0 + 1 * d.val = d.val; omega
theorem ld3W0_apply {α : Type} (X : S4x64x64.Idx → α) (d : Fin 64) (q : Fin 64) :
    X (r3W0.idx (ix3 (0 : Fin 1) d q)) = X (ix3 (0 : Fin 4) d q) := by
  refine congrArg X (funext fun a => Fin.ext ?_)
  match a with
  | ⟨0, _⟩ => rfl
  | ⟨1, _⟩ => show 0 + 1 * d.val = d.val; omega
  | ⟨2, _⟩ => show 0 + 1 * q.val = q.val; omega
theorem ld3W1_apply {α : Type} (X : S4x64x64.Idx → α) (d : Fin 64) (q : Fin 64) :
    X (r3W1.idx (ix3 (0 : Fin 1) d q)) = X (ix3 (1 : Fin 4) d q) := by
  refine congrArg X (funext fun a => Fin.ext ?_)
  match a with
  | ⟨0, _⟩ => rfl
  | ⟨1, _⟩ => show 0 + 1 * d.val = d.val; omega
  | ⟨2, _⟩ => show 0 + 1 * q.val = q.val; omega
theorem ld3W2_apply {α : Type} (X : S4x64x64.Idx → α) (d : Fin 64) (q : Fin 64) :
    X (r3W2.idx (ix3 (0 : Fin 1) d q)) = X (ix3 (2 : Fin 4) d q) := by
  refine congrArg X (funext fun a => Fin.ext ?_)
  match a with
  | ⟨0, _⟩ => rfl
  | ⟨1, _⟩ => show 0 + 1 * d.val = d.val; omega
  | ⟨2, _⟩ => show 0 + 1 * q.val = q.val; omega
theorem ld3W3_apply {α : Type} (X : S4x64x64.Idx → α) (d : Fin 64) (q : Fin 64) :
    X (r3W3.idx (ix3 (0 : Fin 1) d q)) = X (ix3 (3 : Fin 4) d q) := by
  refine congrArg X (funext fun a => Fin.ext ?_)
  match a with
  | ⟨0, _⟩ => rfl
  | ⟨1, _⟩ => show 0 + 1 * d.val = d.val; omega
  | ⟨2, _⟩ => show 0 + 1 * q.val = q.val; omega

theorem ld3B_apply {α : Type} (X : S64.Idx → α) (q : Fin 64) : X (r3B.idx (ix1 q)) = X (ix1 q) := by
  refine congrArg X (funext fun a => Fin.ext ?_)
  match a with
  | ⟨0, _⟩ => show 0 + 1 * q.val = q.val; omega

theorem zero3_off2 : (![0, 0] : Fin 2 → Nat) = fun _ => 0 := funext fun a => by fin_cases a <;> rfl
theorem zero3_off1 : (![0] : Fin 1 → Nat) = fun _ => 0 := funext fun a => by fin_cases a <;> rfl

/-- What the body leaves in the output block at row p and column q, from the three input blocks. -/
theorem out3_apply (x0 : Vec Ideal S4x1000x64 .f32) (x1 : Vec Ideal S4x64x64 .f32) (x2 : Vec Ideal S64 .f32) (p : Fin 1000) (q : Fin 64) :
    out3_3 x0 x1 x2 (ix2 p q)
      = max (((((∑ d : Fin 64, (x0 (ix3 (0 : Fin 4) p d) : EReal) * (x1 (ix3 (0 : Fin 4) d q) : EReal))
          + ∑ d : Fin 64, (x0 (ix3 (1 : Fin 4) p d) : EReal) * (x1 (ix3 (1 : Fin 4) d q) : EReal))
          + ∑ d : Fin 64, (x0 (ix3 (2 : Fin 4) p d) : EReal) * (x1 (ix3 (2 : Fin 4) d q) : EReal))
          + ∑ d : Fin 64, (x0 (ix3 (3 : Fin 4) p d) : EReal) * (x1 (ix3 (3 : Fin 4) d q) : EReal))
          + (x2 (ix1 q) : EReal)) 0 := by
  unfold out3_3
  rw [View.canon_unit_zero zero3_off2]
  refine (pay3_1_apply _ _ _ _ p q).trans ?_
  rw [pay3_2_apply]
  simp only [pay3_3_apply, pay3_4_apply]
  simp only [View.ld, ld3H0_apply x0, ld3H1_apply x0, ld3H2_apply x0, ld3H3_apply x0, ld3W0_apply x1, ld3W1_apply x1, ld3W2_apply x1, ld3W3_apply x1, ld3B_apply x2]

/-! ## The blocks the body reads, as entries of the arrays the region finds -/

section Blocks
variable {F : FTy → Type} [FloatOps F]
variable (V : (c : Dev nD) → (b : Ref sig .tc) → Buf (Elt F) ((c : Thread nD τ).loc b))

/-- The index maps over the grid: the stacked feature block and the output block move with the point along the
    rows; the weights and the bias are whole at every point. -/
theorem idx3 : ∀ t : Fin cfg3.N, win3_0.index t (0 : Fin 3) = 0 ∧ win3_0.index t (1 : Fin 3) = t.val ∧ win3_0.index t (2 : Fin 3) = 0
    ∧ win3_1.index t (0 : Fin 3) = 0 ∧ win3_1.index t (1 : Fin 3) = 0 ∧ win3_1.index t (2 : Fin 3) = 0
    ∧ win3_2.index t (0 : Fin 1) = 0
    ∧ win3_3.index t (0 : Fin 2) = t.val ∧ win3_3.index t (1 : Fin 2) = 0 :=
  (by decide +kernel : ∀ t : Fin grid3.N, _)

/-- Hop k, row p of the stacked feature block at point t is hop k, row 1000·t + p of the stacked feature array. -/
theorem iblk3_0_apply (c : Dev nD) (t : Fin cfg3.N) (x : S4x1000x64.Idx) (k : S4x50000x64.Idx)
    (hk0 : (k 0).val = (x 0).val) (hk1 : (k 1).val = 1000 * t.val + (x 1).val) (hk2 : (k 2).val = (x 2).val) :
    (iblk3 V c 0 t : Vec F S4x1000x64 .f32) x = (V c main_v174 : S4x50000x64.Idx → Elt F .f32) k := by
  obtain ⟨e0, e1, e2, -⟩ := idx3 t
  unfold iblk3
  rw [View.read_apply]
  show V c main_v174 _ = V c main_v174 _
  refine congrArg _ ?_
  funext a
  apply Fin.ext
  match a with
  | ⟨0, _⟩ => show win3_0.index t (0 : Fin 3) * 4 + 1 * (x 0).val = (k 0).val; rw [e0, hk0]; omega
  | ⟨1, _⟩ => show win3_0.index t (1 : Fin 3) * 1000 + 1 * (x 1).val = (k 1).val; rw [e1, hk1]; omega
  | ⟨2, _⟩ => show win3_0.index t (2 : Fin 3) * 64 + 1 * (x 2).val = (k 2).val; rw [e2, hk2]; omega

/-- The weight block at any point is the weight array. -/
theorem iblk3_1_apply (c : Dev nD) (t : Fin cfg3.N) (x : S4x64x64.Idx) :
    (iblk3 V c 1 t : Vec F S4x64x64 .f32) x = (V c main_arg9 : S4x64x64.Idx → Elt F .f32) x := by
  obtain ⟨-, -, -, e0, e1, e2, -⟩ := idx3 t
  unfold iblk3
  rw [View.read_apply]
  show V c main_arg9 _ = V c main_arg9 _
  refine congrArg _ ?_
  funext a
  apply Fin.ext
  match a with
  | ⟨0, _⟩ => show win3_1.index t (0 : Fin 3) * 4 + 1 * (x 0).val = (x 0).val; rw [e0]; omega
  | ⟨1, _⟩ => show win3_1.index t (1 : Fin 3) * 64 + 1 * (x 1).val = (x 1).val; rw [e1]; omega
  | ⟨2, _⟩ => show win3_1.index t (2 : Fin 3) * 64 + 1 * (x 2).val = (x 2).val; rw [e2]; omega

/-- The bias block at any point is the bias array. -/
theorem iblk3_2_apply (c : Dev nD) (t : Fin cfg3.N) (x : S64.Idx) :
    (iblk3 V c 2 t : Vec F S64 .f32) x = (V c main_arg10 : S64.Idx → Elt F .f32) x := by
  obtain ⟨-, -, -, -, -, -, e0, -⟩ := idx3 t
  unfold iblk3
  rw [View.read_apply]
  show V c main_arg10 _ = V c main_arg10 _
  refine congrArg _ ?_
  funext a
  apply Fin.ext
  match a with
  | ⟨0, _⟩ => show win3_2.index t (0 : Fin 1) * 64 + 1 * (x 0).val = (x 0).val; rw [e0]; omega

end Blocks

/-! ## From the blocks to the array -/

section Array
variable (V : (c : Dev nD) → (b : Ref sig .tc) → Buf (Elt Ideal) ((c : Thread nD τ).loc b))

/-- The four-hop combine as one function of the output array's index. -/
def combine3 (c : Dev nD) : S50000x64.Idx → EReal := fun i =>
  Cert.Spec.comb4 (fun n d => (V c main_v174 : S4x50000x64.Idx → EReal) (ix3 0 n d)) (fun n d => (V c main_v174 : S4x50000x64.Idx → EReal) (ix3 1 n d))
    (fun n d => (V c main_v174 : S4x50000x64.Idx → EReal) (ix3 2 n d)) (fun n d => (V c main_v174 : S4x50000x64.Idx → EReal) (ix3 3 n d))
    (fun k d j => (V c main_arg9 : S4x64x64.Idx → EReal) (ix3 k d j)) (fun j => (V c main_arg10 : S64.Idx → EReal) (ix1 j))
    ⟨(i 0).val, idx2_lt0 i⟩ ⟨(i 1).val, idx2_lt1 i⟩

/-- What point t writes back is rows 1000·t … 1000·t + 999 of the combine. -/
theorem flushed3_eq (c : Dev nD) (t : Fin cfg3.N) :
    (dat3 (F := Ideal) V c).flushed 3 t = ((cfg3.win 3).blk t).view.read (Elt Ideal) (combine3 V c) := by
  show (cfg3.win 3).cut (grid3.coords t) ((dat3 (F := Ideal) V c).after 3 t) = _
  rw [after3_3]
  funext y
  obtain ⟨p, q, rfl⟩ : ∃ (p : Fin 1000) (q : Fin 64), y = ix2 p q := ⟨y 0, y 1, eq_ix2 y⟩
  obtain ⟨-, -, -, -, -, -, -, e0, e1⟩ := idx3 t
  have ht : t.val < 50 := lt_of_lt_of_eq t.isLt (show cfg3.N = 50 from N_3)
  have hr : 1000 * t.val + p.val < 50000 := by have := p.isLt; omega
  have hemb : ((cfg3.win 3).blk t).view.emb (ix2 p q) = (ix2 (⟨1000 * t.val + p.val, hr⟩ : Fin 50000) q : S50000x64.Idx) := by
    funext a
    apply Fin.ext
    match a with
    | ⟨0, _⟩ => show win3_3.index t (0 : Fin 2) * 1000 + 1 * p.val = 1000 * t.val + p.val; rw [e0]; omega
    | ⟨1, _⟩ => show win3_3.index t (1 : Fin 2) * 64 + 1 * q.val = q.val; rw [e1]; omega
  show out3_3 (iblk3 V c 0 t) (iblk3 V c 1 t) (iblk3 V c 2 t) (ix2 p q) = combine3 V c (((cfg3.win 3).blk t).view.emb (ix2 p q))
  rw [hemb]
  refine (out3_apply (iblk3 V c 0 t) (iblk3 V c 1 t) (iblk3 V c 2 t) p q).trans ?_
  show _ = Cert.Spec.comb4 _ _ _ _ _ _ (⟨1000 * t.val + p.val, hr⟩ : Fin 50000) q
  unfold Cert.Spec.comb4
  refine congrArg (fun a : EReal => max a 0) ?_
  refine congrArg₂ (fun a b : EReal => a + b) (congrArg₂ (fun a b : EReal => a + b) (congrArg₂ (fun a b : EReal => a + b)
    (congrArg₂ (fun a b : EReal => a + b) ?_ ?_) ?_) ?_) ?_
  · exact (Finset.sum_congr rfl fun d _ => congrArg₂ (fun a b : EReal => a * b)
      (iblk3_0_apply V c t (ix3 (0 : Fin 4) p d) (ix3 (0 : Fin 4) (⟨1000 * t.val + p.val, hr⟩ : Fin 50000) d) rfl rfl rfl)
      (iblk3_1_apply V c t (ix3 (0 : Fin 4) d q)))
  · exact (Finset.sum_congr rfl fun d _ => congrArg₂ (fun a b : EReal => a * b)
      (iblk3_0_apply V c t (ix3 (1 : Fin 4) p d) (ix3 (1 : Fin 4) (⟨1000 * t.val + p.val, hr⟩ : Fin 50000) d) rfl rfl rfl)
      (iblk3_1_apply V c t (ix3 (1 : Fin 4) d q)))
  · exact (Finset.sum_congr rfl fun d _ => congrArg₂ (fun a b : EReal => a * b)
      (iblk3_0_apply V c t (ix3 (2 : Fin 4) p d) (ix3 (2 : Fin 4) (⟨1000 * t.val + p.val, hr⟩ : Fin 50000) d) rfl rfl rfl)
      (iblk3_1_apply V c t (ix3 (2 : Fin 4) d q)))
  · exact (Finset.sum_congr rfl fun d _ => congrArg₂ (fun a b : EReal => a * b)
      (iblk3_0_apply V c t (ix3 (3 : Fin 4) p d) (ix3 (3 : Fin 4) (⟨1000 * t.val + p.val, hr⟩ : Fin 50000) d) rfl rfl rfl)
      (iblk3_1_apply V c t (ix3 (3 : Fin 4) d q)))
  · exact iblk3_2_apply V c t (ix1 q)

/-- An index of the output array is in point t's block iff each coordinate is in the block's range on its axis. -/
theorem mem_blk3 (t : Fin cfg3.N) (i : S50000x64.Idx) :
    i ∈ ((cfg3.win 3).blk t).view.set ↔ ∀ a : Fin 2, win3_3.index t a * S1000x64.size a ≤ (i a).val ∧ (i a).val < win3_3.index t a * S1000x64.size a + S1000x64.size a := by
  show i ∈ ((View.whole main_v175).slice (win3_3.rect t)).set ↔ _
  rw [View.set_slice_whole, Rect.mem_set_unit]
  exact Iff.rfl

/-- Row r of the output array is written back by point r / 1000. -/
theorem cover3 (i : S50000x64.Idx) : ∃ t : Fin cfg3.N, (cfg3.win 3).flush t = true ∧ i ∈ ((cfg3.win 3).blk t).view.set := by
  have hi0 : (i 0).val < 50000 := idx2_lt0 i
  have hi1 : (i 1).val < 64 := idx2_lt1 i
  have hN : cfg3.N = 50 := N_3
  obtain ⟨t, ht⟩ : ∃ t : Fin cfg3.N, t.val = (i 0).val / 1000 := ⟨⟨(i 0).val / 1000, by rw [hN]; omega⟩, rfl⟩
  refine ⟨t, flush3_3 t, ?_⟩
  rw [mem_blk3]
  obtain ⟨-, -, -, -, -, -, -, e0, e1⟩ := idx3 t
  intro a
  match a with
  | ⟨0, _⟩ => show win3_3.index t (0 : Fin 2) * 1000 ≤ (i 0).val ∧ (i 0).val < win3_3.index t (0 : Fin 2) * 1000 + 1000; rw [e0, ht]; omega
  | ⟨1, _⟩ => show win3_3.index t (1 : Fin 2) * 64 ≤ (i 1).val ∧ (i 1).val < win3_3.index t (1 : Fin 2) * 64 + 64; rw [e1]; omega

/-- The output array after the whole pipeline, at row n and column j: the four-hop combine of the arrays the region finds. -/
theorem final3 (c : Dev nD) (n : Fin 50000) (j : Fin 64) :
    (dat3 (F := Ideal) V c).arrAt 3 cfg3.N (ix2 n j)
      = Cert.Spec.comb4 (fun n d => (V c main_v174 : S4x50000x64.Idx → EReal) (ix3 0 n d)) (fun n d => (V c main_v174 : S4x50000x64.Idx → EReal) (ix3 1 n d))
          (fun n d => (V c main_v174 : S4x50000x64.Idx → EReal) (ix3 2 n d)) (fun n d => (V c main_v174 : S4x50000x64.Idx → EReal) (ix3 3 n d))
          (fun k d j => (V c main_arg9 : S4x64x64.Idx → EReal) (ix3 k d j)) (fun j => (V c main_arg10 : S64.Idx → EReal) (ix1 j)) n j :=
  congrFun ((dat3 (F := Ideal) V c).arrAt_eq_of_cover 3 (combine3 V c) (fun t _ => flushed3_eq V c t) cover3) (ix2 n j)

end Array

end Cert.KernelIdeal.Fr

end
-- ==== Proof.KI.V4.lean ====
/-
  Region 4 at the ideal values: after the whole pipeline the output array holds, at row n and column j, the head
  x·W + b of the arrays the region finds — the row of the node features against the column of the weights, summed
  over the 64 inner positions, plus the bias. First the body's arithmetic at one entry of a block, then each block
  as rows of its array, then the write-backs of the fifty grid points, which tile the rows.
-/
import proofs.«106568_j42528766165971_1_alg».proof.Proof.KI.R4
import proofs.«106568_j42528766165971_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! ## The body's arithmetic at an entry -/

theorem dot4_lhs0 (i : S1000x8.Idx) (k : dot_S1000x64_S64x8_S1000x8_1_0_0_1_n_n.contr.Idx) :
    (dot_S1000x64_S64x8_S1000x8_1_0_0_1_n_n.lhsIdx i k 0).val = (i 0).val := by
  unfold DotDims.lhsIdx
  rw [dif_neg (show ¬(0 : Fin S1000x64.rank) ∈ dot_S1000x64_S64x8_S1000x8_1_0_0_1_n_n.lhsBatch by decide), dif_pos (show (0 : Fin S1000x64.rank) ∈ dot_S1000x64_S64x8_S1000x8_1_0_0_1_n_n.lhsNonContracting by decide)]
  rfl
theorem dot4_lhs1 (i : S1000x8.Idx) (k : dot_S1000x64_S64x8_S1000x8_1_0_0_1_n_n.contr.Idx) :
    (dot_S1000x64_S64x8_S1000x8_1_0_0_1_n_n.lhsIdx i k 1).val = (k ⟨0, by decide⟩).val :=
  dot_S1000x64_S64x8_S1000x8_1_0_0_1_n_n.lhsIdx_val_of_single rfl i k
theorem dot4_rhs0 (i : S1000x8.Idx) (k : dot_S1000x64_S64x8_S1000x8_1_0_0_1_n_n.contr.Idx) :
    (dot_S1000x64_S64x8_S1000x8_1_0_0_1_n_n.rhsIdx i k 0).val = (k ⟨0, by decide⟩).val :=
  dot_S1000x64_S64x8_S1000x8_1_0_0_1_n_n.rhsIdx_val_of_single rfl i k
theorem dot4_rhs1 (i : S1000x8.Idx) (k : dot_S1000x64_S64x8_S1000x8_1_0_0_1_n_n.contr.Idx) :
    (dot_S1000x64_S64x8_S1000x8_1_0_0_1_n_n.rhsIdx i k 1).val = (i 1).val := by
  unfold DotDims.rhsIdx
  rw [dif_neg (show ¬(1 : Fin S64x8.rank) ∈ dot_S1000x64_S64x8_S1000x8_1_0_0_1_n_n.rhsBatch by decide), dif_pos (show (1 : Fin S64x8.rank) ∈ dot_S1000x64_S64x8_S1000x8_1_0_0_1_n_n.rhsNonContracting by decide)]
  rfl

/-- The product into a zero accumulator, at row p and column q: the sum over the 64 inner positions. -/
theorem mm4_apply (a : FVec Ideal S1000x64 .bf16) (w : FVec Ideal S64x8 .bf16) (p : Fin 1000) (q : Fin 8) :
    matmul dot_S1000x64_S64x8_S1000x8_1_0_0_1_n_n none a w (constant S1000x8 .f32 0x00000000#32) (ix2 p q)
      = ∑ d : Fin 64, a (ix2 p d) * w (ix2 d q) := by
  simp only [matmul]
  rw [Ideal.matmul_constant_zero_apply, ← Equiv.sum_comp (ValueIdx.contrEquiv1 dot_S1000x64_S64x8_S1000x8_1_0_0_1_n_n 64 rfl rfl).symm]
  refine Finset.sum_congr rfl fun k _ => ?_
  have hk := ValueIdx.contrEquiv1_symm_val dot_S1000x64_S64x8_S1000x8_1_0_0_1_n_n 64 rfl rfl k
  have el : dot_S1000x64_S64x8_S1000x8_1_0_0_1_n_n.lhsIdx (ix2 p q) ((ValueIdx.contrEquiv1 dot_S1000x64_S64x8_S1000x8_1_0_0_1_n_n 64 rfl rfl).symm k) = ix2 p k := funext fun a => Fin.ext (by
    match a with
    | ⟨0, _⟩ => exact dot4_lhs0 _ _
    | ⟨1, _⟩ => exact (dot4_lhs1 _ _).trans hk)
  have er : dot_S1000x64_S64x8_S1000x8_1_0_0_1_n_n.rhsIdx (ix2 p q) ((ValueIdx.contrEquiv1 dot_S1000x64_S64x8_S1000x8_1_0_0_1_n_n 64 rfl rfl).symm k) = ix2 k q := funext fun a => Fin.ext (by
    match a with
    | ⟨0, _⟩ => exact (dot4_rhs0 _ _).trans hk
    | ⟨1, _⟩ => exact dot4_rhs1 _ _)
  rw [el, er]

/-- What the body stores, at row p and column q of the block: the row of x against the column of W, plus the bias. -/
theorem pay4_apply (x : Vec Ideal S1000x64 .f32) (w : Vec Ideal S64x8 .f32) (b : Vec Ideal S8 .f32) (p : Fin 1000) (q : Fin 8) :
    k4_pay1 x w b (ix2 p q) = (∑ d : Fin 64, (x (ix2 p d) : EReal) * (w (ix2 d q) : EReal)) + (b (ix1 q) : EReal) := by
  unfold k4_pay1
  rw [addf_apply, mm4_apply, broadcastTo_1b_ab_apply, shapeCast_a_1a_apply]
  simp only [truncf_apply, shapeCast_self]

/-! ## The blocks the body reads, as entries of the arrays the region finds -/

section Blocks
variable {F : FTy → Type} [FloatOps F]
variable (V : (c : Dev nD) → (b : Ref sig .tc) → Buf (Elt F) ((c : Thread nD τ).loc b))

/-- The index maps over the grid: the feature block and the output block move with the point along the rows; the
    weights and the bias are whole at every point. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Row p of the feature block at point t is row 1000·t + p of the feature array. -/
theorem iblk4_0_apply (c : Dev nD) (t : Fin cfg4.N) (x : S1000x64.Idx) (k : S50000x64.Idx)
    (hk0 : (k 0).val = 1000 * t.val + (x 0).val) (hk1 : (k 1).val = (x 1).val) :
    (iblk4 V c 0 t : Vec F S1000x64 .f32) x = (V c main_v175 : S50000x64.Idx → Elt F .f32) k := by
  obtain ⟨e0, e1, -⟩ := idx4 t
  unfold iblk4
  rw [View.read_apply]
  show V c main_v175 _ = V c main_v175 _
  refine congrArg _ ?_
  funext a
  apply Fin.ext
  match a with
  | ⟨0, _⟩ => show win4_0.index t (0 : Fin 2) * 1000 + 1 * (x 0).val = (k 0).val; rw [e0, hk0]; omega
  | ⟨1, _⟩ => show win4_0.index t (1 : Fin 2) * 64 + 1 * (x 1).val = (k 1).val; rw [e1, hk1]; omega

/-- The weight block at any point is the weight array. -/
theorem iblk4_1_apply (c : Dev nD) (t : Fin cfg4.N) (x : S64x8.Idx) :
    (iblk4 V c 1 t : Vec F S64x8 .f32) x = (V c main_arg17 : S64x8.Idx → Elt F .f32) x := by
  obtain ⟨-, -, e0, e1, -⟩ := idx4 t
  unfold iblk4
  rw [View.read_apply]
  show V c main_arg17 _ = V c main_arg17 _
  refine congrArg _ ?_
  funext a
  apply Fin.ext
  match a with
  | ⟨0, _⟩ => show win4_1.index t (0 : Fin 2) * 64 + 1 * (x 0).val = (x 0).val; rw [e0]; omega
  | ⟨1, _⟩ => show win4_1.index t (1 : Fin 2) * 8 + 1 * (x 1).val = (x 1).val; rw [e1]; omega

/-- The bias block at any point is the bias array. -/
theorem iblk4_2_apply (c : Dev nD) (t : Fin cfg4.N) (x : S8.Idx) :
    (iblk4 V c 2 t : Vec F S8 .f32) x = (V c main_arg18 : S8.Idx → Elt F .f32) x := by
  obtain ⟨-, -, -, -, e0, -⟩ := idx4 t
  unfold iblk4
  rw [View.read_apply]
  show V c main_arg18 _ = V c main_arg18 _
  refine congrArg _ ?_
  funext a
  apply Fin.ext
  match a with
  | ⟨0, _⟩ => show win4_2.index t (0 : Fin 1) * 8 + 1 * (x 0).val = (x 0).val; rw [e0]; omega

end Blocks

/-! ## From the blocks to the array -/

section Array
variable (V : (c : Dev nD) → (b : Ref sig .tc) → Buf (Elt Ideal) ((c : Thread nD τ).loc b))

theorem zero4_off2 : (![0, 0] : Fin 2 → Nat) = fun _ => 0 := funext fun a => by fin_cases a <;> rfl
theorem zero4_off1 : (![0] : Fin 1 → Nat) = fun _ => 0 := funext fun a => by fin_cases a <;> rfl

/-- The head, x·W + b, as one function of the output array's index. -/
def head4 (c : Dev nD) : S50000x8.Idx → EReal := fun i =>
  Cert.Spec.lin (fun n d => (V c main_v175 : S50000x64.Idx → EReal) (ix2 n d)) (fun d j => (V c main_arg17 : S64x8.Idx → EReal) (ix2 d j))
    (fun j => (V c main_arg18 : S8.Idx → EReal) (ix1 j)) ⟨(i 0).val, idx2_lt0 i⟩ ⟨(i 1).val, idx2_lt1 i⟩

/-- What point t writes back is rows 1000·t … 1000·t + 999 of the head. -/
theorem flushed4_eq (c : Dev nD) (t : Fin cfg4.N) :
    (dat4 (F := Ideal) V c).flushed 3 t = ((cfg4.win 3).blk t).view.read (Elt Ideal) (head4 V c) := by
  show (cfg4.win 3).cut (grid4.coords t) ((dat4 (F := Ideal) V c).after 3 t) = _
  rw [after4_3]
  unfold out4_3
  rw [View.canon_unit_zero zero4_off2]
  simp only [View.ld_unit_zero (S := S1000x64) zero4_off2, View.ld_unit_zero (S := S64x8) zero4_off2, View.ld_unit_zero (S := S8) zero4_off1]
  funext y
  obtain ⟨p, q, rfl⟩ : ∃ (p : Fin 1000) (q : Fin 8), y = ix2 p q := ⟨y 0, y 1, eq_ix2 y⟩
  obtain ⟨-, -, -, -, -, e0, e1⟩ := idx4 t
  have ht : t.val < 50 := lt_of_lt_of_eq t.isLt (show cfg4.N = 50 from N_4)
  have hr : 1000 * t.val + p.val < 50000 := by have := p.isLt; omega
  have hemb : ((cfg4.win 3).blk t).view.emb (ix2 p q) = (ix2 (⟨1000 * t.val + p.val, hr⟩ : Fin 50000) q : S50000x8.Idx) := by
    funext a
    apply Fin.ext
    match a with
    | ⟨0, _⟩ => show win4_3.index t (0 : Fin 2) * 1000 + 1 * p.val = 1000 * t.val + p.val; rw [e0]; omega
    | ⟨1, _⟩ => show win4_3.index t (1 : Fin 2) * 8 + 1 * q.val = q.val; rw [e1]; omega
  show k4_pay1 (iblk4 V c 0 t) (iblk4 V c 1 t) (iblk4 V c 2 t) (ix2 p q) = head4 V c (((cfg4.win 3).blk t).view.emb (ix2 p q))
  rw [hemb]
  refine (pay4_apply (iblk4 V c 0 t) (iblk4 V c 1 t) (iblk4 V c 2 t) p q).trans ?_
  show _ = Cert.Spec.lin _ _ _ (⟨1000 * t.val + p.val, hr⟩ : Fin 50000) q
  unfold Cert.Spec.lin
  refine congrArg₂ (fun a b : EReal => a + b) (Finset.sum_congr rfl fun d _ => congrArg₂ (fun a b : EReal => a * b) ?_ ?_) ?_
  · exact iblk4_0_apply V c t (ix2 p d) (ix2 (⟨1000 * t.val + p.val, hr⟩ : Fin 50000) d) rfl rfl
  · exact iblk4_1_apply V c t (ix2 d q)
  · exact iblk4_2_apply V c t (ix1 q)

/-- An index of the output array is in point t's block iff each coordinate is in the block's range on its axis. -/
theorem mem_blk4 (t : Fin cfg4.N) (i : S50000x8.Idx) :
    i ∈ ((cfg4.win 3).blk t).view.set ↔ ∀ a : Fin 2, win4_3.index t a * S1000x8.size a ≤ (i a).val ∧ (i a).val < win4_3.index t a * S1000x8.size a + S1000x8.size a := by
  show i ∈ ((View.whole main_v176).slice (win4_3.rect t)).set ↔ _
  rw [View.set_slice_whole, Rect.mem_set_unit]
  exact Iff.rfl

/-- Row r of the output array is written back by point r / 1000. -/
theorem cover4 (i : S50000x8.Idx) : ∃ t : Fin cfg4.N, (cfg4.win 3).flush t = true ∧ i ∈ ((cfg4.win 3).blk t).view.set := by
  have hi0 : (i 0).val < 50000 := idx2_lt0 i
  have hi1 : (i 1).val < 8 := idx2_lt1 i
  have hN : cfg4.N = 50 := N_4
  obtain ⟨t, ht⟩ : ∃ t : Fin cfg4.N, t.val = (i 0).val / 1000 := ⟨⟨(i 0).val / 1000, by rw [hN]; omega⟩, rfl⟩
  refine ⟨t, flush4_3 t, ?_⟩
  rw [mem_blk4]
  obtain ⟨-, -, -, -, -, e0, e1⟩ := idx4 t
  intro a
  match a with
  | ⟨0, _⟩ => show win4_3.index t (0 : Fin 2) * 1000 ≤ (i 0).val ∧ (i 0).val < win4_3.index t (0 : Fin 2) * 1000 + 1000; rw [e0, ht]; omega
  | ⟨1, _⟩ => show win4_3.index t (1 : Fin 2) * 8 ≤ (i 1).val ∧ (i 1).val < win4_3.index t (1 : Fin 2) * 8 + 8; rw [e1]; omega

/-- The output array after the whole pipeline, at row n and column j: the head of the arrays the region finds. -/
theorem final4 (c : Dev nD) (n : Fin 50000) (j : Fin 8) :
    (dat4 (F := Ideal) V c).arrAt 3 cfg4.N (ix2 n j)
      = Cert.Spec.lin (fun n d => (V c main_v175 : S50000x64.Idx → EReal) (ix2 n d)) (fun d j => (V c main_arg17 : S64x8.Idx → EReal) (ix2 d j))
          (fun j => (V c main_arg18 : S8.Idx → EReal) (ix1 j)) n j :=
  congrFun ((dat4 (F := Ideal) V c).arrAt_eq_of_cover 3 (head4 V c) (fun t _ => flushed4_eq V c t) cover4) (ix2 n j)

end Array

end Cert.KernelIdeal.Fr

end
-- ==== Proof.Ref.Stages.lean ====
/-
  The reference network's dense stages, read entry by entry. Each stage's value at row n, column j is the
  corresponding entry-by-entry transform of the stage's input arrays (the scatter/gather chains that feed it are
  kept as opaque arrays) and of the weights. The only algebra used is commutativity and associativity of addition
  on the extended reals.
-/
import proofs.«106568_j42528766165971_1_alg».proof.Proof.RefRead
import proofs.«106568_j42528766165971_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open scoped BigOperators

variable (x0 : (⟨S100000x5, .f32⟩ : BufTy).Contents (Elt Ideal)) (x1 : (⟨S50000x6, .f32⟩ : BufTy).Contents (Elt Ideal))
  (x2 x3 : (⟨S2x1000000, .i32⟩ : BufTy).Contents (Elt Ideal)) (x4 : (⟨S1000000, .f32⟩ : BufTy).Contents (Elt Ideal))
  (x5 : (⟨S2x500000, .i32⟩ : BufTy).Contents (Elt Ideal)) (x6 : (⟨S2x1000000, .i32⟩ : BufTy).Contents (Elt Ideal))
  (x7 : (⟨S3x5x64, .f32⟩ : BufTy).Contents (Elt Ideal)) (x8 : (⟨S64, .f32⟩ : BufTy).Contents (Elt Ideal))
  (x9 : (⟨S4x64x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S6x64, .f32⟩ : BufTy).Contents (Elt Ideal)) (x14 : (⟨S64x64, .f32⟩ : BufTy).Contents (Elt Ideal))
  (x15 : (⟨S64, .f32⟩ : BufTy).Contents (Elt Ideal)) (x16 : (⟨S64x64, .f32⟩ : BufTy).Contents (Elt Ideal))
  (x17 : (⟨S64x8, .f32⟩ : BufTy).Contents (Elt Ideal)) (x18 : (⟨S8, .f32⟩ : BufTy).Contents (Elt Ideal))

/-- relu ((agg·W_rel + b) + state·W_root): the bias is added before the second product here and after it in the
    entry-by-entry transform; the two agree by commutativity of addition. -/
theorem stage1 (n : Fin 50000) (j : Fin 64) :
    val_main_v93 (F := Ideal) x0 x1 x2 x3 x4 x7 x8 x11 x12 x13 (ValueIdx.ix2 n j)
      = Cert.Spec.bilin (fun n d => val_main_v86 (F := Ideal) x0 x2 x3 x4 x7 x8 (ValueIdx.ix2 n d)) (fun d j => x11 (ValueIdx.ix2 d j))
          (fun n d => x1 (ValueIdx.ix2 n d)) (fun d j => x13 (ValueIdx.ix2 d j)) (fun j => x12 (ValueIdx.ix1 j)) n j := by
  have eL87 : ∀ k : Fin 64, lidx_main_v87 (ValueIdx.ix2 n j) k = ValueIdx.ix2 n k := fun k => funext fun a => Fin.ext (by match a with | ⟨0, _⟩ => rfl | ⟨1, _⟩ => rfl)
  have eR87 : ∀ k : Fin 64, ridx_main_v87 (ValueIdx.ix2 n j) k = ValueIdx.ix2 k j := fun k => funext fun a => Fin.ext (by match a with | ⟨0, _⟩ => rfl | ⟨1, _⟩ => rfl)
  have eL91 : ∀ k : Fin 6, lidx_main_v91 (ValueIdx.ix2 n j) k = ValueIdx.ix2 n k := fun k => funext fun a => Fin.ext (by match a with | ⟨0, _⟩ => rfl | ⟨1, _⟩ => rfl)
  have eR91 : ∀ k : Fin 6, ridx_main_v91 (ValueIdx.ix2 n j) k = ValueIdx.ix2 k j := fun k => funext fun a => Fin.ext (by match a with | ⟨0, _⟩ => rfl | ⟨1, _⟩ => rfl)
  have eB : idx_main_v88 (idx_main_v89 (ValueIdx.ix2 n j)) = ValueIdx.ix1 j :=
    funext fun a => Fin.ext (by match a with | ⟨0, _⟩ => rfl)
  rw [val_main_v93_apply, val_main_v92_apply, val_main_v90_apply, val_main_v87_apply, val_main_v89_apply, val_main_v88_apply,
    val_main_v91_apply, val_main_call2_v0_apply, val_main_call2_cst_apply]
  simp only [eL87, eR87, eL91, eR91, eB, Ideal.maximumf_def, Ideal.addf_def, Ideal.ofBits_def, Ideal.ofBits_zero_f32]
  unfold Cert.Spec.bilin
  rw [add_right_comm]

/-- The head: one product plus the bias. -/
theorem stage4 (n : Fin 50000) (j : Fin 8) :
    val_main_v214 (F := Ideal) x0 x1 x2 x3 x4 x5 x6 x7 x8 x9 x10 x11 x12 x13 x14 x15 x16 x17 x18 (ValueIdx.ix2 n j)
      = Cert.Spec.lin (fun n d => val_main_v210 (F := Ideal) x0 x1 x2 x3 x4 x5 x6 x7 x8 x9 x10 x11 x12 x13 x14 x15 x16 (ValueIdx.ix2 n d))
          (fun d j => x17 (ValueIdx.ix2 d j)) (fun j => x18 (ValueIdx.ix1 j)) n j := by
  have eL : ∀ k : Fin 64, lidx_main_v211 (ValueIdx.ix2 n j) k = ValueIdx.ix2 n k := fun k => funext fun a => Fin.ext (by match a with | ⟨0, _⟩ => rfl | ⟨1, _⟩ => rfl)
  have eR : ∀ k : Fin 64, ridx_main_v211 (ValueIdx.ix2 n j) k = ValueIdx.ix2 k j := fun k => funext fun a => Fin.ext (by match a with | ⟨0, _⟩ => rfl | ⟨1, _⟩ => rfl)
  have eB : idx_main_v212 (idx_main_v213 (ValueIdx.ix2 n j)) = ValueIdx.ix1 j :=
    funext fun a => Fin.ext (by match a with | ⟨0, _⟩ => rfl)
  rw [val_main_v214_apply, val_main_v211_apply, val_main_v213_apply, val_main_v212_apply]
  simp only [eL, eR, eB, Ideal.addf_def]
  rfl

/-! The k-th weight matrix is the k-th slab of the stacked weights, read through a slice and a reshape. -/

theorem w7_0 (k : Fin 5) (j : Fin 64) : idx_main_v29 (idx_main_v30 (ValueIdx.ix2 k j)) = ValueIdx.ix3 (0 : Fin 3) k j :=
  funext fun a => Fin.ext (by
    have hk := k.isLt; have hj := j.isLt
    match a with
    | ⟨0, _⟩ => rfl
    | ⟨1, _⟩ => show (k.val * 64 + j.val) / 64 % 5 = k.val; omega
    | ⟨2, _⟩ => show (k.val * 64 + j.val) % 64 = j.val; omega)

theorem w7_1 (k : Fin 5) (j : Fin 64) : idx_main_v45 (idx_main_v46 (ValueIdx.ix2 k j)) = ValueIdx.ix3 (1 : Fin 3) k j :=
  funext fun a => Fin.ext (by
    have hk := k.isLt; have hj := j.isLt
    match a with
    | ⟨0, _⟩ => rfl
    | ⟨1, _⟩ => show (k.val * 64 + j.val) / 64 % 5 = k.val; omega
    | ⟨2, _⟩ => show (k.val * 64 + j.val) % 64 = j.val; omega)

theorem w7_2 (k : Fin 5) (j : Fin 64) : idx_main_v62 (idx_main_v63 (ValueIdx.ix2 k j)) = ValueIdx.ix3 (2 : Fin 3) k j :=
  funext fun a => Fin.ext (by
    have hk := k.isLt; have hj := j.isLt
    match a with
    | ⟨0, _⟩ => rfl
    | ⟨1, _⟩ => show (k.val * 64 + j.val) / 64 % 5 = k.val; omega
    | ⟨2, _⟩ => show (k.val * 64 + j.val) % 64 = j.val; omega)

/-- relu (x·W0 + h1·W1 + h2·W2 + b). -/
theorem stage0 (n : Fin 100000) (j : Fin 64) :
    val_main_v69 (F := Ideal) x0 x2 x7 x8 (ValueIdx.ix2 n j)
      = Cert.Spec.comb3 (fun n d => x0 (ValueIdx.ix2 n d)) (fun n d => val_main_v44 (F := Ideal) x0 x2 (ValueIdx.ix2 n d))
          (fun n d => val_main_v61 (F := Ideal) x0 x2 (ValueIdx.ix2 n d))
          (fun k d j => x7 (ValueIdx.ix3 k d j)) (fun j => x8 (ValueIdx.ix1 j)) n j := by
  have eL31 : ∀ k : Fin 5, lidx_main_v31 (ValueIdx.ix2 n j) k = ValueIdx.ix2 n k := fun k => funext fun a => Fin.ext (by match a with | ⟨0, _⟩ => rfl | ⟨1, _⟩ => rfl)
  have eR31 : ∀ k : Fin 5, ridx_main_v31 (ValueIdx.ix2 n j) k = ValueIdx.ix2 k j := fun k => funext fun a => Fin.ext (by match a with | ⟨0, _⟩ => rfl | ⟨1, _⟩ => rfl)
  have eL47 : ∀ k : Fin 5, lidx_main_v47 (ValueIdx.ix2 n j) k = ValueIdx.ix2 n k := fun k => funext fun a => Fin.ext (by match a with | ⟨0, _⟩ => rfl | ⟨1, _⟩ => rfl)
  have eR47 : ∀ k : Fin 5, ridx_main_v47 (ValueIdx.ix2 n j) k = ValueIdx.ix2 k j := fun k => funext fun a => Fin.ext (by match a with | ⟨0, _⟩ => rfl | ⟨1, _⟩ => rfl)
  have eL64 : ∀ k : Fin 5, lidx_main_v64 (ValueIdx.ix2 n j) k = ValueIdx.ix2 n k := fun k => funext fun a => Fin.ext (by match a with | ⟨0, _⟩ => rfl | ⟨1, _⟩ => rfl)
  have eR64 : ∀ k : Fin 5, ridx_main_v64 (ValueIdx.ix2 n j) k = ValueIdx.ix2 k j := fun k => funext fun a => Fin.ext (by match a with | ⟨0, _⟩ => rfl | ⟨1, _⟩ => rfl)
  have eB : idx_main_v66 (idx_main_v67 (ValueIdx.ix2 n j)) = ValueIdx.ix1 j :=
    funext fun a => Fin.ext (by match a with | ⟨0, _⟩ => rfl)
  rw [val_main_v69_apply, val_main_v68_apply, val_main_v65_apply, val_main_v48_apply, val_main_v31_apply, val_main_v47_apply,
    val_main_v64_apply, val_main_v67_apply, val_main_v66_apply, val_main_call1_v0_apply, val_main_call1_cst_apply]
  simp only [eL31, eR31, eL47, eR47, eL64, eR64, eB, val_main_v30_apply, val_main_v29_apply, val_main_v46_apply, val_main_v45_apply,
    val_main_v63_apply, val_main_v62_apply, w7_0, w7_1, w7_2, Ideal.maximumf_def, Ideal.addf_def, Ideal.ofBits_def, Ideal.ofBits_zero_f32]
  rfl

/-- relu ((mean·W_l + b) + s·W_r), with s the previous stage's result. -/
theorem stage2 (n : Fin 50000) (j : Fin 64) :
    val_main_v123 (F := Ideal) x0 x1 x2 x3 x4 x5 x7 x8 x11 x12 x13 x14 x15 x16 (ValueIdx.ix2 n j)
      = Cert.Spec.bilin (fun n d => val_main_v116 (F := Ideal) x0 x2 x5 x7 x8 (ValueIdx.ix2 n d)) (fun d j => x14 (ValueIdx.ix2 d j))
          (fun n d => val_main_v93 (F := Ideal) x0 x1 x2 x3 x4 x7 x8 x11 x12 x13 (ValueIdx.ix2 n d)) (fun d j => x16 (ValueIdx.ix2 d j))
          (fun j => x15 (ValueIdx.ix1 j)) n j := by
  have eL117 : ∀ k : Fin 64, lidx_main_v117 (ValueIdx.ix2 n j) k = ValueIdx.ix2 n k := fun k => funext fun a => Fin.ext (by match a with | ⟨0, _⟩ => rfl | ⟨1, _⟩ => rfl)
  have eR117 : ∀ k : Fin 64, ridx_main_v117 (ValueIdx.ix2 n j) k = ValueIdx.ix2 k j := fun k => funext fun a => Fin.ext (by match a with | ⟨0, _⟩ => rfl | ⟨1, _⟩ => rfl)
  have eL121 : ∀ k : Fin 64, lidx_main_v121 (ValueIdx.ix2 n j) k = ValueIdx.ix2 n k := fun k => funext fun a => Fin.ext (by match a with | ⟨0, _⟩ => rfl | ⟨1, _⟩ => rfl)
  have eR121 : ∀ k : Fin 64, ridx_main_v121 (ValueIdx.ix2 n j) k = ValueIdx.ix2 k j := fun k => funext fun a => Fin.ext (by match a with | ⟨0, _⟩ => rfl | ⟨1, _⟩ => rfl)
  have eB : idx_main_v118 (idx_main_v119 (ValueIdx.ix2 n j)) = ValueIdx.ix1 j :=
    funext fun a => Fin.ext (by match a with | ⟨0, _⟩ => rfl)
  rw [val_main_v123_apply, val_main_v122_apply, val_main_v120_apply, val_main_v117_apply, val_main_v119_apply, val_main_v118_apply,
    val_main_v121_apply, val_main_call3_v0_apply, val_main_call3_cst_apply]
  simp only [eL117, eR117, eL121, eR121, eB, Ideal.maximumf_def, Ideal.addf_def, Ideal.ofBits_def, Ideal.ofBits_zero_f32]
  unfold Cert.Spec.bilin
  rw [add_right_comm]

theorem w9_0 (k : Fin 64) (j : Fin 64) : idx_main_v153 (idx_main_v154 (ValueIdx.ix2 k j)) = ValueIdx.ix3 (0 : Fin 4) k j :=
  funext fun a => Fin.ext (by
    have hk := k.isLt; have hj := j.isLt
    match a with
    | ⟨0, _⟩ => rfl
    | ⟨1, _⟩ => show (k.val * 64 + j.val) / 64 % 64 = k.val; omega
    | ⟨2, _⟩ => show (k.val * 64 + j.val) % 64 = j.val; omega)

theorem w9_1 (k : Fin 64) (j : Fin 64) : idx_main_v169 (idx_main_v170 (ValueIdx.ix2 k j)) = ValueIdx.ix3 (1 : Fin 4) k j :=
  funext fun a => Fin.ext (by
    have hk := k.isLt; have hj := j.isLt
    match a with
    | ⟨0, _⟩ => rfl
    | ⟨1, _⟩ => show (k.val * 64 + j.val) / 64 % 64 = k.val; omega
    | ⟨2, _⟩ => show (k.val * 64 + j.val) % 64 = j.val; omega)

theorem w9_2 (k : Fin 64) (j : Fin 64) : idx_main_v186 (idx_main_v187 (ValueIdx.ix2 k j)) = ValueIdx.ix3 (2 : Fin 4) k j :=
  funext fun a => Fin.ext (by
    have hk := k.isLt; have hj := j.isLt
    match a with
    | ⟨0, _⟩ => rfl
    | ⟨1, _⟩ => show (k.val * 64 + j.val) / 64 % 64 = k.val; omega
    | ⟨2, _⟩ => show (k.val * 64 + j.val) % 64 = j.val; omega)

theorem w9_3 (k : Fin 64) (j : Fin 64) : idx_main_v203 (idx_main_v204 (ValueIdx.ix2 k j)) = ValueIdx.ix3 (3 : Fin 4) k j :=
  funext fun a => Fin.ext (by
    have hk := k.isLt; have hj := j.isLt
    match a with
    | ⟨0, _⟩ => rfl
    | ⟨1, _⟩ => show (k.val * 64 + j.val) / 64 % 64 = k.val; omega
    | ⟨2, _⟩ => show (k.val * 64 + j.val) % 64 = j.val; omega)

/-- relu (h0·W0 + h1·W1 + h2·W2 + h3·W3 + b). -/
theorem stage3 (n : Fin 50000) (j : Fin 64) :
    val_main_v210 (F := Ideal) x0 x1 x2 x3 x4 x5 x6 x7 x8 x9 x10 x11 x12 x13 x14 x15 x16 (ValueIdx.ix2 n j)
      = Cert.Spec.comb4 (fun n d => val_main_v123 (F := Ideal) x0 x1 x2 x3 x4 x5 x7 x8 x11 x12 x13 x14 x15 x16 (ValueIdx.ix2 n d))
          (fun n d => val_main_v168 (F := Ideal) x0 x1 x2 x3 x4 x5 x6 x7 x8 x11 x12 x13 x14 x15 x16 (ValueIdx.ix2 n d))
          (fun n d => val_main_v185 (F := Ideal) x0 x1 x2 x3 x4 x5 x6 x7 x8 x11 x12 x13 x14 x15 x16 (ValueIdx.ix2 n d))
          (fun n d => val_main_v202 (F := Ideal) x0 x1 x2 x3 x4 x5 x6 x7 x8 x11 x12 x13 x14 x15 x16 (ValueIdx.ix2 n d))
          (fun k d j => x9 (ValueIdx.ix3 k d j)) (fun j => x10 (ValueIdx.ix1 j)) n j := by
  have eL155 : ∀ k : Fin 64, lidx_main_v155 (ValueIdx.ix2 n j) k = ValueIdx.ix2 n k := fun k => funext fun a => Fin.ext (by match a with | ⟨0, _⟩ => rfl | ⟨1, _⟩ => rfl)
  have eR155 : ∀ k : Fin 64, ridx_main_v155 (ValueIdx.ix2 n j) k = ValueIdx.ix2 k j := fun k => funext fun a => Fin.ext (by match a with | ⟨0, _⟩ => rfl | ⟨1, _⟩ => rfl)
  have eL171 : ∀ k : Fin 64, lidx_main_v171 (ValueIdx.ix2 n j) k = ValueIdx.ix2 n k := fun k => funext fun a => Fin.ext (by match a with | ⟨0, _⟩ => rfl | ⟨1, _⟩ => rfl)
  have eR171 : ∀ k : Fin 64, ridx_main_v171 (ValueIdx.ix2 n j) k = ValueIdx.ix2 k j := fun k => funext fun a => Fin.ext (by match a with | ⟨0, _⟩ => rfl | ⟨1, _⟩ => rfl)
  have eL188 : ∀ k : Fin 64, lidx_main_v188 (ValueIdx.ix2 n j) k = ValueIdx.ix2 n k := fun k => funext fun a => Fin.ext (by match a with | ⟨0, _⟩ => rfl | ⟨1, _⟩ => rfl)
  have eR188 : ∀ k : Fin 64, ridx_main_v188 (ValueIdx.ix2 n j) k = ValueIdx.ix2 k j := fun k => funext fun a => Fin.ext (by match a with | ⟨0, _⟩ => rfl | ⟨1, _⟩ => rfl)
  have eL205 : ∀ k : Fin 64, lidx_main_v205 (ValueIdx.ix2 n j) k = ValueIdx.ix2 n k := fun k => funext fun a => Fin.ext (by match a with | ⟨0, _⟩ => rfl | ⟨1, _⟩ => rfl)
  have eR205 : ∀ k : Fin 64, ridx_main_v205 (ValueIdx.ix2 n j) k = ValueIdx.ix2 k j := fun k => funext fun a => Fin.ext (by match a with | ⟨0, _⟩ => rfl | ⟨1, _⟩ => rfl)
  have eB : idx_main_v207 (idx_main_v208 (ValueIdx.ix2 n j)) = ValueIdx.ix1 j :=
    funext fun a => Fin.ext (by match a with | ⟨0, _⟩ => rfl)
  rw [val_main_v210_apply, val_main_v209_apply, val_main_v206_apply, val_main_v189_apply, val_main_v172_apply, val_main_v155_apply,
    val_main_v171_apply, val_main_v188_apply, val_main_v205_apply, val_main_v208_apply, val_main_v207_apply, val_main_call5_v0_apply,
    val_main_call5_cst_apply]
  simp only [eL155, eR155, eL171, eR171, eL188, eR188, eL205, eR205, eB, val_main_v154_apply, val_main_v153_apply, val_main_v170_apply,
    val_main_v169_apply, val_main_v187_apply, val_main_v186_apply, val_main_v204_apply, val_main_v203_apply, w9_0, w9_1, w9_2, w9_3,
    Ideal.maximumf_def, Ideal.addf_def, Ideal.ofBits_def, Ideal.ofBits_zero_f32]
  rfl

/-! The same five statements for whole arrays: every index of a rank-two array is a (row, column) pair. -/

theorem stage0_arr :
    val_main_v69 (F := Ideal) x0 x2 x7 x8
      = fun i => Cert.Spec.comb3 (fun n d => x0 (ValueIdx.ix2 n d)) (fun n d => val_main_v44 (F := Ideal) x0 x2 (ValueIdx.ix2 n d))
          (fun n d => val_main_v61 (F := Ideal) x0 x2 (ValueIdx.ix2 n d))
          (fun k d j => x7 (ValueIdx.ix3 k d j)) (fun j => x8 (ValueIdx.ix1 j)) (i 0) (i 1) := by
  funext i
  obtain ⟨n, j, rfl⟩ : ∃ (n : Fin 100000) (j : Fin 64), i = ValueIdx.ix2 n j := ⟨i 0, i 1, ValueIdx.eq_ix2 i⟩
  exact stage0 x0 x2 x7 x8 n j

theorem stage1_arr :
    val_main_v93 (F := Ideal) x0 x1 x2 x3 x4 x7 x8 x11 x12 x13
      = fun i => Cert.Spec.bilin (fun n d => val_main_v86 (F := Ideal) x0 x2 x3 x4 x7 x8 (ValueIdx.ix2 n d)) (fun d j => x11 (ValueIdx.ix2 d j))
          (fun n d => x1 (ValueIdx.ix2 n d)) (fun d j => x13 (ValueIdx.ix2 d j)) (fun j => x12 (ValueIdx.ix1 j)) (i 0) (i 1) := by
  funext i
  obtain ⟨n, j, rfl⟩ : ∃ (n : Fin 50000) (j : Fin 64), i = ValueIdx.ix2 n j := ⟨i 0, i 1, ValueIdx.eq_ix2 i⟩
  exact stage1 x0 x1 x2 x3 x4 x7 x8 x11 x12 x13 n j

theorem stage2_arr :
    val_main_v123 (F := Ideal) x0 x1 x2 x3 x4 x5 x7 x8 x11 x12 x13 x14 x15 x16
      = fun i => Cert.Spec.bilin (fun n d => val_main_v116 (F := Ideal) x0 x2 x5 x7 x8 (ValueIdx.ix2 n d)) (fun d j => x14 (ValueIdx.ix2 d j))
          (fun n d => val_main_v93 (F := Ideal) x0 x1 x2 x3 x4 x7 x8 x11 x12 x13 (ValueIdx.ix2 n d)) (fun d j => x16 (ValueIdx.ix2 d j))
          (fun j => x15 (ValueIdx.ix1 j)) (i 0) (i 1) := by
  funext i
  obtain ⟨n, j, rfl⟩ : ∃ (n : Fin 50000) (j : Fin 64), i = ValueIdx.ix2 n j := ⟨i 0, i 1, ValueIdx.eq_ix2 i⟩
  exact stage2 x0 x1 x2 x3 x4 x5 x7 x8 x11 x12 x13 x14 x15 x16 n j

theorem stage3_arr :
    val_main_v210 (F := Ideal) x0 x1 x2 x3 x4 x5 x6 x7 x8 x9 x10 x11 x12 x13 x14 x15 x16
      = fun i => Cert.Spec.comb4 (fun n d => val_main_v123 (F := Ideal) x0 x1 x2 x3 x4 x5 x7 x8 x11 x12 x13 x14 x15 x16 (ValueIdx.ix2 n d))
          (fun n d => val_main_v168 (F := Ideal) x0 x1 x2 x3 x4 x5 x6 x7 x8 x11 x12 x13 x14 x15 x16 (ValueIdx.ix2 n d))
          (fun n d => val_main_v185 (F := Ideal) x0 x1 x2 x3 x4 x5 x6 x7 x8 x11 x12 x13 x14 x15 x16 (ValueIdx.ix2 n d))
          (fun n d => val_main_v202 (F := Ideal) x0 x1 x2 x3 x4 x5 x6 x7 x8 x11 x12 x13 x14 x15 x16 (ValueIdx.ix2 n d))
          (fun k d j => x9 (ValueIdx.ix3 k d j)) (fun j => x10 (ValueIdx.ix1 j)) (i 0) (i 1) := by
  funext i
  obtain ⟨n, j, rfl⟩ : ∃ (n : Fin 50000) (j : Fin 64), i = ValueIdx.ix2 n j := ⟨i 0, i 1, ValueIdx.eq_ix2 i⟩
  exact stage3 x0 x1 x2 x3 x4 x5 x6 x7 x8 x9 x10 x11 x12 x13 x14 x15 x16 n j

theorem stage4_arr :
    val_main_v214 (F := Ideal) x0 x1 x2 x3 x4 x5 x6 x7 x8 x9 x10 x11 x12 x13 x14 x15 x16 x17 x18
      = fun i => Cert.Spec.lin (fun n d => val_main_v210 (F := Ideal) x0 x1 x2 x3 x4 x5 x6 x7 x8 x9 x10 x11 x12 x13 x14 x15 x16 (ValueIdx.ix2 n d))
          (fun d j => x17 (ValueIdx.ix2 d j)) (fun j => x18 (ValueIdx.ix1 j)) (i 0) (i 1) := by
  funext i
  obtain ⟨n, j, rfl⟩ : ∃ (n : Fin 50000) (j : Fin 8), i = ValueIdx.ix2 n j := ⟨i 0, i 1, ValueIdx.eq_ix2 i⟩
  exact stage4 x0 x1 x2 x3 x4 x5 x6 x7 x8 x9 x10 x11 x12 x13 x14 x15 x16 x17 x18 n j

end Cert.ReferenceIdeal.RefValue

end
-- ==== Proof.Stack.lean ====
/-
  Reading a stack of feature matrices at an entry. The programme stacks k matrices of one shape [N, D] into an array
  [k, N, D] by giving each a leading axis of extent one and concatenating along it; entry (h, n, d) of the stack is
  entry (n, d) of the h-th matrix.
-/
import proofs.«106568_j42528766165971_1_alg».proof.KernelIdeal
import Idealize.ShloMosaic.Lib.Pipeline.Value
import Idealize.ShloMosaic.Lib.ValueIdx

set_option maxRecDepth 16384

noncomputable section

namespace Cert.KernelIdeal.Fr

open Cert.KernelIdeal Idealize.ShloMosaic Idealize.ShloMosaic.ValueIdx

/-- A matrix given a leading unit axis, read at (0, n, d), is the matrix at (n, d). -/
theorem lead5_apply {α : Type} (hb : S100000x5.BroadcastsInDim S1x100000x5 (![1, 2] : Fin 2 → Fin S1x100000x5.rank))
    (a : S100000x5.Idx → α) (n : Fin 100000) (d : Fin 5) :
    broadcastInDim S1x100000x5 ![1, 2] hb a (ix3 0 n d) = a (ix2 n d) :=
  broadcastInDim_apply _ _ a (ix3 0 n d) (ix2 n d) (fun b => by
    match b with
    | ⟨0, _⟩ => rfl
    | ⟨1, _⟩ => rfl)

theorem lead64_apply {α : Type} (hb : S50000x64.BroadcastsInDim S1x50000x64 (![1, 2] : Fin 2 → Fin S1x50000x64.rank))
    (a : S50000x64.Idx → α) (n : Fin 50000) (d : Fin 64) :
    broadcastInDim S1x50000x64 ![1, 2] hb a (ix3 0 n d) = a (ix2 n d) :=
  broadcastInDim_apply _ _ a (ix3 0 n d) (ix2 n d) (fun b => by
    match b with
    | ⟨0, _⟩ => rfl
    | ⟨1, _⟩ => rfl)

/-- Entry (h, n, d) of a stack of three [100000, 5] matrices. -/
theorem stack3_apply {α : Type} (x : Fin 3 → (S1x100000x5.Idx → α))
    (hc : Shape.Concatenates (([⟨S1x100000x5, x 0⟩, ⟨S1x100000x5, x 1⟩, ⟨S1x100000x5, x 2⟩] : List ((s : Shape) × (s.Idx → α))).map (·.1)) S3x100000x5 0)
    (h : Fin 3) (n : Fin 100000) (d : Fin 5) :
    concatenate S3x100000x5 0 [⟨S1x100000x5, x 0⟩, ⟨S1x100000x5, x 1⟩, ⟨S1x100000x5, x 2⟩] hc (ix3 h n d) = x h (ix3 0 n d) := by
  match h with
  | ⟨0, _⟩ =>
    exact concatenate_apply_piece 0 [⟨S1x100000x5, x 0⟩, ⟨S1x100000x5, x 1⟩, ⟨S1x100000x5, x 2⟩] hc (ix3 0 n d) 0 (by simp) S1x100000x5 (x 0) rfl rfl 0 rfl (ix3 0 n d)
      (fun b hb => by match b with | ⟨0, _⟩ => exact absurd rfl hb | ⟨1, _⟩ => rfl | ⟨2, _⟩ => rfl) rfl
  | ⟨1, _⟩ =>
    exact concatenate_apply_piece 0 [⟨S1x100000x5, x 0⟩, ⟨S1x100000x5, x 1⟩, ⟨S1x100000x5, x 2⟩] hc (ix3 1 n d) 1 (by simp) S1x100000x5 (x 1) rfl rfl 1 rfl (ix3 0 n d)
      (fun b hb => by match b with | ⟨0, _⟩ => exact absurd rfl hb | ⟨1, _⟩ => rfl | ⟨2, _⟩ => rfl) rfl
  | ⟨2, _⟩ =>
    exact concatenate_apply_piece 0 [⟨S1x100000x5, x 0⟩, ⟨S1x100000x5, x 1⟩, ⟨S1x100000x5, x 2⟩] hc (ix3 2 n d) 2 (by simp) S1x100000x5 (x 2) rfl rfl 2 rfl (ix3 0 n d)
      (fun b hb => by match b with | ⟨0, _⟩ => exact absurd rfl hb | ⟨1, _⟩ => rfl | ⟨2, _⟩ => rfl) rfl

/-- Entry (h, n, d) of a stack of four [50000, 64] matrices. -/
theorem stack4_apply {α : Type} (x : Fin 4 → (S1x50000x64.Idx → α))
    (hc : Shape.Concatenates (([⟨S1x50000x64, x 0⟩, ⟨S1x50000x64, x 1⟩, ⟨S1x50000x64, x 2⟩, ⟨S1x50000x64, x 3⟩] : List ((s : Shape) × (s.Idx → α))).map (·.1)) S4x50000x64 0)
    (h : Fin 4) (n : Fin 50000) (d : Fin 64) :
    concatenate S4x50000x64 0 [⟨S1x50000x64, x 0⟩, ⟨S1x50000x64, x 1⟩, ⟨S1x50000x64, x 2⟩, ⟨S1x50000x64, x 3⟩] hc (ix3 h n d) = x h (ix3 0 n d) := by
  match h with
  | ⟨0, _⟩ =>
    exact concatenate_apply_piece 0 [⟨S1x50000x64, x 0⟩, ⟨S1x50000x64, x 1⟩, ⟨S1x50000x64, x 2⟩, ⟨S1x50000x64, x 3⟩] hc (ix3 0 n d) 0 (by simp) S1x50000x64 (x 0) rfl rfl 0 rfl (ix3 0 n d)
      (fun b hb => by match b with | ⟨0, _⟩ => exact absurd rfl hb | ⟨1, _⟩ => rfl | ⟨2, _⟩ => rfl) rfl
  | ⟨1, _⟩ =>
    exact concatenate_apply_piece 0 [⟨S1x50000x64, x 0⟩, ⟨S1x50000x64, x 1⟩, ⟨S1x50000x64, x 2⟩, ⟨S1x50000x64, x 3⟩] hc (ix3 1 n d) 1 (by simp) S1x50000x64 (x 1) rfl rfl 1 rfl (ix3 0 n d)
      (fun b hb => by match b with | ⟨0, _⟩ => exact absurd rfl hb | ⟨1, _⟩ => rfl | ⟨2, _⟩ => rfl) rfl
  | ⟨2, _⟩ =>
    exact concatenate_apply_piece 0 [⟨S1x50000x64, x 0⟩, ⟨S1x50000x64, x 1⟩, ⟨S1x50000x64, x 2⟩, ⟨S1x50000x64, x 3⟩] hc (ix3 2 n d) 2 (by simp) S1x50000x64 (x 2) rfl rfl 2 rfl (ix3 0 n d)
      (fun b hb => by match b with | ⟨0, _⟩ => exact absurd rfl hb | ⟨1, _⟩ => rfl | ⟨2, _⟩ => rfl) rfl
  | ⟨3, _⟩ =>
    exact concatenate_apply_piece 0 [⟨S1x50000x64, x 0⟩, ⟨S1x50000x64, x 1⟩, ⟨S1x50000x64, x 2⟩, ⟨S1x50000x64, x 3⟩] hc (ix3 3 n d) 3 (by simp) S1x50000x64 (x 3) rfl rfl 3 rfl (ix3 0 n d)
      (fun b hb => by match b with | ⟨0, _⟩ => exact absurd rfl hb | ⟨1, _⟩ => rfl | ⟨2, _⟩ => rfl) rfl

end Cert.KernelIdeal.Fr

end
-- ==== Proof.Glue.H0.lean ====
/-
  The host operations before the first dense stage, read against the reference. The programme first flattens the two
  rows of the edge list, counts the in-degree of every node by a scatter-add of ones, and takes the reciprocal square
  root of the degree (zero where the degree is zero); an edge's weight is the product of its two endpoints'
  normalisations. One hop gathers the source rows of a feature matrix, scales them by the edge weights and scatter-adds
  them at the targets. The stack holds the feature matrix, one hop of it and two hops of it, each given a leading
  axis of extent one and concatenated along it. The reference applies the same operations to the same arguments, so
  each buffer equals the reference's value of the same name by unfolding; entry (h, n, d) of the stack is entry (n, d)
  of the h-th matrix.
-/
import proofs.«106568_j42528766165971_1_alg».proof.Proof.KI.Run
import proofs.«106568_j42528766165971_1_alg».proof.Proof.RefRead
import proofs.«106568_j42528766165971_1_alg».proof.Proof.Stack
set_option maxRecDepth 16384
set_option maxHeartbeats 4000000
noncomputable section
namespace Cert.Proof.Glue
open Cert.KernelIdeal Cert.KernelIdeal.Gen Cert.KernelIdeal.Fr
open Idealize.ShloMosaic Idealize.ShloMosaic.TcCoe Idealize.SL.Sem Idealize.ShloMosaic.StableHlo
variable (m : (ℓ : Loc nD τ sig) → Buf (Elt Ideal) ℓ) (ρ : Dev nD → PrngReg) (c : Dev nD)

/-! A value moved to a buffer's own type and back is the value: the buffers of the called function carry the types of
    the values they hold. -/

theorem ofBuf_cst_3 (v : (⟨S_, .f32⟩ : BufTy).Contents (Elt Ideal)) :
    (StableHlo.TRef.of (sig := sig) (T := ⟨S_, .f32⟩) main_cst_3).ofBuf (Val := Elt Ideal) v = v := rfl
theorem toBuf_cst_3 (v : (⟨S_, .f32⟩ : BufTy).Contents (Elt Ideal)) :
    (StableHlo.TRef.of (sig := sig) (T := ⟨S_, .f32⟩) main_cst_3).toBuf (Val := Elt Ideal) v = v := rfl

theorem ofBuf_call0_v0 (v : (⟨S_, .f32⟩ : BufTy).Contents (Elt Ideal)) :
    (StableHlo.TRef.of (sig := sig) (T := ⟨S_, .f32⟩) main_call0_v0).ofBuf (Val := Elt Ideal) v = v := rfl
theorem toBuf_call0_v0 (v : (⟨S_, .f32⟩ : BufTy).Contents (Elt Ideal)) :
    (StableHlo.TRef.of (sig := sig) (T := ⟨S_, .f32⟩) main_call0_v0).toBuf (Val := Elt Ideal) v = v := rfl

theorem ofBuf_call0_v1 (v : (⟨S100000, .f32⟩ : BufTy).Contents (Elt Ideal)) :
    (StableHlo.TRef.of (sig := sig) (T := ⟨S100000, .f32⟩) main_call0_v1).ofBuf (Val := Elt Ideal) v = v := rfl
theorem toBuf_call0_v1 (v : (⟨S100000, .f32⟩ : BufTy).Contents (Elt Ideal)) :
    (StableHlo.TRef.of (sig := sig) (T := ⟨S100000, .f32⟩) main_call0_v1).toBuf (Val := Elt Ideal) v = v := rfl

theorem ofBuf_v9 (v : (⟨S100000, .i1⟩ : BufTy).Contents (Elt Ideal)) :
    (StableHlo.TRef.of (sig := sig) (T := ⟨S100000, .i1⟩) main_v9).ofBuf (Val := Elt Ideal) v = v := rfl
theorem toBuf_v9 (v : (⟨S100000, .i1⟩ : BufTy).Contents (Elt Ideal)) :
    (StableHlo.TRef.of (sig := sig) (T := ⟨S100000, .i1⟩) main_v9).toBuf (Val := Elt Ideal) v = v := rfl

theorem ofBuf_v12 (v : (⟨S100000, .f32⟩ : BufTy).Contents (Elt Ideal)) :
    (StableHlo.TRef.of (sig := sig) (T := ⟨S100000, .f32⟩) main_v12).ofBuf (Val := Elt Ideal) v = v := rfl
theorem toBuf_v12 (v : (⟨S100000, .f32⟩ : BufTy).Contents (Elt Ideal)) :
    (StableHlo.TRef.of (sig := sig) (T := ⟨S100000, .f32⟩) main_v12).toBuf (Val := Elt Ideal) v = v := rfl

theorem ofBuf_v13 (v : (⟨S100000, .f32⟩ : BufTy).Contents (Elt Ideal)) :
    (StableHlo.TRef.of (sig := sig) (T := ⟨S100000, .f32⟩) main_v13).ofBuf (Val := Elt Ideal) v = v := rfl
theorem toBuf_v13 (v : (⟨S100000, .f32⟩ : BufTy).Contents (Elt Ideal)) :
    (StableHlo.TRef.of (sig := sig) (T := ⟨S100000, .f32⟩) main_v13).toBuf (Val := Elt Ideal) v = v := rfl

/-! The first stretch: the edge endpoints (two rows of the edge list, flattened), the in-degree by a scatter-add of ones,
    its comparison with zero and the reciprocal square root of its clamp. The reference applies the same operations to
    the same arguments. -/

theorem W1_v1 : W1 (F := Ideal) m ρ c (Proc.devRef .tc main_v1) = Cert.ReferenceIdeal.Read.val_main_v1 (F := Ideal) (m ((c : Thread nD τ).loc main_arg2)) := by
  show StableHlo.after hostOps0 (W0 (F := Ideal) m ρ c) (Proc.devRef .tc main_v1) = _
  delta hostOps0
  after_results_simp
  rfl

theorem W1_v3 : W1 (F := Ideal) m ρ c (Proc.devRef .tc main_v3) = Cert.ReferenceIdeal.Read.val_main_v3 (F := Ideal) (m ((c : Thread nD τ).loc main_arg2)) := by
  show StableHlo.after hostOps0 (W0 (F := Ideal) m ρ c) (Proc.devRef .tc main_v3) = _
  delta hostOps0
  after_results_simp
  rfl

theorem W1_v9 : W1 (F := Ideal) m ρ c (Proc.devRef .tc main_v9) = Cert.ReferenceIdeal.Read.val_main_v9 (F := Ideal) (m ((c : Thread nD τ).loc main_arg2)) := by
  show StableHlo.after hostOps0 (W0 (F := Ideal) m ρ c) (Proc.devRef .tc main_v9) = _
  delta hostOps0
  after_results_simp
  rfl

theorem W1_v12 : W1 (F := Ideal) m ρ c (Proc.devRef .tc main_v12) = Cert.ReferenceIdeal.Read.val_main_v12 (F := Ideal) (m ((c : Thread nD τ).loc main_arg2)) := by
  show StableHlo.after hostOps0 (W0 (F := Ideal) m ρ c) (Proc.devRef .tc main_v12) = _
  delta hostOps0
  after_results_simp
  rfl

theorem W1_cst_3 : W1 (F := Ideal) m ρ c (Proc.devRef .tc main_cst_3) = Cert.ReferenceIdeal.Read.val_main_cst_3 (F := Ideal) := by
  show StableHlo.after hostOps0 (W0 (F := Ideal) m ρ c) (Proc.devRef .tc main_cst_3) = _
  delta hostOps0
  after_results_simp
  rfl

/-! The second stretch: the select between the reciprocal square root and zero (the normalisation is zero where the
    degree is zero). -/

theorem W2_v13 : W2 (F := Ideal) m ρ c (Proc.devRef .tc main_v13) = Cert.ReferenceIdeal.Read.val_main_v13 (F := Ideal) (m ((c : Thread nD τ).loc main_arg2)) := by
  have h9 := W1_v9 m ρ c
  have h12 := W1_v12 m ρ c
  have h3 := W1_cst_3 m ρ c
  show StableHlo.after hostOps0_1 (W1 (F := Ideal) m ρ c) (Proc.devRef .tc main_v13) = _
  generalize W1 (F := Ideal) m ρ c = V at h9 h12 h3 ⊢
  delta hostOps0_1
  after_results_simp
  rw [h9, h12, h3]
  rw [toBuf_v13, ofBuf_v9, ofBuf_v12, ofBuf_call0_v1, toBuf_call0_v1, ofBuf_call0_v0, toBuf_call0_v0, ofBuf_cst_3]
  rfl

theorem W2_v1 : W2 (F := Ideal) m ρ c (Proc.devRef .tc main_v1) = Cert.ReferenceIdeal.Read.val_main_v1 (F := Ideal) (m ((c : Thread nD τ).loc main_arg2)) :=
  (W2_of m ρ c main_v1 (by decide)).trans (W1_v1 m ρ c)

theorem W2_v3 : W2 (F := Ideal) m ρ c (Proc.devRef .tc main_v3) = Cert.ReferenceIdeal.Read.val_main_v3 (F := Ideal) (m ((c : Thread nD τ).loc main_arg2)) :=
  (W2_of m ρ c main_v3 (by decide)).trans (W1_v3 m ρ c)

/-! The third stretch: the edge weight (the product of the two endpoints' normalisations), two hops of gather, scale
    by the edge weight, scatter-add, and the stack of the features with the two propagated feature matrices. Each piece
    of the stack is a matrix given a leading unit axis. -/

theorem piece0 : W3 (F := Ideal) m ρ c (Proc.devRef .tc main_v55) = broadcastInDim S1x100000x5 ![1, 2] bcast_S100000x5_S1x100000x5_1_2 (m ((c : Thread nD τ).loc main_arg0)) := by
  have h0 := W2_main_arg0 m ρ c
  show StableHlo.after hostOps0_2 (W2 (F := Ideal) m ρ c) (Proc.devRef .tc main_v55) = _
  generalize W2 (F := Ideal) m ρ c = V at h0 ⊢
  delta hostOps0_2
  after_results_simp
  rw [h0]

theorem piece1 : W3 (F := Ideal) m ρ c (Proc.devRef .tc main_v56) = broadcastInDim S1x100000x5 ![1, 2] bcast_S100000x5_S1x100000x5_1_2 (Cert.ReferenceIdeal.Read.val_main_v44 (F := Ideal) (m ((c : Thread nD τ).loc main_arg0)) (m ((c : Thread nD τ).loc main_arg2))) := by
  have h0 := W2_main_arg0 m ρ c
  have h1 := W2_v1 m ρ c
  have h3 := W2_v3 m ρ c
  have h13 := W2_v13 m ρ c
  show StableHlo.after hostOps0_2 (W2 (F := Ideal) m ρ c) (Proc.devRef .tc main_v56) = _
  generalize W2 (F := Ideal) m ρ c = V at h0 h1 h3 h13 ⊢
  delta hostOps0_2
  after_results_simp
  rw [h0, h1, h3, h13]
  rfl

theorem piece2 : W3 (F := Ideal) m ρ c (Proc.devRef .tc main_v57) = broadcastInDim S1x100000x5 ![1, 2] bcast_S100000x5_S1x100000x5_1_2 (Cert.ReferenceIdeal.Read.val_main_v61 (F := Ideal) (m ((c : Thread nD τ).loc main_arg0)) (m ((c : Thread nD τ).loc main_arg2))) := by
  have h0 := W2_main_arg0 m ρ c
  have h1 := W2_v1 m ρ c
  have h3 := W2_v3 m ρ c
  have h13 := W2_v13 m ρ c
  show StableHlo.after hostOps0_2 (W2 (F := Ideal) m ρ c) (Proc.devRef .tc main_v57) = _
  generalize W2 (F := Ideal) m ρ c = V at h0 h1 h3 h13 ⊢
  delta hostOps0_2
  after_results_simp
  rw [h0, h1, h3, h13]
  rfl

/-- The stack is the concatenation of its three pieces: the last operation of the stretch reads the three pieces'
    buffers, which it does not write. -/
theorem stack_split :
    W3 (F := Ideal) m ρ c (Proc.devRef .tc main_v58)
      = concatenate S3x100000x5 0
          [⟨S1x100000x5, W3 (F := Ideal) m ρ c (Proc.devRef .tc main_v55)⟩,
           ⟨S1x100000x5, W3 (F := Ideal) m ρ c (Proc.devRef .tc main_v56)⟩,
           ⟨S1x100000x5, W3 (F := Ideal) m ρ c (Proc.devRef .tc main_v57)⟩] concatenates_S1x100000x5_S1x100000x5_S1x100000x5_S3x100000x5_d0 := by
  show StableHlo.after hostOps0_2 (W2 (F := Ideal) m ρ c) (Proc.devRef .tc main_v58)
      = concatenate S3x100000x5 0
          [⟨S1x100000x5, StableHlo.after hostOps0_2 (W2 (F := Ideal) m ρ c) (Proc.devRef .tc main_v55)⟩,
           ⟨S1x100000x5, StableHlo.after hostOps0_2 (W2 (F := Ideal) m ρ c) (Proc.devRef .tc main_v56)⟩,
           ⟨S1x100000x5, StableHlo.after hostOps0_2 (W2 (F := Ideal) m ρ c) (Proc.devRef .tc main_v57)⟩] concatenates_S1x100000x5_S1x100000x5_S1x100000x5_S3x100000x5_d0
  generalize W2 (F := Ideal) m ρ c = V
  delta hostOps0_2
  simp only [after_cons, after_nil]
  rw [StableHlo.nary_result]
  (rw [StableHlo.nary_result_ne]; rotate_left; decide)
  (rw [StableHlo.nary_result_ne]; rotate_left; decide)
  (rw [StableHlo.nary_result_ne]; rotate_left; decide)
  rfl

/-! Entry (h, n, d) of a concatenation of three pieces along the leading axis is entry (0, n, d) of piece h. -/

theorem stack3_0 {α : Type} (a b e : S1x100000x5.Idx → α)
    (hc : Shape.Concatenates (([⟨S1x100000x5, a⟩, ⟨S1x100000x5, b⟩, ⟨S1x100000x5, e⟩] : List ((s : Shape) × (s.Idx → α))).map (·.1)) S3x100000x5 0)
    (n : Fin 100000) (d : Fin 5) :
    concatenate S3x100000x5 0 [⟨S1x100000x5, a⟩, ⟨S1x100000x5, b⟩, ⟨S1x100000x5, e⟩] hc (ValueIdx.ix3 0 n d) = a (ValueIdx.ix3 0 n d) :=
  stack3_apply ![a, b, e] hc 0 n d
theorem stack3_1 {α : Type} (a b e : S1x100000x5.Idx → α)
    (hc : Shape.Concatenates (([⟨S1x100000x5, a⟩, ⟨S1x100000x5, b⟩, ⟨S1x100000x5, e⟩] : List ((s : Shape) × (s.Idx → α))).map (·.1)) S3x100000x5 0)
    (n : Fin 100000) (d : Fin 5) :
    concatenate S3x100000x5 0 [⟨S1x100000x5, a⟩, ⟨S1x100000x5, b⟩, ⟨S1x100000x5, e⟩] hc (ValueIdx.ix3 1 n d) = b (ValueIdx.ix3 0 n d) :=
  stack3_apply ![a, b, e] hc 1 n d
theorem stack3_2 {α : Type} (a b e : S1x100000x5.Idx → α)
    (hc : Shape.Concatenates (([⟨S1x100000x5, a⟩, ⟨S1x100000x5, b⟩, ⟨S1x100000x5, e⟩] : List ((s : Shape) × (s.Idx → α))).map (·.1)) S3x100000x5 0)
    (n : Fin 100000) (d : Fin 5) :
    concatenate S3x100000x5 0 [⟨S1x100000x5, a⟩, ⟨S1x100000x5, b⟩, ⟨S1x100000x5, e⟩] hc (ValueIdx.ix3 2 n d) = e (ValueIdx.ix3 0 n d) :=
  stack3_apply ![a, b, e] hc 2 n d

/-- Hop 0 of the stack is the feature matrix itself. -/
theorem H0_0 (n : Fin 100000) (d : Fin 5) :
    (W3 (F := Ideal) m ρ c (Proc.devRef .tc main_v58) : S3x100000x5.Idx → EReal) (ValueIdx.ix3 0 n d)
      = (m ((c : Thread nD τ).loc main_arg0) : S100000x5.Idx → EReal) (ValueIdx.ix2 n d) := by
  refine (congrFun (stack_split m ρ c) (ValueIdx.ix3 0 n d)).trans ?_
  refine (stack3_0 _ _ _ _ n d).trans ?_
  refine (congrFun (piece0 m ρ c) (ValueIdx.ix3 0 n d)).trans ?_
  exact lead5_apply _ _ n d

/-- Hop 1 of the stack is the reference's once-propagated feature matrix. -/
theorem H0_1 (n : Fin 100000) (d : Fin 5) :
    (W3 (F := Ideal) m ρ c (Proc.devRef .tc main_v58) : S3x100000x5.Idx → EReal) (ValueIdx.ix3 1 n d)
      = (Cert.ReferenceIdeal.Read.val_main_v44 (F := Ideal) (m ((c : Thread nD τ).loc main_arg0)) (m ((c : Thread nD τ).loc main_arg2)) : S100000x5.Idx → EReal) (ValueIdx.ix2 n d) := by
  refine (congrFun (stack_split m ρ c) (ValueIdx.ix3 1 n d)).trans ?_
  refine (stack3_1 _ _ _ _ n d).trans ?_
  refine (congrFun (piece1 m ρ c) (ValueIdx.ix3 0 n d)).trans ?_
  exact lead5_apply _ _ n d

/-- Hop 2 of the stack is the reference's twice-propagated feature matrix. -/
theorem H0_2 (n : Fin 100000) (d : Fin 5) :
    (W3 (F := Ideal) m ρ c (Proc.devRef .tc main_v58) : S3x100000x5.Idx → EReal) (ValueIdx.ix3 2 n d)
      = (Cert.ReferenceIdeal.Read.val_main_v61 (F := Ideal) (m ((c : Thread nD τ).loc main_arg0)) (m ((c : Thread nD τ).loc main_arg2)) : S100000x5.Idx → EReal) (ValueIdx.ix2 n d) := by
  refine (congrFun (stack_split m ρ c) (ValueIdx.ix3 2 n d)).trans ?_
  refine (stack3_2 _ _ _ _ n d).trans ?_
  refine (congrFun (piece2 m ρ c) (ValueIdx.ix3 0 n d)).trans ?_
  exact lead5_apply _ _ n d

end Cert.Proof.Glue

end
-- ==== Proof.Glue.H2.lean ====
/-
  The host stretch between the first bilinear stage and the second. From the first combine's output h (one row per
  source node) and the second edge list it forms the mean of h over each destination node's incoming edges: the source
  row of the edge list, with negative entries wrapped by the node count, gathers rows of h; the gathered rows are
  scatter-added into a zero [50000, 64] array at the destination row of the edge list; a splat of ones scatter-added at
  the same destinations counts the edges; the sums are divided by the count clamped below at one, broadcast along the
  features. The reference applies the same operations in the same order to its own first combine, so once the two
  first combines agree the two means are one term.
-/
import proofs.«106568_j42528766165971_1_alg».proof.Proof.KI.Run
import proofs.«106568_j42528766165971_1_alg».proof.Proof.RefRead

set_option maxRecDepth 16384
set_option maxHeartbeats 4000000

noncomputable section

namespace Cert.Proof.Glue

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The mean-aggregated neighbour features entering the second bilinear stage are the reference's, given that the first
    combine's output is the reference's. -/
theorem H2 (hgx : W6 (F := Ideal) m ρ c (Proc.devRef .tc main_v59) = Cert.ReferenceIdeal.Read.val_main_v69 (F := Ideal) (m ((c : Thread nD τ).loc main_arg0)) (m ((c : Thread nD τ).loc main_arg2)) (m ((c : Thread nD τ).loc main_arg7)) (m ((c : Thread nD τ).loc main_arg8))) :
    W7 (F := Ideal) m ρ c (Proc.devRef .tc main_v100) = Cert.ReferenceIdeal.Read.val_main_v116 (F := Ideal) (m ((c : Thread nD τ).loc main_arg0)) (m ((c : Thread nD τ).loc main_arg2)) (m ((c : Thread nD τ).loc main_arg5)) (m ((c : Thread nD τ).loc main_arg7)) (m ((c : Thread nD τ).loc main_arg8)) := by
  show StableHlo.after hostOps2 (W6 (F := Ideal) m ρ c) (Proc.devRef .tc main_v100) = _
  delta hostOps2
  after_results
  rw [W6_main_arg5 m ρ c, hgx]
  rfl

end Cert.Proof.Glue

end
-- ==== Proof.Glue.H3.lean ====
/-
  The host stretch between the second bilinear stage and the four-hop combine. From the stage's output h it
  computes the symmetric normalisation of the second graph (in-degrees by a scatter-add of ones, the reciprocal
  square root of the degree clamped below, zero where the degree is zero, one coefficient per edge as the product
  of the two endpoints' factors), then three propagation hops — gather the rows of the previous hop at the edges'
  sources, scale each by its edge's coefficient, scatter-add at the edges' targets into zeros — and stacks h and
  the three hops along a new leading axis. The reference applies the same operations in the same order to the same
  arguments, so hop k of the stack, read at (k, n, d), is the reference's k-th propagated matrix at (n, d).
-/
import proofs.«106568_j42528766165971_1_alg».proof.Proof.KI.Run
import proofs.«106568_j42528766165971_1_alg».proof.Proof.RefRead
import proofs.«106568_j42528766165971_1_alg».proof.Proof.Stack
set_option maxRecDepth 16384
set_option maxHeartbeats 4000000
noncomputable section
namespace Cert.Proof.Glue
open Cert.KernelIdeal Cert.KernelIdeal.Gen Cert.KernelIdeal.Fr
open Idealize.ShloMosaic Idealize.ShloMosaic.TcCoe Idealize.SL.Sem Idealize.ShloMosaic.StableHlo
variable (m : (ℓ : Loc nD τ sig) → Buf (Elt Ideal) ℓ) (ρ : Dev nD → PrngReg) (c : Dev nD)

/-! ## Reading the stack at a literal hop -/

theorem h3_stack_at0 {α : Type} (x0 x1 x2 x3 : S1x50000x64.Idx → α)
    (hc : Shape.Concatenates (([⟨S1x50000x64, x0⟩, ⟨S1x50000x64, x1⟩, ⟨S1x50000x64, x2⟩, ⟨S1x50000x64, x3⟩] : List ((s : Shape) × (s.Idx → α))).map (·.1)) S4x50000x64 0)
    (n : Fin 50000) (d : Fin 64) :
    concatenate S4x50000x64 0 [⟨S1x50000x64, x0⟩, ⟨S1x50000x64, x1⟩, ⟨S1x50000x64, x2⟩, ⟨S1x50000x64, x3⟩] hc (ValueIdx.ix3 (0 : Fin 4) n d)
      = x0 (ValueIdx.ix3 0 n d) :=
  stack4_apply ![x0, x1, x2, x3] hc 0 n d
theorem h3_stack_at1 {α : Type} (x0 x1 x2 x3 : S1x50000x64.Idx → α)
    (hc : Shape.Concatenates (([⟨S1x50000x64, x0⟩, ⟨S1x50000x64, x1⟩, ⟨S1x50000x64, x2⟩, ⟨S1x50000x64, x3⟩] : List ((s : Shape) × (s.Idx → α))).map (·.1)) S4x50000x64 0)
    (n : Fin 50000) (d : Fin 64) :
    concatenate S4x50000x64 0 [⟨S1x50000x64, x0⟩, ⟨S1x50000x64, x1⟩, ⟨S1x50000x64, x2⟩, ⟨S1x50000x64, x3⟩] hc (ValueIdx.ix3 (1 : Fin 4) n d)
      = x1 (ValueIdx.ix3 0 n d) :=
  stack4_apply ![x0, x1, x2, x3] hc 1 n d
theorem h3_stack_at2 {α : Type} (x0 x1 x2 x3 : S1x50000x64.Idx → α)
    (hc : Shape.Concatenates (([⟨S1x50000x64, x0⟩, ⟨S1x50000x64, x1⟩, ⟨S1x50000x64, x2⟩, ⟨S1x50000x64, x3⟩] : List ((s : Shape) × (s.Idx → α))).map (·.1)) S4x50000x64 0)
    (n : Fin 50000) (d : Fin 64) :
    concatenate S4x50000x64 0 [⟨S1x50000x64, x0⟩, ⟨S1x50000x64, x1⟩, ⟨S1x50000x64, x2⟩, ⟨S1x50000x64, x3⟩] hc (ValueIdx.ix3 (2 : Fin 4) n d)
      = x2 (ValueIdx.ix3 0 n d) :=
  stack4_apply ![x0, x1, x2, x3] hc 2 n d
theorem h3_stack_at3 {α : Type} (x0 x1 x2 x3 : S1x50000x64.Idx → α)
    (hc : Shape.Concatenates (([⟨S1x50000x64, x0⟩, ⟨S1x50000x64, x1⟩, ⟨S1x50000x64, x2⟩, ⟨S1x50000x64, x3⟩] : List ((s : Shape) × (s.Idx → α))).map (·.1)) S4x50000x64 0)
    (n : Fin 50000) (d : Fin 64) :
    concatenate S4x50000x64 0 [⟨S1x50000x64, x0⟩, ⟨S1x50000x64, x1⟩, ⟨S1x50000x64, x2⟩, ⟨S1x50000x64, x3⟩] hc (ValueIdx.ix3 (3 : Fin 4) n d)
      = x3 (ValueIdx.ix3 0 n d) :=
  stack4_apply ![x0, x1, x2, x3] hc 3 n d

theorem h3_cons_at0 {α : Fin 4 → Type} (a : α 0) (b : α 1) (c : α 2) (d : α 3) (e : (i : Fin 0) → α i.succ.succ.succ.succ) :
    (Fin.cons a (Fin.cons b (Fin.cons c (Fin.cons d e))) : (i : Fin 4) → α i) 0 = a := rfl
theorem h3_cons_at1 {α : Fin 4 → Type} (a : α 0) (b : α 1) (c : α 2) (d : α 3) (e : (i : Fin 0) → α i.succ.succ.succ.succ) :
    (Fin.cons a (Fin.cons b (Fin.cons c (Fin.cons d e))) : (i : Fin 4) → α i) 1 = b := rfl
theorem h3_cons_at2 {α : Fin 4 → Type} (a : α 0) (b : α 1) (c : α 2) (d : α 3) (e : (i : Fin 0) → α i.succ.succ.succ.succ) :
    (Fin.cons a (Fin.cons b (Fin.cons c (Fin.cons d e))) : (i : Fin 4) → α i) 2 = c := rfl
theorem h3_cons_at3 {α : Fin 4 → Type} (a : α 0) (b : α 1) (c : α 2) (d : α 3) (e : (i : Fin 0) → α i.succ.succ.succ.succ) :
    (Fin.cons a (Fin.cons b (Fin.cons c (Fin.cons d e))) : (i : Fin 4) → α i) 3 = d := rfl

/-! ## The four hops -/

theorem H3_0 (hs : W8 (F := Ideal) m ρ c (Proc.devRef .tc main_v101) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (n : Fin 50000) (d : Fin 64) :
    (W11 (F := Ideal) m ρ c (Proc.devRef .tc main_v174) : S4x50000x64.Idx → EReal) (ValueIdx.ix3 0 n d)
      = (Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) : S50000x64.Idx → EReal) (ValueIdx.ix2 n d) := by
  show StableHlo.after hostOps3_2 (StableHlo.after hostOps3_1 (StableHlo.after hostOps3 (W8 (F := Ideal) m ρ c))) (Proc.devRef .tc main_v174) (ValueIdx.ix3 0 n d) = _
  delta hostOps3_2 hostOps3_1 hostOps3
  simp only [after_cons, after_nil]
  rw [nary4_result]
  refine (h3_stack_at0 _ _ _ _ _ n d).trans ?_
  refine (congrFun (h3_cons_at0 _ _ _ _ _) _).trans ?_
  after_results_simp
  refine (lead64_apply _ _ n d).trans ?_
  refine congrFun ?_ (ValueIdx.ix2 n d)
  simp only [W8_main_arg6 m ρ c, hs, cast_eq]

theorem H3_1 (hs : W8 (F := Ideal) m ρ c (Proc.devRef .tc main_v101) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (n : Fin 50000) (d : Fin 64) :
    (W11 (F := Ideal) m ρ c (Proc.devRef .tc main_v174) : S4x50000x64.Idx → EReal) (ValueIdx.ix3 1 n d)
      = (Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) : S50000x64.Idx → EReal) (ValueIdx.ix2 n d) := by
  show StableHlo.after hostOps3_2 (StableHlo.after hostOps3_1 (StableHlo.after hostOps3 (W8 (F := Ideal) m ρ c))) (Proc.devRef .tc main_v174) (ValueIdx.ix3 1 n d) = _
  delta hostOps3_2 hostOps3_1 hostOps3
  simp only [after_cons, after_nil]
  rw [nary4_result]
  refine (h3_stack_at1 _ _ _ _ _ n d).trans ?_
  refine (congrFun (h3_cons_at1 _ _ _ _ _) _).trans ?_
  after_results_simp
  refine (lead64_apply _ _ n d).trans ?_
  refine congrFun ?_ (ValueIdx.ix2 n d)
  simp only [W8_main_arg6 m ρ c, hs, cast_eq]
  rfl

theorem H3_2 (hs : W8 (F := Ideal) m ρ c (Proc.devRef .tc main_v101) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (n : Fin 50000) (d : Fin 64) :
    (W11 (F := Ideal) m ρ c (Proc.devRef .tc main_v174) : S4x50000x64.Idx → EReal) (ValueIdx.ix3 2 n d)
      = (Cert.ReferenceIdeal.Read.val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) : S50000x64.Idx → EReal) (ValueIdx.ix2 n d) := by
  show StableHlo.after hostOps3_2 (StableHlo.after hostOps3_1 (StableHlo.after hostOps3 (W8 (F := Ideal) m ρ c))) (Proc.devRef .tc main_v174) (ValueIdx.ix3 2 n d) = _
  delta hostOps3_2 hostOps3_1 hostOps3
  simp only [after_cons, after_nil]
  rw [nary4_result]
  refine (h3_stack_at2 _ _ _ _ _ n d).trans ?_
  refine (congrFun (h3_cons_at2 _ _ _ _ _) _).trans ?_
  after_results_simp
  refine (lead64_apply _ _ n d).trans ?_
  refine congrFun ?_ (ValueIdx.ix2 n d)
  simp only [W8_main_arg6 m ρ c, hs, cast_eq]
  rfl

theorem H3_3 (hs : W8 (F := Ideal) m ρ c (Proc.devRef .tc main_v101) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (n : Fin 50000) (d : Fin 64) :
    (W11 (F := Ideal) m ρ c (Proc.devRef .tc main_v174) : S4x50000x64.Idx → EReal) (ValueIdx.ix3 3 n d)
      = (Cert.ReferenceIdeal.Read.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) : S50000x64.Idx → EReal) (ValueIdx.ix2 n d) := by
  show StableHlo.after hostOps3_2 (StableHlo.after hostOps3_1 (StableHlo.after hostOps3 (W8 (F := Ideal) m ρ c))) (Proc.devRef .tc main_v174) (ValueIdx.ix3 3 n d) = _
  delta hostOps3_2 hostOps3_1 hostOps3
  simp only [after_cons, after_nil]
  rw [nary4_result]
  refine (h3_stack_at3 _ _ _ _ _ n d).trans ?_
  refine (congrFun (h3_cons_at3 _ _ _ _ _) _).trans ?_
  after_results_simp
  refine (lead64_apply _ _ n d).trans ?_
  refine congrFun ?_ (ValueIdx.ix2 n d)
  simp only [W8_main_arg6 m ρ c, hs, cast_eq]
  rfl

end Cert.Proof.Glue
end
-- ==== Proof.Glue.lean ====
/-
  The two programmes compute one function. Stage by stage: the array each blocked region leaves is the entry-by-entry
  transform (Spec) of the arrays the region finds; the host stretch before a region applies, to the previous region's
  output and to the arguments, the very gather / scatter-add / normalisation operations the reference applies there;
  and the reference's own stage is the same transform of the same inputs (its products over whole arrays are the same
  sums; where it adds the bias between the two products, commutativity and associativity of addition on the extended
  reals put it last). Chaining the five stages, the kernel programme's result array is the reference's result term of
  the arguments. No finiteness is needed anywhere: only regrouping of sums.
-/
import proofs.«106568_j42528766165971_1_alg».proof.Proof.KI.Run
import proofs.«106568_j42528766165971_1_alg».proof.Proof.KI.V0
import proofs.«106568_j42528766165971_1_alg».proof.Proof.KI.V1
import proofs.«106568_j42528766165971_1_alg».proof.Proof.KI.V2
import proofs.«106568_j42528766165971_1_alg».proof.Proof.KI.V3
import proofs.«106568_j42528766165971_1_alg».proof.Proof.KI.V4
import proofs.«106568_j42528766165971_1_alg».proof.Proof.RefRead
import proofs.«106568_j42528766165971_1_alg».proof.Proof.Ref.Stages
import proofs.«106568_j42528766165971_1_alg».proof.Proof.Spec
import proofs.«106568_j42528766165971_1_alg».proof.Proof.Glue.H0
import proofs.«106568_j42528766165971_1_alg».proof.Proof.Glue.H2
import proofs.«106568_j42528766165971_1_alg».proof.Proof.Glue.H3

set_option maxRecDepth 16384
set_option maxHeartbeats 4000000

noncomputable section

namespace Cert.Proof.Glue

open Cert.KernelIdeal Cert.KernelIdeal.Gen Cert.KernelIdeal.Fr
open Idealize.ShloMosaic Idealize.ShloMosaic.TcCoe Idealize.SL.Sem Idealize.ShloMosaic.StableHlo Idealize.ShloMosaic.ValueIdx

/-! ## Equal inputs, equal transforms -/

theorem comb3_congr {N D H : ℕ} {a0 a0' a1 a1' a2 a2' : Fin N → Fin D → EReal} {W W' : Fin 3 → Fin D → Fin H → EReal} {b b' : Fin H → EReal}
    (h0 : ∀ n d, a0 n d = a0' n d) (h1 : ∀ n d, a1 n d = a1' n d) (h2 : ∀ n d, a2 n d = a2' n d)
    (hW : ∀ k d j, W k d j = W' k d j) (hb : ∀ j, b j = b' j) (n : Fin N) (j : Fin H) :
    Cert.Spec.comb3 a0 a1 a2 W b n j = Cert.Spec.comb3 a0' a1' a2' W' b' n j := by
  obtain rfl : a0 = a0' := funext fun n => funext fun d => h0 n d
  obtain rfl : a1 = a1' := funext fun n => funext fun d => h1 n d
  obtain rfl : a2 = a2' := funext fun n => funext fun d => h2 n d
  obtain rfl : W = W' := funext fun k => funext fun d => funext fun j => hW k d j
  obtain rfl : b = b' := funext hb
  rfl

theorem comb4_congr {N D H : ℕ} {a0 a0' a1 a1' a2 a2' a3 a3' : Fin N → Fin D → EReal} {W W' : Fin 4 → Fin D → Fin H → EReal} {b b' : Fin H → EReal}
    (h0 : ∀ n d, a0 n d = a0' n d) (h1 : ∀ n d, a1 n d = a1' n d) (h2 : ∀ n d, a2 n d = a2' n d) (h3 : ∀ n d, a3 n d = a3' n d)
    (hW : ∀ k d j, W k d j = W' k d j) (hb : ∀ j, b j = b' j) (n : Fin N) (j : Fin H) :
    Cert.Spec.comb4 a0 a1 a2 a3 W b n j = Cert.Spec.comb4 a0' a1' a2' a3' W' b' n j := by
  obtain rfl : a0 = a0' := funext fun n => funext fun d => h0 n d
  obtain rfl : a1 = a1' := funext fun n => funext fun d => h1 n d
  obtain rfl : a2 = a2' := funext fun n => funext fun d => h2 n d
  obtain rfl : a3 = a3' := funext fun n => funext fun d => h3 n d
  obtain rfl : W = W' := funext fun k => funext fun d => funext fun j => hW k d j
  obtain rfl : b = b' := funext hb
  rfl

theorem bilin_congr {N A B H : ℕ} {a a' : Fin N → Fin A → EReal} {Wa Wa' : Fin A → Fin H → EReal} {s s' : Fin N → Fin B → EReal}
    {Ws Ws' : Fin B → Fin H → EReal} {b b' : Fin H → EReal}
    (ha : ∀ n d, a n d = a' n d) (hWa : ∀ d j, Wa d j = Wa' d j) (hs : ∀ n d, s n d = s' n d) (hWs : ∀ d j, Ws d j = Ws' d j)
    (hb : ∀ j, b j = b' j) (n : Fin N) (j : Fin H) :
    Cert.Spec.bilin a Wa s Ws b n j = Cert.Spec.bilin a' Wa' s' Ws' b' n j := by
  obtain rfl : a = a' := funext fun n => funext fun d => ha n d
  obtain rfl : Wa = Wa' := funext fun d => funext fun j => hWa d j
  obtain rfl : s = s' := funext fun n => funext fun d => hs n d
  obtain rfl : Ws = Ws' := funext fun d => funext fun j => hWs d j
  obtain rfl : b = b' := funext hb
  rfl

theorem lin_congr {N A H : ℕ} {x x' : Fin N → Fin A → EReal} {W W' : Fin A → Fin H → EReal} {b b' : Fin H → EReal}
    (hx : ∀ n d, x n d = x' n d) (hW : ∀ d j, W d j = W' d j) (hb : ∀ j, b j = b' j) (n : Fin N) (j : Fin H) :
    Cert.Spec.lin x W b n j = Cert.Spec.lin x' W' b' n j := by
  obtain rfl : x = x' := funext fun n => funext fun d => hx n d
  obtain rfl : W = W' := funext fun d => funext fun j => hW d j
  obtain rfl : b = b' := funext hb
  rfl

variable (m : (ℓ : Loc nD τ sig) → Buf (Elt Ideal) ℓ) (ρ : Dev nD → PrngReg) (c : Dev nD)

/-! ## Stage 0: the first combine -/

/-- Region 0's output array is the reference's first combine of the arguments. -/
theorem E0p (n : Fin 100000) (j : Fin 64) : (W4 (F := Ideal) m ρ c (Proc.devRef .tc main_v59) : S100000x64.Idx → EReal) (ix2 n j)
    = Cert.ReferenceIdeal.Read.val_main_v69 (F := Ideal) (m ((c : Thread nD τ).loc main_arg0)) (m ((c : Thread nD τ).loc main_arg2)) (m ((c : Thread nD τ).loc main_arg7)) (m ((c : Thread nD τ).loc main_arg8)) (ix2 n j) := by
  refine ((congrFun (W4_arr (F := Ideal) m ρ c 3) (ix2 n j)).trans (final0 (V3 (F := Ideal) m ρ) c n j)).trans ?_
  refine (comb3_congr ?_ ?_ ?_ ?_ ?_ n j).trans (Cert.ReferenceIdeal.RefValue.stage0 (m ((c : Thread nD τ).loc main_arg0)) (m ((c : Thread nD τ).loc main_arg2)) (m ((c : Thread nD τ).loc main_arg7)) (m ((c : Thread nD τ).loc main_arg8)) n j).symm
  · intro n d; exact H0_0 m ρ c n d
  · intro n d; exact H0_1 m ρ c n d
  · intro n d; exact H0_2 m ρ c n d
  · intro k d j; exact congrFun (W3_main_arg7 (F := Ideal) m ρ c) (ix3 k d j)
  · intro j; exact congrFun (W3_main_arg8 (F := Ideal) m ρ c) (ix1 j)

theorem E0 : W4 (F := Ideal) m ρ c (Proc.devRef .tc main_v59) = Cert.ReferenceIdeal.Read.val_main_v69 (F := Ideal) (m ((c : Thread nD τ).loc main_arg0)) (m ((c : Thread nD τ).loc main_arg2)) (m ((c : Thread nD τ).loc main_arg7)) (m ((c : Thread nD τ).loc main_arg8)) := by
  funext i
  rw [eq_ix2 i]
  exact E0p m ρ c (i 0) (i 1)

/-! ## Stage 1: neighbours weighted by the edge attribute, and the node's own features -/

/-- The weighted neighbour sums the second region reads are the reference's: the same gather, product and scatter-add of
    region 0's output. -/
theorem H1 (hgx : W4 (F := Ideal) m ρ c (Proc.devRef .tc main_v59) = Cert.ReferenceIdeal.Read.val_main_v69 (F := Ideal) (m ((c : Thread nD τ).loc main_arg0)) (m ((c : Thread nD τ).loc main_arg2)) (m ((c : Thread nD τ).loc main_arg7)) (m ((c : Thread nD τ).loc main_arg8))) :
    W5 (F := Ideal) m ρ c (Proc.devRef .tc main_v76) = Cert.ReferenceIdeal.Read.val_main_v86 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) := by
  show StableHlo.after hostOps1 (W4 (F := Ideal) m ρ c) (Proc.devRef .tc main_v76) = _
  delta hostOps1
  after_results
  rw [W4_main_arg3 m ρ c, W4_main_arg4 m ρ c, hgx]
  rfl

theorem E1p (n : Fin 50000) (j : Fin 64) : (W6 (F := Ideal) m ρ c (Proc.devRef .tc main_v77) : S50000x64.Idx → EReal) (ix2 n j)
    = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) (m ((c : Thread nD τ).loc main_arg13)) (ix2 n j) := by
  refine ((congrFun (W6_arr (F := Ideal) m ρ c 5) (ix2 n j)).trans (final1 (V5 (F := Ideal) m ρ) c n j)).trans ?_
  refine (bilin_congr ?_ ?_ ?_ ?_ ?_ n j).trans (Cert.ReferenceIdeal.RefValue.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) (m ((c : Thread nD τ).loc main_arg13)) n j).symm
  · intro n d; exact congrFun (H1 m ρ c (E0 m ρ c)) (ix2 n d)
  · intro d j; exact congrFun (W5_main_arg11 (F := Ideal) m ρ c) (ix2 d j)
  · intro n d; exact congrFun (W5_main_arg1 (F := Ideal) m ρ c) (ix2 n d)
  · intro d j; exact congrFun (W5_main_arg13 (F := Ideal) m ρ c) (ix2 d j)
  · intro j; exact congrFun (W5_main_arg12 (F := Ideal) m ρ c) (ix1 j)

theorem E1 : W6 (F := Ideal) m ρ c (Proc.devRef .tc main_v77) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) (m ((c : Thread nD τ).loc main_arg13)) := by
  funext i
  rw [eq_ix2 i]
  exact E1p m ρ c (i 0) (i 1)

/-! ## Stage 2: the neighbours' mean, and stage 1's output -/

/-- Region 0's output is still in its buffer when the third region's inputs are computed: neither the stretch between
    nor region 1 writes it. -/
theorem gx6 : W6 (F := Ideal) m ρ c (Proc.devRef .tc main_v59) = Cert.ReferenceIdeal.Read.val_main_v69 (F := Ideal) (m ((c : Thread nD τ).loc main_arg0)) (m ((c : Thread nD τ).loc main_arg2)) (m ((c : Thread nD τ).loc main_arg7)) (m ((c : Thread nD τ).loc main_arg8)) :=
  ((W6_of_ne (F := Ideal) m ρ c main_v59 (by decide)).trans (W5_of (F := Ideal) m ρ c main_v59 (by decide))).trans (E0 m ρ c)

theorem sx7 : W7 (F := Ideal) m ρ c (Proc.devRef .tc main_v77) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) (m ((c : Thread nD τ).loc main_arg13)) :=
  (W7_of (F := Ideal) m ρ c main_v77 (by decide)).trans (E1 m ρ c)

theorem E2p (n : Fin 50000) (j : Fin 64) : (W8 (F := Ideal) m ρ c (Proc.devRef .tc main_v101) : S50000x64.Idx → EReal) (ix2 n j)
    = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 n j) := by
  refine ((congrFun (W8_arr (F := Ideal) m ρ c 5) (ix2 n j)).trans (final2 (V7 (F := Ideal) m ρ) c n j)).trans ?_
  refine (bilin_congr ?_ ?_ ?_ ?_ ?_ n j).trans (Cert.ReferenceIdeal.RefValue.stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) n j).symm
  · intro n d; exact congrFun (H2 m ρ c (gx6 m ρ c)) (ix2 n d)
  · intro d j; exact congrFun (W7_main_arg14 (F := Ideal) m ρ c) (ix2 d j)
  · intro n d; exact congrFun (sx7 m ρ c) (ix2 n d)
  · intro d j; exact congrFun (W7_main_arg16 (F := Ideal) m ρ c) (ix2 d j)
  · intro j; exact congrFun (W7_main_arg15 (F := Ideal) m ρ c) (ix1 j)

theorem E2 : W8 (F := Ideal) m ρ c (Proc.devRef .tc main_v101) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  rw [eq_ix2 i]
  exact E2p m ρ c (i 0) (i 1)

/-! ## Stage 3: the second combine -/

theorem E3p (n : Fin 50000) (j : Fin 64) : (W12 (F := Ideal) m ρ c (Proc.devRef .tc main_v175) : S50000x64.Idx → EReal) (ix2 n j)
    = Cert.ReferenceIdeal.Read.val_main_v210 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 n j) := by
  refine ((congrFun (W12_arr (F := Ideal) m ρ c 3) (ix2 n j)).trans (final3 (V11 (F := Ideal) m ρ) c n j)).trans ?_
  refine (comb4_congr ?_ ?_ ?_ ?_ ?_ ?_ n j).trans (Cert.ReferenceIdeal.RefValue.stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) n j).symm
  · intro n d; exact H3_0 m ρ c (E2 m ρ c) n d
  · intro n d; exact H3_1 m ρ c (E2 m ρ c) n d
  · intro n d; exact H3_2 m ρ c (E2 m ρ c) n d
  · intro n d; exact H3_3 m ρ c (E2 m ρ c) n d
  · intro k d j; exact congrFun (W11_main_arg9 (F := Ideal) m ρ c) (ix3 k d j)
  · intro j; exact congrFun (W11_main_arg10 (F := Ideal) m ρ c) (ix1 j)

theorem E3 : W12 (F := Ideal) m ρ c (Proc.devRef .tc main_v175) = Cert.ReferenceIdeal.Read.val_main_v210 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  rw [eq_ix2 i]
  exact E3p m ρ c (i 0) (i 1)

/-! ## Stage 4: the head -/

/-- The kernel programme's result array is the reference's result term of the arguments. -/
theorem E4p (n : Fin 50000) (j : Fin 8) : (W13 (F := Ideal) m ρ c (Proc.devRef .tc main_v176) : S50000x8.Idx → EReal) (ix2 n j)
    = Cert.ReferenceIdeal.Read.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (ix2 n j) := by
  refine ((congrFun (W13_arr (F := Ideal) m ρ c 3) (ix2 n j)).trans (final4 (V12 (F := Ideal) m ρ) c n j)).trans ?_
  refine (lin_congr ?_ ?_ ?_ n j).trans (Cert.ReferenceIdeal.RefValue.stage4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) n j).symm
  · intro n d; exact congrFun (E3 m ρ c) (ix2 n d)
  · intro d j; exact congrFun (W12_main_arg17 (F := Ideal) m ρ c) (ix2 d j)
  · intro j; exact congrFun (W12_main_arg18 (F := Ideal) m ρ c) (ix1 j)

theorem result_eq : W13 (F := Ideal) m ρ c (Proc.devRef .tc main_v176) = Cert.ReferenceIdeal.Read.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  funext i
  rw [eq_ix2 i]
  exact E4p m ρ c (i 0) (i 1)

end Cert.Proof.Glue

end
-- ==== Proof.lean ====
/-
  The certificate's claim, assembled from its five statements. Three say that a programme runs to the end from any launch
  memory, nothing faulting, and leaves its nineteen argument arrays as they were: for the word-level kernel and for
  the idealized kernel this is read off the whole-run theorem (host stretches and the five blocked regions in order:
  no item writes an argument array), for the reference off its run. The fourth asks nothing: the idealization rewrote
  no operation of the kernel. The fifth says that from memories agreeing on the arguments the idealized kernel and the
  reference end with the same result array on the extended reals: the kernel's result is what its last boundary gives
  the result buffer, the reference's is its operations' composed term of the arguments, and the two are equal stage by
  stage — each dense stage is the same entry-by-entry transform of its inputs (sums regrouped by commutativity and
  associativity of addition), and the gather and scatter-add stretches between the stages are the same operations on
  both sides.
-/
import proofs.«106568_j42528766165971_1_alg».proof.Defs
import proofs.«106568_j42528766165971_1_alg».proof.Proof.Gen.Kernel
import proofs.«106568_j42528766165971_1_alg».proof.Proof.Gen.KernelIdeal
import proofs.«106568_j42528766165971_1_alg».proof.Proof.Gen.ReferenceIdeal
import proofs.«106568_j42528766165971_1_alg».proof.Proof.Gen.Pre_finite_inputs
import proofs.«106568_j42528766165971_1_alg».proof.Proof.Frames
import proofs.«106568_j42528766165971_1_alg».proof.Proof.RefRun
import proofs.«106568_j42528766165971_1_alg».proof.Proof.RefRead
import proofs.«106568_j42528766165971_1_alg».proof.Proof.Glue

noncomputable section

namespace Cert.Proof

open Idealize.ShloMosaic Idealize.ShloMosaic.TcCoe Idealize.SL.Sem

/-- From memories agreeing on the nineteen arguments the idealized kernel and the reference both run, leave their
    arguments unchanged and end with the same result array. The kernel's result is what its last boundary gives the
    result buffer; the reference's is its operations' composed term of its arguments, which by the agreement is the same
    term of the kernel's arguments, and that term is the kernel's result by the stage-by-stage equality. -/
theorem algebraic : Cert.algebraic_KernelIdeal_ReferenceIdeal := by
  intro m g m' g' _ hagree
  refine ⟨fun c => Cert.KernelIdeal.Fr.W13 (F := Ideal) m g c (Proc.devRef .tc Cert.KernelIdeal.main_v176),
    Cert.Proof.Frames.kernel_run m g, ?_⟩
  refine (θ_run (Cert.ReferenceIdeal.defs (F := Ideal)) _ _).mono (fun _ h c => ⟨(h c).1.trans ?_, (h c).2⟩)
    (Cert.ReferenceIdeal.Value.run (F := Ideal) m' g')
  rw [Cert.ReferenceIdeal.Read.val_main_v214_eq m' c]
  obtain ⟨a0, a1, a2, a3, a4, a5, a6, a7, a8, a9, a10, a11, a12, a13, a14, a15, a16, a17, a18⟩ := hagree c
  rw [a0, a1, a2, a3, a4, a5, a6, a7, a8, a9, a10, a11, a12, a13, a14, a15, a16, a17, a18]
  exact (Cert.Proof.Glue.result_eq m g c).symm

/-- The five statements: the three programmes run and keep their arguments (read off the whole-run theorems); the
    idealization rewrote nothing, so there is nothing to preserve; the idealized kernel and the reference agree. -/
theorem claim : Cert.Claim :=
  ⟨Cert.Kernel.Gen.facts, Cert.KernelIdeal.Gen.facts, Cert.ReferenceIdeal.Gen.facts, Cert.Pre_finite_inputs.Gen.facts,
    Cert.Proof.Frames.frame_Kernel, Cert.Proof.Frames.frame_KernelIdeal, Cert.Proof.Frames.frame_ReferenceIdeal, trivial, algebraic⟩

end Cert.Proof

end
